-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x600000 : Shape := ⟨2, ![2, 600000]⟩
abbrev S12x128 : Shape := ⟨2, ![12, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12x128 : S_.BroadcastsInDim S12x128 (![] : Fin 0 → Fin S12x128.rank)
  reducesTo_S12x128_S_d0_1 : S12x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S3x128 .f32) (main_arg9 : FVec F S128x64 .f32) (main_arg10 : FVec F S64 .f32) (main_arg11 : FVec F S64x2 .f32) (main_arg12 : FVec F S2 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x2 .f32 := Host.absf main_arg11
  let main_cst_18 : FVec F S_ .f32 := constant S_ .f32 0x7F800000#32
  let main_v50 : FVec F S64x2 .f32 := broadcastInDim S64x2 ![] bcast_S_S64x2 main_cst_18
  fn_part3 (F := F) main_arg12 main_v48 main_v49 main_v50

def fn_part1 {F : FTy → Type} [FloatOps F] (main_arg5 : FVec F S3x128x128 .f32) (main_arg6 : FVec F S3x128 .f32) (main_arg7 : FVec F S3x128 .f32) (main_arg8 : FVec F S3x128 .f32) (main_arg9 : FVec F S128x64 .f32) (main_arg10 : FVec F S64 .f32) (main_arg11 : FVec F S64x2 .f32) (main_arg12 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x12 .f32) (main_arg1 : IVec S2x600000 32) (main_arg2 : FVec F S12x128 .f32) (main_arg3 : FVec F S128 .f32) (main_arg4 : FVec F S3x128x128 .f32) (main_arg5 : FVec F S3x128x128 .f32) (main_arg6 : FVec F S3x128 .f32) (main_arg7 : FVec F S3x128 .f32) (main_arg8 : FVec F S3x128 .f32) (main_arg9 : FVec F S128x64 .f32) (main_arg10 : FVec F S64 .f32) (main_arg11 : FVec F S64x2 .f32) (main_arg12 : FVec F S2 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12x128 .f32 := Host.absf main_arg2
  let main_cst_0 : FVec F S_ .f32 := constant S_ .f32 0x7F800000#32
  let main_v5 : FVec F S12x128 .f32 := broadcastInDim S12x128 ![] bcast_S_S12x128 main_cst_0
  let main_v6 : IVec S12x128 1 := cmpf .olt main_v4 main_v5
  let main_c_1 : IVec S_ 1 := constantI S_ 1 1#1
  let main_v7 : IVec S_ 1 := (fun x v => Host.reduce IntOp.andi x v reducesTo_S12x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_arg12 main_v13 main_v16
-- ==== Kernel.lean ====
abbrev S100000x12 : Shape := ⟨2, ![100000, 12]⟩
abbrev S2x600000 : Shape := ⟨2, ![2, 600000]⟩
abbrev S12x128 : Shape := ⟨2, ![12, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S100000x128 : Shape := ⟨2, ![100000, 128]⟩
abbrev S4000x12 : Shape := ⟨2, ![4000, 12]⟩
abbrev S4000x128 : Shape := ⟨2, ![4000, 128]⟩
abbrev S1x128 : Shape := ⟨2, ![1, 128]⟩
abbrev S600000x128 : Shape := ⟨2, ![600000, 128]⟩
abbrev S1x128x128 : Shape := ⟨3, ![1, 128, 128]⟩
abbrev S128x128 : Shape := ⟨2, ![128, 128]⟩
abbrev S25x8x128 : Shape := ⟨3, ![25, 8, 128]⟩
abbrev S4000x1 : Shape := ⟨2, ![4000, 1]⟩
abbrev S1x8x128 : Shape := ⟨3, ![1, 8, 128]⟩
abbrev S1x1x128 : Shape := ⟨3, ![1, 1, 128]⟩
abbrev S25x1x128 : Shape := ⟨3, ![25, 1, 128]⟩
abbrev S25x128 : Shape := ⟨2, ![25, 128]⟩
abbrev S100000x2 : Shape := ⟨2, ![100000, 2]⟩
abbrev S4000x2 : Shape := ⟨2, ![4000, 2]⟩
abbrev S4000x64 : Shape := ⟨2, ![4000, 64]⟩
abbrev S1x64 : Shape := ⟨2, ![1, 64]⟩
abbrev S1x2 : Shape := ⟨2, ![1, 2]⟩

abbrev nBuf : Space → Nat
  | .hbm => 195
  | .vmem => 87
  | .smem => 0
  | _ => 0

abbrev hbmTy0_0 (i : Nat) : BufTy := match i % 128 with
  | 0 => ⟨S100000x12, .f32⟩
  | 1 => ⟨S2x600000, .i32⟩
  | 2 => ⟨S12x128, .f32⟩
  | 3 => ⟨S128, .f32⟩
  | 4 => ⟨S3x128x128, .f32⟩
  | 5 => ⟨S3x128x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S64x2, .f32⟩
  | 12 => ⟨S2, .f32⟩
  | 13 => ⟨S1x600000, .i32⟩
  | 14 => ⟨S600000, .i32⟩
  | 15 => ⟨S1x600000, .i32⟩
  | 16 => ⟨S600000, .i32⟩
  | 17 => ⟨S600000, .i32⟩
  | 18 => ⟨S600000, .i32⟩
  | 19 => ⟨S600000, .i32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000, .i32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .i32⟩
  | 38 => ⟨S_, .f32⟩
  | 39 => ⟨S600000, .f32⟩
  | 40 => ⟨S_, .f32⟩
  | 41 => ⟨S100000, .f32⟩
  | 42 => ⟨S600000x1, .i32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .bf16⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .bf16⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S1x128x128, .f32⟩
  | 68 => ⟨S128x128, .f32⟩
  | 69 => ⟨S1x128x128, .f32⟩
  | 70 => ⟨S128x128, .f32⟩
  | 71 => ⟨S1x128, .f32⟩
  | 72 => ⟨S128, .f32⟩
  | 73 => ⟨S100000x128, .f32⟩
  | 74 => ⟨S25x8x128, .f32⟩
  | 75 => ⟨S25x8x128, .f32⟩
  | 76 => ⟨S25x1x128, .f32⟩
  | 77 => ⟨S25x128, .f32⟩
  | 78 => ⟨S_, .f32⟩
  | 79 => ⟨S128, .f32⟩
  | 80 => ⟨S25x1x128, .f32⟩
  | 81 => ⟨S25x128, .f32⟩
  | 82 => ⟨S_, .f32⟩
  | 83 => ⟨S128, .f32⟩
  | 84 => ⟨S_, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S128, .f32⟩
  | 92 => ⟨S_, .f32⟩
  | 93 => ⟨S128, .f32⟩
  | 94 => ⟨S128, .f32⟩
  | 95 => ⟨S1x128, .f32⟩
  | 96 => ⟨S128, .f32⟩
  | 97 => ⟨S1x128, .f32⟩
  | 98 => ⟨S128, .f32⟩
  | 99 => ⟨S100000x128, .bf16⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .bf16⟩
  | 109 => ⟨S600000x128, .f32⟩
  | 110 => ⟨S_, .f32⟩
  | 111 => ⟨S100000x128, .f32⟩
  | 112 => ⟨S600000x1, .i32⟩
  | 113 => ⟨S100000x128, .f32⟩
  | 114 => ⟨S1x128x128, .f32⟩
  | 115 => ⟨S128x128, .f32⟩
  | 116 => ⟨S1x128x128, .f32⟩
  | 117 => ⟨S128x128, .f32⟩
  | 118 => ⟨S1x128, .f32⟩
  | 119 => ⟨S128, .f32⟩
  | 120 => ⟨S100000x128, .f32⟩
  | 121 => ⟨S25x8x128, .f32⟩
  | 122 => ⟨S25x8x128, .f32⟩
  | 123 => ⟨S25x1x128, .f32⟩
  | 124 => ⟨S25x128, .f32⟩
  | 125 => ⟨S_, .f32⟩
  | 126 => ⟨S128, .f32⟩
  | 127 => ⟨S25x1x128, .f32⟩
  | _ => ⟨S100000x12, .f32⟩

abbrev hbmTy0_1 (i : Nat) : BufTy := match i % 128 with
  | 0 => ⟨S25x128, .f32⟩
  | 1 => ⟨S_, .f32⟩
  | 2 => ⟨S128, .f32⟩
  | 3 => ⟨S_, .f32⟩
  | 4 => ⟨S128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | 11 => ⟨S_, .f32⟩
  | 12 => ⟨S128, .f32⟩
  | 13 => ⟨S128, .f32⟩
  | 14 => ⟨S1x128, .f32⟩
  | 15 => ⟨S128, .f32⟩
  | 16 => ⟨S1x128, .f32⟩
  | 17 => ⟨S128, .f32⟩
  | 18 => ⟨S100000x128, .bf16⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .bf16⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S1x128x128, .f32⟩
  | 34 => ⟨S128x128, .f32⟩
  | 35 => ⟨S1x128x128, .f32⟩
  | 36 => ⟨S128x128, .f32⟩
  | 37 => ⟨S1x128, .f32⟩
  | 38 => ⟨S128, .f32⟩
  | 39 => ⟨S100000x128, .f32⟩
  | 40 => ⟨S25x8x128, .f32⟩
  | 41 => ⟨S25x8x128, .f32⟩
  | 42 => ⟨S25x1x128, .f32⟩
  | 43 => ⟨S25x128, .f32⟩
  | 44 => ⟨S_, .f32⟩
  | 45 => ⟨S128, .f32⟩
  | 46 => ⟨S25x1x128, .f32⟩
  | 47 => ⟨S25x128, .f32⟩
  | 48 => ⟨S_, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S1x128, .f32⟩
  | 62 => ⟨S128, .f32⟩
  | 63 => ⟨S1x128, .f32⟩
  | 64 => ⟨S128, .f32⟩
  | 65 => ⟨S100000x128, .bf16⟩
  | 66 => ⟨S100000x2, .f32⟩
  | _ => ⟨S100000x12, .f32⟩

abbrev hbmTy (i : Nat) : BufTy := match i / 128 with
  | 0 => hbmTy0_0 i
  | 1 => hbmTy0_1 i
  | _ => ⟨S100000x12, .f32⟩

abbrev bufTy : (tb : Table) → Fin (tcTables nBuf tb) → BufTy
  | .hbm, ⟨i, _⟩ => hbmTy i
  | .local _ .vmem, ⟨0, _⟩ => ⟨S4000x12, .f32⟩
  | .local _ .vmem, ⟨1, _⟩ => ⟨S4000x12, .f32⟩
  | .local _ .vmem, ⟨2, _⟩ => ⟨S12x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S4000x128, .f32⟩
  | .local _ .vmem, ⟨16, _⟩ => ⟨S4000x128, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | .local _ .vmem, ⟨20, _⟩ => ⟨S1x8x128, .f32⟩
  | .local _ .vmem, ⟨21, _⟩ => ⟨S4000x128, .f32⟩
  | .local _ .vmem, ⟨22, _⟩ => ⟨S4000x128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S4000x128, .bf16⟩
  | .local _ .vmem, ⟨28, _⟩ => ⟨S4000x128, .bf16⟩
  | .local _ .vmem, ⟨29, _⟩ => ⟨S4000x128, .bf16⟩
  | .local _ .vmem, ⟨30, _⟩ => ⟨S4000x128, .bf16⟩
  | .local _ .vmem, ⟨31, _⟩ => ⟨S4000x128, .f32⟩
  | .local _ .vmem, ⟨32, _⟩ => ⟨S4000x128, .f32⟩
  | .local _ .vmem, ⟨33, _⟩ => ⟨S4000x1, .f32⟩
  | .local _ .vmem, ⟨34, _⟩ => ⟨S4000x1, .f32⟩
  | .local _ .vmem, ⟨35, _⟩ => ⟨S128x128, .f32⟩
  | .local _ .vmem, ⟨36, _⟩ => ⟨S128x128, .f32⟩
  | .local _ .vmem, ⟨37, _⟩ => ⟨S128, .f32⟩
  | .local _ .vmem, ⟨38, _⟩ => ⟨S4000x128, .f32⟩
  | .local _ .vmem, ⟨39, _⟩ => ⟨S4000x128, .f32⟩
  | .local _ .vmem, ⟨40, _⟩ => ⟨S1x8x128, .f32⟩
  | .local _ .vmem, ⟨41, _⟩ => ⟨S1x8x128, .f32⟩
  | .local _ .vmem, ⟨42, _⟩ => ⟨S1x8x128, .f32⟩
  | .local _ .vmem, ⟨43, _⟩ => ⟨S1x8x128, .f32⟩
  | .local _ .vmem, ⟨44, _⟩ => ⟨S4000x128, .f32⟩
  | .local _ .vmem, ⟨45, _⟩ => ⟨S4000x128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S4000x128, .bf16⟩
  | .local _ .vmem, ⟨51, _⟩ => ⟨S4000x128, .bf16⟩
  | .local _ .vmem, ⟨52, _⟩ => ⟨S4000x128, .bf16⟩
  | .local _ .vmem, ⟨53, _⟩ => ⟨S4000x128, .bf16⟩
  | .local _ .vmem, ⟨54, _⟩ => ⟨S4000x128, .bf16⟩
  | .local _ .vmem, ⟨55, _⟩ => ⟨S4000x128, .bf16⟩
  | .local _ .vmem, ⟨56, _⟩ => ⟨S4000x128, .f32⟩
  | .local _ .vmem, ⟨57, _⟩ => ⟨S4000x128, .f32⟩
  | .local _ .vmem, ⟨58, _⟩ => ⟨S4000x1, .f32⟩
  | .local _ .vmem, ⟨59, _⟩ => ⟨S4000x1, .f32⟩
  | .local _ .vmem, ⟨60, _⟩ => ⟨S128x128, .f32⟩
  | .local _ .vmem, ⟨61, _⟩ => ⟨S128x128, .f32⟩
  | .local _ .vmem, ⟨62, _⟩ => ⟨S128, .f32⟩
  | .local _ .vmem, ⟨63, _⟩ => ⟨S4000x128, .f32⟩
  | .local _ .vmem, ⟨64, _⟩ => ⟨S4000x128, .f32⟩
  | .local _ .vmem, ⟨65, _⟩ => ⟨S1x8x128, .f32⟩
  | .local _ .vmem, ⟨66, _⟩ => ⟨S1x8x128, .f32⟩
  | .local _ .vmem, ⟨67, _⟩ => ⟨S1x8x128, .f32⟩
  | .local _ .vmem, ⟨68, _⟩ => ⟨S1x8x128, .f32⟩
  | .local _ .vmem, ⟨69, _⟩ => ⟨S4000x128, .f32⟩
  | .local _ .vmem, ⟨70, _⟩ => ⟨S4000x128, .f32⟩
  | .local _ .vmem, ⟨71, _⟩ => ⟨S128, .f32⟩
  | .local _ .vmem, ⟨72, _⟩ => ⟨S128, .f32⟩
  | .local _ .vmem, ⟨73, _⟩ => ⟨S128, .f32⟩
  | .local _ .vmem, ⟨74, _⟩ => ⟨S128, .f32⟩
  | .local _ .vmem, ⟨75, _⟩ => ⟨S4000x128, .bf16⟩
  | .local _ .vmem, ⟨76, _⟩ => ⟨S4000x128, .bf16⟩
  | .local _ .vmem, ⟨77, _⟩ => ⟨S4000x128, .bf16⟩
  | .local _ .vmem, ⟨78, _⟩ => ⟨S4000x128, .bf16⟩
  | .local _ .vmem, ⟨79, _⟩ => ⟨S4000x128, .bf16⟩
  | .local _ .vmem, ⟨80, _⟩ => ⟨S4000x128, .bf16⟩
  | .local _ .vmem, ⟨81, _⟩ => ⟨S128x64, .f32⟩
  | .local _ .vmem, ⟨82, _⟩ => ⟨S64, .f32⟩
  | .local _ .vmem, ⟨83, _⟩ => ⟨S64x2, .f32⟩
  | .local _ .vmem, ⟨84, _⟩ => ⟨S2, .f32⟩
  | .local _ .vmem, ⟨85, _⟩ => ⟨S4000x2, .f32⟩
  | .local _ .vmem, ⟨86, _⟩ => ⟨S4000x2, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_call0_v1_0 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_v47_2 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_c_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84_0 : Ref sig .tc := ⟨.hbm, 120, rfl⟩
abbrev main_v84_1 : Ref sig .tc := ⟨.hbm, 121, rfl⟩
abbrev main_v84_2 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_cst_20 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_22 : Ref sig .tc := ⟨.hbm, 147, rfl⟩
abbrev main_v104 : Ref sig .tc := ⟨.hbm, 148, rfl⟩
abbrev main_v105 : Ref sig .tc := ⟨.hbm, 149, rfl⟩
abbrev main_c_23 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_24 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121_0 : Ref sig .tc := ⟨.hbm, 167, rfl⟩
abbrev main_v121_1 : Ref sig .tc := ⟨.hbm, 168, rfl⟩
abbrev main_v121_2 : Ref sig .tc := ⟨.hbm, 169, rfl⟩
abbrev main_v122 : Ref sig .tc := ⟨.hbm, 170, rfl⟩
abbrev main_v123 : Ref sig .tc := ⟨.hbm, 171, rfl⟩
abbrev main_cst_25 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_26 : Ref sig .tc := ⟨.hbm, 176, rfl⟩
abbrev main_v127 : Ref sig .tc := ⟨.hbm, 177, rfl⟩
abbrev main_cst_27 : Ref sig .tc := ⟨.hbm, 178, rfl⟩
abbrev main_v128 : Ref sig .tc := ⟨.hbm, 179, rfl⟩
abbrev main_v129 : Ref sig .tc := ⟨.hbm, 180, rfl⟩
abbrev main_cst_28 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_29 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc3_stg8_0 : Ref sig .tc := ⟨.vmem, 42, rfl⟩
abbrev cc3_stg8_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg6_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg6_1 : Ref sig .tc := ⟨.vmem, 64, rfl⟩
abbrev cc5_stg7_0 : Ref sig .tc := ⟨.vmem, 65, rfl⟩
abbrev cc5_stg7_1 : Ref sig .tc := ⟨.vmem, 66, rfl⟩
abbrev cc5_stg8_0 : Ref sig .tc := ⟨.vmem, 67, rfl⟩
abbrev cc5_stg8_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg5_1 : Ref sig .tc := ⟨.vmem, 76, rfl⟩
abbrev cc6_stg6_0 : Ref sig .tc := ⟨.vmem, 77, rfl⟩
abbrev cc6_stg6_1 : Ref sig .tc := ⟨.vmem, 78, rfl⟩
abbrev cc7_stg0_0 : Ref sig .tc := ⟨.vmem, 79, rfl⟩
abbrev cc7_stg0_1 : Ref sig .tc := ⟨.vmem, 80, rfl⟩
abbrev cc7_stg1_0 : Ref sig .tc := ⟨.vmem, 81, rfl⟩
abbrev cc7_stg2_0 : Ref sig .tc := ⟨.vmem, 82, rfl⟩
abbrev cc7_stg3_0 : Ref sig .tc := ⟨.vmem, 83, rfl⟩
abbrev cc7_stg4_0 : Ref sig .tc := ⟨.vmem, 84, rfl⟩
abbrev cc7_stg5_0 : Ref sig .tc := ⟨.vmem, 85, rfl⟩
abbrev cc7_stg5_1 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc3_sem7_0 : DmaSem sig := 40
abbrev cc3_sem7_1 : DmaSem sig := 41
abbrev cc3_sem8_0 : DmaSem sig := 42
abbrev cc3_sem8_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51
abbrev cc4_sem6_0 : DmaSem sig := 52
abbrev cc4_sem6_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem2_1 : DmaSem sig := 59
abbrev cc5_sem3_0 : DmaSem sig := 60
abbrev cc5_sem4_0 : DmaSem sig := 61
abbrev cc5_sem5_0 : DmaSem sig := 62
abbrev cc5_sem6_0 : DmaSem sig := 63
abbrev cc5_sem6_1 : DmaSem sig := 64
abbrev cc5_sem7_0 : DmaSem sig := 65
abbrev cc5_sem7_1 : DmaSem sig := 66
abbrev cc5_sem8_0 : DmaSem sig := 67
abbrev cc5_sem8_1 : DmaSem sig := 68
abbrev cc6_sem0_0 : DmaSem sig := 69
abbrev cc6_sem0_1 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem5_1 : DmaSem sig := 76
abbrev cc6_sem6_0 : DmaSem sig := 77
abbrev cc6_sem6_1 : DmaSem sig := 78
abbrev cc7_sem0_0 : DmaSem sig := 79
abbrev cc7_sem0_1 : DmaSem sig := 80
abbrev cc7_sem1_0 : DmaSem sig := 81
abbrev cc7_sem2_0 : DmaSem sig := 82
abbrev cc7_sem3_0 : DmaSem sig := 83
abbrev cc7_sem4_0 : DmaSem sig := 84
abbrev cc7_sem5_0 : DmaSem sig := 85
abbrev cc7_sem5_1 : DmaSem sig := 86

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x8x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x8x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S4000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x8x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x8x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4000x128 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x2 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  shapeCasts_S100000_S100000x1 : S100000.ShapeCasts S100000x1
  inb_S4000x12_S4000x12_0_0 : ∀ a, (![0, 0] : Fin 2 → Nat) a + S4000x12.size a ≤ S4000x12.size a
  h_S4000x12 : 0 < S4000x12.numel
  bitsLt_bf16_f32 : FTy.bits .bf16 < FTy.bits .f32
  inb_S12x128_S12x128_0_0 : ∀ a, (![0, 0] : Fin 2 → Nat) a + S12x128.size a ≤ S12x128.size a
  h_S12x128 : 0 < S12x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  reduces_S4000x128_S128 : S4000x128.Reduces [0] S128
  shapeCasts_S1x128_S1x1x128 : S1x128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  slices_S25x8x128_S25x1x128_0_0_0 : S25x8x128.Slices ![0, 0, 0] S25x1x128
  shapeCasts_S25x1x128_S25x128 : S25x1x128.ShapeCasts S25x128
  reducesTo_S25x128_S128_d0 : S25x128.ReducesTo [0] S128
  h_S_ : 0 < S_.numel
  bcast_S_S128 : S_.BroadcastsInDim S128 (![] : Fin 0 → Fin S128.rank)
  packedbf16_S4000x128_S4000x128_0_0 : (Rect.unit (s := S4000x128) ![0, 0] S4000x128.size inb_S4000x128_S4000x128_0_0).PackedRows (EltTy.packing .bf16)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  gather_S600000_S600000x1_S600000_n_0_n_n_0_1_1_wf : GatherDims.WF S600000 S600000x1 S600000 [] [0] [] [0] [] 1 ![1]
  scatter_S100000_S600000x1_S600000_n_0_0_1_wf : ScatterDims.WF S100000 S600000x1 S600000 [] [0] [0] 1
  dot_S4000x12_S12x128_S4000x128_1_0_0_1_n_n_wf : DotDims.WF S4000x12 S12x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x12.size a ≤ S100000x12.size a
  hwx0_0 : ∀ i : grid0.Coords, EltTy.bits .f32 = 32 ∨ (Rect.block (s := S100000x12) S4000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x128.size a ≤ S12x128.size a
  hwx0_1 : ∀ i : grid0.Coords, EltTy.bits .f32 = 32 ∨ (Rect.block (s := S12x128) S12x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x8x128.size a ≤ S25x8x128.size a
  hwx1_7 : ∀ i : grid1.Coords, EltTy.bits .f32 = 32 ∨ (Rect.block (s := S25x8x128) S1x8x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x8x128.size a ≤ S25x8x128.size a
  hwx1_8 : ∀ i : grid1.Coords, EltTy.bits .f32 = 32 ∨ (Rect.block (s := S25x8x128) S1x8x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .bf16 = 32 ∨ (Rect.block (s := S100000x128) S4000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .bf16 = 32 ∨ (Rect.block (s := S100000x128) S4000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x8x128.size a ≤ S25x8x128.size a
  hwx3_7 : ∀ i : grid3.Coords, EltTy.bits .f32 = 32 ∨ (Rect.block (s := S25x8x128) S1x8x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x8x128.size a ≤ S25x8x128.size a
  hwx3_8 : ∀ i : grid3.Coords, EltTy.bits .f32 = 32 ∨ (Rect.block (s := S25x8x128) S1x8x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S100000x128.size a
  hwx4_5 : ∀ i : grid4.Coords, EltTy.bits .bf16 = 32 ∨ (Rect.block (s := S100000x128) S4000x128.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S100000x128.size a
  hwx4_6 : ∀ i : grid4.Coords, EltTy.bits .bf16 = 32 ∨ (Rect.block (s := S100000x128) S4000x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .bf16 = 32 ∨ (Rect.block (s := S100000x128) S4000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .f32 = 32 ∨ (Rect.block (s := S100000x128) S4000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x8x128.size a ≤ S25x8x128.size a
  hwx5_7 : ∀ i : grid5.Coords, EltTy.bits .f32 = 32 ∨ (Rect.block (s := S25x8x128) S1x8x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1x8x128.size a ≤ S25x8x128.size a
  hwx5_8 : ∀ i : grid5.Coords, EltTy.bits .f32 = 32 ∨ (Rect.block (s := S25x8x128) S1x8x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S100000x128.size a
  hwx6_5 : ∀ i : grid6.Coords, EltTy.bits .bf16 = 32 ∨ (Rect.block (s := S100000x128) S4000x128.size (cc6_transform_5 i) (hinb6_5 i)).WholeWords (EltTy.packing .bf16)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x128.size a ≤ S100000x128.size a
  hwx6_6 : ∀ i : grid6.Coords, EltTy.bits .bf16 = 32 ∨ (Rect.block (s := S100000x128) S4000x128.size (cc6_transform_6 i) (hinb6_6 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .bf16 = 32 ∨ (Rect.block (s := S100000x128) S4000x128.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x2.size a ≤ S64x2.size a
  hwx7_3 : ∀ i : grid7.Coords, EltTy.bits .f32 = 32 ∨ (Rect.block (s := S64x2) S64x2.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S2.size a ≤ S2.size a
  hwx7_4 : ∀ i : grid7.Coords, EltTy.bits .f32 = 32 ∨ (Rect.block (s := S2) S2.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x2.size a ≤ S100000x2.size a
  hwx7_5 : ∀ i : grid7.Coords, EltTy.bits .f32 = 32 ∨ (Rect.block (s := S100000x2) S4000x2.size (cc7_transform_5 i) (hinb7_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S600000_S600000x1_S600000_n_0_n_n_0_1_1 : GatherDims S600000 S600000x1 S600000 where
  offsetDims := []
  collapsedSliceDims := [0]
  operandBatchingDims := []
  startIndicesBatchingDims := []
  startIndexMap := [0]
  indexVectorDim := 1
  sliceSizes := ![1]
  wf := gather_S600000_S600000x1_S600000_n_0_n_n_0_1_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S4000x12_S12x128_S4000x128_1_0_0_1_n_n : DotDims S4000x12 S12x128 S4000x128 where
  lhsContracting := [1]
  rhsContracting := [0]
  lhsNonContracting := [0]
  rhsNonContracting := [1]
  lhsBatch := []
  rhsBatch := []
  wf := dot_S4000x12_S12x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_arg0) S4000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v47_1) S1x8x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v47_2) S1x8x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84_0) S4000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v84_1) S1x8x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v84_2) S1x8x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v84_0) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v102) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S4000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v103) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v103) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v114) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v116) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v118) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v121_0) S4000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v121_1) S1x8x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v121_2) S1x8x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v121_0) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v129) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v135) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v137) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v139) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v103) S4000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v140) S4000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v140) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S64x2.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S2.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v141) S4000x2.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x12 : Shape := ⟨2, ![100000, 12]⟩
abbrev S2x600000 : Shape := ⟨2, ![2, 600000]⟩
abbrev S12x128 : Shape := ⟨2, ![12, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x128 : Shape := ⟨2, ![100000, 128]⟩
abbrev S1x128 : Shape := ⟨2, ![1, 128]⟩
abbrev S600000x128 : Shape := ⟨2, ![600000, 128]⟩
abbrev S100000x1 : Shape := ⟨2, ![100000, 1]⟩
abbrev S1x128x128 : Shape := ⟨3, ![1, 128, 128]⟩
abbrev S128x128 : Shape := ⟨2, ![128, 128]⟩
abbrev S100000x64 : Shape := ⟨2, ![100000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 283
  | .vmem => 0
  | .smem => 0
  | _ => 0

abbrev hbmTy0_0 (i : Nat) : BufTy := match i % 128 with
  | 0 => ⟨S100000x12, .f32⟩
  | 1 => ⟨S2x600000, .i32⟩
  | 2 => ⟨S12x128, .f32⟩
  | 3 => ⟨S128, .f32⟩
  | 4 => ⟨S3x128x128, .f32⟩
  | 5 => ⟨S3x128x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S64x2, .f32⟩
  | 12 => ⟨S2, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x128, .f32⟩
  | 30 => ⟨S1x128, .f32⟩
  | 31 => ⟨S100000x128, .f32⟩
  | 32 => ⟨S100000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S_, .f32⟩
  | 43 => ⟨S100000x128, .f32⟩
  | 44 => ⟨S600000x1, .i32⟩
  | 45 => ⟨S100000x128, .f32⟩
  | 46 => ⟨S100000x1, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S1x128x128, .f32⟩
  | 53 => ⟨S128x128, .f32⟩
  | 54 => ⟨S100000x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S100000x128, .f32⟩
  | 74 => ⟨S100000x128, .f32⟩
  | 75 => ⟨S100000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S_, .f32⟩
  | 122 => ⟨S100000x128, .f32⟩
  | 123 => ⟨S600000x1, .i32⟩
  | 124 => ⟨S100000x128, .f32⟩
  | 125 => ⟨S100000x1, .f32⟩
  | 126 => ⟨S100000x128, .f32⟩
  | 127 => ⟨S100000x128, .f32⟩
  | _ => ⟨S100000x12, .f32⟩

abbrev hbmTy0_1 (i : Nat) : BufTy := match i % 128 with
  | 0 => ⟨S1x128x128, .f32⟩
  | 1 => ⟨S128x128, .f32⟩
  | 2 => ⟨S100000x128, .f32⟩
  | 3 => ⟨S1x128x128, .f32⟩
  | 4 => ⟨S128x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S_, .f32⟩
  | 74 => ⟨S100000x128, .f32⟩
  | 75 => ⟨S600000x1, .i32⟩
  | 76 => ⟨S100000x128, .f32⟩
  | 77 => ⟨S100000x1, .f32⟩
  | 78 => ⟨S100000x128, .f32⟩
  | 79 => ⟨S100000x128, .f32⟩
  | 80 => ⟨S1x128x128, .f32⟩
  | 81 => ⟨S128x128, .f32⟩
  | 82 => ⟨S100000x128, .f32⟩
  | 83 => ⟨S1x128x128, .f32⟩
  | 84 => ⟨S128x128, .f32⟩
  | 85 => ⟨S100000x128, .f32⟩
  | 86 => ⟨S100000x128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S_, .f32⟩
  | 124 => ⟨S128, .f32⟩
  | 125 => ⟨S128, .f32⟩
  | 126 => ⟨S128, .f32⟩
  | 127 => ⟨S1x128, .f32⟩
  | _ => ⟨S100000x12, .f32⟩

abbrev hbmTy0_2 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x2, .f32⟩
  | 24 => ⟨S1x2, .f32⟩
  | 25 => ⟨S100000x2, .f32⟩
  | 26 => ⟨S100000x2, .f32⟩
  | _ => ⟨S100000x12, .f32⟩

abbrev hbmTy (i : Nat) : BufTy := match i / 128 with
  | 0 => hbmTy0_0 i
  | 1 => hbmTy0_1 i
  | 2 => hbmTy0_2 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_8 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_call1_cst : Ref sig .tc := ⟨.hbm, 109, rfl⟩
abbrev main_call1_v0 : Ref sig .tc := ⟨.hbm, 110, rfl⟩
abbrev main_v64 : Ref sig .tc := ⟨.hbm, 111, rfl⟩
abbrev main_c_9 : Ref sig .tc := ⟨.hbm, 112, rfl⟩
abbrev main_v65 : Ref sig .tc := ⟨.hbm, 113, rfl⟩
abbrev main_v66 : Ref sig .tc := ⟨.hbm, 114, rfl⟩
abbrev main_c_10 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_11 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_12 : Ref sig .tc := ⟨.hbm, 140, rfl⟩
abbrev main_v90 : Ref sig .tc := ⟨.hbm, 141, rfl⟩
abbrev main_cst_13 : Ref sig .tc := ⟨.hbm, 142, rfl⟩
abbrev main_v91 : Ref sig .tc := ⟨.hbm, 143, rfl⟩
abbrev main_v92 : Ref sig .tc := ⟨.hbm, 144, rfl⟩
abbrev main_c_14 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_cst_15 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_call3_cst : Ref sig .tc := ⟨.hbm, 188, rfl⟩
abbrev main_call3_v0 : Ref sig .tc := ⟨.hbm, 189, rfl⟩
abbrev main_v113 : Ref sig .tc := ⟨.hbm, 190, rfl⟩
abbrev main_v114 : Ref sig .tc := ⟨.hbm, 191, rfl⟩
abbrev main_c_16 : Ref sig .tc := ⟨.hbm, 192, rfl⟩
abbrev main_v115 : Ref sig .tc := ⟨.hbm, 193, rfl⟩
abbrev main_v116 : Ref sig .tc := ⟨.hbm, 194, rfl⟩
abbrev main_c_17 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_cst_18 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_cst_19 : Ref sig .tc := ⟨.hbm, 220, rfl⟩
abbrev main_v140 : Ref sig .tc := ⟨.hbm, 221, rfl⟩
abbrev main_cst_20 : Ref sig .tc := ⟨.hbm, 222, rfl⟩
abbrev main_v141 : Ref sig .tc := ⟨.hbm, 223, rfl⟩
abbrev main_v142 : Ref sig .tc := ⟨.hbm, 224, rfl⟩
abbrev main_c_21 : Ref sig .tc := ⟨.hbm, 225, rfl⟩
abbrev main_call4_cst : Ref sig .tc := ⟨.hbm, 226, rfl⟩
abbrev main_call4_v0 : Ref sig .tc := ⟨.hbm, 227, rfl⟩
abbrev main_call4_v1 : Ref sig .tc := ⟨.hbm, 228, rfl⟩
abbrev main_call4_cst_0 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_v7 : Ref sig .tc := ⟨.hbm, 235, rfl⟩
abbrev main_call4_cst_1 : Ref sig .tc := ⟨.hbm, 236, rfl⟩
abbrev main_call4_v8 : Ref sig .tc := ⟨.hbm, 237, rfl⟩
abbrev main_call4_cst_2 : Ref sig .tc := ⟨.hbm, 238, rfl⟩
abbrev main_call4_v9 : Ref sig .tc := ⟨.hbm, 239, rfl⟩
abbrev main_call4_v10 : Ref sig .tc := ⟨.hbm, 240, rfl⟩
abbrev main_call4_v11 : Ref sig .tc := ⟨.hbm, 241, rfl⟩
abbrev main_call4_cst_3 : Ref sig .tc := ⟨.hbm, 242, rfl⟩
abbrev main_call4_v12 : Ref sig .tc := ⟨.hbm, 243, rfl⟩
abbrev main_call4_cst_4 : Ref sig .tc := ⟨.hbm, 244, rfl⟩
abbrev main_call4_call0_v0 : Ref sig .tc := ⟨.hbm, 245, rfl⟩
abbrev main_call4_call0_v1 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_cst_22 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_call5_cst : Ref sig .tc := ⟨.hbm, 268, rfl⟩
abbrev main_call5_v0 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_call6_cst : Ref sig .tc := ⟨.hbm, 276, rfl⟩
abbrev main_call6_v0 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S600000x1_S600000_n_0_0_1_wf : ScatterDims.WF S100000 S600000x1 S600000 [] [0] [0] 1
  dot_S100000x12_S12x128_S100000x128_1_0_0_1_n_n_wf : DotDims.WF S100000x12 S12x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x12_S12x128_S100000x128_1_0_0_1_n_n : DotDims S100000x12 S12x128 S100000x128 where
  lhsContracting := [1]
  rhsContracting := [0]
  lhsNonContracting := [0]
  rhsNonContracting := [1]
  lhsBatch := []
  rhsBatch := []
  wf := dot_S100000x12_S12x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KRun.lean ====
/-
  The idealized kernel program's run with its result named.

  @main is eight pipelined regions among stretches of host operations.  Every weakly fair execution from any
  memory with zero counters terminates without a fault, and in every final state each buffer that no region scopes
  holds the contents that the fold of the segments leaves there: the result array is what the last region's
  write-backs leave, and the thirteen argument arrays are as launched.
-/
import proofs.«103646_j72808285602083_2_alg».proof.Proof.Gen.KernelIdeal.Frame

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v141) = W17 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v141 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c)⟩)

end Cert.KernelIdeal.KRun

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«103646_j72808285602083_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«103646_j72808285602083_2_alg».proof.Proof.LibDense
import proofs.«103646_j72808285602083_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibSageLayer.lean ====
/-
  Two mean-aggregating graph layers and a linear head, on the extended reals, at any extents.

  A layer takes, for every node (a row), the sum `a` of its in-neighbours' feature rows, the node's own feature row
  `x`, and a per-node factor `s` (the reciprocal of the in-degree, at least one).  Its pre-activation is
  `(a scaled row by row by s) · wl + x · wr`; the hidden layer adds a one-row bias and rectifies, the output layer adds
  its bias, multiplies by the head's weights and adds the head's bias.  Every entry of a layer's result depends on the
  node's own rows of `a`, `x` and `s` only, which is what lets a block of rows be computed from a block of rows.

  The reference divides the aggregate by the degree where the kernel multiplies by its reciprocal: on the extended reals
  `a / c = a · c⁻¹` and `1 / c = c⁻¹` whenever `c ≠ 0`, and a degree clamped below by one is never zero, so the two
  agree at every extended real `a`, infinite ones included.
-/
import proofs.«103646_j72808285602083_2_alg».proof.Proof.LibRowScale
import proofs.«103646_j72808285602083_2_alg».proof.Proof.LibBiasRow
import Idealize.ShloMosaic.Lib.IdealHost

noncomputable section

open scoped BigOperators

namespace Cert.Sage

open Idealize.ShloMosaic Idealize.ShloMosaic.ValueIdx Cert.Dense Cert.RowScale Cert.BiasRow

/-- The pre-activation: the row-scaled aggregate times `wl` plus the self term times `wr`. -/
def pre {M K N : ℕ} (a x : Mat M K) (s : Mat M 1) (wl wr : Mat K N) : Mat M N :=
  fun i => mm (scaleRows a s) wl i + mm x wr i

/-- The hidden layer: the pre-activation plus a one-row bias, rectified. -/
def hidden {M K N : ℕ} (a x : Mat M K) (s : Mat M 1) (wl wr : Mat K N) (b : Mat 1 N) : Mat M N :=
  reluBias (pre a x s wl wr) b

/-- The output layer followed by the linear head. -/
def head {M K N P : ℕ} (a h : Mat M K) (s : Mat M 1) (wl wr : Mat K N) (b : Mat 1 N) (wfc : Mat N P) (bfc : Mat 1 P) :
    Mat M P :=
  addRow (mm (addRow (pre a h s wl wr) b) wfc) bfc

/-- A row of the pre-activation depends on the same row of the aggregate, of the features and of the factor. -/
theorem pre_rows {M M' K N : ℕ} (a x : Mat M K) (s : Mat M 1) (a' x' : Mat M' K) (s' : Mat M' 1) (wl wr : Mat K N)
    (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    pre a' x' s' wl wr (ix2 p' q) = pre a x s wl wr (ix2 p q) := by
  show mm (scaleRows a' s') wl (ix2 p' q) + mm x' wr (ix2 p' q) = mm (scaleRows a s) wl (ix2 p q) + mm x wr (ix2 p q)
  simp only [mm_apply, scaleRows_apply, ha, hx, hs]

theorem hidden_rows {M M' K N : ℕ} (a x : Mat M K) (s : Mat M 1) (a' x' : Mat M' K) (s' : Mat M' 1) (wl wr : Mat K N)
    (b : Mat 1 N) (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    hidden a' x' s' wl wr b (ix2 p' q) = hidden a x s wl wr b (ix2 p q) := by
  show max (pre a' x' s' wl wr (ix2 p' q) + b (ix2 (0 : Fin 1) q)) 0 = max (pre a x s wl wr (ix2 p q) + b (ix2 (0 : Fin 1) q)) 0
  rw [pre_rows a x s a' x' s' wl wr p' p q ha hx hs]

theorem head_rows {M M' K N P : ℕ} (a h : Mat M K) (s : Mat M 1) (a' h' : Mat M' K) (s' : Mat M' 1) (wl wr : Mat K N)
    (b : Mat 1 N) (wfc : Mat N P) (bfc : Mat 1 P) (p' : Fin M') (p : Fin M) (r : Fin P)
    (ha : ∀ k : Fin K, a' (ix2 p' k) = a (ix2 p k)) (hh : ∀ k : Fin K, h' (ix2 p' k) = h (ix2 p k))
    (hs : s' (ix2 p' (0 : Fin 1)) = s (ix2 p (0 : Fin 1))) :
    head a' h' s' wl wr b wfc bfc (ix2 p' r) = head a h s wl wr b wfc bfc (ix2 p r) := by
  show mm (addRow (pre a' h' s' wl wr) b) wfc (ix2 p' r) + bfc (ix2 (0 : Fin 1) r)
    = mm (addRow (pre a h s wl wr) b) wfc (ix2 p r) + bfc (ix2 (0 : Fin 1) r)
  rw [mm_apply, mm_apply]
  refine congrArg (· + bfc (ix2 (0 : Fin 1) r)) (Finset.sum_congr rfl fun k _ => ?_)
  rw [addRow_apply, addRow_apply, pre_rows a h s a' h' s' wl wr p' p k ha hh hs]

/-- Multiplying by the reciprocal is dividing, at a divisor that is not zero. -/
theorem mul_recip (a c : EReal) (hc : c ≠ 0) : a * Ideal.div 1 c = Ideal.div a c := by
  rw [Ideal.div, Ideal.div, if_neg hc, if_neg hc, one_mul]

/-- A quantity clamped below by one is not zero. -/
theorem max_one_ne_zero (x : EReal) : max x 1 ≠ 0 :=
  (lt_of_lt_of_le zero_lt_one (le_max_right x 1)).ne'

/-- The host's form of the mean: the aggregate divided by the degree vector broadcast to a column and along the rows is
    the aggregate's rows scaled by the column of reciprocals, when no degree is zero. -/
theorem hostDivRows {M N : ℕ} (G : FVec Ideal ⟨2, ![M, N]⟩ .f32) (d one : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hd : ∀ i, d i ≠ 0) (hone : ∀ i, one i = 1) :
    Host.divf (F := Ideal) G (broadcastInDim ⟨2, ![M, N]⟩ ![0, 1] h2 (broadcastInDim ⟨2, ![M, 1]⟩ ![0] h1 d))
      = scaleRows G (col (Host.divf (F := Ideal) one d)) := by
  funext i
  obtain ⟨p, q, rfl⟩ : ∃ (p : Fin M) (q : Fin N), i = ix2 p q := ⟨i 0, i 1, eq_ix2 i⟩
  show Ideal.div (G (ix2 p q)) (broadcastInDim ⟨2, ![M, N]⟩ ![0, 1] h2 (broadcastInDim ⟨2, ![M, 1]⟩ ![0] h1 d) (ix2 p q))
    = G (ix2 p q) * Ideal.div (one (ix1 p)) (d (ix1 p))
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 d (ix2 p (0 : Fin 1)) (ix1 p) (fun a => by
        match a with
        | ⟨0, _⟩ =>
          show p.val = if M = 1 then 0 else p.val
          split
          · have := p.isLt; omega
          · rfl),
    hone, mul_recip _ _ (hd _)]

end Cert.Sage

end
-- ==== Proof.LibSageDense.lean ====
/-
  One dense step of a mean-aggregating graph layer, on the extended reals, at any extents.

  The step takes the mean `A` of the neighbours' rows, the nodes' own rows `X`, two weight matrices and a one-row bias,
  and forms `A · wl + X · wr + b` (`lin`), or that rectified (`hid`).  The kernel spells it on the matrix unit — both
  products into zero accumulators, summed, then the bias row broadcast along the rows and added — and the host spells it
  with the bias added BEFORE the second product: `(A · wl + b) + X · wr`.  Addition of extended reals is commutative and
  associative, so the two agree at every entry, infinite ones included.  An entry `(p, q)` of the result depends on row
  `p` of `A` and of `X`, on column `q` of the weights and on entry `q` of the bias only, which is what lets a block of rows
  be computed from a block of rows.

  The mean: the kernel multiplies the summed rows by the reciprocal of the clamped degree, the host divides by the clamped
  degree.  A degree clamped below by one is never zero, and off zero a quotient is the product with the inverse, so both
  are the rows scaled by the column of reciprocals.
-/
import proofs.«103646_j72808285602083_2_alg».proof.Proof.LibSageLayer

noncomputable section

open scoped BigOperators

namespace Cert.SageDense

open Idealize.ShloMosaic Idealize.ShloMosaic.ValueIdx Cert.Dense Cert.RowScale Cert.BiasRow

/-- The two products summed: `A · wl + X · wr`. -/
def comb {M K N : ℕ} (A X : Mat M K) (wl wr : Mat K N) : Mat M N := fun i => mm A wl i + mm X wr i

/-- The output step: the two products plus a one-row bias. -/
def lin {M K N : ℕ} (A X : Mat M K) (wl wr : Mat K N) (b : Mat 1 N) : Mat M N := addRow (comb A X wl wr) b

/-- The hidden step: the same, rectified. -/
def hid {M K N : ℕ} (A X : Mat M K) (wl wr : Mat K N) (b : Mat 1 N) : Mat M N := reluBias (comb A X wl wr) b

/-- An entry of the summed products depends on one row of each left operand and one column of each weight matrix. -/
theorem comb_at {M M' K N N' : ℕ} (A X : Mat M K) (wl wr : Mat K N) (A' X' : Mat M' K) (wl' wr' : Mat K N')
    (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i))) :
    comb A' X' wl' wr' j = comb A X wl wr i := by
  unfold comb
  rw [Cert.BiasRow.mm_at A wl A' wl' j i hA hl, Cert.BiasRow.mm_at X wr X' wr' j i hX hr]

theorem lin_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    lin A' X' wl' wr' b' j = lin A X wl wr b i :=
  Cert.BiasRow.addRow_at _ b _ b' j i (comb_at A X wl wr A' X' wl' wr' j i hA hX hl hr) hb

theorem hid_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    hid A' X' wl' wr' b' j = hid A X wl wr b i :=
  Cert.BiasRow.reluBias_at _ b _ b' j i (comb_at A X wl wr A' X' wl' wr' j i hA hX hl hr) hb

/-! ## The matrix unit's spelling -/

/-- Both products on the matrix unit into zero accumulators, summed; the operands' change of float format is the
    identity on the extended reals. -/
theorem vecComb {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (lt : FTy.bf16.bits < FTy.f32.bits) :
    addf (matmul (F := Ideal) D none (truncf .bf16 A lt) (truncf .bf16 wl lt) (constant ⟨2, ![M, N]⟩ .f32 0x00000000#32))
        (matmul (F := Ideal) D none (truncf .bf16 X lt) (truncf .bf16 wr lt) (constant ⟨2, ![M, N]⟩ .f32 0x00000000#32))
      = comb A X wl wr := by
  rw [matmul_zero_eq_mm D h1 h2 h3 h4 h5 h6, matmul_zero_eq_mm D h1 h2 h3 h4 h5 h6]
  rfl

theorem vecLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)
      = lin A X wl wr b := by
  rw [vecComb D h1 h2 h3 h4 h5 h6 A X wl wr lt]
  exact vecAddRow (comb A X wl wr) b hb

theorem vecHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    maximumf (addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)) (broadcast ⟨2, ![M, N]⟩ (Scalar.ofBits (F := Ideal) .f32 0x00000000#32))
      = hid A X wl wr b := by
  rw [vecComb D h1 h2 h3 h4 h5 h6 A X wl wr lt]
  exact vecReluBias (comb A X wl wr) b hb

/-! ## The host's spelling -/

/-- The host adds the bias before the second product; the sum is the same. -/
theorem hostLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr)
      = lin A X wl wr (row b) := by
  rw [hostDot_eq_mm D h1 h2 h3 h4 h5 h6 none A wl, hostDot_eq_mm D h1 h2 h3 h4 h5 h6 none X wr,
    hostAddRow (mm A wl) b hb1 hb2]
  funext i
  show (mm A wl i + row b (ix2 (0 : Fin 1) (c1 i))) + mm X wr i = (mm A wl i + mm X wr i) + row b (ix2 (0 : Fin 1) (c1 i))
  exact add_right_comm _ _ _

/-- The maximum with a scalar zero broadcast everywhere is the maximum with zero at every entry. -/
theorem hostRelu {s : Shape} (Y : FVec Ideal s .f32) (h0 : (⟨0, ![]⟩ : Shape).BroadcastsInDim s ![]) :
    maximumf Y (broadcastInDim s ![] h0 (constant (F := Ideal) ⟨0, ![]⟩ .f32 0x00000000#32)) = fun i => max (Y i) 0 := by
  funext i
  show max (Y i) (broadcastInDim s ![] h0 (constant (F := Ideal) ⟨0, ![]⟩ .f32 0x00000000#32) i) = _
  rw [broadcastInDim_apply ![] h0 _ i ix0 (fun a => a.elim0)]
  show max (Y i) (Ideal.ofBits .f32 0x00000000#32) = _
  rw [Ideal.ofBits_zero_f32]

theorem hostHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr))
        (broadcastInDim ⟨2, ![M, N]⟩ ![] h0 (constant (F := Ideal) ⟨0, ![]⟩ .f32 0x00000000#32))
      = hid A X wl wr (row b) := by
  rw [hostLin D h1 h2 h3 h4 h5 h6 A X wl wr b hb1 hb2, hostRelu]
  rfl

/-! ## The mean -/

/-- The rows of `G` scaled by the reciprocals of the clamped degrees. -/
def meanRows {M N : ℕ} (G : FVec Ideal ⟨2, ![M, N]⟩ .f32) (one d : FVec Ideal ⟨1, ![M]⟩ .f32) : Mat M N :=
  scaleRows G (col (Host.divf (F := Ideal) one (maximumf (F := Ideal) d one)))

/-- The kernel's form: the summed rows times the reciprocal of the clamped degree, broadcast to a column and along
    the rows. -/
theorem mulMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1
        (Host.divf (F := Ideal) one (maximumf (F := Ideal) d one))))
      = meanRows G one d :=
  hostScaleRows G _ h1 h2

/-- The host's form: the summed rows divided by the clamped degree, when the clamp is at one. -/
theorem divMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hone : ∀ i, one i = 1) :
    Host.divf (F := Ideal) G (broadcastInDim ⟨2, ![M, N]⟩ ![0, 1] h2 (broadcastInDim ⟨2, ![M, 1]⟩ ![0] h1
        (maximumf (F := Ideal) d one)))
      = meanRows G one d :=
  Cert.Sage.hostDivRows G (maximumf (F := Ideal) d one) one h1 h2
    (fun i => by
      show max (d i) (one i) ≠ 0
      rw [hone i]
      exact Cert.Sage.max_one_ne_zero (d i))
    hone

/-- A scalar one broadcast to a vector is one at every entry. -/
theorem bcastOne {s : Shape} (h0 : (⟨0, ![]⟩ : Shape).BroadcastsInDim s ![]) (i : s.Idx) :
    broadcastInDim s ![] h0 (constant (F := Ideal) ⟨0, ![]⟩ .f32 0x3F800000#32) i = 1 := by
  rw [broadcastInDim_apply ![] h0 _ i ix0 (fun a => a.elim0)]
  show Ideal.ofBits .f32 0x3F800000#32 = 1
  exact Ideal.ofBits_one_f32

end Cert.SageDense

end
-- ==== Proof.LibSageNet.lean ====
/-
  Two mean-aggregating graph layers and a two-step linear head, as whole-array functions on the extended reals.

  A layer takes the sum `A` of every node's in-neighbours' rows, the nodes' own rows `X`, a per-node factor `s` (one
  column: the reciprocal of the in-degree clamped below by one), two weight matrices and a one-row bias, and forms
  `(A scaled row by row by s) · wl + X · wr + b`.  The network applies a layer to the features, aggregates the result
  again, applies a second layer, and then two affine maps `· w + c` in a row.  The aggregation is a parameter here: the
  network is stated for any two maps on whole arrays, since both programs aggregate by the same gather and segment sum
  and nothing of it needs opening.

  Entry `(p, r)` of a layer, and of the second layer followed by the head, depends on row `p` of the aggregate, of
  the features and of the factor only: that is what lets a block of rows be computed from a block of rows.
-/
import proofs.«103646_j72808285602083_2_alg».proof.Proof.LibSageDense

noncomputable section

open scoped BigOperators

namespace Cert.SageNet

open Idealize.ShloMosaic Idealize.ShloMosaic.ValueIdx Cert.Dense Cert.RowScale Cert.BiasRow Cert.SageDense

/-- One layer: the aggregate's rows scaled by the per-node factor, times `wl`, plus the features times `wr`, plus
    the bias row. -/
def layer {M K N : ℕ} (A X : Mat M K) (s : Mat M 1) (wl wr : Mat K N) (b : Mat 1 N) : Mat M N :=
  lin (scaleRows A s) X wl wr b

/-- A layer followed by the two affine maps of the head. -/
def top {M K N P Q : ℕ} (A H : Mat M K) (s : Mat M 1) (wl wr : Mat K N) (b : Mat 1 N) (w1 : Mat N P) (c1' : Mat 1 P)
    (w2 : Mat P Q) (c2 : Mat 1 Q) : Mat M Q :=
  addRow (mm (addRow (mm (layer A H s wl wr b) w1) c1') w2) c2

/-- The whole network over two aggregation maps. -/
def net {M K N P Q : ℕ} (agg1 : Mat M K → Mat M K) (agg2 : Mat M N → Mat M N) (s : Mat M 1) (x : Mat M K)
    (wl1 wr1 : Mat K N) (b1 : Mat 1 N) (wl2 wr2 : Mat N N) (b2 : Mat 1 N) (w1 : Mat N P) (c1' : Mat 1 P)
    (w2 : Mat P Q) (c2 : Mat 1 Q) : Mat M Q :=
  top (agg2 (layer (agg1 x) x s wl1 wr1 b1)) (layer (agg1 x) x s wl1 wr1 b1) s wl2 wr2 b2 w1 c1' w2 c2

/-- A layer's entry depends on one row of the aggregate, of the features and of the factor. -/
theorem layer_rows {M M' K N : ℕ} (A X : Mat M K) (s : Mat M 1) (A' X' : Mat M' K) (s' : Mat M' 1)
    (wl wr : Mat K N) (b : Mat 1 N) (p' : Fin M') (p : Fin M) (q : Fin N)
    (hA : ∀ k : Fin K, A' (ix2 p' k) = A (ix2 p k)) (hX : ∀ k : Fin K, X' (ix2 p' k) = X (ix2 p k))
    (hs : s' (ix2 p' (0 : Fin 1)) = s (ix2 p (0 : Fin 1))) :
    layer A' X' s' wl wr b (ix2 p' q) = layer A X s wl wr b (ix2 p q) := by
  show (mm (scaleRows A' s') wl (ix2 p' q) + mm X' wr (ix2 p' q)) + b (ix2 (0 : Fin 1) q)
    = (mm (scaleRows A s) wl (ix2 p q) + mm X wr (ix2 p q)) + b (ix2 (0 : Fin 1) q)
  simp only [mm_apply, scaleRows_apply, hA, hX, hs]

/-- The second layer and the head: an entry depends on one row of the aggregate, of the hidden rows and of the factor. -/
theorem top_rows {M M' K N P Q : ℕ} (A H : Mat M K) (s : Mat M 1) (A' H' : Mat M' K) (s' : Mat M' 1)
    (wl wr : Mat K N) (b : Mat 1 N) (w1 : Mat N P) (c1' : Mat 1 P) (w2 : Mat P Q) (c2 : Mat 1 Q)
    (p' : Fin M') (p : Fin M) (r : Fin Q)
    (hA : ∀ k : Fin K, A' (ix2 p' k) = A (ix2 p k)) (hH : ∀ k : Fin K, H' (ix2 p' k) = H (ix2 p k))
    (hs : s' (ix2 p' (0 : Fin 1)) = s (ix2 p (0 : Fin 1))) :
    top A' H' s' wl wr b w1 c1' w2 c2 (ix2 p' r) = top A H s wl wr b w1 c1' w2 c2 (ix2 p r) := by
  show mm (addRow (mm (layer A' H' s' wl wr b) w1) c1') w2 (ix2 p' r) + c2 (ix2 (0 : Fin 1) r)
    = mm (addRow (mm (layer A H s wl wr b) w1) c1') w2 (ix2 p r) + c2 (ix2 (0 : Fin 1) r)
  rw [mm_apply, mm_apply]
  refine congrArg (· + c2 (ix2 (0 : Fin 1) r)) (Finset.sum_congr rfl fun k _ => ?_)
  rw [addRow_apply, addRow_apply, mm_apply, mm_apply]
  refine congrArg (fun t => (t + c1' (ix2 (0 : Fin 1) k)) * w2 (ix2 k r)) (Finset.sum_congr rfl fun k' _ => ?_)
  rw [layer_rows A H s A' H' s' wl wr b p' p k' hA hH hs]

end Cert.SageNet

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibMeanAffine.lean ====
import Mathlib.Data.EReal.Inv
import Mathlib.Algebra.BigOperators.Group.Finset.Basic
import Idealize.ShloMosaic.PureOps.Ideal

/-!
# The mean of affine images is the affine image of the mean

A graph layer averages, over the finite nonempty set `H` of edges arriving at a node, the messages of their
source nodes.  Applying the affine map `row ↦ (∑ l, row l · W l) + b` to every message before averaging gives
the same value as averaging the raw rows and applying the affine map once afterwards:

  `(∑_{e∈H} ((∑_l x e l · W l) + b)) / |H| = (∑_l ((∑_{e∈H} x e l) / |H|) · W l) + b`,

because `∑_{e∈H} ((∑_l x e l · W l) + b) = (∑_l (∑_{e∈H} x e l) · W l) + |H| · b` and `|H| ≥ 1`, so that
`max(|H|, 1) = |H| ≠ 0`.  On the extended reals distributivity fails at the infinities, so the data enter as
coercions of real numbers; every expression is then the coercion of a real expression and the identity is
proved over `ℝ`.  The quotient is the total quotient `Ideal.div`, which off a zero divisor is multiplication
by the inverse.
-/

noncomputable section

namespace Cert.MeanAffine

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a sum of ones over `H` is the cardinality of `H`. -/
theorem count_eq {ε : Type*} (H : Finset ε) :
    (0 : EReal) + ∑ _e ∈ H, (1 : EReal) = ((H.card : ℝ) : EReal) := by
  rw [zero_add, ← EReal.coe_one, ← coe_sum, Finset.sum_const, nsmul_eq_mul, mul_one]

/-- A nonempty set has at least one element, so clamping its cardinality below by one changes nothing. -/
theorem max_count {ε : Type*} {H : Finset ε} (hH : H.Nonempty) :
    max ((H.card : ℝ) : EReal) 1 = ((H.card : ℝ) : EReal) := by
  apply max_eq_left
  have h1 : (1 : ℝ) ≤ (H.card : ℝ) := by exact_mod_cast Finset.one_le_card.mpr hH
  exact_mod_cast h1

/-- A family of extended reals none of which is infinite is the coercion of a family of reals. -/
theorem exists_real {ι : Type*} (f : ι → EReal) (h : ∀ i, f i ≠ ⊤ ∧ f i ≠ ⊥) :
    ∃ r : ι → ℝ, ∀ i, f i = (r i : EReal) :=
  ⟨fun i => (f i).toReal, fun i => (EReal.coe_toReal (h i).1 (h i).2).symm⟩

/-- The identity over the reals: dividing the sum of the affine images by `c = |H|` is the affine image of the
    sums divided by `c`. -/
theorem real_mean_affine {ε : Type*} {n : ℕ} (H : Finset ε) (hc : (H.card : ℝ) ≠ 0)
    (x : ε → Fin n → ℝ) (W : Fin n → ℝ) (b : ℝ) :
    (∑ e ∈ H, ((∑ l : Fin n, x e l * W l) + b)) * (1 / (H.card : ℝ))
      = (∑ l : Fin n, (∑ e ∈ H, x e l) * (1 / (H.card : ℝ)) * W l) + b := by
  rw [Finset.sum_add_distrib, Finset.sum_const, nsmul_eq_mul, Finset.sum_comm, add_mul]
  congr 1
  · rw [Finset.sum_mul]
    refine Finset.sum_congr rfl fun l _ => ?_
    rw [← Finset.sum_mul]
    ring
  · field_simp

/-- The mean over a nonempty edge set of the affine images of real rows equals the affine image of the
    mean row, with the total quotient and the count clamped below by one. -/
theorem mean_affine {ε : Type*} {n : ℕ} (H : Finset ε) (hH : H.Nonempty) (x : ε → Fin n → ℝ)
    (W : Fin n → ℝ) (b : ℝ) :
    Ideal.div ((0 : EReal) + ∑ e ∈ H, ((∑ l : Fin n, (x e l : EReal) * (W l : EReal)) + (b : EReal)))
        (max ((0 : EReal) + ∑ _e ∈ H, (1 : EReal)) 1)
      = (∑ l : Fin n, Ideal.div ((0 : EReal) + ∑ e ∈ H, (x e l : EReal))
          (max ((0 : EReal) + ∑ _e ∈ H, (1 : EReal)) 1) * (W l : EReal)) + (b : EReal) := by
  have hc : (H.card : ℝ) ≠ 0 := by exact_mod_cast (Finset.card_pos.mpr hH).ne'
  rw [count_eq, max_count hH]
  simp only [Ideal.div_coe hc, zero_add, ← EReal.coe_mul, ← coe_sum, ← EReal.coe_add]
  rw [real_mean_affine H hc]

/-- The same identity with the edge set given as the edges of a finite type that satisfy a predicate. -/
theorem mean_affine_filter {ε : Type*} {n : ℕ} [Fintype ε] [DecidableEq ε] (P : ε → Prop) [DecidablePred P]
    (hP : (Finset.univ.filter P).Nonempty) (x : ε → Fin n → ℝ) (W : Fin n → ℝ) (b : ℝ) :
    Ideal.div ((0 : EReal) + ∑ e ∈ Finset.univ.filter P,
          ((∑ l : Fin n, (x e l : EReal) * (W l : EReal)) + (b : EReal)))
        (max ((0 : EReal) + ∑ _e ∈ Finset.univ.filter P, (1 : EReal)) 1)
      = (∑ l : Fin n, Ideal.div ((0 : EReal) + ∑ e ∈ Finset.univ.filter P, (x e l : EReal))
          (max ((0 : EReal) + ∑ _e ∈ Finset.univ.filter P, (1 : EReal)) 1) * (W l : EReal)) + (b : EReal) :=
  mean_affine (Finset.univ.filter P) hP x W b

end Cert.MeanAffine
-- ==== Proof.LibGcnStats.lean ====
/-
  The algebra on the extended reals that joins two ways of writing a normalised graph convolution followed by
  batch statistics.

  First half. With `c = 1/√deg` the reciprocal square root of a node's degree `deg = 1 + (number of arriving edges)`,
  one program computes `c · (∑ₑ t e · d e + h · c) + b` and the other `∑ₑ t e · (d e · c) + h · (1/deg) + b`. They agree
  because `c` is a nonnegative finite number — for such a factor multiplication distributes over any sum of extended
  reals — and `c · c = 1/deg`. No finiteness of the messages `t e` or of `h` is needed.

  Second half. The mean of `N = A·B` numbers summed block by block is the mean of all of them, and the one-pass
  variance `max (E[y²] − μ², 0)` equals the two-pass variance `E[(y − μ)²]` when every `y` is a real number: both
  are coercions of real expressions, `∑ (y − μ)² = ∑ y² − N μ²` for `μ = (∑ y)/N`, and the common value is nonnegative.
-/
import Idealize.ShloMosaic.PureOps.Ideal
import Idealize.ShloMosaic.PureOps.Ideal.Laws
import proofs.«103646_j72808285602083_2_alg».proof.Proof.LibFoldSum
import proofs.«103646_j72808285602083_2_alg».proof.Proof.LibMeanAffine

noncomputable section

namespace Cert.GcnStats

open Idealize.ShloMosaic

/-! ### Extended reals that are real numbers -/

/-- An extended real that is the coercion of a real number. -/
def IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem isReal_zero : IsReal 0 := ⟨0, EReal.coe_zero.symm⟩

theorem isReal_one : IsReal 1 := ⟨1, EReal.coe_one.symm⟩

theorem isReal_coe (r : ℝ) : IsReal (r : EReal) := ⟨r, rfl⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ### Two literals -/

/-- The pattern of `1.0` denotes the number one. -/
theorem ofBits_one : Ideal.ofBits .f32 0x3F800000#32 = (1 : EReal) := by
  simp [Ideal.ofBits, Ideal.ieee, -EReal.coe_mul]; norm_num

/-- The pattern of `100000.0`: exponent field 143, significand `2^23 + 0x435000 = 12800000`, and
    `12800000 · 2^(143 − 127 − 23) = 100000`. -/
theorem ofBits_1e5 : Ideal.ofBits .f32 0x47C35000#32 = ((100000 : ℝ) : EReal) := by
  simp [Ideal.ofBits, Ideal.ieee, -EReal.coe_mul]; norm_num

/-! ### The degree normalisation -/

/-- The degree `1 + (number of arriving edges)` is a positive real, so its reciprocal square root `c` is a nonnegative
    real number, `1/deg` is a real number, and `c · c = 1/deg`. -/
theorem deg_facts {ι : Type*} (S : Finset ι) (deg : EReal) (hdeg : deg = (0 + ∑ _e ∈ S, (1 : EReal)) + 1) :
    0 ≤ Ideal.rsqrt deg ∧ Ideal.rsqrt deg ≠ ⊤ ∧ IsReal (Ideal.rsqrt deg) ∧ IsReal (Ideal.div 1 deg) ∧
      Ideal.rsqrt deg * Ideal.rsqrt deg = Ideal.div 1 deg := by
  have hd : deg = (((S.card : ℝ) + 1 : ℝ) : EReal) := by
    rw [hdeg, Cert.MeanAffine.count_eq, EReal.coe_add, EReal.coe_one]
  have hpos : (0 : ℝ) < (S.card : ℝ) + 1 := by positivity
  have hrs : Ideal.rsqrt deg = (((Real.sqrt ((S.card : ℝ) + 1))⁻¹ : ℝ) : EReal) := by
    rw [hd, Ideal.rsqrt_coe, if_neg (not_lt.mpr hpos.le), if_neg hpos.ne']
  have hdv : Ideal.div 1 deg = ((1 / ((S.card : ℝ) + 1) : ℝ) : EReal) := by
    rw [hd, Ideal.div_coe hpos.ne', one_mul]
  refine ⟨?_, ?_, ?_, ?_, ?_⟩
  · rw [hrs]
    exact_mod_cast inv_nonneg.mpr (Real.sqrt_nonneg _)
  · rw [hrs]
    exact EReal.coe_ne_top _
  · rw [hrs]
    exact ⟨_, rfl⟩
  · rw [hdv]
    exact ⟨_, rfl⟩
  · rw [hrs, hdv, ← EReal.coe_mul]
    congr 1
    rw [← mul_inv, Real.mul_self_sqrt hpos.le, one_div]

/-- A nonnegative finite factor distributes over a finite sum of extended reals. -/
theorem mul_sum {ι : Type*} (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- One entry of the layer: the factor `c`, common to the edges arriving at the node, taken into the sum over those
    edges and into the self term, where `c · c = r`. -/
theorem y_entry {ι : Type*} (S : Finset ι) (c r : EReal) (h0 : 0 ≤ c) (ht : c ≠ ⊤) (hr : c * c = r)
    (t dS dG : ι → EReal) (hG : ∀ e ∈ S, dG e = c) (hp bq : EReal) :
    c * ((0 + ∑ e ∈ S, t e * dS e) + hp * c) + bq
      = ((0 + ∑ e ∈ S, t e * (dS e * dG e)) + hp * r) + bq := by
  rw [EReal.left_distrib_of_nonneg_of_ne_top h0 ht, zero_add, zero_add, mul_sum S c h0 ht, ← hr,
    mul_left_comm c hp c]
  congr 2
  refine Finset.sum_congr rfl fun e he => ?_
  rw [hG e he, mul_left_comm, mul_comm c (dS e)]

/-! ### Batch statistics from per-block partial sums -/

/-- A sum over the `N = A·B` rows is the sum over the `A` blocks of `B` consecutive rows of each block's sum, the row
    `r` of block `t` being row `B·t + r`. -/
theorem sum_by_blocks {A B N : ℕ} (hN : N = A * B) (blk : Fin A → Fin B → Fin N)
    (hblk : ∀ t r, (blk t r).val = B * t.val + r.val) (f : Fin N → EReal) :
    ∑ p : Fin N, f p = ∑ t : Fin A, ∑ r : Fin B, f (blk t r) := by
  rw [Cert.FoldSum.sum_blocks hN f]
  refine Finset.sum_congr rfl fun t _ => Finset.sum_congr rfl fun r _ => congrArg f (Fin.ext ?_)
  exact (hblk t r).symm

/-- The mean taken from per-block partial sums is the mean over all rows. -/
theorem mean_blocks {A B N : ℕ} (hN : N = A * B) (blk : Fin A → Fin B → Fin N)
    (hblk : ∀ t r, (blk t r).val = B * t.val + r.val) (y : Fin N → EReal) (n : EReal) :
    Ideal.div (0 + ∑ t : Fin A, (0 + ∑ r : Fin B, y (blk t r))) n = Ideal.div (0 + ∑ p : Fin N, y p) n := by
  rw [sum_by_blocks hN blk hblk y]
  simp only [zero_add]

/-- Over the reals, with `μ = (∑ z)/N`: `(∑ z²)/N − μ² = (∑ (z − μ)²)/N`. -/
theorem real_var {N : ℕ} (hpos : 0 < N) (z : Fin N → ℝ) (m : ℝ) (hm : m = (∑ p : Fin N, z p) * (1 / (N : ℝ))) :
    (∑ p : Fin N, z p * z p) * (1 / (N : ℝ)) - m * m = (∑ p : Fin N, (z p - m) * (z p - m)) * (1 / (N : ℝ)) := by
  have hN : (N : ℝ) ≠ 0 := by exact_mod_cast hpos.ne'
  have hs : ∑ p : Fin N, z p = (N : ℝ) * m := by rw [hm]; field_simp
  have h : ∀ p, (z p - m) * (z p - m) = z p * z p - 2 * m * z p + m * m := fun p => by ring
  simp only [h, Finset.sum_add_distrib, Finset.sum_sub_distrib, ← Finset.mul_sum, Finset.sum_const,
    Finset.card_univ, Fintype.card_fin, nsmul_eq_mul]
  rw [hs]
  field_simp
  ring

/-- The one-pass variance from per-block partial sums of squares, clamped below by zero, is the two-pass variance,
    when every entry is a real number. -/
theorem var_onepass {A B N : ℕ} (hN : N = A * B) (hpos : 0 < N) (blk : Fin A → Fin B → Fin N)
    (hblk : ∀ t r, (blk t r).val = B * t.val + r.val) (y : Fin N → EReal) (hy : ∀ p, IsReal (y p))
    (n : EReal) (hn : n = ((N : ℝ) : EReal)) (mu : EReal) (hmu : mu = Ideal.div (0 + ∑ p : Fin N, y p) n) :
    max (Ideal.div (0 + ∑ t : Fin A, (0 + ∑ r : Fin B, y (blk t r) * y (blk t r))) n - mu * mu) 0
      = Ideal.div (0 + ∑ p : Fin N, (y p - mu) * (y p - mu)) n := by
  have hNr : (N : ℝ) ≠ 0 := by exact_mod_cast hpos.ne'
  choose z hz using hy
  have hmu' : mu = (((∑ p : Fin N, z p) * (1 / (N : ℝ)) : ℝ) : EReal) := by
    rw [hmu, hn, Ideal.div_coe hNr, zero_add]
    simp only [hz, ← Cert.MeanAffine.coe_sum, ← EReal.coe_mul]
  have hL : (0 + ∑ t : Fin A, (0 + ∑ r : Fin B, y (blk t r) * y (blk t r)))
      = ((∑ p : Fin N, z p * z p : ℝ) : EReal) := by
    simp only [zero_add]
    rw [← sum_by_blocks hN blk hblk (fun p => y p * y p)]
    simp only [hz, ← EReal.coe_mul, ← Cert.MeanAffine.coe_sum]
  rw [hL, hn, Ideal.div_coe hNr, Ideal.div_coe hNr, hmu', zero_add]
  simp only [hz, ← EReal.coe_mul, ← EReal.coe_sub, ← Cert.MeanAffine.coe_sum]
  rw [real_var hpos z _ rfl]
  apply max_eq_left
  have h0 : (0 : ℝ) ≤ (∑ p : Fin N, (z p - (∑ p : Fin N, z p) * (1 / (N : ℝ))) * (z p - (∑ p : Fin N, z p) * (1 / (N : ℝ))))
      * (1 / (N : ℝ)) :=
    mul_nonneg (Finset.sum_nonneg fun p _ => mul_self_nonneg _) (by positivity)
  exact_mod_cast h0

/-- A real number divided by a nonzero real number is a real number. -/
theorem isReal_div_coe {a : EReal} (ha : IsReal a) {N : ℝ} (hN : N ≠ 0) : IsReal (Ideal.div a (N : EReal)) := by
  rw [Ideal.div_coe hN]
  exact ha.mul (isReal_coe _)

/-- The reciprocal square root of a positive real number is a real number. -/
theorem isReal_rsqrt_pos {a : EReal} (ha : IsReal a) (hpos : 0 < a) : IsReal (Ideal.rsqrt a) := by
  obtain ⟨x, rfl⟩ := ha
  have hx : 0 < x := by exact_mod_cast hpos
  rw [Ideal.rsqrt_coe, if_neg (not_lt.mpr hx.le), if_neg hx.ne']
  exact ⟨_, rfl⟩

end Cert.GcnStats

end
-- ==== Proof.LibSageBn.lean ====
/-
  Two mean-aggregating graph layers with a batch normalisation between them, as whole-array functions on the
  extended reals.

  A layer takes the sum `A` of every node's in-neighbours' rows, the nodes' own rows `X`, a per-node factor `s` (one
  column: the reciprocal of the in-degree clamped below by one), two weight matrices and a one-row bias, and forms
  `(A scaled row by row by s) · wl + X · wr + b`.  Between the layers every column `q` of the first layer's result
  `Y` is normalised: with `μ q = (0 + ∑ₚ Y (p, q)) / n` and a variance `v q`, the entry becomes
  `max (((Y (p, q) − μ q) · rsqrt (v q + ε)) · γ q + β q, 0)`.

  The variance is written in two ways.  One pass: `max ((0 + ∑ₚ Y (p, q)²) / n − μ q · μ q, 0)`.  Two passes:
  `(0 + ∑ₚ (Y (p, q) − μ q)²) / n`.  Over the real numbers, with `n` the number of rows,
  `(∑ y²)/n − μ² = (∑ (y − μ)²)/n ≥ 0`, so the two agree when every entry of `Y` is a real number; on the extended
  reals they need not (an infinite entry makes `∞ − ∞` appear on one side only), which is why the entries' finiteness
  is asked for.

  The aggregation `agg` is a parameter: both programs aggregate by the same gather and segment sum.
-/
import proofs.«103646_j72808285602083_2_alg».proof.Proof.LibSageNet
import proofs.«103646_j72808285602083_2_alg».proof.Proof.LibGcnStats

noncomputable section

open scoped BigOperators

namespace Cert.SageBn

open Idealize.ShloMosaic Idealize.ShloMosaic.ValueIdx Cert.Dense Cert.RowScale Cert.BiasRow Cert.SageDense Cert.SageNet
  Cert.GcnStats

/-- The column means as a one-row array: `(0 + ∑ₚ Y (p, q)) / n`. -/
def colMean {M K : ℕ} (n : EReal) (Y : Mat M K) : Mat 1 K :=
  fun i => Ideal.div (0 + ∑ p : Fin M, Y (ix2 p (c1 i))) n

/-- The one-pass column variances: `max ((0 + ∑ₚ Y (p, q)²) / n − μ q · μ q, 0)`. -/
def varOne {M K : ℕ} (n : EReal) (Y : Mat M K) : Mat 1 K :=
  fun i => max (Ideal.div (0 + ∑ p : Fin M, Y (ix2 p (c1 i)) * Y (ix2 p (c1 i))) n - colMean n Y i * colMean n Y i) 0

/-- The two-pass column variances: `(0 + ∑ₚ (Y (p, q) − μ q)²) / n`. -/
def varTwo {M K : ℕ} (n : EReal) (Y : Mat M K) : Mat 1 K :=
  fun i => Ideal.div (0 + ∑ p : Fin M, (Y (ix2 p (c1 i)) - colMean n Y i) * (Y (ix2 p (c1 i)) - colMean n Y i)) n

/-- Normalise every column by its mean and variance, scale, shift and rectify. -/
def bnRelu {M K : ℕ} (Y : Mat M K) (mu var ga be : Mat 1 K) (eps : EReal) : Mat M K :=
  fun i => max ((((Y i - mu (ix2 (0 : Fin 1) (c1 i))) * Ideal.rsqrt (var (ix2 (0 : Fin 1) (c1 i)) + eps))
    * ga (ix2 (0 : Fin 1) (c1 i))) + be (ix2 (0 : Fin 1) (c1 i))) 0

theorem bnRelu_apply {M K : ℕ} (Y : Mat M K) (mu var ga be : Mat 1 K) (eps : EReal) (p : Fin M) (q : Fin K) :
    bnRelu Y mu var ga be eps (ix2 p q)
      = max ((((Y (ix2 p q) - mu (ix2 (0 : Fin 1) q)) * Ideal.rsqrt (var (ix2 (0 : Fin 1) q) + eps))
        * ga (ix2 (0 : Fin 1) q)) + be (ix2 (0 : Fin 1) q)) 0 := rfl

/-- The network: a layer, the normalisation with the variance `var` of the first layer's result, a second layer over the
    aggregate of the normalised rows. -/
def net {M K P : ℕ} (var : EReal → Mat M K → Mat 1 K) (agg : Mat M K → Mat M K) (s : Mat M 1) (x : Mat M K)
    (wl1 wr1 : Mat K K) (b1 ga be : Mat 1 K) (wl2 wr2 : Mat K P) (b2 : Mat 1 P) (n eps : EReal) : Mat M P :=
  layer (agg (bnRelu (layer (agg x) x s wl1 wr1 b1) (colMean n (layer (agg x) x s wl1 wr1 b1))
      (var n (layer (agg x) x s wl1 wr1 b1)) ga be eps))
    (bnRelu (layer (agg x) x s wl1 wr1 b1) (colMean n (layer (agg x) x s wl1 wr1 b1))
      (var n (layer (agg x) x s wl1 wr1 b1)) ga be eps) s wl2 wr2 b2

/-- When every entry is a real number and `n` is the number of rows, the one-pass variance is the two-pass one. -/
theorem varOne_eq_varTwo {M K : ℕ} (hpos : 0 < M) (n : EReal) (hn : n = ((M : ℝ) : EReal)) (Y : Mat M K)
    (hY : ∀ i, IsReal (Y i)) : varOne n Y = varTwo n Y := by
  funext i
  have h := var_onepass (A := 1) (B := M) (N := M) (one_mul M).symm hpos (fun _ r => r)
    (fun t r => by
      obtain rfl : t = 0 := Subsingleton.elim _ _
      show r.val = M * 0 + r.val
      omega)
    (fun p => Y (ix2 p (c1 i))) (fun p => hY _) n hn (colMean n Y i) rfl
  simp only [Fin.sum_univ_one, zero_add] at h
  show max (Ideal.div (0 + ∑ p : Fin M, Y (ix2 p (c1 i)) * Y (ix2 p (c1 i))) n - colMean n Y i * colMean n Y i) 0
    = Ideal.div (0 + ∑ p : Fin M, (Y (ix2 p (c1 i)) - colMean n Y i) * (Y (ix2 p (c1 i)) - colMean n Y i)) n
  simp only [zero_add]
  exact h

/-- The two networks agree when the first layer's result is real everywhere. -/
theorem net_one_eq_two {M K P : ℕ} (hpos : 0 < M) (agg : Mat M K → Mat M K) (s : Mat M 1) (x : Mat M K)
    (wl1 wr1 : Mat K K) (b1 ga be : Mat 1 K) (wl2 wr2 : Mat K P) (b2 : Mat 1 P) (n eps : EReal)
    (hn : n = ((M : ℝ) : EReal)) (hY : ∀ i, IsReal (layer (agg x) x s wl1 wr1 b1 i)) :
    net varOne agg s x wl1 wr1 b1 ga be wl2 wr2 b2 n eps = net varTwo agg s x wl1 wr1 b1 ga be wl2 wr2 b2 n eps := by
  unfold net
  rw [varOne_eq_varTwo hpos n hn _ hY]

/-- A layer's entry is a real number when every array it reads holds real numbers. -/
theorem isReal_layer {M K N : ℕ} (A X : Mat M K) (s : Mat M 1) (wl wr : Mat K N) (b : Mat 1 N)
    (hA : ∀ i, IsReal (A i)) (hX : ∀ i, IsReal (X i)) (hs : ∀ i, IsReal (s i)) (hl : ∀ i, IsReal (wl i))
    (hr : ∀ i, IsReal (wr i)) (hb : ∀ i, IsReal (b i)) (i : (⟨2, ![M, N]⟩ : Shape).Idx) :
    IsReal (layer A X s wl wr b i) := by
  show IsReal ((mm (scaleRows A s) wl i + mm X wr i) + b (ix2 (0 : Fin 1) (c1 i)))
  refine IsReal.add (IsReal.add ?_ ?_) (hb _)
  · exact isReal_sum _ _ fun k _ => IsReal.mul (IsReal.mul (hA _) (hs _)) (hl _)
  · exact isReal_sum _ _ fun k _ => IsReal.mul (hX _) (hr _)

end Cert.SageBn

end
-- ==== Proof.LibResSage.lean ====
/-
  A residual mean-aggregating graph network with batch normalisation, as whole-array functions on the extended reals.

  Nodes carry rows of `K` channels.  The network embeds the input features (`x · we + bE`), then applies three
  blocks.  A block forms, for every node, its own row times `ws` plus the mean of its in-neighbours' rows times `wn`
  plus a bias row — the mean being the neighbours' row sum `agg H` scaled by the per-node factor `s` (the reciprocal
  of the in-degree clamped below by one) —, normalises every channel over all nodes by its mean and a variance,
  scales, shifts and rectifies; the second and third blocks add the block's input back.  A two-step head
  `relu (H · w1 + c1) · w2 + c2` ends it.

  The neighbour sum `agg` and the variance `var` are parameters: one program sums over the edges in their given order
  and takes the two-pass variance, the other sums over the edges sorted by destination and takes the one-pass variance
  from block sums.  A sum does not depend on the order of its terms, and the two variances agree on real entries.
-/
import proofs.«103646_j72808285602083_2_alg».proof.Proof.LibSageBn

noncomputable section

open scoped BigOperators

namespace Cert.ResSage

open Idealize.ShloMosaic Idealize.ShloMosaic.ValueIdx Cert.Dense Cert.RowScale Cert.BiasRow Cert.SageDense Cert.SageBn
  Cert.GcnStats

/-- Layer `l` of a stack of `L` weight matrices, as a matrix. -/
def slab {L K N : ℕ} (W : (⟨3, ![L, K, N]⟩ : Shape).Idx → EReal) (l : Fin L) : Mat K N := fun i => W (ix3 l (c0 i) (c1 i))

/-- Row `l` of a stack of `L` rows, as a one-row matrix. -/
def rowAt {L N : ℕ} (B : Mat L N) (l : Fin L) : Mat 1 N := fun i => B (ix2 l (c1 i))

theorem slab_apply {L K N : ℕ} (W : (⟨3, ![L, K, N]⟩ : Shape).Idx → EReal) (l : Fin L) (k : Fin K) (q : Fin N) :
    slab W l (ix2 k q) = W (ix3 l k q) := rfl

theorem rowAt_apply {L N : ℕ} (B : Mat L N) (l : Fin L) (u : Fin 1) (q : Fin N) : rowAt B l (ix2 u q) = B (ix2 l q) := rfl

/-- The embedding: features times weights plus a bias row. -/
def embed {M J K : ℕ} (x : Mat M J) (we : Mat J K) (bE : Mat 1 K) : Mat M K := addRow (mm x we) bE

/-- One aggregation step before normalisation: own rows times `ws`, plus the neighbours' row sums `A` scaled row by
    row by `s` times `wn`, plus the bias row. -/
def conv {M K N : ℕ} (X A : Mat M K) (s : Mat M 1) (ws wn : Mat K N) (b : Mat 1 N) : Mat M N :=
  lin X (scaleRows A s) ws wn b

/-- Batch normalisation over the rows with the variance functional `var`, then scale, shift, rectify. -/
def norm {M K : ℕ} (var : EReal → Mat M K → Mat 1 K) (n eps : EReal) (Y : Mat M K) (ga be : Mat 1 K) : Mat M K :=
  bnRelu Y (colMean n Y) (var n Y) ga be eps

/-- Entrywise sum of two arrays (the residual connection). -/
def addRes {M K : ℕ} (Z R : Mat M K) : Mat M K := fun i => Z i + R i

/-- The head: `relu (H · w1 + c1) · w2 + c2`. -/
def head {M K P Q : ℕ} (H : Mat M K) (w1 : Mat K P) (c1' : Mat 1 P) (w2 : Mat P Q) (c2 : Mat 1 Q) : Mat M Q :=
  addRow (mm (reluBias (mm H w1) c1') w2) c2

/-- The first block: no residual. -/
def block0 {M K : ℕ} (var : EReal → Mat M K → Mat 1 K) (agg : Mat M K → Mat M K) (s : Mat M 1) (n eps : EReal)
    (H : Mat M K) (ws wn : Mat K K) (b ga be : Mat 1 K) : Mat M K :=
  norm var n eps (conv H (agg H) s ws wn b) ga be

/-- A later block: the normalised rows plus the block's input. -/
def blockR {M K : ℕ} (var : EReal → Mat M K → Mat 1 K) (agg : Mat M K → Mat M K) (s : Mat M 1) (n eps : EReal)
    (H : Mat M K) (ws wn : Mat K K) (b ga be : Mat 1 K) : Mat M K :=
  addRes (norm var n eps (conv H (agg H) s ws wn b) ga be) H

/-- The network. -/
def net {M J K P Q : ℕ} (var : EReal → Mat M K → Mat 1 K) (agg : Mat M K → Mat M K) (s : Mat M 1) (n eps : EReal)
    (x : Mat M J) (we : Mat J K) (bE : Mat 1 K)
    (ws0 wn0 : Mat K K) (b0 g0 be0 : Mat 1 K) (ws1 wn1 : Mat K K) (b1 g1 be1 : Mat 1 K)
    (ws2 wn2 : Mat K K) (b2 g2 be2 : Mat 1 K)
    (w1 : Mat K P) (c1' : Mat 1 P) (w2 : Mat P Q) (c2 : Mat 1 Q) : Mat M Q :=
  head (blockR var agg s n eps (blockR var agg s n eps (block0 var agg s n eps (embed x we bE) ws0 wn0 b0 g0 be0)
    ws1 wn1 b1 g1 be1) ws2 wn2 b2 g2 be2) w1 c1' w2 c2

end Cert.ResSage

end
-- ==== Proof.Region0.lean ====
/-
  The embedding region, read as one whole-array function.

  The region walks the rows of the `[100000, 12]` feature array in 25 blocks of 4000 rows.  At every block it reads the
  block, the whole `[12, 128]` weight matrix and the whole bias vector of 128 entries, and stores the block's rows times
  the weights plus the bias under every row: at row `p` and column `q` of the block, `∑ₖ x (p, k) · w (k, q) + b q`.  That
  entry reads row `p` of the block only; row `r` of the array lies in block `r / 4000` at row `r % 4000`, and every row
  lies in exactly one block; so after the region the result array holds, at every `(r, q)`, the same sum over row `r` of
  the whole feature array.
-/
import proofs.«103646_j72808285602083_2_alg».proof.Proof.Gen.KernelIdeal.Frame
import proofs.«103646_j72808285602083_2_alg».proof.Proof.LibBiasRow
import proofs.«103646_j72808285602083_2_alg».proof.Proof.LibResSage
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Cert.Dense Cert.BiasRow Cert.ResSage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's value: the block of feature rows times the weights (a product into a zero accumulator; the operands'
    change of float format is the identity on the extended reals) plus the bias laid out as a row under every row. -/
theorem pay_eq (x0 : Vec Ideal S4000x12 .f32) (x1 : Vec Ideal S12x128 .f32) (x2 : Vec Ideal S128 .f32) :
    k0_pay1 x0 x1 x2 = embed (x0 : Mat 4000 12) (x1 : Mat 12 128) (row x2) := by
  unfold k0_pay1
  show addf (matmul (F := Ideal) dot_S4000x12_S12x128_S4000x128_1_0_0_1_n_n none (truncf .bf16 x0 bitsLt_bf16_f32)
      (truncf .bf16 x1 bitsLt_bf16_f32) (constant S4000x128 .f32 0x00000000#32))
    (broadcastTo S4000x128 (shapeCast S1x128 x2 shapeCasts_S128_S1x128) broadcasts_S1x128_S4000x128) = _
  rw [matmul_zero_eq_mm dot_S4000x12_S12x128_S4000x128_1_0_0_1_n_n rfl rfl rfl rfl rfl rfl, shapeCast_row, vecAddRow]
  rfl

/-- The body's value at an entry of a block whose row is row `i 0` of the whole feature array and whose weights and bias
    are the whole ones: the embedding of the whole array at `i`. -/
theorem point_eq (X : Mat 100000 12) (we : Mat 12 128) (bE : Row 128)
    (x0 : Vec Ideal S4000x12 .f32) (x1 : Vec Ideal S12x128 .f32) (x2 : Vec Ideal S128 .f32)
    (y : S4000x128.Idx) (i : S100000x128.Idx)
    (hc : (y 1).val = (i 1).val)
    (h0 : ∀ k : Fin 12, x0 (ix2 (c0 y) k) = X (ix2 (c0 i) k))
    (h1 : ∀ (k : Fin 12) (q : Fin 128), x1 (ix2 k q) = we (ix2 k q))
    (h2 : ∀ q : Fin 128, x2 (ix1 q) = bE (ix1 q)) :
    k0_pay1 x0 x1 x2 y = embed X we (row bE) i := by
  rw [pay_eq]
  have hq : (c1 y : Fin 128) = c1 i := Fin.ext hc
  unfold embed
  refine addRow_at (mm X we) (row bE) (mm (x0 : Mat 4000 12) (x1 : Mat 12 128)) (row x2) y i ?_ ?_
  · refine mm_at X we (x0 : Mat 4000 12) (x1 : Mat 12 128) y i h0 (fun k => ?_)
    rw [hq]; exact h1 k _
  · rw [hq]; exact h2 _

/-- The printed index maps, decided once over the grid: the features' and the result's row blocks move with the point,
    the weights' and the bias's blocks stay at zero. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- The whole result: the embedding of the whole feature array. -/
abbrev G (c : Dev nD) : Mat 100000 128 :=
  embed (V c main_arg0 : Mat 100000 12) (V c main_arg2 : Mat 12 128) (row (V c main_arg3))

/-- What point `t` writes back is block `t` of the whole result. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz2]
  simp only [View.ld_unit_zero (S := S4000x12) hz2, View.ld_unit_zero (S := S12x128) hz2, View.ld_unit_zero (S := S128) hz1]
  obtain ⟨e00, e01, e30, e31, e10, e11, e2⟩ := idx_facts t
  funext j
  show k0_pay1 (iblk0 V c 0 t) (iblk0 V c 1 t) (iblk0 V c 2 t) j = G V c (((cfg0.win 3).blk t).view.emb j)
  refine point_eq (V c main_arg0) (V c main_arg2) (V c main_arg3) _ _ _ j _ ?_ ?_ ?_ ?_
  · show (j 1).val = win0_3.index t (1 : Fin 2) * 128 + 1 * (j 1).val
    omega
  · intro k
    show V c main_arg0 (((cfg0.win 0).blk t).view.emb (ix2 (c0 j) k))
      = V c main_arg0 (ix2 (c0 (((cfg0.win 3).blk t).view.emb j)) k)
    refine congrArg _ (funext fun a => Fin.ext ?_)
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 12 + 1 * k.val = k.val; omega
  · intro k q
    show V c main_arg2 (((cfg0.win 1).blk t).view.emb (ix2 k q)) = V c main_arg2 (ix2 k q)
    refine congrArg _ (funext fun a => Fin.ext ?_)
    match a with
    | ⟨0, _⟩ => show win0_1.index t (0 : Fin 2) * 12 + 1 * k.val = k.val; omega
    | ⟨1, _⟩ => show win0_1.index t (1 : Fin 2) * 128 + 1 * q.val = q.val; omega
  · intro q
    show V c main_arg3 (((cfg0.win 2).blk t).view.emb (ix1 q)) = V c main_arg3 (ix1 q)
    refine congrArg _ (funext fun a => Fin.ext ?_)
    match a with
    | ⟨0, _⟩ => show win0_2.index t (0 : Fin 1) * 128 + 1 * q.val = q.val; omega

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v28).slice (win0_3.rect t)).set ↔ _
  rw [View.set_slice_whole, Rect.mem_set_unit]
  exact Iff.rfl

/-- Row `r` of the result is written by point `r / 4000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, e30, e31, -⟩ := idx_facts ⟨(i 0).val / 4000, ht⟩
  refine ⟨⟨(i 0).val / 4000, ht⟩, flush0_3 _, ?_⟩
  rw [mem_blk]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 128 ≤ (i 1).val
      ∧ (i 1).val < win0_3.index ⟨(i 0).val / 4000, ht⟩ (1 : Fin 2) * 128 + 128
    rw [e31]; omega

/-- REGION 0: the result array after the region, entry by entry, is the embedding of the feature array. -/
theorem arr (c : Dev nD) (p : Fin 100000) (q : Fin 128) :
    (dat0 (F := Ideal) V c).arrAt 3 cfg0.N (ix2 p q)
      = embed (V c main_arg0 : Mat 100000 12) (V c main_arg2 : Mat 12 128) (row (V c main_arg3)) (ix2 p q) :=
  congrFun ((dat0 V c).arrAt_eq_of_cover 3 (G V c) (fun t _ => flushed_eq V c t) cover) (ix2 p q)

end Cert.KernelIdeal.Region0

end
-- ==== Proof.LibEdgeAgg.lean ====
/-
  Sums over the edges that arrive at a node, on the extended reals.

  An edge list of `E` edges gives every edge a source node `src e` and a destination, kept as the signed reading
  `dst e` of its index entry (an entry that names no node of the graph arrives nowhere).  `aggOf src dst H` is, at
  node `p` and channel `q`, `0 +` the sum of `H (src e, q)` over the edges with `dst e = p`; `invDeg dst` is the
  column `1 / max (0 + number of edges with dst e = p) 1`.  `nodeOf N b` is the node a signed 32-bit index entry `b`
  names once clamped into `[0, N-1]`, and `wrapW n b` the entry after the negative-index wrap `b < 0 ? b + n : b`.

  Both sums run over a filtered set of edges, so renumbering the edges by a permutation changes neither.
-/
import proofs.«103646_j72808285602083_2_alg».proof.Proof.LibSageBn

noncomputable section

open scoped BigOperators

namespace Cert.EdgeAgg

open Idealize.ShloMosaic Idealize.ShloMosaic.ValueIdx Cert.Dense

/-- The negative-index wrap of a signed 32-bit entry: `b + n` when `b < 0`, else `b`. -/
def wrapW (n b : BitVec 32) : BitVec 32 := Scalar.select (IntOp.cmpi .slt b 0#32) (IntOp.addi b n) b

/-- The node a signed 32-bit entry names after clamping into `[0, N-1]`. -/
def nodeOf (N : ℕ) (hN : 0 < N) (b : BitVec 32) : Fin N := ⟨min b.toInt.toNat (N - 1), by omega⟩

/-- The edges arriving at node `p`. -/
def arriving {E : ℕ} (dst : Fin E → ℤ) (p : ℕ) : Finset (Fin E) := Finset.univ.filter (fun e : Fin E => dst e = (p : ℤ))

/-- Row sums over arriving edges: at `(p, q)`, `0 + ∑ H (src e, q)` over the edges with `dst e = p`. -/
def aggOf {E M K : ℕ} (src : Fin E → Fin M) (dst : Fin E → ℤ) (H : Mat M K) : Mat M K :=
  fun i => 0 + ∑ e ∈ arriving dst (c0 i).val, H (ix2 (src e) (c1 i))

/-- The in-degree of node `p` as a sum of ones from zero. -/
def degOf {E : ℕ} (dst : Fin E → ℤ) (p : ℕ) : EReal := 0 + ∑ _e ∈ arriving dst p, (1 : EReal)

/-- The per-node factor: the reciprocal of the in-degree clamped below by one, as a column. -/
def invDeg {E M : ℕ} (dst : Fin E → ℤ) : Mat M 1 := fun i => Ideal.div 1 (max (degOf dst (c0 i).val) 1)

theorem aggOf_apply {E M K : ℕ} (src : Fin E → Fin M) (dst : Fin E → ℤ) (H : Mat M K) (p : Fin M) (q : Fin K) :
    aggOf src dst H (ix2 p q) = 0 + ∑ e ∈ arriving dst p.val, H (ix2 (src e) q) := rfl

theorem invDeg_apply {E M : ℕ} (dst : Fin E → ℤ) (p : Fin M) (u : Fin 1) :
    invDeg (M := M) dst (ix2 p u) = Ideal.div 1 (max (degOf dst p.val) 1) := rfl

end Cert.EdgeAgg

end
-- ==== Proof.KDefs.lean ====
/-
  The idealized kernel program's intermediate arrays as whole-array functions of the launch memory.

  With the sorted edge arrays and the per-node factor as the first host stretch leaves them, `aggK` is the neighbour
  sum over the sorted edges; `h0` is the embedding, `h1`, `h2`, `h3` the three blocks' results with the one-pass
  variance, and `out` the head applied to `h3`: the specification's network.
-/
import proofs.«103646_j72808285602083_2_alg».proof.Proof.Gen.KernelIdeal.Frame
import proofs.«103646_j72808285602083_2_alg».proof.Proof.LibResSage
import proofs.«103646_j72808285602083_2_alg».proof.Proof.LibEdgeAgg

noncomputable section

namespace Cert.KernelIdeal.KDefs

open Idealize.ShloMosaic Idealize.ShloMosaic.TcCoe Idealize.ShloMosaic.ValueIdx Idealize.SL.Sem
open Cert.KernelIdeal Cert.KernelIdeal.Gen Cert.Dense Cert.EdgeAgg Cert.ResSage Cert.SageBn

variable (m : (ℓ : Loc nD τ sig) → Buf (Elt Ideal) ℓ) (ρ : Dev nD → PrngReg)

/-- The number of rows and the normalisation's epsilon, as the programs' constants. -/
abbrev nE : EReal := Ideal.ofBits .f32 0x47C35000#32
abbrev epsE : EReal := Ideal.ofBits .f32 0x3727C5AC#32

/-- The sorted edges' source nodes, destination entries read signed, and the per-node factor. -/
def srcN (c : Dev nD) : Fin 600000 → Fin 100000 := fun e =>
  nodeOf 100000 (by decide) (wrapW 100000#32 ((W3 m ρ c (Proc.devRef .tc main_v11) : IVec S600000 32) (ix1 e)))
def dstI (c : Dev nD) : Fin 600000 → ℤ := fun e => ((W3 m ρ c (Proc.devRef .tc main_v18) : IVec S600000 32) (ix1 e)).toInt
def aggK (c : Dev nD) : Mat 100000 128 → Mat 100000 128 := aggOf (srcN m ρ c) (dstI m ρ c)
def sK (c : Dev nD) : Mat 100000 1 := (W3 m ρ c (Proc.devRef .tc main_v27) : Mat 100000 1)

/-- The argument arrays at their matrix types. -/
def aX (c : Dev nD) : Mat 100000 12 := (m ((c : Thread nD τ).loc main_arg0))
def aWE (c : Dev nD) : Mat 12 128 := (m ((c : Thread nD τ).loc main_arg2))
def aBE (c : Dev nD) : Row 128 := (m ((c : Thread nD τ).loc main_arg3))
def aWS (c : Dev nD) : (⟨3, ![3, 128, 128]⟩ : Shape).Idx → EReal := (m ((c : Thread nD τ).loc main_arg4))
def aWN (c : Dev nD) : (⟨3, ![3, 128, 128]⟩ : Shape).Idx → EReal := (m ((c : Thread nD τ).loc main_arg5))
def aCB (c : Dev nD) : Mat 3 128 := (m ((c : Thread nD τ).loc main_arg6))
def aGA (c : Dev nD) : Mat 3 128 := (m ((c : Thread nD τ).loc main_arg7))
def aBT (c : Dev nD) : Mat 3 128 := (m ((c : Thread nD τ).loc main_arg8))
def aW1 (c : Dev nD) : Mat 128 64 := (m ((c : Thread nD τ).loc main_arg9))
def aC1 (c : Dev nD) : Row 64 := (m ((c : Thread nD τ).loc main_arg10))
def aW2 (c : Dev nD) : Mat 64 2 := (m ((c : Thread nD τ).loc main_arg11))
def aC2 (c : Dev nD) : Row 2 := (m ((c : Thread nD τ).loc main_arg12))

/-- The embedding and the three blocks. -/
def h0 (c : Dev nD) : Mat 100000 128 := embed (aX m c) (aWE m c) (row (aBE m c))
def y1 (c : Dev nD) : Mat 100000 128 :=
  conv (h0 m c) (aggK m ρ c (h0 m c)) (sK m ρ c) (slab (aWS m c) 0) (slab (aWN m c) 0) (rowAt (aCB m c) 0)
def h1 (c : Dev nD) : Mat 100000 128 :=
  block0 varOne (aggK m ρ c) (sK m ρ c) nE epsE (h0 m c) (slab (aWS m c) 0) (slab (aWN m c) 0) (rowAt (aCB m c) 0)
    (rowAt (aGA m c) 0) (rowAt (aBT m c) 0)
def y2 (c : Dev nD) : Mat 100000 128 :=
  conv (h1 m ρ c) (aggK m ρ c (h1 m ρ c)) (sK m ρ c) (slab (aWS m c) 1) (slab (aWN m c) 1) (rowAt (aCB m c) 1)
def h2 (c : Dev nD) : Mat 100000 128 :=
  blockR varOne (aggK m ρ c) (sK m ρ c) nE epsE (h1 m ρ c) (slab (aWS m c) 1) (slab (aWN m c) 1) (rowAt (aCB m c) 1)
    (rowAt (aGA m c) 1) (rowAt (aBT m c) 1)
def y3 (c : Dev nD) : Mat 100000 128 :=
  conv (h2 m ρ c) (aggK m ρ c (h2 m ρ c)) (sK m ρ c) (slab (aWS m c) 2) (slab (aWN m c) 2) (rowAt (aCB m c) 2)
def h3 (c : Dev nD) : Mat 100000 128 :=
  blockR varOne (aggK m ρ c) (sK m ρ c) nE epsE (h2 m ρ c) (slab (aWS m c) 2) (slab (aWN m c) 2) (rowAt (aCB m c) 2)
    (rowAt (aGA m c) 2) (rowAt (aBT m c) 2)
def out (c : Dev nD) : Mat 100000 2 := head (h3 m ρ c) (aW1 m c) (row (aC1 m c)) (aW2 m c) (row (aC2 m c))

theorem h1_eq (c : Dev nD) : h1 m ρ c = norm varOne nE epsE (y1 m ρ c) (rowAt (aGA m c) 0) (rowAt (aBT m c) 0) := rfl
theorem h2_eq (c : Dev nD) : h2 m ρ c = addRes (norm varOne nE epsE (y2 m ρ c) (rowAt (aGA m c) 1) (rowAt (aBT m c) 1)) (h1 m ρ c) := rfl
theorem h3_eq (c : Dev nD) : h3 m ρ c = addRes (norm varOne nE epsE (y3 m ρ c) (rowAt (aGA m c) 2) (rowAt (aBT m c) 2)) (h2 m ρ c) := rfl

/-- The result is the specification's network with the one-pass variance over the sorted edges. -/
theorem out_eq (c : Dev nD) : out m ρ c = net varOne (aggK m ρ c) (sK m ρ c) nE epsE (aX m c) (aWE m c) (row (aBE m c))
    (slab (aWS m c) 0) (slab (aWN m c) 0) (rowAt (aCB m c) 0) (rowAt (aGA m c) 0) (rowAt (aBT m c) 0)
    (slab (aWS m c) 1) (slab (aWN m c) 1) (rowAt (aCB m c) 1) (rowAt (aGA m c) 1) (rowAt (aBT m c) 1)
    (slab (aWS m c) 2) (slab (aWN m c) 2) (rowAt (aCB m c) 2) (rowAt (aGA m c) 2) (rowAt (aBT m c) 2)
    (aW1 m c) (row (aC1 m c)) (aW2 m c) (row (aC2 m c)) := rfl

end Cert.KernelIdeal.KDefs

end
-- ==== Proof.KKeep.lean ====
/-
  Buffers that a stretch of host operations does not write keep their contents across it.

  For each of the nine stretches of host operations of the idealized kernel program, the list of the buffers
  its operations write, and the fact that any other buffer holds after the stretch what it held before.
-/
import proofs.«103646_j72808285602083_2_alg».proof.Proof.Gen.KernelIdeal.Frame

noncomputable section

namespace Cert.KernelIdeal.Keep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The buffers the operations of stretch `hostOps0` write, in order. -/
def wr0 : List (Ref sig .tc) := [main_v0, main_v1, main_v2, main_v3]

/-- A buffer none of them writes is unchanged across the stretch. -/
theorem keep0 (c : Dev nD) (b : Ref sig .tc) (hb : ∀ x ∈ wr0, b ≠ x) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers the operations of stretch `hostOps0_1` write, in order. -/
def wr0_1 : List (Ref sig .tc) := [main_call0_v0, main_call0_v1_0, main_v4]

/-- A buffer none of them writes is unchanged across the stretch. -/
theorem keep0_1 (c : Dev nD) (b : Ref sig .tc) (hb : ∀ x ∈ wr0_1, b ≠ x) :
    W2 m ρ c (Proc.devRef .tc b) = W1 m ρ c (Proc.devRef .tc b) :=
  StableHlo.after_of_forall_not_mem (b := Proc.devRef .tc b) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers the operations of stretch `hostOps0_2` write, in order. -/
def wr0_2 : List (Ref sig .tc) := [main_c, main_v5, main_v6, main_c_0, main_v7, main_v8, main_v9, main_v10, main_v11, main_c_1, main_v12, main_v13, main_c_2, main_v14, main_v15, main_v16, main_v17, main_v18, main_cst, main_v19, main_cst_3, main_v20, main_v21, main_v22, main_cst_4, main_v23, main_v24, main_cst_5, main_v25, main_v26, main_v27]

/-- A buffer none of them writes is unchanged across the stretch. -/
theorem keep0_2 (c : Dev nD) (b : Ref sig .tc) (hb : ∀ x ∈ wr0_2, b ≠ x) :
    W3 m ρ c (Proc.devRef .tc b) = W2 m ρ c (Proc.devRef .tc b) :=
  StableHlo.after_of_forall_not_mem (b := Proc.devRef .tc b) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers the operations of stretch `hostOps1` write, in order. -/
def wr1 : List (Ref sig .tc) := [main_v29, main_c_6, main_v30, main_v31, main_c_7, main_v32, main_v33, main_v34, main_v35, main_v36, main_v37, main_cst_8, main_v38, main_v39, main_v40, main_v41, main_v42, main_v43, main_v44, main_v45, main_v46]

/-- A buffer none of them writes is unchanged across the stretch. -/
theorem keep1 (c : Dev nD) (b : Ref sig .tc) (hb : ∀ x ∈ wr1, b ≠ x) :
    W5 m ρ c (Proc.devRef .tc b) = W4 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers the operations of stretch `hostOps2` write, in order. -/
def wr2 : List (Ref sig .tc) := [main_v48, main_v49, main_cst_9, main_v50, main_v51, main_v52, main_cst_10, main_v53, main_cst_11, main_v54, main_v55, main_cst_12, main_v56, main_v57, main_v58, main_v59, main_cst_13, main_v60, main_v61, main_v62, main_v63, main_v64, main_v65]

/-- A buffer none of them writes is unchanged across the stretch. -/
theorem keep2 (c : Dev nD) (b : Ref sig .tc) (hb : ∀ x ∈ wr2, b ≠ x) :
    W7 m ρ c (Proc.devRef .tc b) = W6 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers the operations of stretch `hostOps3` write, in order. -/
def wr3 : List (Ref sig .tc) := [main_c_14, main_v67, main_v68, main_c_15, main_v69, main_v70, main_v71, main_v72, main_v73, main_v74, main_cst_16, main_v75, main_v76, main_v77, main_v78, main_v79, main_v80, main_v81, main_v82, main_v83]

/-- A buffer none of them writes is unchanged across the stretch. -/
theorem keep3 (c : Dev nD) (b : Ref sig .tc) (hb : ∀ x ∈ wr3, b ≠ x) :
    W9 m ρ c (Proc.devRef .tc b) = W8 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers the operations of stretch `hostOps4` write, in order. -/
def wr4 : List (Ref sig .tc) := [main_v85, main_v86, main_cst_17, main_v87, main_v88, main_v89, main_cst_18, main_v90, main_cst_19, main_v91, main_v92, main_cst_20, main_v93, main_v94, main_v95, main_v96, main_cst_21, main_v97, main_v98, main_v99, main_v100, main_v101, main_v102]

/-- A buffer none of them writes is unchanged across the stretch. -/
theorem keep4 (c : Dev nD) (b : Ref sig .tc) (hb : ∀ x ∈ wr4, b ≠ x) :
    W11 m ρ c (Proc.devRef .tc b) = W10 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers the operations of stretch `hostOps5` write, in order. -/
def wr5 : List (Ref sig .tc) := [main_c_22, main_v104, main_v105, main_c_23, main_v106, main_v107, main_v108, main_v109, main_v110, main_v111, main_cst_24, main_v112, main_v113, main_v114, main_v115, main_v116, main_v117, main_v118, main_v119, main_v120]

/-- A buffer none of them writes is unchanged across the stretch. -/
theorem keep5 (c : Dev nD) (b : Ref sig .tc) (hb : ∀ x ∈ wr5, b ≠ x) :
    W13 m ρ c (Proc.devRef .tc b) = W12 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- The buffers the operations of stretch `hostOps6` write, in order. -/
def wr6 : List (Ref sig .tc) := [main_v122, main_v123, main_cst_25, main_v124, main_v125, main_v126, main_cst_26, main_v127, main_cst_27, main_v128, main_v129, main_cst_28, main_v130, main_v131, main_v132, main_v133, main_cst_29, main_v134, main_v135, main_v136, main_v137, main_v138, main_v139]

/-- A buffer none of them writes is unchanged across the stretch. -/
theorem keep6 (c : Dev nD) (b : Ref sig .tc) (hb : ∀ x ∈ wr6, b ≠ x) :
    W15 m ρ c (Proc.devRef .tc b) = W14 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

end Cert.KernelIdeal.Keep

end
-- ==== Proof.KArgs.lean ====
/-
  The argument arrays at the boundaries between the segments of the idealized kernel program: no host operation
  writes an argument and no region's write-back reaches one, so at every boundary an argument holds its launch contents.
-/
import proofs.«103646_j72808285602083_2_alg».proof.Proof.KKeep

noncomputable section

namespace Cert.KernelIdeal.KArgs

open Idealize.ShloMosaic Idealize.ShloMosaic.TcCoe Idealize.SL.Sem
open Idealize.ShloMosaic.Pipeline (Dat)
open Cert.KernelIdeal Cert.KernelIdeal.Gen Cert.KernelIdeal.Keep

variable {F : FTy → Type} [FloatOps F]
variable (m : (ℓ : Loc nD τ sig) → Buf (Elt F) ℓ) (ρ : Dev nD → PrngReg)

theorem arg0_W1 (c : Dev nD) : W1 m ρ c (Proc.devRef .tc main_arg0) = m ((c : Thread nD τ).loc main_arg0) :=
  (keep0 m ρ c main_arg0 (by decide)).trans (rfl)
theorem arg0_W2 (c : Dev nD) : W2 m ρ c (Proc.devRef .tc main_arg0) = m ((c : Thread nD τ).loc main_arg0) :=
  (keep0_1 m ρ c main_arg0 (by decide)).trans (arg0_W1 m ρ c)
theorem arg0_W3 (c : Dev nD) : W3 m ρ c (Proc.devRef .tc main_arg0) = m ((c : Thread nD τ).loc main_arg0) :=
  (keep0_2 m ρ c main_arg0 (by decide)).trans (arg0_W2 m ρ c)

theorem arg2_W1 (c : Dev nD) : W1 m ρ c (Proc.devRef .tc main_arg2) = m ((c : Thread nD τ).loc main_arg2) :=
  (keep0 m ρ c main_arg2 (by decide)).trans (rfl)
theorem arg2_W2 (c : Dev nD) : W2 m ρ c (Proc.devRef .tc main_arg2) = m ((c : Thread nD τ).loc main_arg2) :=
  (keep0_1 m ρ c main_arg2 (by decide)).trans (arg2_W1 m ρ c)
theorem arg2_W3 (c : Dev nD) : W3 m ρ c (Proc.devRef .tc main_arg2) = m ((c : Thread nD τ).loc main_arg2) :=
  (keep0_2 m ρ c main_arg2 (by decide)).trans (arg2_W2 m ρ c)

theorem arg3_W1 (c : Dev nD) : W1 m ρ c (Proc.devRef .tc main_arg3) = m ((c : Thread nD τ).loc main_arg3) :=
  (keep0 m ρ c main_arg3 (by decide)).trans (rfl)
theorem arg3_W2 (c : Dev nD) : W2 m ρ c (Proc.devRef .tc main_arg3) = m ((c : Thread nD τ).loc main_arg3) :=
  (keep0_1 m ρ c main_arg3 (by decide)).trans (arg3_W1 m ρ c)
theorem arg3_W3 (c : Dev nD) : W3 m ρ c (Proc.devRef .tc main_arg3) = m ((c : Thread nD τ).loc main_arg3) :=
  (keep0_2 m ρ c main_arg3 (by decide)).trans (arg3_W2 m ρ c)

theorem arg4_W1 (c : Dev nD) : W1 m ρ c (Proc.devRef .tc main_arg4) = m ((c : Thread nD τ).loc main_arg4) :=
  (keep0 m ρ c main_arg4 (by decide)).trans (rfl)
theorem arg4_W2 (c : Dev nD) : W2 m ρ c (Proc.devRef .tc main_arg4) = m ((c : Thread nD τ).loc main_arg4) :=
  (keep0_1 m ρ c main_arg4 (by decide)).trans (arg4_W1 m ρ c)
theorem arg4_W3 (c : Dev nD) : W3 m ρ c (Proc.devRef .tc main_arg4) = m ((c : Thread nD τ).loc main_arg4) :=
  (keep0_2 m ρ c main_arg4 (by decide)).trans (arg4_W2 m ρ c)
theorem arg4_W4 (c : Dev nD) : W4 m ρ c (Proc.devRef .tc main_arg4) = m ((c : Thread nD τ).loc main_arg4) :=
  (W4_of_ne m ρ c main_arg4 (by decide)).trans (arg4_W3 m ρ c)
theorem arg4_W5 (c : Dev nD) : W5 m ρ c (Proc.devRef .tc main_arg4) = m ((c : Thread nD τ).loc main_arg4) :=
  (keep1 m ρ c main_arg4 (by decide)).trans (arg4_W4 m ρ c)
theorem arg4_W6 (c : Dev nD) : W6 m ρ c (Proc.devRef .tc main_arg4) = m ((c : Thread nD τ).loc main_arg4) :=
  (W6_of_ne m ρ c main_arg4 (by decide)).trans (arg4_W5 m ρ c)
theorem arg4_W7 (c : Dev nD) : W7 m ρ c (Proc.devRef .tc main_arg4) = m ((c : Thread nD τ).loc main_arg4) :=
  (keep2 m ρ c main_arg4 (by decide)).trans (arg4_W6 m ρ c)
theorem arg4_W8 (c : Dev nD) : W8 m ρ c (Proc.devRef .tc main_arg4) = m ((c : Thread nD τ).loc main_arg4) :=
  (W8_of_ne m ρ c main_arg4 (by decide)).trans (arg4_W7 m ρ c)
theorem arg4_W9 (c : Dev nD) : W9 m ρ c (Proc.devRef .tc main_arg4) = m ((c : Thread nD τ).loc main_arg4) :=
  (keep3 m ρ c main_arg4 (by decide)).trans (arg4_W8 m ρ c)
theorem arg4_W10 (c : Dev nD) : W10 m ρ c (Proc.devRef .tc main_arg4) = m ((c : Thread nD τ).loc main_arg4) :=
  (W10_of_ne m ρ c main_arg4 (by decide)).trans (arg4_W9 m ρ c)
theorem arg4_W11 (c : Dev nD) : W11 m ρ c (Proc.devRef .tc main_arg4) = m ((c : Thread nD τ).loc main_arg4) :=
  (keep4 m ρ c main_arg4 (by decide)).trans (arg4_W10 m ρ c)
theorem arg4_W12 (c : Dev nD) : W12 m ρ c (Proc.devRef .tc main_arg4) = m ((c : Thread nD τ).loc main_arg4) :=
  (W12_of_ne m ρ c main_arg4 (by decide)).trans (arg4_W11 m ρ c)

theorem arg5_W1 (c : Dev nD) : W1 m ρ c (Proc.devRef .tc main_arg5) = m ((c : Thread nD τ).loc main_arg5) :=
  (keep0 m ρ c main_arg5 (by decide)).trans (rfl)
theorem arg5_W2 (c : Dev nD) : W2 m ρ c (Proc.devRef .tc main_arg5) = m ((c : Thread nD τ).loc main_arg5) :=
  (keep0_1 m ρ c main_arg5 (by decide)).trans (arg5_W1 m ρ c)
theorem arg5_W3 (c : Dev nD) : W3 m ρ c (Proc.devRef .tc main_arg5) = m ((c : Thread nD τ).loc main_arg5) :=
  (keep0_2 m ρ c main_arg5 (by decide)).trans (arg5_W2 m ρ c)
theorem arg5_W4 (c : Dev nD) : W4 m ρ c (Proc.devRef .tc main_arg5) = m ((c : Thread nD τ).loc main_arg5) :=
  (W4_of_ne m ρ c main_arg5 (by decide)).trans (arg5_W3 m ρ c)
theorem arg5_W5 (c : Dev nD) : W5 m ρ c (Proc.devRef .tc main_arg5) = m ((c : Thread nD τ).loc main_arg5) :=
  (keep1 m ρ c main_arg5 (by decide)).trans (arg5_W4 m ρ c)
theorem arg5_W6 (c : Dev nD) : W6 m ρ c (Proc.devRef .tc main_arg5) = m ((c : Thread nD τ).loc main_arg5) :=
  (W6_of_ne m ρ c main_arg5 (by decide)).trans (arg5_W5 m ρ c)
theorem arg5_W7 (c : Dev nD) : W7 m ρ c (Proc.devRef .tc main_arg5) = m ((c : Thread nD τ).loc main_arg5) :=
  (keep2 m ρ c main_arg5 (by decide)).trans (arg5_W6 m ρ c)
theorem arg5_W8 (c : Dev nD) : W8 m ρ c (Proc.devRef .tc main_arg5) = m ((c : Thread nD τ).loc main_arg5) :=
  (W8_of_ne m ρ c main_arg5 (by decide)).trans (arg5_W7 m ρ c)
theorem arg5_W9 (c : Dev nD) : W9 m ρ c (Proc.devRef .tc main_arg5) = m ((c : Thread nD τ).loc main_arg5) :=
  (keep3 m ρ c main_arg5 (by decide)).trans (arg5_W8 m ρ c)
theorem arg5_W10 (c : Dev nD) : W10 m ρ c (Proc.devRef .tc main_arg5) = m ((c : Thread nD τ).loc main_arg5) :=
  (W10_of_ne m ρ c main_arg5 (by decide)).trans (arg5_W9 m ρ c)
theorem arg5_W11 (c : Dev nD) : W11 m ρ c (Proc.devRef .tc main_arg5) = m ((c : Thread nD τ).loc main_arg5) :=
  (keep4 m ρ c main_arg5 (by decide)).trans (arg5_W10 m ρ c)
theorem arg5_W12 (c : Dev nD) : W12 m ρ c (Proc.devRef .tc main_arg5) = m ((c : Thread nD τ).loc main_arg5) :=
  (W12_of_ne m ρ c main_arg5 (by decide)).trans (arg5_W11 m ρ c)

theorem arg6_W1 (c : Dev nD) : W1 m ρ c (Proc.devRef .tc main_arg6) = m ((c : Thread nD τ).loc main_arg6) :=
  (keep0 m ρ c main_arg6 (by decide)).trans (rfl)
theorem arg6_W2 (c : Dev nD) : W2 m ρ c (Proc.devRef .tc main_arg6) = m ((c : Thread nD τ).loc main_arg6) :=
  (keep0_1 m ρ c main_arg6 (by decide)).trans (arg6_W1 m ρ c)
theorem arg6_W3 (c : Dev nD) : W3 m ρ c (Proc.devRef .tc main_arg6) = m ((c : Thread nD τ).loc main_arg6) :=
  (keep0_2 m ρ c main_arg6 (by decide)).trans (arg6_W2 m ρ c)
theorem arg6_W4 (c : Dev nD) : W4 m ρ c (Proc.devRef .tc main_arg6) = m ((c : Thread nD τ).loc main_arg6) :=
  (W4_of_ne m ρ c main_arg6 (by decide)).trans (arg6_W3 m ρ c)
theorem arg6_W5 (c : Dev nD) : W5 m ρ c (Proc.devRef .tc main_arg6) = m ((c : Thread nD τ).loc main_arg6) :=
  (keep1 m ρ c main_arg6 (by decide)).trans (arg6_W4 m ρ c)
theorem arg6_W6 (c : Dev nD) : W6 m ρ c (Proc.devRef .tc main_arg6) = m ((c : Thread nD τ).loc main_arg6) :=
  (W6_of_ne m ρ c main_arg6 (by decide)).trans (arg6_W5 m ρ c)
theorem arg6_W7 (c : Dev nD) : W7 m ρ c (Proc.devRef .tc main_arg6) = m ((c : Thread nD τ).loc main_arg6) :=
  (keep2 m ρ c main_arg6 (by decide)).trans (arg6_W6 m ρ c)
theorem arg6_W8 (c : Dev nD) : W8 m ρ c (Proc.devRef .tc main_arg6) = m ((c : Thread nD τ).loc main_arg6) :=
  (W8_of_ne m ρ c main_arg6 (by decide)).trans (arg6_W7 m ρ c)
theorem arg6_W9 (c : Dev nD) : W9 m ρ c (Proc.devRef .tc main_arg6) = m ((c : Thread nD τ).loc main_arg6) :=
  (keep3 m ρ c main_arg6 (by decide)).trans (arg6_W8 m ρ c)
theorem arg6_W10 (c : Dev nD) : W10 m ρ c (Proc.devRef .tc main_arg6) = m ((c : Thread nD τ).loc main_arg6) :=
  (W10_of_ne m ρ c main_arg6 (by decide)).trans (arg6_W9 m ρ c)
theorem arg6_W11 (c : Dev nD) : W11 m ρ c (Proc.devRef .tc main_arg6) = m ((c : Thread nD τ).loc main_arg6) :=
  (keep4 m ρ c main_arg6 (by decide)).trans (arg6_W10 m ρ c)
theorem arg6_W12 (c : Dev nD) : W12 m ρ c (Proc.devRef .tc main_arg6) = m ((c : Thread nD τ).loc main_arg6) :=
  (W12_of_ne m ρ c main_arg6 (by decide)).trans (arg6_W11 m ρ c)

theorem arg7_W1 (c : Dev nD) : W1 m ρ c (Proc.devRef .tc main_arg7) = m ((c : Thread nD τ).loc main_arg7) :=
  (keep0 m ρ c main_arg7 (by decide)).trans (rfl)
theorem arg7_W2 (c : Dev nD) : W2 m ρ c (Proc.devRef .tc main_arg7) = m ((c : Thread nD τ).loc main_arg7) :=
  (keep0_1 m ρ c main_arg7 (by decide)).trans (arg7_W1 m ρ c)
theorem arg7_W3 (c : Dev nD) : W3 m ρ c (Proc.devRef .tc main_arg7) = m ((c : Thread nD τ).loc main_arg7) :=
  (keep0_2 m ρ c main_arg7 (by decide)).trans (arg7_W2 m ρ c)
theorem arg7_W4 (c : Dev nD) : W4 m ρ c (Proc.devRef .tc main_arg7) = m ((c : Thread nD τ).loc main_arg7) :=
  (W4_of_ne m ρ c main_arg7 (by decide)).trans (arg7_W3 m ρ c)
theorem arg7_W5 (c : Dev nD) : W5 m ρ c (Proc.devRef .tc main_arg7) = m ((c : Thread nD τ).loc main_arg7) :=
  (keep1 m ρ c main_arg7 (by decide)).trans (arg7_W4 m ρ c)
theorem arg7_W6 (c : Dev nD) : W6 m ρ c (Proc.devRef .tc main_arg7) = m ((c : Thread nD τ).loc main_arg7) :=
  (W6_of_ne m ρ c main_arg7 (by decide)).trans (arg7_W5 m ρ c)
theorem arg7_W7 (c : Dev nD) : W7 m ρ c (Proc.devRef .tc main_arg7) = m ((c : Thread nD τ).loc main_arg7) :=
  (keep2 m ρ c main_arg7 (by decide)).trans (arg7_W6 m ρ c)
theorem arg7_W8 (c : Dev nD) : W8 m ρ c (Proc.devRef .tc main_arg7) = m ((c : Thread nD τ).loc main_arg7) :=
  (W8_of_ne m ρ c main_arg7 (by decide)).trans (arg7_W7 m ρ c)
theorem arg7_W9 (c : Dev nD) : W9 m ρ c (Proc.devRef .tc main_arg7) = m ((c : Thread nD τ).loc main_arg7) :=
  (keep3 m ρ c main_arg7 (by decide)).trans (arg7_W8 m ρ c)
theorem arg7_W10 (c : Dev nD) : W10 m ρ c (Proc.devRef .tc main_arg7) = m ((c : Thread nD τ).loc main_arg7) :=
  (W10_of_ne m ρ c main_arg7 (by decide)).trans (arg7_W9 m ρ c)
theorem arg7_W11 (c : Dev nD) : W11 m ρ c (Proc.devRef .tc main_arg7) = m ((c : Thread nD τ).loc main_arg7) :=
  (keep4 m ρ c main_arg7 (by decide)).trans (arg7_W10 m ρ c)
theorem arg7_W12 (c : Dev nD) : W12 m ρ c (Proc.devRef .tc main_arg7) = m ((c : Thread nD τ).loc main_arg7) :=
  (W12_of_ne m ρ c main_arg7 (by decide)).trans (arg7_W11 m ρ c)
theorem arg7_W13 (c : Dev nD) : W13 m ρ c (Proc.devRef .tc main_arg7) = m ((c : Thread nD τ).loc main_arg7) :=
  (keep5 m ρ c main_arg7 (by decide)).trans (arg7_W12 m ρ c)
theorem arg7_W14 (c : Dev nD) : W14 m ρ c (Proc.devRef .tc main_arg7) = m ((c : Thread nD τ).loc main_arg7) :=
  (W14_of_ne m ρ c main_arg7 (by decide)).trans (arg7_W13 m ρ c)

theorem arg8_W1 (c : Dev nD) : W1 m ρ c (Proc.devRef .tc main_arg8) = m ((c : Thread nD τ).loc main_arg8) :=
  (keep0 m ρ c main_arg8 (by decide)).trans (rfl)
theorem arg8_W2 (c : Dev nD) : W2 m ρ c (Proc.devRef .tc main_arg8) = m ((c : Thread nD τ).loc main_arg8) :=
  (keep0_1 m ρ c main_arg8 (by decide)).trans (arg8_W1 m ρ c)
theorem arg8_W3 (c : Dev nD) : W3 m ρ c (Proc.devRef .tc main_arg8) = m ((c : Thread nD τ).loc main_arg8) :=
  (keep0_2 m ρ c main_arg8 (by decide)).trans (arg8_W2 m ρ c)
theorem arg8_W4 (c : Dev nD) : W4 m ρ c (Proc.devRef .tc main_arg8) = m ((c : Thread nD τ).loc main_arg8) :=
  (W4_of_ne m ρ c main_arg8 (by decide)).trans (arg8_W3 m ρ c)
theorem arg8_W5 (c : Dev nD) : W5 m ρ c (Proc.devRef .tc main_arg8) = m ((c : Thread nD τ).loc main_arg8) :=
  (keep1 m ρ c main_arg8 (by decide)).trans (arg8_W4 m ρ c)
theorem arg8_W6 (c : Dev nD) : W6 m ρ c (Proc.devRef .tc main_arg8) = m ((c : Thread nD τ).loc main_arg8) :=
  (W6_of_ne m ρ c main_arg8 (by decide)).trans (arg8_W5 m ρ c)
theorem arg8_W7 (c : Dev nD) : W7 m ρ c (Proc.devRef .tc main_arg8) = m ((c : Thread nD τ).loc main_arg8) :=
  (keep2 m ρ c main_arg8 (by decide)).trans (arg8_W6 m ρ c)
theorem arg8_W8 (c : Dev nD) : W8 m ρ c (Proc.devRef .tc main_arg8) = m ((c : Thread nD τ).loc main_arg8) :=
  (W8_of_ne m ρ c main_arg8 (by decide)).trans (arg8_W7 m ρ c)
theorem arg8_W9 (c : Dev nD) : W9 m ρ c (Proc.devRef .tc main_arg8) = m ((c : Thread nD τ).loc main_arg8) :=
  (keep3 m ρ c main_arg8 (by decide)).trans (arg8_W8 m ρ c)
theorem arg8_W10 (c : Dev nD) : W10 m ρ c (Proc.devRef .tc main_arg8) = m ((c : Thread nD τ).loc main_arg8) :=
  (W10_of_ne m ρ c main_arg8 (by decide)).trans (arg8_W9 m ρ c)
theorem arg8_W11 (c : Dev nD) : W11 m ρ c (Proc.devRef .tc main_arg8) = m ((c : Thread nD τ).loc main_arg8) :=
  (keep4 m ρ c main_arg8 (by decide)).trans (arg8_W10 m ρ c)
theorem arg8_W12 (c : Dev nD) : W12 m ρ c (Proc.devRef .tc main_arg8) = m ((c : Thread nD τ).loc main_arg8) :=
  (W12_of_ne m ρ c main_arg8 (by decide)).trans (arg8_W11 m ρ c)
theorem arg8_W13 (c : Dev nD) : W13 m ρ c (Proc.devRef .tc main_arg8) = m ((c : Thread nD τ).loc main_arg8) :=
  (keep5 m ρ c main_arg8 (by decide)).trans (arg8_W12 m ρ c)
theorem arg8_W14 (c : Dev nD) : W14 m ρ c (Proc.devRef .tc main_arg8) = m ((c : Thread nD τ).loc main_arg8) :=
  (W14_of_ne m ρ c main_arg8 (by decide)).trans (arg8_W13 m ρ c)

end Cert.KernelIdeal.KArgs

end
-- ==== Proof.KL0.lean ====
/-
  The first link of the chain of boundary contents: after the embedding region the embedded array holds the embedding
  of the launch's feature array by the launch's embedding weights and bias.

  The region's result is the embedding of the three arrays as the region finds them; the three are arguments, which no
  earlier operation writes, so the region finds them as launched.
-/
import proofs.«103646_j72808285602083_2_alg».proof.Proof.Region0
import proofs.«103646_j72808285602083_2_alg».proof.Proof.KDefs
import proofs.«103646_j72808285602083_2_alg».proof.Proof.KArgs

noncomputable section

namespace Cert.KernelIdeal.KL0

open Cert.KernelIdeal Cert.KernelIdeal.Gen Idealize.ShloMosaic Idealize.ShloMosaic.TcCoe Idealize.SL.Sem
open Idealize.ShloMosaic.ValueIdx Cert.Dense Cert.ResSage Cert.KernelIdeal.KDefs Cert.KernelIdeal.KArgs

variable (m : (ℓ : Loc nD τ sig) → Buf (Elt Ideal) ℓ) (ρ : Dev nD → PrngReg)

/-- After the embedding region the embedded array is the embedding of the launch's features. -/
theorem v28_W4 (c : Dev nD) : (W4 m ρ c (Proc.devRef .tc main_v28) : Mat 100000 128) = h0 m c := by
  have e0 : (V3 m ρ c main_arg0 : Mat 100000 12) = aX m c := arg0_W3 m ρ c
  have e2 : (V3 m ρ c main_arg2 : Mat 12 128) = aWE m c := arg2_W3 m ρ c
  have e3 : (V3 m ρ c main_arg3 : Row 128) = aBE m c := arg3_W3 m ρ c
  funext i
  obtain ⟨p, q, rfl⟩ : ∃ (p : Fin 100000) (q : Fin 128), i = ix2 p q := ⟨i 0, i 1, eq_ix2 i⟩
  refine ((congrFun (W4_arr m ρ c 3) (ix2 p q)).trans (Region0.arr (V3 m ρ) c p q)).trans ?_
  rw [e0, e2, e3]
  rfl

end Cert.KernelIdeal.KL0

end
-- ==== Proof.KEdges.lean ====
/-
  The sorted edge arrays and the per-node factor at the later boundaries: they are computed before the first region
  and nothing writes them afterwards (the factor passes through three regions as an input window).
-/
import proofs.«103646_j72808285602083_2_alg».proof.Proof.KKeep

noncomputable section

namespace Cert.KernelIdeal.KEdges

open Idealize.ShloMosaic Idealize.ShloMosaic.TcCoe Idealize.SL.Sem
open Idealize.ShloMosaic.Pipeline (Dat)
open Cert.KernelIdeal Cert.KernelIdeal.Gen Cert.KernelIdeal.Keep

variable {F : FTy → Type} [FloatOps F]
variable (m : (ℓ : Loc nD τ sig) → Buf (Elt F) ℓ) (ρ : Dev nD → PrngReg)

theorem v11_W4 (c : Dev nD) : W4 m ρ c (Proc.devRef .tc main_v11) = W3 m ρ c (Proc.devRef .tc main_v11) :=
  W4_of_ne m ρ c main_v11 (by decide)
theorem v11_W5 (c : Dev nD) : W5 m ρ c (Proc.devRef .tc main_v11) = W3 m ρ c (Proc.devRef .tc main_v11) :=
  (keep1 m ρ c main_v11 (by decide)).trans (v11_W4 m ρ c)
theorem v11_W6 (c : Dev nD) : W6 m ρ c (Proc.devRef .tc main_v11) = W3 m ρ c (Proc.devRef .tc main_v11) :=
  (W6_of_ne m ρ c main_v11 (by decide)).trans (v11_W5 m ρ c)
theorem v11_W7 (c : Dev nD) : W7 m ρ c (Proc.devRef .tc main_v11) = W3 m ρ c (Proc.devRef .tc main_v11) :=
  (keep2 m ρ c main_v11 (by decide)).trans (v11_W6 m ρ c)
theorem v11_W8 (c : Dev nD) : W8 m ρ c (Proc.devRef .tc main_v11) = W3 m ρ c (Proc.devRef .tc main_v11) :=
  (W8_of_ne m ρ c main_v11 (by decide)).trans (v11_W7 m ρ c)
theorem v11_W9 (c : Dev nD) : W9 m ρ c (Proc.devRef .tc main_v11) = W3 m ρ c (Proc.devRef .tc main_v11) :=
  (keep3 m ρ c main_v11 (by decide)).trans (v11_W8 m ρ c)
theorem v11_W10 (c : Dev nD) : W10 m ρ c (Proc.devRef .tc main_v11) = W3 m ρ c (Proc.devRef .tc main_v11) :=
  (W10_of_ne m ρ c main_v11 (by decide)).trans (v11_W9 m ρ c)
theorem v11_W11 (c : Dev nD) : W11 m ρ c (Proc.devRef .tc main_v11) = W3 m ρ c (Proc.devRef .tc main_v11) :=
  (keep4 m ρ c main_v11 (by decide)).trans (v11_W10 m ρ c)
theorem v11_W12 (c : Dev nD) : W12 m ρ c (Proc.devRef .tc main_v11) = W3 m ρ c (Proc.devRef .tc main_v11) :=
  (W12_of_ne m ρ c main_v11 (by decide)).trans (v11_W11 m ρ c)

theorem v18_W4 (c : Dev nD) : W4 m ρ c (Proc.devRef .tc main_v18) = W3 m ρ c (Proc.devRef .tc main_v18) :=
  W4_of_ne m ρ c main_v18 (by decide)
theorem v18_W5 (c : Dev nD) : W5 m ρ c (Proc.devRef .tc main_v18) = W3 m ρ c (Proc.devRef .tc main_v18) :=
  (keep1 m ρ c main_v18 (by decide)).trans (v18_W4 m ρ c)
theorem v18_W6 (c : Dev nD) : W6 m ρ c (Proc.devRef .tc main_v18) = W3 m ρ c (Proc.devRef .tc main_v18) :=
  (W6_of_ne m ρ c main_v18 (by decide)).trans (v18_W5 m ρ c)
theorem v18_W7 (c : Dev nD) : W7 m ρ c (Proc.devRef .tc main_v18) = W3 m ρ c (Proc.devRef .tc main_v18) :=
  (keep2 m ρ c main_v18 (by decide)).trans (v18_W6 m ρ c)
theorem v18_W8 (c : Dev nD) : W8 m ρ c (Proc.devRef .tc main_v18) = W3 m ρ c (Proc.devRef .tc main_v18) :=
  (W8_of_ne m ρ c main_v18 (by decide)).trans (v18_W7 m ρ c)
theorem v18_W9 (c : Dev nD) : W9 m ρ c (Proc.devRef .tc main_v18) = W3 m ρ c (Proc.devRef .tc main_v18) :=
  (keep3 m ρ c main_v18 (by decide)).trans (v18_W8 m ρ c)
theorem v18_W10 (c : Dev nD) : W10 m ρ c (Proc.devRef .tc main_v18) = W3 m ρ c (Proc.devRef .tc main_v18) :=
  (W10_of_ne m ρ c main_v18 (by decide)).trans (v18_W9 m ρ c)
theorem v18_W11 (c : Dev nD) : W11 m ρ c (Proc.devRef .tc main_v18) = W3 m ρ c (Proc.devRef .tc main_v18) :=
  (keep4 m ρ c main_v18 (by decide)).trans (v18_W10 m ρ c)
theorem v18_W12 (c : Dev nD) : W12 m ρ c (Proc.devRef .tc main_v18) = W3 m ρ c (Proc.devRef .tc main_v18) :=
  (W12_of_ne m ρ c main_v18 (by decide)).trans (v18_W11 m ρ c)

theorem v27_W4 (c : Dev nD) : W4 m ρ c (Proc.devRef .tc main_v27) = W3 m ρ c (Proc.devRef .tc main_v27) :=
  W4_of_ne m ρ c main_v27 (by decide)
theorem v27_W5 (c : Dev nD) : W5 m ρ c (Proc.devRef .tc main_v27) = W3 m ρ c (Proc.devRef .tc main_v27) :=
  (keep1 m ρ c main_v27 (by decide)).trans (v27_W4 m ρ c)
theorem v27_W6 (c : Dev nD) : W6 m ρ c (Proc.devRef .tc main_v27) = W3 m ρ c (Proc.devRef .tc main_v27) :=
  ((W6_arr m ρ c 2).trans (((dat1 (V5 m ρ) c).arrAt_in 2 rfl _).trans (A_eq1 (V5 m ρ) c 2))).trans (v27_W5 m ρ c)
theorem v27_W7 (c : Dev nD) : W7 m ρ c (Proc.devRef .tc main_v27) = W3 m ρ c (Proc.devRef .tc main_v27) :=
  (keep2 m ρ c main_v27 (by decide)).trans (v27_W6 m ρ c)
theorem v27_W8 (c : Dev nD) : W8 m ρ c (Proc.devRef .tc main_v27) = W3 m ρ c (Proc.devRef .tc main_v27) :=
  (W8_of_ne m ρ c main_v27 (by decide)).trans (v27_W7 m ρ c)
theorem v27_W9 (c : Dev nD) : W9 m ρ c (Proc.devRef .tc main_v27) = W3 m ρ c (Proc.devRef .tc main_v27) :=
  (keep3 m ρ c main_v27 (by decide)).trans (v27_W8 m ρ c)
theorem v27_W10 (c : Dev nD) : W10 m ρ c (Proc.devRef .tc main_v27) = W3 m ρ c (Proc.devRef .tc main_v27) :=
  ((W10_arr m ρ c 2).trans (((dat3 (V9 m ρ) c).arrAt_in 2 rfl _).trans (A_eq3 (V9 m ρ) c 2))).trans (v27_W9 m ρ c)
theorem v27_W11 (c : Dev nD) : W11 m ρ c (Proc.devRef .tc main_v27) = W3 m ρ c (Proc.devRef .tc main_v27) :=
  (keep4 m ρ c main_v27 (by decide)).trans (v27_W10 m ρ c)
theorem v27_W12 (c : Dev nD) : W12 m ρ c (Proc.devRef .tc main_v27) = W3 m ρ c (Proc.devRef .tc main_v27) :=
  (W12_of_ne m ρ c main_v27 (by decide)).trans (v27_W11 m ρ c)
theorem v27_W13 (c : Dev nD) : W13 m ρ c (Proc.devRef .tc main_v27) = W3 m ρ c (Proc.devRef .tc main_v27) :=
  (keep5 m ρ c main_v27 (by decide)).trans (v27_W12 m ρ c)

end Cert.KernelIdeal.KEdges

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«103646_j72808285602083_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«103646_j72808285602083_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibHalves.lean ====
/-
  Two arrays laid side by side, and a band of columns cut out again, read at an index.

  A concatenation of an `[K, C₁]` and an `[K, C₂]` array along the columns reads, at column `q' < C₁`, the first array
  at that column and, at column `C₁ + q`, the second at column `q`; likewise two vectors laid end to end. A slice of an
  `[N, C']` array that keeps every row and the columns `o … o + C - 1` reads, at column `q`, the array at column `o + q`.
  The target extent `C'` is a free parameter, so that a printed numeral (`256` for `128 + 128`) fits.
-/
import Idealize.ShloMosaic.Lib.ValueIdx
import Idealize.ShloMosaic.Lib.Pipeline.Value

namespace Cert.Halves

open Idealize.ShloMosaic Idealize.ShloMosaic.ValueIdx

variable {α : Type}

/-- Columns: a column of the left piece. -/
theorem concat_cols_left {K C1 C2 C' : ℕ} (x₁ : (⟨2, ![K, C1]⟩ : Shape).Idx → α) (x₂ : (⟨2, ![K, C2]⟩ : Shape).Idx → α)
    (h : Shape.Concatenates [⟨2, ![K, C1]⟩, ⟨2, ![K, C2]⟩] ⟨2, ![K, C']⟩ 1) (k : Fin K) (q : Fin C1) (q' : Fin C')
    (hq : q'.val = q.val) :
    concatenate ⟨2, ![K, C']⟩ 1 [⟨⟨2, ![K, C1]⟩, x₁⟩, ⟨⟨2, ![K, C2]⟩, x₂⟩] h (ix2 k q') = x₁ (ix2 k q) :=
  concatenate_pair_apply_left 1 x₁ x₂ h (ix2 k q') rfl (ix2 k q)
    (fun b => match b with | ⟨0, _⟩ => rfl | ⟨1, _⟩ => hq.symm)

/-- Columns: a column of the right piece. -/
theorem concat_cols_right {K C1 C2 C' : ℕ} (x₁ : (⟨2, ![K, C1]⟩ : Shape).Idx → α) (x₂ : (⟨2, ![K, C2]⟩ : Shape).Idx → α)
    (h : Shape.Concatenates [⟨2, ![K, C1]⟩, ⟨2, ![K, C2]⟩] ⟨2, ![K, C']⟩ 1) (k : Fin K) (q : Fin C2) (q' : Fin C')
    (hq : q'.val = C1 + q.val) :
    concatenate ⟨2, ![K, C']⟩ 1 [⟨⟨2, ![K, C1]⟩, x₁⟩, ⟨⟨2, ![K, C2]⟩, x₂⟩] h (ix2 k q') = x₂ (ix2 k q) :=
  concatenate_pair_apply_right 1 x₁ x₂ h (ix2 k q') rfl rfl (ix2 k q)
    (fun b => match b with | ⟨0, _⟩ => fun _ => rfl | ⟨1, _⟩ => fun hne => absurd rfl hne)
    (by show q.val + C1 = q'.val; omega)

/-- Vectors: an entry of the left piece. -/
theorem concat_vec_left {C1 C2 C' : ℕ} (x₁ : (⟨1, ![C1]⟩ : Shape).Idx → α) (x₂ : (⟨1, ![C2]⟩ : Shape).Idx → α)
    (h : Shape.Concatenates [⟨1, ![C1]⟩, ⟨1, ![C2]⟩] ⟨1, ![C']⟩ 0) (q : Fin C1) (q' : Fin C') (hq : q'.val = q.val) :
    concatenate ⟨1, ![C']⟩ 0 [⟨⟨1, ![C1]⟩, x₁⟩, ⟨⟨1, ![C2]⟩, x₂⟩] h (ix1 q') = x₁ (ix1 q) :=
  concatenate_pair_apply_left 0 x₁ x₂ h (ix1 q') rfl (ix1 q) (fun b => match b with | ⟨0, _⟩ => hq.symm)

/-- Vectors: an entry of the right piece. -/
theorem concat_vec_right {C1 C2 C' : ℕ} (x₁ : (⟨1, ![C1]⟩ : Shape).Idx → α) (x₂ : (⟨1, ![C2]⟩ : Shape).Idx → α)
    (h : Shape.Concatenates [⟨1, ![C1]⟩, ⟨1, ![C2]⟩] ⟨1, ![C']⟩ 0) (q : Fin C2) (q' : Fin C') (hq : q'.val = C1 + q.val) :
    concatenate ⟨1, ![C']⟩ 0 [⟨⟨1, ![C1]⟩, x₁⟩, ⟨⟨1, ![C2]⟩, x₂⟩] h (ix1 q') = x₂ (ix1 q) :=
  concatenate_pair_apply_right 0 x₁ x₂ h (ix1 q') rfl rfl (ix1 q)
    (fun b => match b with | ⟨0, _⟩ => fun hne => absurd rfl hne)
    (by show q.val + C1 = q'.val; omega)

/-- A band of columns: every row kept, the columns from `o` on. -/
theorem slice_cols {N C C' : ℕ} (o : ℕ) (A : (⟨2, ![N, C']⟩ : Shape).Idx → α)
    (h : (⟨2, ![N, C']⟩ : Shape).Slices ![0, o] ⟨2, ![N, C]⟩) (p : Fin N) (q : Fin C) (q' : Fin C')
    (hq : q'.val = o + q.val) :
    extractStridedSlice ⟨2, ![N, C]⟩ ![0, o] A h (ix2 p q) = A (ix2 p q') :=
  extractStridedSlice_apply ![0, o] A h (ix2 p q) (ix2 p q')
    (fun a => match a with
      | ⟨0, _⟩ => by show p.val = 0 + p.val; omega
      | ⟨1, _⟩ => hq)

end Cert.Halves
-- ==== Proof.LibSelfLoops.lean ====
/-
  A segment sum over the edges of a graph followed by one self-loop entry per node, read at an entry.

  A graph aggregation with self-loops can be computed in two ways. One scatters the `E` edge messages into the `N` nodes
  and adds each node's own term afterwards. The other appends, after the edges, one entry per node whose scatter index
  is the node itself (an iota) and scatters all `T = E + N` entries. At an entry `(p, q)` the accumulating scatter is the
  operand plus the sum of the updates whose index, read signed, is `p`; the sum over `Fin T` splits into its first `E` and
  its last `N` entries; among the last `N`, entry `j` carries the word of `j`, which read signed is `j` again (for
  `N ≤ 2^31`), so exactly `j = p` lands on row `p`. Hence the long scatter at `(p, q)` is the short one plus the update of
  the self-loop entry of `p`.

  The pieces, each read at one index: a filtered sum over `Fin T` split at `E`; the word of a small number read signed;
  two rank-2 arrays joined along the rows; an index vector wrapped (a negative word has a constant added) pointwise; a
  gather of rows at a wrapped, joined index column, on the edge part (the same as the gather at the wrapped first piece)
  and on the self-loop part (the row of the node itself).
-/
import Idealize.ShloMosaic.Lib.ValueIdx
import Idealize.ShloMosaic.Lib.Pipeline.Value
import Idealize.ShloMosaic.Lib.IdealHost
import Idealize.ShloMosaic.PureOps.Ideal
import proofs.«103646_j72808285602083_2_alg».proof.Proof.LibSegmentSum
import proofs.«103646_j72808285602083_2_alg».proof.Proof.LibGatherRows
import proofs.«103646_j72808285602083_2_alg».proof.Proof.LibHostLayout
import proofs.«103646_j72808285602083_2_alg».proof.Proof.LibHalves

noncomputable section

open scoped BigOperators

namespace Cert.SelfLoops

open Idealize.ShloMosaic Idealize.ShloMosaic.ValueIdx

/-! ## A filtered sum over `Fin T`, split at `E` -/

/-- The sum over the entries of `Fin T` satisfying `P`, for `T = E + N`, is the sum over the first `E` entries satisfying
    `P` plus the sum over the last `N` entries satisfying `P`. -/
theorem sum_filter_append {M : Type*} [AddCommMonoid M] {E N T : ℕ} (hT : T = E + N) (P : Fin T → Prop)
    [DecidablePred P] (f : Fin T → M) :
    ∑ t ∈ Finset.univ.filter P, f t
      = ∑ e ∈ Finset.univ.filter (fun e : Fin E => P ⟨e.val, by omega⟩), f ⟨e.val, by omega⟩
        + ∑ j ∈ Finset.univ.filter (fun j : Fin N => P ⟨E + j.val, by omega⟩), f ⟨E + j.val, by omega⟩ := by
  subst hT
  rw [Finset.sum_filter, Fin.sum_univ_add, Finset.sum_filter, Finset.sum_filter]
  rfl

/-! ## The word of a small number, read signed -/

/-- The 32-bit word of `j < 2^31`, read as a signed integer, is `j`. -/
theorem toInt_ofNat_small {j : ℕ} (h : j < 2 ^ 31) : (BitVec.ofNat 32 j).toInt = (j : Int) := by
  rw [BitVec.toInt_eq_toNat_cond, BitVec.toNat_ofNat]
  have h1 : j % 2 ^ 32 = j := Nat.mod_eq_of_lt (by omega)
  rw [h1, if_pos (by omega)]

/-- Among the self-loop entries exactly the one of node `p` carries the index `p`: a sum over the entries `j : Fin N`
    whose word read signed is `p` is the term at `p`. -/
theorem sum_filter_iota {M : Type*} [AddCommMonoid M] {N : ℕ} (hN : N ≤ 2 ^ 31) (w : Fin N → BitVec 32)
    (hw : ∀ j : Fin N, w j = BitVec.ofNat 32 j.val) (p : Fin N) (g : Fin N → M) :
    ∑ j ∈ Finset.univ.filter (fun j : Fin N => (w j).toInt = (p.val : Int)), g j = g p := by
  have hs : Finset.univ.filter (fun j : Fin N => (w j).toInt = (p.val : Int)) = {p} := by
    ext j
    rw [Finset.mem_filter, Finset.mem_singleton, hw j, toInt_ofNat_small (by have := j.isLt; omega)]
    constructor
    · rintro ⟨_, h⟩; exact Fin.ext (by omega)
    · rintro rfl; exact ⟨Finset.mem_univ _, rfl⟩
  rw [hs, Finset.sum_singleton]

/-! ## Two arrays joined along the rows -/

variable {α : Type}

/-- Rows: a row of the upper piece. -/
theorem concat_rows_left {K1 K2 K' C : ℕ} (x₁ : (⟨2, ![K1, C]⟩ : Shape).Idx → α) (x₂ : (⟨2, ![K2, C]⟩ : Shape).Idx → α)
    (h : Shape.Concatenates [⟨2, ![K1, C]⟩, ⟨2, ![K2, C]⟩] ⟨2, ![K', C]⟩ 0) (k : Fin K1) (k' : Fin K') (q : Fin C)
    (hk : k'.val = k.val) :
    concatenate ⟨2, ![K', C]⟩ 0 [⟨⟨2, ![K1, C]⟩, x₁⟩, ⟨⟨2, ![K2, C]⟩, x₂⟩] h (ix2 k' q) = x₁ (ix2 k q) :=
  concatenate_pair_apply_left 0 x₁ x₂ h (ix2 k' q) rfl (ix2 k q)
    (fun b => match b with | ⟨0, _⟩ => hk.symm | ⟨1, _⟩ => rfl)

/-- Rows: a row of the lower piece. -/
theorem concat_rows_right {K1 K2 K' C : ℕ} (x₁ : (⟨2, ![K1, C]⟩ : Shape).Idx → α) (x₂ : (⟨2, ![K2, C]⟩ : Shape).Idx → α)
    (h : Shape.Concatenates [⟨2, ![K1, C]⟩, ⟨2, ![K2, C]⟩] ⟨2, ![K', C]⟩ 0) (k : Fin K2) (k' : Fin K') (q : Fin C)
    (hk : k'.val = K1 + k.val) :
    concatenate ⟨2, ![K', C]⟩ 0 [⟨⟨2, ![K1, C]⟩, x₁⟩, ⟨⟨2, ![K2, C]⟩, x₂⟩] h (ix2 k' q) = x₂ (ix2 k q) :=
  concatenate_pair_apply_right 0 x₁ x₂ h (ix2 k' q) rfl rfl (ix2 k q)
    (fun b => match b with | ⟨0, _⟩ => fun hne => absurd rfl hne | ⟨1, _⟩ => fun _ => rfl)
    (by show k.val + K1 = k'.val; omega)

/-! ## A joined index vector as a column -/

/-- The column of two index vectors laid end to end reads, on the first part, the first vector. -/
theorem col_concat_left {E N T w : ℕ} (a : IVec ⟨1, ![E]⟩ w) (b : IVec ⟨1, ![N]⟩ w)
    (hc : Shape.Concatenates [⟨1, ![E]⟩, ⟨1, ![N]⟩] ⟨1, ![T]⟩ 0)
    (hb : (⟨1, ![T]⟩ : Shape).BroadcastsInDim ⟨2, ![T, 1]⟩ ![0]) (e : Fin E) (t : Fin T) (u : Fin 1)
    (ht : t.val = e.val) :
    broadcastInDim ⟨2, ![T, 1]⟩ ![0] hb (concatenate ⟨1, ![T]⟩ 0 [⟨⟨1, ![E]⟩, a⟩, ⟨⟨1, ![N]⟩, b⟩] hc) (ix2 t u)
      = a (ix1 e) := by
  rw [Cert.HostLayout.bcast_vec_col, Cert.Halves.concat_vec_left a b hc e t ht]

/-- The column of two index vectors laid end to end reads, on the second part, the second vector. -/
theorem col_concat_right {E N T w : ℕ} (a : IVec ⟨1, ![E]⟩ w) (b : IVec ⟨1, ![N]⟩ w)
    (hc : Shape.Concatenates [⟨1, ![E]⟩, ⟨1, ![N]⟩] ⟨1, ![T]⟩ 0)
    (hb : (⟨1, ![T]⟩ : Shape).BroadcastsInDim ⟨2, ![T, 1]⟩ ![0]) (j : Fin N) (t : Fin T) (u : Fin 1)
    (ht : t.val = E + j.val) :
    broadcastInDim ⟨2, ![T, 1]⟩ ![0] hb (concatenate ⟨1, ![T]⟩ 0 [⟨⟨1, ![E]⟩, a⟩, ⟨⟨1, ![N]⟩, b⟩] hc) (ix2 t u)
      = b (ix1 j) := by
  rw [Cert.HostLayout.bcast_vec_col, Cert.Halves.concat_vec_right a b hc j t ht]

/-! ## Wrapping a negative index -/

/-- A word with the constant `c` added when it is negative. -/
def wrapWord (c b : BitVec 32) : BitVec 32 := Scalar.select (IntOp.cmpi .slt b 0#32) (IntOp.addi b c) b

/-- `select(v < 0, v + c, v)` on index vectors, the two constants broadcast scalars, reads pointwise. -/
theorem wrap_apply {s : Shape} (c : BitVec 32) (v : IVec s 32) (h : (⟨0, ![]⟩ : Shape).BroadcastsInDim s ![]) (i : s.Idx) :
    select (cmpi .slt v (broadcastInDim s ![] h (constantI ⟨0, ![]⟩ 32 0#32)))
      (addi v (broadcastInDim s ![] h (constantI ⟨0, ![]⟩ 32 c))) v i = wrapWord c (v i) := rfl

/-- The word of a small number is not negative, so wrapping leaves it alone. -/
theorem wrapWord_ofNat_small (c : BitVec 32) {j : ℕ} (h : j < 2 ^ 31) : wrapWord c (BitVec.ofNat 32 j) = BitVec.ofNat 32 j := by
  unfold wrapWord Scalar.select IntOp.cmpi
  have hs : (BitVec.ofNat 32 j).slt 0#32 = false := by
    rw [BitVec.slt_eq_decide, toInt_ofNat_small h]
    simp
  simp only [hs]
  rfl

/-! ## A gather of rows at a wrapped index column -/

/-- The gather of rows at the column of a wrapped index vector reads, at `(s, q)`, the operand at the wrapped word of
    entry `s`, read signed and clamped, and column `q`. -/
theorem gather_wrap_apply {N C M : ℕ} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (c : BitVec 32) (v : IVec ⟨1, ![M]⟩ 32)
    (hz : (⟨0, ![]⟩ : Shape).BroadcastsInDim ⟨1, ![M]⟩ ![])
    (hb : (⟨1, ![M]⟩ : Shape).BroadcastsInDim ⟨2, ![M, 1]⟩ ![0]) (s : Fin M) (q : Fin C) :
    Host.gather d x (broadcastInDim ⟨2, ![M, 1]⟩ ![0] hb
        (select (cmpi .slt v (broadcastInDim ⟨1, ![M]⟩ ![] hz (constantI ⟨0, ![]⟩ 32 0#32)))
          (addi v (broadcastInDim ⟨1, ![M]⟩ ![] hz (constantI ⟨0, ![]⟩ 32 c))) v)) (ix2 s q)
      = x (ix2 ⟨min (wrapWord c (v (ix1 s))).toInt.toNat (N - 1), by omega⟩ q) := by
  have h : broadcastInDim ⟨2, ![M, 1]⟩ ![0] hb
      (select (cmpi .slt v (broadcastInDim ⟨1, ![M]⟩ ![] hz (constantI ⟨0, ![]⟩ 32 0#32)))
        (addi v (broadcastInDim ⟨1, ![M]⟩ ![] hz (constantI ⟨0, ![]⟩ 32 c))) v) (ix2 s (0 : Fin 1))
      = wrapWord c (v (ix1 s)) :=
    (Cert.HostLayout.bcast_vec_col _ hb s 0).trans (wrap_apply c v hz (ix1 s))
  rw [Cert.GatherRows.gather_rows_apply hN d h1 h2 h3 h4 h5 h6 h7]
  refine congrArg x (congrArg (fun r => ix2 r q) (Fin.ext ?_))
  show min _ (N - 1) = min _ (N - 1)
  rw [h]

/-- ON THE EDGE PART the gather at the wrapped, joined index column is the gather at the wrapped first piece. -/
theorem gather_wrap_concat_left {N C E N' T : ℕ} (hN : 0 < N)
    (dT : GatherDims ⟨2, ![N, C]⟩ ⟨2, ![T, 1]⟩ ⟨2, ![T, C]⟩) (dE : GatherDims ⟨2, ![N, C]⟩ ⟨2, ![E, 1]⟩ ⟨2, ![E, C]⟩)
    (hT1 : dT.offsetDims = [1]) (hT2 : dT.collapsedSliceDims = [0]) (hT3 : dT.operandBatchingDims = [])
    (hT4 : dT.startIndicesBatchingDims = []) (hT5 : dT.startIndexMap = [0]) (hT6 : dT.indexVectorDim = 1)
    (hT7 : dT.sliceSizes = ![1, C])
    (hE1 : dE.offsetDims = [1]) (hE2 : dE.collapsedSliceDims = [0]) (hE3 : dE.operandBatchingDims = [])
    (hE4 : dE.startIndicesBatchingDims = []) (hE5 : dE.startIndexMap = [0]) (hE6 : dE.indexVectorDim = 1)
    (hE7 : dE.sliceSizes = ![1, C])
    (x : (⟨2, ![N, C]⟩ : Shape).Idx → α) (c : BitVec 32) (a : IVec ⟨1, ![E]⟩ 32) (b : IVec ⟨1, ![N']⟩ 32)
    (hc : Shape.Concatenates [⟨1, ![E]⟩, ⟨1, ![N']⟩] ⟨1, ![T]⟩ 0)
    (hzT : (⟨0, ![]⟩ : Shape).BroadcastsInDim ⟨1, ![T]⟩ ![]) (hbT : (⟨1, ![T]⟩ : Shape).BroadcastsInDim ⟨2, ![T, 1]⟩ ![0])
    (hzE : (⟨0, ![]⟩ : Shape).BroadcastsInDim ⟨1, ![E]⟩ ![]) (hbE : (⟨1, ![E]⟩ : Shape).BroadcastsInDim ⟨2, ![E, 1]⟩ ![0])
    (e : Fin E) (t : Fin T) (ht : t.val = e.val) (q : Fin C) :
    Host.gather dT x (broadcastInDim ⟨2, ![T, 1]⟩ ![0] hbT
        (select (cmpi .slt (concatenate ⟨1, ![T]⟩ 0 [⟨⟨1, ![E]⟩, a⟩, ⟨⟨1, ![N']⟩, b⟩] hc)
            (broadcastInDim ⟨1, ![T]⟩ ![] hzT (constantI ⟨0, ![]⟩ 32 0#32)))
          (addi (concatenate ⟨1, ![T]⟩ 0 [⟨⟨1, ![E]⟩, a⟩, ⟨⟨1, ![N']⟩, b⟩] hc)
            (broadcastInDim ⟨1, ![T]⟩ ![] hzT (constantI ⟨0, ![]⟩ 32 c)))
          (concatenate ⟨1, ![T]⟩ 0 [⟨⟨1, ![E]⟩, a⟩, ⟨⟨1, ![N']⟩, b⟩] hc))) (ix2 t q)
      = Host.gather dE x (broadcastInDim ⟨2, ![E, 1]⟩ ![0] hbE
        (select (cmpi .slt a (broadcastInDim ⟨1, ![E]⟩ ![] hzE (constantI ⟨0, ![]⟩ 32 0#32)))
          (addi a (broadcastInDim ⟨1, ![E]⟩ ![] hzE (constantI ⟨0, ![]⟩ 32 c))) a)) (ix2 e q) := by
  rw [gather_wrap_apply hN dT hT1 hT2 hT3 hT4 hT5 hT6 hT7, gather_wrap_apply hN dE hE1 hE2 hE3 hE4 hE5 hE6 hE7]
  refine congrArg x (congrArg (fun r => ix2 r q) (Fin.ext ?_))
  show min _ (N - 1) = min _ (N - 1)
  rw [Cert.Halves.concat_vec_left a b hc e t ht]

/-- ON THE SELF-LOOP PART, the second piece an iota, the gather at the wrapped, joined index column is the row of the
    node itself. -/
theorem gather_wrap_concat_iota {N C E T : ℕ} (hN : N ≤ 2 ^ 31)
    (dT : GatherDims ⟨2, ![N, C]⟩ ⟨2, ![T, 1]⟩ ⟨2, ![T, C]⟩)
    (hT1 : dT.offsetDims = [1]) (hT2 : dT.collapsedSliceDims = [0]) (hT3 : dT.operandBatchingDims = [])
    (hT4 : dT.startIndicesBatchingDims = []) (hT5 : dT.startIndexMap = [0]) (hT6 : dT.indexVectorDim = 1)
    (hT7 : dT.sliceSizes = ![1, C])
    (x : (⟨2, ![N, C]⟩ : Shape).Idx → α) (c : BitVec 32) (a : IVec ⟨1, ![E]⟩ 32)
    (hc : Shape.Concatenates [⟨1, ![E]⟩, ⟨1, ![N]⟩] ⟨1, ![T]⟩ 0)
    (hzT : (⟨0, ![]⟩ : Shape).BroadcastsInDim ⟨1, ![T]⟩ ![]) (hbT : (⟨1, ![T]⟩ : Shape).BroadcastsInDim ⟨2, ![T, 1]⟩ ![0])
    (j : Fin N) (t : Fin T) (ht : t.val = E + j.val) (q : Fin C) :
    Host.gather dT x (broadcastInDim ⟨2, ![T, 1]⟩ ![0] hbT
        (select (cmpi .slt (concatenate ⟨1, ![T]⟩ 0 [⟨⟨1, ![E]⟩, a⟩, ⟨⟨1, ![N]⟩, iotaInDim ⟨1, ![N]⟩ 32 0⟩] hc)
            (broadcastInDim ⟨1, ![T]⟩ ![] hzT (constantI ⟨0, ![]⟩ 32 0#32)))
          (addi (concatenate ⟨1, ![T]⟩ 0 [⟨⟨1, ![E]⟩, a⟩, ⟨⟨1, ![N]⟩, iotaInDim ⟨1, ![N]⟩ 32 0⟩] hc)
            (broadcastInDim ⟨1, ![T]⟩ ![] hzT (constantI ⟨0, ![]⟩ 32 c)))
          (concatenate ⟨1, ![T]⟩ 0 [⟨⟨1, ![E]⟩, a⟩, ⟨⟨1, ![N]⟩, iotaInDim ⟨1, ![N]⟩ 32 0⟩] hc))) (ix2 t q)
      = x (ix2 j q) := by
  have hj := j.isLt
  rw [gather_wrap_apply (by omega) dT hT1 hT2 hT3 hT4 hT5 hT6 hT7]
  have hr : concatenate ⟨1, ![T]⟩ 0 [⟨⟨1, ![E]⟩, a⟩, ⟨⟨1, ![N]⟩, iotaInDim ⟨1, ![N]⟩ 32 0⟩] hc (ix1 t)
      = BitVec.ofNat 32 j.val := Cert.Halves.concat_vec_right a _ hc j t ht
  refine congrArg x (congrArg (fun r => ix2 r q) (Fin.ext ?_))
  show min (wrapWord c _).toInt.toNat (N - 1) = j.val
  rw [hr, wrapWord_ofNat_small c (by omega), toInt_ofNat_small (by omega)]
  omega

/-! ## The segment sum over edges and self-loop entries -/

/-- THE SCATTER OVER EDGES AND SELF-LOOP ENTRIES AT AN ENTRY. The index column of the long scatter agrees with the short
    one's on the first `E` entries and is the node's own word on the last `N`; the updates agree on the first `E`
    entries (in column `q`). Then the long scatter at `(p, q)` is the short scatter there plus the update of the
    self-loop entry of node `p`. -/
theorem segSum_selfLoops {N C E T : ℕ} (hT : T = E + N) (hN : N ≤ 2 ^ 31)
    (dT : ScatterDims ⟨2, ![N, C]⟩ ⟨2, ![T, 1]⟩ ⟨2, ![T, C]⟩) (dE : ScatterDims ⟨2, ![N, C]⟩ ⟨2, ![E, 1]⟩ ⟨2, ![E, C]⟩)
    (hT1 : dT.updateWindowDims = [1]) (hT2 : dT.insertedWindowDims = [0]) (hT3 : dT.scatterDimsToOperandDims = [0])
    (hT4 : dT.indexVectorDim = 1)
    (hE1 : dE.updateWindowDims = [1]) (hE2 : dE.insertedWindowDims = [0]) (hE3 : dE.scatterDimsToOperandDims = [0])
    (hE4 : dE.indexVectorDim = 1)
    (idxT : IVec ⟨2, ![T, 1]⟩ 32) (idxE : IVec ⟨2, ![E, 1]⟩ 32)
    (hidxE : ∀ e : Fin E, idxT (ix2 (⟨e.val, by omega⟩ : Fin T) (0 : Fin 1)) = idxE (ix2 e (0 : Fin 1)))
    (hidxN : ∀ j : Fin N, idxT (ix2 (⟨E + j.val, by omega⟩ : Fin T) (0 : Fin 1)) = BitVec.ofNat 32 j.val)
    (x : FVec Ideal ⟨2, ![N, C]⟩ .f32) (updT : FVec Ideal ⟨2, ![T, C]⟩ .f32) (updE : FVec Ideal ⟨2, ![E, C]⟩ .f32)
    (p : Fin N) (q : Fin C)
    (hupd : ∀ e : Fin E, updT (ix2 (⟨e.val, by omega⟩ : Fin T) q) = updE (ix2 e q)) :
    Host.scatterAdd (F := Ideal) dT x idxT updT (ix2 p q)
      = Host.scatterAdd (F := Ideal) dE x idxE updE (ix2 p q)
        + updT (ix2 (⟨E + p.val, by have := p.isLt; omega⟩ : Fin T) q) := by
  rw [Cert.SegmentSum.segSumRows_apply dT hT1 hT2 hT3 hT4, Cert.SegmentSum.segSumRows_apply dE hE1 hE2 hE3 hE4,
    add_assoc]
  refine congrArg (x (ix2 p q) + ·) ?_
  rw [sum_filter_append hT]
  refine congrArg₂ (· + ·) ?_ ?_
  · refine Finset.sum_congr ?_ (fun e _ => hupd e)
    ext e
    simp only [Finset.mem_filter, Finset.mem_univ, true_and]
    rw [hidxE e]
  · exact sum_filter_iota hN (fun j : Fin N => idxT (ix2 (⟨E + j.val, by omega⟩ : Fin T) (0 : Fin 1))) hidxN p
      (fun j : Fin N => updT (ix2 (⟨E + j.val, by omega⟩ : Fin T) q))

/-- The same with the self-loop entry's update named: the form that meets a goal whose last summand is already the
    node's own term. -/
theorem segSum_selfLoops_eq {N C E T : ℕ} (hT : T = E + N) (hN : N ≤ 2 ^ 31)
    (dT : ScatterDims ⟨2, ![N, C]⟩ ⟨2, ![T, 1]⟩ ⟨2, ![T, C]⟩) (dE : ScatterDims ⟨2, ![N, C]⟩ ⟨2, ![E, 1]⟩ ⟨2, ![E, C]⟩)
    (hT1 : dT.updateWindowDims = [1]) (hT2 : dT.insertedWindowDims = [0]) (hT3 : dT.scatterDimsToOperandDims = [0])
    (hT4 : dT.indexVectorDim = 1)
    (hE1 : dE.updateWindowDims = [1]) (hE2 : dE.insertedWindowDims = [0]) (hE3 : dE.scatterDimsToOperandDims = [0])
    (hE4 : dE.indexVectorDim = 1)
    (idxT : IVec ⟨2, ![T, 1]⟩ 32) (idxE : IVec ⟨2, ![E, 1]⟩ 32)
    (hidxE : ∀ e : Fin E, idxT (ix2 (⟨e.val, by omega⟩ : Fin T) (0 : Fin 1)) = idxE (ix2 e (0 : Fin 1)))
    (hidxN : ∀ j : Fin N, idxT (ix2 (⟨E + j.val, by omega⟩ : Fin T) (0 : Fin 1)) = BitVec.ofNat 32 j.val)
    (x : FVec Ideal ⟨2, ![N, C]⟩ .f32) (updT : FVec Ideal ⟨2, ![T, C]⟩ .f32) (updE : FVec Ideal ⟨2, ![E, C]⟩ .f32)
    (p : Fin N) (q : Fin C)
    (hupd : ∀ e : Fin E, updT (ix2 (⟨e.val, by omega⟩ : Fin T) q) = updE (ix2 e q))
    (y : Ideal .f32) (hy : updT (ix2 (⟨E + p.val, by have := p.isLt; omega⟩ : Fin T) q) = y) :
    Host.scatterAdd (F := Ideal) dT x idxT updT (ix2 p q) = Host.scatterAdd (F := Ideal) dE x idxE updE (ix2 p q) + y :=
  hy ▸ segSum_selfLoops hT hN dT dE hT1 hT2 hT3 hT4 hE1 hE2 hE3 hE4 idxT idxE hidxE hidxN x updT updE p q hupd

end Cert.SelfLoops

end
-- ==== Proof.LibMeanForms.lean ====
/-
  The mean over a node's in-neighbours in its two spellings, on the extended reals, at any extents.

  The in-degree of node `p` is a segment sum of ones over the edges whose destination, read signed, is `p`: zero plus a
  one per such edge.  One program counts it into a vector `[N]`, forms the reciprocal of the count clamped below by one,
  lays it out as a column and multiplies the rows of the summed neighbour rows by it.  The other counts into a column
  `[N, 1]`, clamps it below by one, broadcasts it along the rows and divides the summed neighbour rows by it.  The two
  counts are the same sum over the same edges.  A count clamped below by one is not zero, and off zero a quotient is the
  product with the reciprocal, whatever the dividend, infinite or not: the two means are one array.
-/
import proofs.«103646_j72808285602083_2_alg».proof.Proof.LibSageDense
import proofs.«103646_j72808285602083_2_alg».proof.Proof.LibSegmentSum
import proofs.«103646_j72808285602083_2_alg».proof.Proof.LibHostLayout

noncomputable section

open scoped BigOperators

namespace Cert.MeanForms

open Idealize.ShloMosaic Idealize.ShloMosaic.ValueIdx Cert.Dense Cert.RowScale

/-- A scalar zero broadcast to any shape is zero at every entry. -/
theorem bcastZero {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0)]
  show Ideal.ofBits .f32 0x00000000#32 = 0
  exact Ideal.ofBits_zero_f32

/-- Dividing by a column clamped below by one, broadcast along the rows, is scaling the rows by the column of
    reciprocals of the same quantities held in a vector and clamped the same way. -/
theorem div_eq_scale {N C : ℕ} (G : FVec Ideal ⟨2, ![N, C]⟩ .f32) (dR oneR : FVec Ideal ⟨2, ![N, 1]⟩ .f32)
    (dV oneV : FVec Ideal ⟨1, ![N]⟩ .f32)
    (hb : (⟨2, ![N, 1]⟩ : Shape).BroadcastsInDim ⟨2, ![N, C]⟩ ![0, 1])
    (hc : (⟨1, ![N]⟩ : Shape).ShapeCasts ⟨2, ![N, 1]⟩)
    (h1 : ∀ i, oneR i = 1) (h2 : ∀ i, oneV i = 1) (hd : ∀ p : Fin N, dR (ix2 p (0 : Fin 1)) = dV (ix1 p)) :
    Host.divf (F := Ideal) G (broadcastInDim ⟨2, ![N, C]⟩ ![0, 1] hb (maximumf (F := Ideal) dR oneR))
      = scaleRows G (shapeCast ⟨2, ![N, 1]⟩ (Host.divf (F := Ideal) oneV (maximumf (F := Ideal) dV oneV)) hc) := by
  funext i
  obtain ⟨p, q, rfl⟩ : ∃ (p : Fin N) (q : Fin C), i = ix2 p q := ⟨i 0, i 1, eq_ix2 i⟩
  rw [scaleRows_apply, Cert.RowBlocks.shapeCast_col_apply]
  show Ideal.div (G (ix2 p q)) (broadcastInDim ⟨2, ![N, C]⟩ ![0, 1] hb (maximumf (F := Ideal) dR oneR) (ix2 p q))
    = G (ix2 p q) * Ideal.div (oneV (ix1 p)) (max (dV (ix1 p)) (oneV (ix1 p)))
  rw [Cert.HostLayout.bcast_col_mat]
  show Ideal.div (G (ix2 p q)) (max (dR (ix2 p (0 : Fin 1))) (oneR (ix2 p (0 : Fin 1)))) = _
  rw [h1, h2, hd]
  exact (Cert.Sage.mul_recip _ _ (Cert.Sage.max_one_ne_zero _)).symm

/-- The count of the edges arriving at a node, taken into a column and into a vector, is one number. -/
theorem count_eq {N E : ℕ}
    (dR : ScatterDims ⟨2, ![N, 1]⟩ ⟨2, ![E, 1]⟩ ⟨2, ![E, 1]⟩)
    (r1 : dR.updateWindowDims = [1]) (r2 : dR.insertedWindowDims = [0]) (r3 : dR.scatterDimsToOperandDims = [0])
    (r4 : dR.indexVectorDim = 1)
    (dV : ScatterDims ⟨1, ![N]⟩ ⟨2, ![E, 1]⟩ ⟨1, ![E]⟩)
    (v1 : dV.updateWindowDims = []) (v2 : dV.insertedWindowDims = [0]) (v3 : dV.scatterDimsToOperandDims = [0])
    (v4 : dV.indexVectorDim = 1)
    (idx : IVec ⟨2, ![E, 1]⟩ 32)
    (hN1 : (⟨0, ![]⟩ : Shape).BroadcastsInDim ⟨2, ![N, 1]⟩ ![])
    (hE1 : (⟨0, ![]⟩ : Shape).BroadcastsInDim ⟨2, ![E, 1]⟩ ![])
    (hN : (⟨0, ![]⟩ : Shape).BroadcastsInDim ⟨1, ![N]⟩ ![])
    (hE : (⟨0, ![]⟩ : Shape).BroadcastsInDim ⟨1, ![E]⟩ ![]) (p : Fin N) :
    Host.scatterAdd (F := Ideal) dR
        (broadcastInDim ⟨2, ![N, 1]⟩ ![] hN1 (constant (F := Ideal) ⟨0, ![]⟩ .f32 0x00000000#32)) idx
        (broadcastInDim ⟨2, ![E, 1]⟩ ![] hE1 (constant (F := Ideal) ⟨0, ![]⟩ .f32 0x3F800000#32)) (ix2 p (0 : Fin 1))
      = Host.scatterAdd (F := Ideal) dV
        (broadcastInDim ⟨1, ![N]⟩ ![] hN (constant (F := Ideal) ⟨0, ![]⟩ .f32 0x00000000#32)) idx
        (broadcastInDim ⟨1, ![E]⟩ ![] hE (constant (F := Ideal) ⟨0, ![]⟩ .f32 0x3F800000#32)) (ix1 p) := by
  rw [Cert.SegmentSum.segSumRows_apply dR r1 r2 r3 r4, Cert.SegmentSum.segSumVec_apply dV v1 v2 v3 v4,
    bcastZero hN1, bcastZero hN]
  refine congrArg (fun t : EReal => 0 + t) (Finset.sum_congr rfl fun e _ => ?_)
  rw [Cert.SageDense.bcastOne hE1, Cert.SageDense.bcastOne hE]

/-- Dividing the summed rows by the clamped count broadcast along the rows is scaling them by the column of
    reciprocals of the clamped count, the count taken as a column on one side and as a vector on the other. -/
theorem divMean_eq_scaleRows {N E C : ℕ}
    (dR : ScatterDims ⟨2, ![N, 1]⟩ ⟨2, ![E, 1]⟩ ⟨2, ![E, 1]⟩)
    (r1 : dR.updateWindowDims = [1]) (r2 : dR.insertedWindowDims = [0]) (r3 : dR.scatterDimsToOperandDims = [0])
    (r4 : dR.indexVectorDim = 1)
    (dV : ScatterDims ⟨1, ![N]⟩ ⟨2, ![E, 1]⟩ ⟨1, ![E]⟩)
    (v1 : dV.updateWindowDims = []) (v2 : dV.insertedWindowDims = [0]) (v3 : dV.scatterDimsToOperandDims = [0])
    (v4 : dV.indexVectorDim = 1)
    (idx : IVec ⟨2, ![E, 1]⟩ 32) (G : FVec Ideal ⟨2, ![N, C]⟩ .f32)
    (hN1 : (⟨0, ![]⟩ : Shape).BroadcastsInDim ⟨2, ![N, 1]⟩ ![])
    (hE1 : (⟨0, ![]⟩ : Shape).BroadcastsInDim ⟨2, ![E, 1]⟩ ![])
    (hN : (⟨0, ![]⟩ : Shape).BroadcastsInDim ⟨1, ![N]⟩ ![])
    (hE : (⟨0, ![]⟩ : Shape).BroadcastsInDim ⟨1, ![E]⟩ ![])
    (hb : (⟨2, ![N, 1]⟩ : Shape).BroadcastsInDim ⟨2, ![N, C]⟩ ![0, 1])
    (hc : (⟨1, ![N]⟩ : Shape).ShapeCasts ⟨2, ![N, 1]⟩) :
    Host.divf (F := Ideal) G (broadcastInDim ⟨2, ![N, C]⟩ ![0, 1] hb
        (maximumf (F := Ideal)
          (Host.scatterAdd (F := Ideal) dR
            (broadcastInDim ⟨2, ![N, 1]⟩ ![] hN1 (constant (F := Ideal) ⟨0, ![]⟩ .f32 0x00000000#32)) idx
            (broadcastInDim ⟨2, ![E, 1]⟩ ![] hE1 (constant (F := Ideal) ⟨0, ![]⟩ .f32 0x3F800000#32)))
          (broadcastInDim ⟨2, ![N, 1]⟩ ![] hN1 (constant (F := Ideal) ⟨0, ![]⟩ .f32 0x3F800000#32))))
      = scaleRows G (shapeCast ⟨2, ![N, 1]⟩
          (Host.divf (F := Ideal) (broadcastInDim ⟨1, ![N]⟩ ![] hN (constant (F := Ideal) ⟨0, ![]⟩ .f32 0x3F800000#32))
            (maximumf (F := Ideal)
              (Host.scatterAdd (F := Ideal) dV
                (broadcastInDim ⟨1, ![N]⟩ ![] hN (constant (F := Ideal) ⟨0, ![]⟩ .f32 0x00000000#32)) idx
                (broadcastInDim ⟨1, ![E]⟩ ![] hE (constant (F := Ideal) ⟨0, ![]⟩ .f32 0x3F800000#32)))
              (broadcastInDim ⟨1, ![N]⟩ ![] hN (constant (F := Ideal) ⟨0, ![]⟩ .f32 0x3F800000#32)))) hc) :=
  div_eq_scale G _ _ _ _ hb hc (fun i => Cert.SageDense.bcastOne hN1 i) (fun i => Cert.SageDense.bcastOne hN i)
    (fun p => count_eq dR r1 r2 r3 r4 dV v1 v2 v3 v4 idx hN1 hE1 hN hE p)

end Cert.MeanForms

end
-- ==== Proof.LibEdgeAggHost.lean ====
/-
  The host's neighbour sum read as a sum over arriving edges.

  A row gather at the wrapped source entries followed by an accumulating scatter at the destination entries into a
  zero array reads, at node `p` and channel `q`, `0 +` the sum over the edges whose destination entry read signed is
  `p` of the operand's row at the source entry's node.  The degree vector — ones accumulated at the destination
  entries into zeros — followed by the reciprocal of its maximum with one reads as the per-node factor.
-/
import proofs.«103646_j72808285602083_2_alg».proof.Proof.LibEdgeAgg
import proofs.«103646_j72808285602083_2_alg».proof.Proof.LibSegmentSum
import proofs.«103646_j72808285602083_2_alg».proof.Proof.LibSelfLoops
import proofs.«103646_j72808285602083_2_alg».proof.Proof.LibMeanForms

noncomputable section

open scoped BigOperators

namespace Cert.KAgg

open Idealize.ShloMosaic Idealize.ShloMosaic.ValueIdx Cert.Dense Cert.EdgeAgg

/-- The wrap written with this file's name is the wrap of the gather lemma. -/
theorem wrapW_eq (n b : BitVec 32) : wrapW n b = Cert.SelfLoops.wrapWord n b := rfl

/-- The neighbour sum: gather at wrapped sources, accumulate at destinations into zeros. -/
theorem agg_apply {N C E : ℕ} (hN : 0 < N)
    (dg : GatherDims ⟨2, ![N, C]⟩ ⟨2, ![E, 1]⟩ ⟨2, ![E, C]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, C])
    (ds : ScatterDims ⟨2, ![N, C]⟩ ⟨2, ![E, 1]⟩ ⟨2, ![E, C]⟩)
    (s1 : ds.updateWindowDims = [1]) (s2 : ds.insertedWindowDims = [0]) (s3 : ds.scatterDimsToOperandDims = [0])
    (s4 : ds.indexVectorDim = 1)
    (H : FVec Ideal ⟨2, ![N, C]⟩ .f32) (cw : BitVec 32) (srcS dstS : IVec ⟨1, ![E]⟩ 32)
    (hz : (⟨0, ![]⟩ : Shape).BroadcastsInDim ⟨1, ![E]⟩ ![])
    (hb : (⟨1, ![E]⟩ : Shape).BroadcastsInDim ⟨2, ![E, 1]⟩ ![0])
    (h0 : (⟨0, ![]⟩ : Shape).BroadcastsInDim ⟨2, ![N, C]⟩ ![]) (p : Fin N) (q : Fin C) :
    Host.scatterAdd (F := Ideal) ds
        (broadcastInDim ⟨2, ![N, C]⟩ ![] h0 (constant (F := Ideal) ⟨0, ![]⟩ .f32 0x00000000#32))
        (broadcastInDim ⟨2, ![E, 1]⟩ ![0] hb dstS)
        (Host.gather dg H (broadcastInDim ⟨2, ![E, 1]⟩ ![0] hb
          (select (cmpi .slt srcS (broadcastInDim ⟨1, ![E]⟩ ![] hz (constantI ⟨0, ![]⟩ 32 0#32)))
            (addi srcS (broadcastInDim ⟨1, ![E]⟩ ![] hz (constantI ⟨0, ![]⟩ 32 cw))) srcS))) (ix2 p q)
      = aggOf (fun e => nodeOf N hN (wrapW cw (srcS (ix1 e)))) (fun e => (dstS (ix1 e)).toInt) H (ix2 p q) := by
  rw [Cert.SegmentSum.segSumRows_apply ds s1 s2 s3 s4, Cert.MeanForms.bcastZero, aggOf_apply]
  refine congrArg (0 + ·) ?_
  have hset : Finset.univ.filter (fun e : Fin E =>
        (broadcastInDim ⟨2, ![E, 1]⟩ ![0] hb dstS (ix2 e (0 : Fin 1))).toInt = (p.val : Int))
      = arriving (fun e => (dstS (ix1 e)).toInt) p.val := by
    unfold arriving
    refine Finset.filter_congr fun e _ => ?_
    rw [Cert.HostLayout.bcast_vec_col]
  rw [hset]
  refine Finset.sum_congr rfl fun e _ => ?_
  rw [Cert.SelfLoops.gather_wrap_apply hN dg g1 g2 g3 g4 g5 g6 g7]
  rfl

/-- The per-node factor: ones accumulated at the destinations into zeros, clamped below by one, inverted. -/
theorem invDeg_apply_host {N E : ℕ}
    (ds : ScatterDims ⟨1, ![N]⟩ ⟨2, ![E, 1]⟩ ⟨1, ![E]⟩)
    (s1 : ds.updateWindowDims = []) (s2 : ds.insertedWindowDims = [0]) (s3 : ds.scatterDimsToOperandDims = [0])
    (s4 : ds.indexVectorDim = 1) (dstS : IVec ⟨1, ![E]⟩ 32)
    (hb : (⟨1, ![E]⟩ : Shape).BroadcastsInDim ⟨2, ![E, 1]⟩ ![0])
    (hN0 : (⟨0, ![]⟩ : Shape).BroadcastsInDim ⟨1, ![N]⟩ ![]) (hE0 : (⟨0, ![]⟩ : Shape).BroadcastsInDim ⟨1, ![E]⟩ ![])
    (p : Fin N) :
    Host.divf (F := Ideal) (broadcastInDim ⟨1, ![N]⟩ ![] hN0 (constant (F := Ideal) ⟨0, ![]⟩ .f32 0x3F800000#32))
        (maximumf
          (Host.scatterAdd (F := Ideal) ds
            (broadcastInDim ⟨1, ![N]⟩ ![] hN0 (constant (F := Ideal) ⟨0, ![]⟩ .f32 0x00000000#32))
            (broadcastInDim ⟨2, ![E, 1]⟩ ![0] hb dstS)
            (broadcastInDim ⟨1, ![E]⟩ ![] hE0 (constant (F := Ideal) ⟨0, ![]⟩ .f32 0x3F800000#32)))
          (broadcastInDim ⟨1, ![N]⟩ ![] hN0 (constant (F := Ideal) ⟨0, ![]⟩ .f32 0x3F800000#32))) (ix1 p)
      = Ideal.div 1 (max (degOf (fun e => (dstS (ix1 e)).toInt) p.val) 1) := by
  have hone : ∀ {s : Shape} (h : (⟨0, ![]⟩ : Shape).BroadcastsInDim s ![]) (i : s.Idx),
      broadcastInDim s ![] h (constant (F := Ideal) ⟨0, ![]⟩ .f32 0x3F800000#32) i = 1 := by
    intro s h i
    rw [broadcastInDim_apply ![] h _ i ix0 (fun a => a.elim0)]
    exact Cert.GcnStats.ofBits_one
  rw [hostDivf_apply, maximumf_apply, hone, Cert.SegmentSum.segSumVec_apply ds s1 s2 s3 s4, Cert.MeanForms.bcastZero]
  refine congrArg (fun d => Ideal.div 1 (max d 1)) ?_
  unfold degOf
  refine congrArg (0 + ·) ?_
  have hset : Finset.univ.filter (fun e : Fin E =>
        (broadcastInDim ⟨2, ![E, 1]⟩ ![0] hb dstS (ix2 e (0 : Fin 1))).toInt = (p.val : Int))
      = arriving (fun e => (dstS (ix1 e)).toInt) p.val := by
    unfold arriving
    refine Finset.filter_congr fun e _ => ?_
    rw [Cert.HostLayout.bcast_vec_col]
  rw [hset]
  exact Finset.sum_congr rfl fun e _ => hone hE0 (ix1 e)

end Cert.KAgg

end
-- ==== Proof.LibSlabRead.lean ====
/-
  Layout operations of the host glue read at an index: layer `l` of a stack of matrices (a unit slice then a cast
  that drops the unit axis) is the stack's slab, row `l` of a stack of rows likewise, and an `[a, 1, c]` array cast to
  `[a, c]` reads its middle coordinate at zero.
-/
import proofs.«103646_j72808285602083_2_alg».proof.Proof.LibResSage
import Idealize.ShloMosaic.Lib.Pipeline.Value
import Idealize.ShloMosaic.Lib.ValueLayout

noncomputable section

namespace Cert.KLayout

open Idealize.ShloMosaic Idealize.ShloMosaic.ValueIdx Cert.Dense Cert.ResSage

variable {α : Type}

/-- Slab `l` of an `[L, a, b]` stack, cut as a `[1, a, b]` block and cast to `[a, b]`, at `(k, q)`. -/
theorem slab_read {L a b : ℕ} (W : (⟨3, ![L, a, b]⟩ : Shape).Idx → α) (l : ℕ) (hl : l < L)
    (hs : (⟨3, ![L, a, b]⟩ : Shape).Slices ![l, 0, 0] ⟨3, ![1, a, b]⟩)
    (hc : (⟨3, ![1, a, b]⟩ : Shape).ShapeCasts ⟨2, ![a, b]⟩) (k : Fin a) (q : Fin b) :
    shapeCast ⟨2, ![a, b]⟩ (extractStridedSlice ⟨3, ![1, a, b]⟩ ![l, 0, 0] W hs) hc (ix2 k q) = W (ix3 ⟨l, hl⟩ k q) := by
  rw [shapeCast_1ab_ab_apply]
  refine extractStridedSlice_apply _ W hs _ (ix3 ⟨l, hl⟩ k q) fun ax => ?_
  match ax with
  | ⟨0, _⟩ => rfl
  | ⟨1, _⟩ => show k.val = 0 + k.val; omega
  | ⟨2, _⟩ => show q.val = 0 + q.val; omega

/-- Row `l` of an `[L, b]` stack, cut as a `[1, b]` block and cast to `[b]`, at `q`. -/
theorem row_read {L b : ℕ} (B : (⟨2, ![L, b]⟩ : Shape).Idx → α) (l : ℕ) (hl : l < L)
    (hs : (⟨2, ![L, b]⟩ : Shape).Slices ![l, 0] ⟨2, ![1, b]⟩)
    (hc : (⟨2, ![1, b]⟩ : Shape).ShapeCasts ⟨1, ![b]⟩) (q : Fin b) :
    shapeCast ⟨1, ![b]⟩ (extractStridedSlice ⟨2, ![1, b]⟩ ![l, 0] B hs) hc (ix1 q) = B (ix2 ⟨l, hl⟩ q) := by
  rw [shapeCast_1a_a_apply]
  refine extractStridedSlice_apply _ B hs _ (ix2 ⟨l, hl⟩ q) fun ax => ?_
  match ax with
  | ⟨0, _⟩ => rfl
  | ⟨1, _⟩ => show q.val = 0 + q.val; omega

/-- The slab as the specification's matrix. -/
theorem slab_eq {L a b : ℕ} (W : (⟨3, ![L, a, b]⟩ : Shape).Idx → EReal) (l : ℕ) (hl : l < L)
    (hs : (⟨3, ![L, a, b]⟩ : Shape).Slices ![l, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![l, 0, 0] W hs) hc = slab W ⟨l, hl⟩ := by
  funext i
  obtain ⟨k, q, rfl⟩ : ∃ (k : Fin a) (q : Fin b), i = ix2 k q := ⟨i 0, i 1, eq_ix2 i⟩
  exact slab_read W l hl hs hc k q

/-- The row, laid out as a one-row matrix, is the specification's row. -/
theorem row_eq {L b : ℕ} (B : (⟨2, ![L, b]⟩ : Shape).Idx → EReal) (l : ℕ) (hl : l < L)
    (hs : (⟨2, ![L, b]⟩ : Shape).Slices ![l, 0] ⟨2, ![1, b]⟩)
    (hc : (⟨2, ![1, b]⟩ : Shape).ShapeCasts ⟨1, ![b]⟩) :
    row (shapeCast ⟨1, ![b]⟩ (extractStridedSlice ⟨2, ![1, b]⟩ ![l, 0] B hs) hc) = rowAt B ⟨l, hl⟩ := by
  funext i
  obtain ⟨u, q, rfl⟩ : ∃ (u : Fin 1) (q : Fin b), i = ix2 u q := ⟨i 0, i 1, eq_ix2 i⟩
  exact row_read B l hl hs hc q

/-- An `[a, 1, c]` array cast to `[a, c]`, at `(t, q)`, is the array at `(t, 0, q)`. -/
theorem dropMid_read {a c : ℕ} (x : (⟨3, ![a, 1, c]⟩ : Shape).Idx → α)
    (hc : (⟨3, ![a, 1, c]⟩ : Shape).ShapeCasts ⟨2, ![a, c]⟩) (t : Fin a) (q : Fin c) :
    shapeCast ⟨2, ![a, c]⟩ x hc (ix2 t q) = x (ix3 t (0 : Fin 1) q) := by
  refine shapeCast_apply x hc (ix2 t q) (ix3 t (0 : Fin 1) q) ?_
  rw [Shape.rowMajor_val_three, Shape.rowMajor_val_two]
  show (t.val * 1 + 0) * c + q.val = t.val * c + q.val
  rw [Nat.mul_one, Nat.add_zero]

/-- Rows `[·, 0, ·]` of an `[a, r, c]` array, cut as an `[a, 1, c]` block, at `(t, 0, q)`. -/
theorem firstMid_read {a r c : ℕ} (hr : 0 < r) (x : (⟨3, ![a, r, c]⟩ : Shape).Idx → α)
    (hs : (⟨3, ![a, r, c]⟩ : Shape).Slices ![0, 0, 0] ⟨3, ![a, 1, c]⟩) (t : Fin a) (q : Fin c) :
    extractStridedSlice ⟨3, ![a, 1, c]⟩ ![0, 0, 0] x hs (ix3 t (0 : Fin 1) q) = x (ix3 t (⟨0, hr⟩ : Fin r) q) := by
  refine extractStridedSlice_apply _ x hs _ (ix3 t (⟨0, hr⟩ : Fin r) q) fun ax => ?_
  match ax with
  | ⟨0, _⟩ => show t.val = 0 + t.val; omega
  | ⟨1, _⟩ => rfl
  | ⟨2, _⟩ => show q.val = 0 + q.val; omega

end Cert.KLayout

end
-- ==== Proof.KHost1.lean ====
/-
  The host stretch before aggregation region 0: the neighbour sums and layer 0's weights as the region finds them.

  The neighbour-sum array holds, at `(p, q)`, `0 +` the sum over the sorted edges arriving at `p` of the previous
  rows at the edge's source node; the two weight matrices and the bias row are layer 0 of the stacked arguments.
-/
import proofs.«103646_j72808285602083_2_alg».proof.Proof.Gen.KernelIdeal.Frame
import proofs.«103646_j72808285602083_2_alg».proof.Proof.LibEdgeAggHost
import proofs.«103646_j72808285602083_2_alg».proof.Proof.LibSlabRead
import Idealize.ShloMosaic.Lib.StableHlo.Run

noncomputable section

namespace Cert.KernelIdeal.KHost1

open Idealize.ShloMosaic Idealize.ShloMosaic.TcCoe Idealize.ShloMosaic.ValueIdx Idealize.SL.Sem
open Cert.KernelIdeal Cert.KernelIdeal.Gen Cert.Dense Cert.EdgeAgg Cert.ResSage

variable (m : (ℓ : Loc nD τ sig) → Buf (Elt Ideal) ℓ) (ρ : Dev nD → PrngReg)

set_option maxHeartbeats 2000000 in
/-- The stretch's operations that produce the neighbour sums, composed. -/
theorem agg_term (c : Dev nD) : (W5 m ρ c (Proc.devRef .tc main_v40) : S100000x128.Idx → EReal)
    = Host.scatterAdd (F := Ideal) scatter_S100000x128_S600000x1_S600000x128_1_0_0_1
        (broadcastInDim S100000x128 ![] bcast_S_S100000x128 (constant (F := Ideal) S_ .f32 0x00000000#32))
        (broadcastInDim S600000x1 ![0] bcast_S600000_S600000x1_0 (W4 m ρ c (Proc.devRef .tc main_v18) : IVec S600000 32))
        (Host.gather gather_S100000x128_S600000x1_S600000x128_1_0_n_n_0_1_1128 (W4 m ρ c (Proc.devRef .tc main_v28) : S100000x128.Idx → EReal)
          (broadcastInDim S600000x1 ![0] bcast_S600000_S600000x1_0
            (select (cmpi .slt (W4 m ρ c (Proc.devRef .tc main_v11) : IVec S600000 32) (broadcastInDim S600000 ![] bcast_S_S600000 (constantI S_ 32 0#32)))
              (addi (W4 m ρ c (Proc.devRef .tc main_v11) : IVec S600000 32) (broadcastInDim S600000 ![] bcast_S_S600000 (constantI S_ 32 100000#32)))
              (W4 m ρ c (Proc.devRef .tc main_v11) : IVec S600000 32)))) := by
  show StableHlo.after hostOps1 (W4 m ρ c) (Proc.devRef .tc main_v40) = _
  after_results_simp
  rfl

/-- The neighbour sums as a sum over arriving edges. -/
theorem agg_eq (c : Dev nD) :
    (W5 m ρ c (Proc.devRef .tc main_v40) : Mat 100000 128)
    = aggOf (fun e => nodeOf 100000 (by decide) (wrapW 100000#32 ((W4 m ρ c (Proc.devRef .tc main_v11) : IVec S600000 32) (ix1 e))))
        (fun e => ((W4 m ρ c (Proc.devRef .tc main_v18) : IVec S600000 32) (ix1 e)).toInt)
        (W4 m ρ c (Proc.devRef .tc main_v28) : Mat 100000 128) := by
  funext i
  obtain ⟨p, q, rfl⟩ : ∃ (p : Fin 100000) (q : Fin 128), i = ix2 p q := ⟨i 0, i 1, eq_ix2 i⟩
  rw [agg_term]
  exact Cert.KAgg.agg_apply (by decide) _ rfl rfl rfl rfl rfl rfl rfl _ rfl rfl rfl rfl _ _ _ _ _ _ _ p q

set_option maxHeartbeats 2000000 in
/-- Layer 0's own-row weights. -/
theorem ws_eq (c : Dev nD) : (W5 m ρ c (Proc.devRef .tc main_v42) : Mat 128 128)
    = slab (W4 m ρ c (Proc.devRef .tc main_arg4) : S3x128x128.Idx → EReal) ⟨0, by decide⟩ := by
  refine Eq.trans ?_ (Cert.KLayout.slab_eq (W4 m ρ c (Proc.devRef .tc main_arg4) : S3x128x128.Idx → EReal) 0 (by decide)
    slices_S3x128x128_S1x128x128_0_0_0 shapeCasts_S1x128x128_S128x128)
  show StableHlo.after hostOps1 (W4 m ρ c) (Proc.devRef .tc main_v42) = _
  after_results_simp
  rfl

set_option maxHeartbeats 2000000 in
/-- Layer 0's neighbour weights. -/
theorem wn_eq (c : Dev nD) : (W5 m ρ c (Proc.devRef .tc main_v44) : Mat 128 128)
    = slab (W4 m ρ c (Proc.devRef .tc main_arg5) : S3x128x128.Idx → EReal) ⟨0, by decide⟩ := by
  refine Eq.trans ?_ (Cert.KLayout.slab_eq (W4 m ρ c (Proc.devRef .tc main_arg5) : S3x128x128.Idx → EReal) 0 (by decide)
    slices_S3x128x128_S1x128x128_0_0_0 shapeCasts_S1x128x128_S128x128)
  show StableHlo.after hostOps1 (W4 m ρ c) (Proc.devRef .tc main_v44) = _
  after_results_simp
  rfl

set_option maxHeartbeats 2000000 in
/-- Layer 0's bias row. -/
theorem b_eq (c : Dev nD) : row (W5 m ρ c (Proc.devRef .tc main_v46) : Row 128)
    = rowAt (W4 m ρ c (Proc.devRef .tc main_arg6) : Mat 3 128) ⟨0, by decide⟩ := by
  refine Eq.trans (congrArg row ?_) (Cert.KLayout.row_eq (W4 m ρ c (Proc.devRef .tc main_arg6) : S3x128.Idx → EReal) 0 (by decide)
    slices_S3x128_S1x128_0_0 shapeCasts_S1x128_S128)
  show StableHlo.after hostOps1 (W4 m ρ c) (Proc.devRef .tc main_v46) = _
  after_results_simp
  rfl

end Cert.KernelIdeal.KHost1

end
-- ==== Proof.LibBnStats.lean ====
/-
  The batch statistics and the normalisation body, read in the forms the two programs spell them.

  The host sums an `[M, K]` array down its first axis from a scalar zero: the sum at column `q` is
  `0 + ∑ₚ Y (p, q)`.  Laid out as one row and divided entry by entry by a broadcast scalar `n`, it is the row of column
  means; the sum of the squares divided by `n`, less the square of the mean, clamped below by a broadcast zero, is the
  one-pass variance.  The normalisation of an entry reads its own entry of the array and the four one-row arrays at its
  column only; the vector unit spells it with each one-row array repeated down the rows and a zero splat under the
  maximum.
-/
import proofs.«103646_j72808285602083_2_alg».proof.Proof.LibSageBn
import proofs.«103646_j72808285602083_2_alg».proof.Proof.LibHostLayout
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.SageBn

open Idealize.ShloMosaic Idealize.ShloMosaic.ValueIdx Cert.Dense

/-- A vector `[K]` laid out as the one row `[1, K]` reads, at `(u, q)`, the vector at `q`. -/
theorem bcast_vec_row {α : Type} {K : ℕ} (b : (⟨1, ![K]⟩ : Shape).Idx → α)
    (h1 : (⟨1, ![K]⟩ : Shape).BroadcastsInDim ⟨2, ![1, K]⟩ ![1]) (u : Fin 1) (q : Fin K) :
    broadcastInDim ⟨2, ![1, K]⟩ ![1] h1 b (ix2 u q) = b (ix1 q) :=
  broadcastInDim_apply ![1] h1 b (ix2 u q) (ix1 q) (fun a => by
    match a with
    | ⟨0, _⟩ =>
      show q.val = if K = 1 then 0 else q.val
      split
      · have := q.isLt; omega
      · rfl)

/-- THE HOST'S COLUMN SUM: the sum of an `[M, K]` array down its first axis from a scalar zero reads, at column `q`,
    zero plus the sum of the column's entries. -/
theorem hostColSum {M K : ℕ} (Y : FVec Ideal ⟨2, ![M, K]⟩ .f32)
    (hred : (⟨2, ![M, K]⟩ : Shape).ReducesTo [0] ⟨1, ![K]⟩) (hz : 0 < (⟨0, ![]⟩ : Shape).numel) (q : Fin K) :
    Host.reduceAdd (F := Ideal) Y (constant (F := Ideal) ⟨0, ![]⟩ .f32 0x00000000#32) hred hz (ix1 q)
      = 0 + ∑ p : Fin M, Y (ix2 p q) := by
  have h : (⟨2, ![M, K]⟩ : Shape).Reduces [0] ⟨1, ![K]⟩ := ⟨hred.1, Nat.one_pos, hred.2⟩
  refine (Ideal.hostReduceAdd_single hred h Y
    (constant (F := Ideal) ⟨0, ![]⟩ .f32 0x00000000#32 (Shape.Idx.first hz)) (ix1 q)).trans ?_
  rw [constant_apply, Ideal.ofBits_zero_f32]
  refine congrArg (0 + ·) (Finset.sum_congr rfl fun k _ => congrArg Y (funext fun ax => Fin.ext ?_))
  match ax with
  | ⟨0, _⟩ => rfl
  | ⟨1, _⟩ => rfl

/-- THE HOST'S COLUMN MEANS: the column sums laid out as one row, divided by the broadcast scalar of pattern `w`. -/
theorem hostColMean {M K : ℕ} (Y : FVec Ideal ⟨2, ![M, K]⟩ .f32) (w : BitVec 32)
    (hred : (⟨2, ![M, K]⟩ : Shape).ReducesTo [0] ⟨1, ![K]⟩) (hz : 0 < (⟨0, ![]⟩ : Shape).numel)
    (h1 : (⟨1, ![K]⟩ : Shape).BroadcastsInDim ⟨2, ![1, K]⟩ ![1])
    (h0 : (⟨0, ![]⟩ : Shape).BroadcastsInDim ⟨2, ![1, K]⟩ ![]) :
    Host.divf (F := Ideal)
        (broadcastInDim ⟨2, ![1, K]⟩ ![1] h1
          (Host.reduceAdd (F := Ideal) Y (constant (F := Ideal) ⟨0, ![]⟩ .f32 0x00000000#32) hred hz))
        (broadcastInDim ⟨2, ![1, K]⟩ ![] h0 (constant (F := Ideal) ⟨0, ![]⟩ .f32 w))
      = colMean (Ideal.ofBits .f32 w) Y := by
  funext i
  obtain ⟨u, q, rfl⟩ : ∃ (u : Fin 1) (q : Fin K), i = ix2 u q := ⟨i 0, i 1, eq_ix2 i⟩
  rw [hostDivf_apply, bcast_vec_row, Cert.HostLayout.bcast_scalar_mat, hostColSum]
  rfl

/-- THE HOST'S ONE-PASS VARIANCES: the column sums of the squares divided by the broadcast scalar of pattern `w`, less
    the squares of the column means, clamped below by a broadcast zero. -/
theorem hostVarOne {M K : ℕ} (Y : FVec Ideal ⟨2, ![M, K]⟩ .f32) (w : BitVec 32)
    (hred : (⟨2, ![M, K]⟩ : Shape).ReducesTo [0] ⟨1, ![K]⟩) (hz : 0 < (⟨0, ![]⟩ : Shape).numel)
    (h1 : (⟨1, ![K]⟩ : Shape).BroadcastsInDim ⟨2, ![1, K]⟩ ![1])
    (h0 : (⟨0, ![]⟩ : Shape).BroadcastsInDim ⟨2, ![1, K]⟩ ![])
    (MU : FVec Ideal ⟨2, ![1, K]⟩ .f32) (hMU : MU = colMean (Ideal.ofBits .f32 w) Y) :
    maximumf
        (subf
          (Host.divf (F := Ideal)
            (broadcastInDim ⟨2, ![1, K]⟩ ![1] h1
              (Host.reduceAdd (F := Ideal) (mulf Y Y) (constant (F := Ideal) ⟨0, ![]⟩ .f32 0x00000000#32) hred hz))
            (broadcastInDim ⟨2, ![1, K]⟩ ![] h0 (constant (F := Ideal) ⟨0, ![]⟩ .f32 w)))
          (mulf MU MU))
        (broadcastInDim ⟨2, ![1, K]⟩ ![] h0 (constant (F := Ideal) ⟨0, ![]⟩ .f32 0x00000000#32))
      = varOne (Ideal.ofBits .f32 w) Y := by
  subst hMU
  funext i
  obtain ⟨u, q, rfl⟩ : ∃ (u : Fin 1) (q : Fin K), i = ix2 u q := ⟨i 0, i 1, eq_ix2 i⟩
  rw [maximumf_apply, subf_apply, hostDivf_apply, mulf_apply, bcast_vec_row, Cert.HostLayout.bcast_scalar_mat,
    Cert.HostLayout.bcast_scalar_mat, hostColSum, constant_apply, constant_apply, Ideal.ofBits_zero_f32]
  rfl

/-- The normalisation at an index depends on the entry there and on the four one-row arrays at its column. -/
theorem bnRelu_at {M M' K K' : ℕ} (Y : Mat M K) (mu var ga be : Mat 1 K) (Y' : Mat M' K') (mu' var' ga' be' : Mat 1 K')
    (eps : EReal) (j : (⟨2, ![M', K']⟩ : Shape).Idx) (i : (⟨2, ![M, K]⟩ : Shape).Idx)
    (hY : Y' j = Y i)
    (hmu : mu' (ix2 (0 : Fin 1) (c1 j)) = mu (ix2 (0 : Fin 1) (c1 i)))
    (hvar : var' (ix2 (0 : Fin 1) (c1 j)) = var (ix2 (0 : Fin 1) (c1 i)))
    (hga : ga' (ix2 (0 : Fin 1) (c1 j)) = ga (ix2 (0 : Fin 1) (c1 i)))
    (hbe : be' (ix2 (0 : Fin 1) (c1 j)) = be (ix2 (0 : Fin 1) (c1 i))) :
    bnRelu Y' mu' var' ga' be' eps j = bnRelu Y mu var ga be eps i := by
  unfold bnRelu; rw [hY, hmu, hvar, hga, hbe]

/-- THE VECTOR UNIT'S FORM of the normalisation: each one-row array repeated down the rows, the stabiliser a splat of the
    pattern `w` added to the variances before the reciprocal square root, and the maximum with a zero splat. -/
theorem vecBnRelu {M K : ℕ} (Y : FVec Ideal ⟨2, ![M, K]⟩ .f32) (mu var ga be : FVec Ideal ⟨2, ![1, K]⟩ .f32)
    (w : BitVec 32) (hb : (⟨2, ![1, K]⟩ : Shape).Broadcasts ⟨2, ![M, K]⟩) :
    maximumf
        (addf
          (mulf
            (mulf (subf Y (broadcastTo ⟨2, ![M, K]⟩ mu hb))
              (broadcastTo ⟨2, ![M, K]⟩
                (rsqrt (addf var (broadcast ⟨2, ![1, K]⟩ (Scalar.ofBits (F := Ideal) .f32 w)))) hb))
            (broadcastTo ⟨2, ![M, K]⟩ ga hb))
          (broadcastTo ⟨2, ![M, K]⟩ be hb))
        (broadcast ⟨2, ![M, K]⟩ (Scalar.ofBits (F := Ideal) .f32 0x00000000#32))
      = bnRelu Y mu var ga be (Ideal.ofBits .f32 w) := by
  funext i
  obtain ⟨p, q, rfl⟩ : ∃ (p : Fin M) (q : Fin K), i = ix2 p q := ⟨i 0, i 1, eq_ix2 i⟩
  show max
      ((((Y (ix2 p q) - broadcastTo ⟨2, ![M, K]⟩ mu hb (ix2 p q))
          * broadcastTo ⟨2, ![M, K]⟩
              (rsqrt (addf var (broadcast ⟨2, ![1, K]⟩ (Scalar.ofBits (F := Ideal) .f32 w)))) hb (ix2 p q))
        * broadcastTo ⟨2, ![M, K]⟩ ga hb (ix2 p q))
        + broadcastTo ⟨2, ![M, K]⟩ be hb (ix2 p q))
      (Ideal.ofBits .f32 0x00000000#32) = _
  rw [broadcastTo_1b_ab_apply, broadcastTo_1b_ab_apply, broadcastTo_1b_ab_apply, broadcastTo_1b_ab_apply,
    Ideal.ofBits_zero_f32]
  rfl

end Cert.SageBn

end
-- ==== Proof.LibBlockStats.lean ====
/-
  The batch statistics the host forms from per-block partial sums.

  The rows are cut into `A` blocks of `B` consecutive rows (`N = A · B`).  An `[A, 8, K]` array holds, at `(t, r, q)`
  for every `r`, the sum over block `t`'s rows of column `q` (or of its squares).  The host takes the rows
  `[·, 0, ·]`, drops the unit axis, sums down the blocks from a scalar zero and divides by a broadcast scalar: since a
  sum over all rows is the sum over the blocks of the block sums, this is the column mean (resp. the mean of the
  squares); the mean of the squares less the square of the mean, clamped below by a broadcast zero, is the one-pass
  variance.  No finiteness is needed: only the regrouping of a finite sum.
-/
import proofs.«103646_j72808285602083_2_alg».proof.Proof.LibResSage
import proofs.«103646_j72808285602083_2_alg».proof.Proof.LibBnStats
import proofs.«103646_j72808285602083_2_alg».proof.Proof.LibGcnStats
import proofs.«103646_j72808285602083_2_alg».proof.Proof.LibSlabRead

noncomputable section

open scoped BigOperators

namespace Cert.KStats

open Idealize.ShloMosaic Idealize.ShloMosaic.ValueIdx Cert.Dense Cert.SageBn Cert.GcnStats

/-- A scalar broadcast to a vector reads the scalar at every index. -/
theorem bcast_scalar_vec {α : Type} {K : ℕ} (x : (⟨0, ![]⟩ : Shape).Idx → α)
    (hb : (⟨0, ![]⟩ : Shape).BroadcastsInDim ⟨1, ![K]⟩ ![]) (q : Fin K) :
    broadcastInDim ⟨1, ![K]⟩ ![] hb x (ix1 q) = x ix0 :=
  broadcastInDim_apply ![] hb x (ix1 q) ix0 fun a => a.elim0

/-- The rows `[·, 0, ·]` of an `[A, 8, K]` array of block sums, with the unit axis dropped, summed down the blocks from
    a scalar zero: at column `q`, zero plus the sum over the blocks of the block sums. -/
theorem blockSum_read {A K : ℕ} (S : (⟨3, ![A, 8, K]⟩ : Shape).Idx → EReal) (f : Fin A → Fin K → EReal)
    (hS : ∀ t r q, S (ix3 t r q) = f t q)
    (hs : (⟨3, ![A, 8, K]⟩ : Shape).Slices ![0, 0, 0] ⟨3, ![A, 1, K]⟩)
    (hc : (⟨3, ![A, 1, K]⟩ : Shape).ShapeCasts ⟨2, ![A, K]⟩)
    (hred : (⟨2, ![A, K]⟩ : Shape).ReducesTo [0] ⟨1, ![K]⟩) (hz : 0 < (⟨0, ![]⟩ : Shape).numel) (q : Fin K) :
    Host.reduceAdd (F := Ideal) (shapeCast ⟨2, ![A, K]⟩ (extractStridedSlice ⟨3, ![A, 1, K]⟩ ![0, 0, 0] S hs) hc)
        (constant (F := Ideal) ⟨0, ![]⟩ .f32 0x00000000#32) hred hz (ix1 q)
      = 0 + ∑ t : Fin A, f t q := by
  rw [hostColSum]
  refine congrArg (0 + ·) (Finset.sum_congr rfl fun t _ => ?_)
  rw [Cert.KLayout.dropMid_read, Cert.KLayout.firstMid_read (by norm_num : 0 < 8), hS]

/-- THE COLUMN MEANS FROM BLOCK SUMS, laid out as one row. -/
theorem kMean_row {A B N K : ℕ} (hN : N = A * B) (Y : Mat N K) (S1 : (⟨3, ![A, 8, K]⟩ : Shape).Idx → EReal)
    (blk : Fin A → Fin B → Fin N) (hblk : ∀ t j, (blk t j).val = B * t.val + j.val)
    (hS1 : ∀ t r q, S1 (ix3 t r q) = ∑ j : Fin B, Y (ix2 (blk t j) q))
    (w : BitVec 32)
    (hs : (⟨3, ![A, 8, K]⟩ : Shape).Slices ![0, 0, 0] ⟨3, ![A, 1, K]⟩)
    (hc : (⟨3, ![A, 1, K]⟩ : Shape).ShapeCasts ⟨2, ![A, K]⟩)
    (hred : (⟨2, ![A, K]⟩ : Shape).ReducesTo [0] ⟨1, ![K]⟩) (hz : 0 < (⟨0, ![]⟩ : Shape).numel)
    (hb : (⟨0, ![]⟩ : Shape).BroadcastsInDim ⟨1, ![K]⟩ ![]) :
    Cert.Dense.row (Host.divf (F := Ideal)
        (Host.reduceAdd (F := Ideal) (shapeCast ⟨2, ![A, K]⟩ (extractStridedSlice ⟨3, ![A, 1, K]⟩ ![0, 0, 0] S1 hs) hc)
          (constant (F := Ideal) ⟨0, ![]⟩ .f32 0x00000000#32) hred hz)
        (broadcastInDim ⟨1, ![K]⟩ ![] hb (constant (F := Ideal) ⟨0, ![]⟩ .f32 w)))
      = Cert.SageBn.colMean (Ideal.ofBits .f32 w) Y := by
  funext i
  obtain ⟨u, q, rfl⟩ : ∃ (u : Fin 1) (q : Fin K), i = ix2 u q := ⟨i 0, i 1, eq_ix2 i⟩
  rw [row_apply, hostDivf_apply, blockSum_read S1 (fun t q => ∑ j : Fin B, Y (ix2 (blk t j) q)) hS1,
    bcast_scalar_vec, constant_apply, ← sum_by_blocks hN blk hblk (fun p => Y (ix2 p q))]
  rfl

/-- THE ONE-PASS VARIANCES FROM BLOCK SUMS OF SQUARES, laid out as one row. -/
theorem kVar_row {A B N K : ℕ} (hN : N = A * B) (Y : Mat N K) (S2 : (⟨3, ![A, 8, K]⟩ : Shape).Idx → EReal)
    (blk : Fin A → Fin B → Fin N) (hblk : ∀ t j, (blk t j).val = B * t.val + j.val)
    (hS2 : ∀ t r q, S2 (ix3 t r q) = ∑ j : Fin B, Y (ix2 (blk t j) q) * Y (ix2 (blk t j) q))
    (w : BitVec 32)
    (hs : (⟨3, ![A, 8, K]⟩ : Shape).Slices ![0, 0, 0] ⟨3, ![A, 1, K]⟩)
    (hc : (⟨3, ![A, 1, K]⟩ : Shape).ShapeCasts ⟨2, ![A, K]⟩)
    (hred : (⟨2, ![A, K]⟩ : Shape).ReducesTo [0] ⟨1, ![K]⟩) (hz : 0 < (⟨0, ![]⟩ : Shape).numel)
    (hb : (⟨0, ![]⟩ : Shape).BroadcastsInDim ⟨1, ![K]⟩ ![])
    (MU : FVec Ideal ⟨1, ![K]⟩ .f32) (hMU : Cert.Dense.row MU = Cert.SageBn.colMean (Ideal.ofBits .f32 w) Y) :
    Cert.Dense.row (maximumf
        (subf
          (Host.divf (F := Ideal)
            (Host.reduceAdd (F := Ideal)
              (shapeCast ⟨2, ![A, K]⟩ (extractStridedSlice ⟨3, ![A, 1, K]⟩ ![0, 0, 0] S2 hs) hc)
              (constant (F := Ideal) ⟨0, ![]⟩ .f32 0x00000000#32) hred hz)
            (broadcastInDim ⟨1, ![K]⟩ ![] hb (constant (F := Ideal) ⟨0, ![]⟩ .f32 w)))
          (mulf MU MU))
        (broadcastInDim ⟨1, ![K]⟩ ![] hb (constant (F := Ideal) ⟨0, ![]⟩ .f32 0x00000000#32)))
      = Cert.SageBn.varOne (Ideal.ofBits .f32 w) Y := by
  funext i
  obtain ⟨u, q, rfl⟩ : ∃ (u : Fin 1) (q : Fin K), i = ix2 u q := ⟨i 0, i 1, eq_ix2 i⟩
  have hmu : MU (ix1 q) = colMean (Ideal.ofBits .f32 w) Y (ix2 u q) := congrFun hMU (ix2 u q)
  rw [row_apply, maximumf_apply, subf_apply, hostDivf_apply, mulf_apply,
    blockSum_read S2 (fun t q => ∑ j : Fin B, Y (ix2 (blk t j) q) * Y (ix2 (blk t j) q)) hS2,
    bcast_scalar_vec, bcast_scalar_vec, constant_apply, constant_apply, Ideal.ofBits_zero_f32, hmu,
    ← sum_by_blocks hN blk hblk (fun p => Y (ix2 p q) * Y (ix2 p q))]
  rfl

end Cert.KStats

end
-- ==== Proof.KHost2.lean ====
/-
  The host stretch before normalisation region 0: the batch statistics from the per-block totals, and layer 0's
  scale and shift rows.

  The aggregation region leaves two arrays of per-block totals, of the pre-normalisation rows `Y` and of their squares.
  The stretch adds the 25 block totals, divides by the number of rows and forms `max (E[y²] − μ², 0)`: the column means
  and the one-pass column variances of `Y`.
-/
import proofs.«103646_j72808285602083_2_alg».proof.Proof.Gen.KernelIdeal.Frame
import proofs.«103646_j72808285602083_2_alg».proof.Proof.LibBlockStats
import proofs.«103646_j72808285602083_2_alg».proof.Proof.LibSlabRead
import Idealize.ShloMosaic.Lib.StableHlo.Run

noncomputable section

namespace Cert.KernelIdeal.KHost2

open Idealize.ShloMosaic Idealize.ShloMosaic.TcCoe Idealize.ShloMosaic.ValueIdx Idealize.SL.Sem
open Cert.KernelIdeal Cert.KernelIdeal.Gen Cert.Dense Cert.ResSage Cert.SageBn

variable (m : (ℓ : Loc nD τ sig) → Buf (Elt Ideal) ℓ) (ρ : Dev nD → PrngReg)

/-- The number of rows as the program's constant. -/
abbrev nW : BitVec 32 := 0x47C35000#32

/-- The column sums of the block totals divided by the row count, as the stretch spells them. -/
def meanT (c : Dev nD) : FVec Ideal S128 .f32 :=
  Host.divf (F := Ideal)
    (Host.reduceAdd (F := Ideal)
      (shapeCast S25x128 (extractStridedSlice S25x1x128 ![0, 0, 0] (W6 m ρ c (Proc.devRef .tc main_v47_1) : S25x8x128.Idx → EReal)
        slices_S25x8x128_S25x1x128_0_0_0) shapeCasts_S25x1x128_S25x128)
      (constant (F := Ideal) S_ .f32 0x00000000#32) reducesTo_S25x128_S128_d0 h_S_)
    (broadcastInDim S128 ![] bcast_S_S128 (constant (F := Ideal) S_ .f32 nW))

set_option maxHeartbeats 2000000 in
theorem mean_term (c : Dev nD) : (W7 m ρ c (Proc.devRef .tc main_v55) : S128.Idx → EReal) = meanT m ρ c := by
  show StableHlo.after hostOps2 (W6 m ρ c) (Proc.devRef .tc main_v55) = _
  unfold meanT
  after_results_simp
  rfl

set_option maxHeartbeats 2000000 in
theorem var_term (c : Dev nD) : (W7 m ρ c (Proc.devRef .tc main_v61) : S128.Idx → EReal)
    = maximumf
        (subf
          (Host.divf (F := Ideal)
            (Host.reduceAdd (F := Ideal)
              (shapeCast S25x128 (extractStridedSlice S25x1x128 ![0, 0, 0] (W6 m ρ c (Proc.devRef .tc main_v47_2) : S25x8x128.Idx → EReal)
                slices_S25x8x128_S25x1x128_0_0_0) shapeCasts_S25x1x128_S25x128)
              (constant (F := Ideal) S_ .f32 0x00000000#32) reducesTo_S25x128_S128_d0 h_S_)
            (broadcastInDim S128 ![] bcast_S_S128 (constant (F := Ideal) S_ .f32 nW)))
          (mulf (meanT m ρ c) (meanT m ρ c)))
        (broadcastInDim S128 ![] bcast_S_S128 (constant (F := Ideal) S_ .f32 0x00000000#32)) := by
  show StableHlo.after hostOps2 (W6 m ρ c) (Proc.devRef .tc main_v61) = _
  unfold meanT
  after_results_simp
  rfl

/-- The means are the column means of `Y` when the first array holds `Y`'s block totals. -/
theorem mean_eq (c : Dev nD) (Y : Mat 100000 128) (blk : Fin 25 → Fin 4000 → Fin 100000)
    (hblk : ∀ t j, (blk t j).val = 4000 * t.val + j.val)
    (hS1 : ∀ (t : Fin 25) (r : Fin 8) (q : Fin 128),
      (W6 m ρ c (Proc.devRef .tc main_v47_1) : S25x8x128.Idx → EReal) (ix3 t r q) = ∑ j : Fin 4000, Y (ix2 (blk t j) q)) :
    row (W7 m ρ c (Proc.devRef .tc main_v55) : Row 128) = colMean (Ideal.ofBits .f32 nW) Y := by
  rw [mean_term]
  exact Cert.KStats.kMean_row (A := 25) (B := 4000) (N := 100000) (K := 128) rfl Y _ blk hblk hS1 nW _ _ _ _ _

/-- The variances are the one-pass column variances of `Y`. -/
theorem var_eq (c : Dev nD) (Y : Mat 100000 128) (blk : Fin 25 → Fin 4000 → Fin 100000)
    (hblk : ∀ t j, (blk t j).val = 4000 * t.val + j.val)
    (hS1 : ∀ (t : Fin 25) (r : Fin 8) (q : Fin 128),
      (W6 m ρ c (Proc.devRef .tc main_v47_1) : S25x8x128.Idx → EReal) (ix3 t r q) = ∑ j : Fin 4000, Y (ix2 (blk t j) q))
    (hS2 : ∀ (t : Fin 25) (r : Fin 8) (q : Fin 128),
      (W6 m ρ c (Proc.devRef .tc main_v47_2) : S25x8x128.Idx → EReal) (ix3 t r q)
        = ∑ j : Fin 4000, Y (ix2 (blk t j) q) * Y (ix2 (blk t j) q)) :
    row (W7 m ρ c (Proc.devRef .tc main_v61) : Row 128) = varOne (Ideal.ofBits .f32 nW) Y := by
  rw [var_term]
  refine Cert.KStats.kVar_row (A := 25) (B := 4000) (N := 100000) (K := 128) rfl Y _ blk hblk hS2 nW _ _ _ _ _ (meanT m ρ c) ?_
  rw [← mean_term]
  exact mean_eq m ρ c Y blk hblk hS1

set_option maxHeartbeats 2000000 in
/-- Layer 0's scale row. -/
theorem ga_eq (c : Dev nD) : row (W7 m ρ c (Proc.devRef .tc main_v63) : Row 128)
    = rowAt (W6 m ρ c (Proc.devRef .tc main_arg7) : Mat 3 128) ⟨0, by decide⟩ := by
  refine Eq.trans (congrArg row ?_) (Cert.KLayout.row_eq (W6 m ρ c (Proc.devRef .tc main_arg7) : S3x128.Idx → EReal) 0 (by decide)
    slices_S3x128_S1x128_0_0 shapeCasts_S1x128_S128)
  show StableHlo.after hostOps2 (W6 m ρ c) (Proc.devRef .tc main_v63) = _
  after_results_simp
  rfl

set_option maxHeartbeats 2000000 in
/-- Layer 0's shift row. -/
theorem be_eq (c : Dev nD) : row (W7 m ρ c (Proc.devRef .tc main_v65) : Row 128)
    = rowAt (W6 m ρ c (Proc.devRef .tc main_arg8) : Mat 3 128) ⟨0, by decide⟩ := by
  refine Eq.trans (congrArg row ?_) (Cert.KLayout.row_eq (W6 m ρ c (Proc.devRef .tc main_arg8) : S3x128.Idx → EReal) 0 (by decide)
    slices_S3x128_S1x128_0_0 shapeCasts_S1x128_S128)
  show StableHlo.after hostOps2 (W6 m ρ c) (Proc.devRef .tc main_v65) = _
  after_results_simp
  rfl

end Cert.KernelIdeal.KHost2

end
-- ==== Proof.LibCarriedRow.lean ====
/-
  A row of running totals carried in a buffer, read back: general lemmas.

  Stores that each cover their whole buffer: a load of the whole buffer after such stores reads the value of the
  LAST one, whatever came before (`readCov_cons_unit_zero`; the library has the one-store case).

  A `[1, 1, c]` row kept in a buffer and used as a vector `[c]` or as a `[1, c]` row: the three shape casts read at
  an index (`cast_11c_c`, `cast_c_11c`, `cast_11c_1c`).

  On the extended reals, the sum of an `[n, c]` array along its FIRST axis reads, at column `d`, the sum over the
  `n` rows of the column's entries (`colSum_apply`): the column totals of a block of rows.

  All at any extents.
-/
import Idealize.ShloMosaic.Lib.Pipeline.Value
import Idealize.ShloMosaic.Lib.ValueIdx
import Idealize.ShloMosaic.PureOps.Ideal.Laws

noncomputable section

open scoped BigOperators

namespace Cert.CarriedRow

open Idealize.ShloMosaic Idealize.ShloMosaic.ValueIdx

section stores
variable {Val : EltTy → Type} {S : Shape} {e : EltTy}

/-- A load of the whole buffer, after stores of which the LAST covers the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]
end stores

section layout
variable {α : Type}

/-- A `[1, 1, c]` row read as a vector. -/
theorem cast_11c_c {c : ℕ} (x : (⟨3, ![1, 1, c]⟩ : Shape).Idx → α) (h : (⟨3, ![1, 1, c]⟩ : Shape).ShapeCasts ⟨1, ![c]⟩)
    (d : Fin c) : shapeCast ⟨1, ![c]⟩ x h (ix1 d) = x (ix3 (0 : Fin 1) (0 : Fin 1) d) :=
  shapeCast_apply x h _ _ (by
    rw [Shape.rowMajor_val_three, Shape.rowMajor_val_one]
    show (0 * 1 + 0) * c + d.val = d.val
    simp)

/-- A vector read as a `[1, 1, c]` row. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, c]` row read as a `[1, c]` row. -/
theorem cast_11c_1c {c : ℕ} (x : (⟨3, ![1, 1, c]⟩ : Shape).Idx → α) (h : (⟨3, ![1, 1, c]⟩ : Shape).ShapeCasts ⟨2, ![1, c]⟩)
    (u : Fin 1) (d : Fin c) : shapeCast ⟨2, ![1, c]⟩ x h (ix2 u d) = x (ix3 (0 : Fin 1) (0 : Fin 1) d) :=
  shapeCast_apply x h _ _ (by
    have hu : u.val = 0 := by omega
    rw [Shape.rowMajor_val_three, Shape.rowMajor_val_two]
    show (0 * 1 + 0) * c + d.val = u.val * c + d.val
    simp [hu])
end layout

/-- The sum of an `[n, c]` array along its first axis reads, at column `d`, the sum of the column's entries. -/
theorem colSum_apply {n c : ℕ} (src : FVec Ideal ⟨2, ![n, c]⟩ .f32)
    (h : (⟨2, ![n, c]⟩ : Shape).Reduces [0] ⟨1, ![c]⟩) (hφ : FKind.Formats .f32)
    (hacc : (0x00000000#32 : BitVec 32) = 0x00000000#32) (d : Fin c) :
    multiReduction .add [0] ⟨1, ![c]⟩ src 0x00000000#32 h hφ hacc (ix1 d) = ∑ p : Fin n, src (ix2 p d) := by
  refine (Ideal.multiReduction_add_single src 0x00000000#32 h hφ hacc (ix1 d)).trans ?_
  refine Finset.sum_congr rfl fun k _ => congrArg src (funext fun ax => Fin.ext ?_)
  match ax with
  | ⟨0, _⟩ => rfl
  | ⟨1, _⟩ => rfl

end Cert.CarriedRow

end
-- ==== Proof.LibConvPayload.lean ====
/-
  One aggregation step of a mean-aggregating graph layer on a block of rows, and the column totals of its result,
  on the extended reals, at any extents.

  The step takes the nodes' own rows `x`, the neighbours' row sums `a`, a one-column array `s` of per-row factors,
  two weight matrices and a bias vector, and forms `x · ws + (a scaled row by row by s) · wn + b`
  (`Cert.ResSage.conv`).  The vector unit spells it with every operand first cast to its own shape, the factor
  column broadcast along the rows and multiplied in, both products taken into zero accumulators and added, and the
  bias cast to one row, broadcast to every row and added.  A cast to the same shape is the identity, a change of
  float format is the identity on the extended reals, and a product into a zero accumulator is the matrix product,
  so the spelling is `conv` (`vecConv`; `vecConvB` when the own rows arrive already in the narrow format).

  An entry `(p, q)` of the step depends on row `p` of `x`, `a` and `s` only: a block of `n` consecutive rows
  starting at row `off` of the whole arrays gives rows `off … off + n - 1` of the whole result (`conv_block`).

  The totals: the sum of the result over its rows, cast to one row and to a `[1, 1, c]` row, and broadcast over `R`
  rows, reads at `(0, r, d)` the sum of column `d` (`vecTotals_apply`).  `blockTotals` is the array that holds, for
  each of `T` consecutive blocks of `n` rows of an array of `T · n` rows, the block's column totals on each of `R`
  rows; `sq` squares every entry.
-/
import proofs.«103646_j72808285602083_2_alg».proof.Proof.LibResSage
import proofs.«103646_j72808285602083_2_alg».proof.Proof.LibCarriedRow

noncomputable section

open scoped BigOperators

namespace Cert.ConvPayload

open Idealize.ShloMosaic Idealize.ShloMosaic.ValueIdx Cert.Dense Cert.RowScale Cert.BiasRow Cert.SageDense Cert.ResSage

/-! ## The step as the vector unit spells it -/

theorem vecConv {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x a : FVec Ideal ⟨2, ![M, K]⟩ .f32) (s : FVec Ideal ⟨2, ![M, 1]⟩ .f32) (ws wn : FVec Ideal ⟨2, ![K, N]⟩ .f32)
    (b : FVec Ideal ⟨1, ![N]⟩ .f32) (lt : FTy.bf16.bits < FTy.f32.bits)
    (cx : (⟨2, ![M, K]⟩ : Shape).ShapeCasts ⟨2, ![M, K]⟩) (cs : (⟨2, ![M, 1]⟩ : Shape).ShapeCasts ⟨2, ![M, 1]⟩)
    (cw : (⟨2, ![K, N]⟩ : Shape).ShapeCasts ⟨2, ![K, N]⟩) (cb : (⟨1, ![N]⟩ : Shape).ShapeCasts ⟨1, ![N]⟩)
    (cb1 : (⟨1, ![N]⟩ : Shape).ShapeCasts ⟨2, ![1, N]⟩)
    (hs : (⟨2, ![M, 1]⟩ : Shape).Broadcasts ⟨2, ![M, K]⟩) (hb : (⟨2, ![1, N]⟩ : Shape).Broadcasts ⟨2, ![M, N]⟩) :
    addf (addf
          (matmul (F := Ideal) D none (truncf .bf16 (shapeCast ⟨2, ![M, K]⟩ x cx) lt)
            (truncf .bf16 (shapeCast ⟨2, ![K, N]⟩ ws cw) lt) (constant ⟨2, ![M, N]⟩ .f32 0x00000000#32))
          (matmul (F := Ideal) D none
            (truncf .bf16 (mulf (shapeCast ⟨2, ![M, K]⟩ a cx)
              (broadcastTo ⟨2, ![M, K]⟩ (shapeCast ⟨2, ![M, 1]⟩ s cs) hs)) lt)
            (truncf .bf16 (shapeCast ⟨2, ![K, N]⟩ wn cw) lt) (constant ⟨2, ![M, N]⟩ .f32 0x00000000#32)))
        (broadcastTo ⟨2, ![M, N]⟩ (shapeCast ⟨2, ![1, N]⟩ (shapeCast ⟨1, ![N]⟩ b cb) cb1) hb)
      = conv x a s ws wn (row b) := by
  rw [shapeCast_self x cx, shapeCast_self a cx, shapeCast_self s cs, shapeCast_self ws cw, shapeCast_self wn cw,
    shapeCast_self b cb, vecScaleRows a s hs, shapeCast_row b cb1]
  exact vecLin D h1 h2 h3 h4 h5 h6 x (scaleRows a s) ws wn (row b) lt hb

/-- The same when the nodes' own rows arrive already in the narrow float format: the first product takes them as
    they are. -/
theorem vecConvB {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![M, K]⟩ .bf16) (a : FVec Ideal ⟨2, ![M, K]⟩ .f32) (s : FVec Ideal ⟨2, ![M, 1]⟩ .f32)
    (ws wn : FVec Ideal ⟨2, ![K, N]⟩ .f32) (b : FVec Ideal ⟨1, ![N]⟩ .f32) (lt : FTy.bf16.bits < FTy.f32.bits)
    (cx : (⟨2, ![M, K]⟩ : Shape).ShapeCasts ⟨2, ![M, K]⟩) (cs : (⟨2, ![M, 1]⟩ : Shape).ShapeCasts ⟨2, ![M, 1]⟩)
    (cw : (⟨2, ![K, N]⟩ : Shape).ShapeCasts ⟨2, ![K, N]⟩) (cb : (⟨1, ![N]⟩ : Shape).ShapeCasts ⟨1, ![N]⟩)
    (cb1 : (⟨1, ![N]⟩ : Shape).ShapeCasts ⟨2, ![1, N]⟩)
    (hs : (⟨2, ![M, 1]⟩ : Shape).Broadcasts ⟨2, ![M, K]⟩) (hb : (⟨2, ![1, N]⟩ : Shape).Broadcasts ⟨2, ![M, N]⟩) :
    addf (addf
          (matmul (F := Ideal) D none (shapeCast ⟨2, ![M, K]⟩ x cx)
            (truncf .bf16 (shapeCast ⟨2, ![K, N]⟩ ws cw) lt) (constant ⟨2, ![M, N]⟩ .f32 0x00000000#32))
          (matmul (F := Ideal) D none
            (truncf .bf16 (mulf (shapeCast ⟨2, ![M, K]⟩ a cx)
              (broadcastTo ⟨2, ![M, K]⟩ (shapeCast ⟨2, ![M, 1]⟩ s cs) hs)) lt)
            (truncf .bf16 (shapeCast ⟨2, ![K, N]⟩ wn cw) lt) (constant ⟨2, ![M, N]⟩ .f32 0x00000000#32)))
        (broadcastTo ⟨2, ![M, N]⟩ (shapeCast ⟨2, ![1, N]⟩ (shapeCast ⟨1, ![N]⟩ b cb) cb1) hb)
      = conv (x : Mat M K) a s ws wn (row b) := by
  rw [shapeCast_self x cx, shapeCast_self a cx, shapeCast_self s cs, shapeCast_self ws cw, shapeCast_self wn cw,
    shapeCast_self b cb, vecScaleRows a s hs, shapeCast_row b cb1,
    matmul_zero_eq_mm D h1 h2 h3 h4 h5 h6, matmul_zero_eq_mm D h1 h2 h3 h4 h5 h6]
  exact vecAddRow (comb (x : Mat M K) (scaleRows a s) ws wn) (row b) hb

/-! ## A block of rows against the whole arrays -/

/-- Rows `off … off + n - 1` of the whole arrays, with the same weights and bias, give the same rows of the step's
    result. -/
theorem conv_block {M K N n : ℕ} (X A : Mat M K) (S : Mat M 1) (Ws Wn : Mat K N) (B : Mat 1 N)
    (x a : Mat n K) (s : Mat n 1) (ws wn : Mat K N) (b : Mat 1 N) (off : ℕ)
    (hx : ∀ (p : Fin n) (P : Fin M), P.val = off + p.val → ∀ k : Fin K, x (ix2 p k) = X (ix2 P k))
    (ha : ∀ (p : Fin n) (P : Fin M), P.val = off + p.val → ∀ k : Fin K, a (ix2 p k) = A (ix2 P k))
    (hs : ∀ (p : Fin n) (P : Fin M), P.val = off + p.val → s (ix2 p (0 : Fin 1)) = S (ix2 P (0 : Fin 1)))
    (hws : ∀ (k : Fin K) (q : Fin N), ws (ix2 k q) = Ws (ix2 k q))
    (hwn : ∀ (k : Fin K) (q : Fin N), wn (ix2 k q) = Wn (ix2 k q))
    (hb : ∀ q : Fin N, b (ix2 (0 : Fin 1) q) = B (ix2 (0 : Fin 1) q))
    (p : Fin n) (P : Fin M) (hP : P.val = off + p.val) (q : Fin N) :
    conv x a s ws wn b (ix2 p q) = conv X A S Ws Wn B (ix2 P q) :=
  lin_at X (scaleRows A S) Ws Wn B x (scaleRows a s) ws wn b (ix2 p q) (ix2 P q)
    (fun k => hx p P hP k)
    (fun k => scaleRows_at A S a s (ix2 p k) (ix2 P k) (ha p P hP k) (hs p P hP))
    (fun k => hws k q) (fun k => hwn k q) (hb q)

/-! ## The column totals -/

/-- Every entry squared. -/
def sq {M c : ℕ} (Y : Mat M c) : Mat M c := fun i => Y i * Y i

theorem vecSq {M c : ℕ} (Y : FVec Ideal ⟨2, ![M, c]⟩ .f32) : mulf Y Y = sq Y := rfl

/-- The column totals cast to one row, to a `[1, 1, c]` row, and broadcast over `R` rows, at an entry. -/
theorem vecTotals_apply {n c R : ℕ} (Y : FVec Ideal ⟨2, ![n, c]⟩ .f32)
    (h : (⟨2, ![n, c]⟩ : Shape).Reduces [0] ⟨1, ![c]⟩) (hφ : FKind.Formats .f32)
    (hacc : (0x00000000#32 : BitVec 32) = 0x00000000#32)
    (c1 : (⟨1, ![c]⟩ : Shape).ShapeCasts ⟨2, ![1, c]⟩) (c2 : (⟨2, ![1, c]⟩ : Shape).ShapeCasts ⟨3, ![1, 1, c]⟩)
    (c3 : (⟨3, ![1, 1, c]⟩ : Shape).ShapeCasts ⟨3, ![1, 1, c]⟩)
    (hb : (⟨3, ![1, 1, c]⟩ : Shape).Broadcasts ⟨3, ![1, R, c]⟩) (u : Fin 1) (r : Fin R) (d : Fin c) :
    broadcastTo ⟨3, ![1, R, c]⟩ (shapeCast ⟨3, ![1, 1, c]⟩ (shapeCast ⟨3, ![1, 1, c]⟩ (shapeCast ⟨2, ![1, c]⟩
        (multiReduction .add [0] ⟨1, ![c]⟩ Y 0x00000000#32 h hφ hacc) c1) c2) c3) hb (ix3 u r d)
      = ∑ p : Fin n, Y (ix2 p d) := by
  rw [shapeCast_self _ c3]
  refine (broadcastTo_apply _ hb (ix3 u r d) (ix3 (0 : Fin 1) (0 : Fin 1) d) fun ax => ?_).trans ?_
  · match ax with
    | ⟨0, _⟩ => rfl
    | ⟨1, _⟩ => rfl
    | ⟨2, _⟩ =>
      show d.val = if c = 1 then 0 else d.val
      split
      · have := d.isLt; omega
      · rfl
  · rw [shapeCast_ab_1ab_apply, shapeCast_a_1a_apply]
    exact Cert.CarriedRow.colSum_apply Y h hφ hacc d

/-- Row `n · t + p` of an array of `T · n` rows: row `p` of block `t`. -/
theorem blockRow_lt {T n : ℕ} (t : Fin T) (p : Fin n) : n * t.val + p.val < T * n :=
  calc n * t.val + p.val < n * t.val + n := Nat.add_lt_add_left p.isLt _
    _ = n * (t.val + 1) := (Nat.mul_succ n t.val).symm
    _ ≤ n * T := Nat.mul_le_mul_left n t.isLt
    _ = T * n := Nat.mul_comm n T

def blockRow {M T n : ℕ} (hM : T * n = M) (t : Fin T) (p : Fin n) : Fin M := ⟨n * t.val + p.val, hM ▸ blockRow_lt t p⟩

theorem blockRow_val {M T n : ℕ} (hM : T * n = M) (t : Fin T) (p : Fin n) : (blockRow hM t p).val = n * t.val + p.val := rfl

/-- For each of `T` consecutive blocks of `n` rows, the block's column totals, held on each of `R` rows. -/
def blockTotals {M c : ℕ} (T n R : ℕ) (hM : T * n = M) (Y : Mat M c) : (⟨3, ![T, R, c]⟩ : Shape).Idx → EReal :=
  fun i => ∑ p : Fin n, Y (ix2 (blockRow hM (⟨(i 0).val, (i 0).isLt⟩ : Fin T) p) (⟨(i 2).val, (i 2).isLt⟩ : Fin c))

theorem blockTotals_apply {M c : ℕ} (T n R : ℕ) (hM : T * n = M) (Y : Mat M c) (t : Fin T) (r : Fin R) (q : Fin c) :
    blockTotals T n R hM Y (ix3 t r q) = ∑ p : Fin n, Y (ix2 (blockRow hM t p) q) := rfl

/-- The totals of block `t` read at an index whose first and last coordinates are `t` and `q`. -/
theorem blockTotals_at {M c : ℕ} (T n R : ℕ) (hM : T * n = M) (Y : Mat M c) (i : (⟨3, ![T, R, c]⟩ : Shape).Idx)
    (t : Fin T) (q : Fin c) (h0 : (i 0).val = t.val) (h2 : (i 2).val = q.val) :
    blockTotals T n R hM Y i = ∑ p : Fin n, Y (ix2 (blockRow hM t p) q) := by
  have e0 : (⟨(i 0).val, (i 0).isLt⟩ : Fin T) = t := Fin.ext h0
  have e2 : (⟨(i 2).val, (i 2).isLt⟩ : Fin c) = q := Fin.ext h2
  unfold blockTotals
  rw [e0, e2]

end Cert.ConvPayload

end
-- ==== Proof.Region1.lean ====
/-
  The aggregation kernel of region 1, as whole arrays.

  The region runs over 25 blocks of 4000 rows.  At block `t` it reads rows `4000 t … 4000 t + 3999` of the nodes'
  own rows `X`, of the neighbours' row sums `A` and of the factor column `s`, the whole weight matrices and the
  whole bias vector, and writes three things: rows `4000 t … 4000 t + 3999` of the step's result
  `Y = X · ws + (A scaled row by row by s) · wn + b`; the column totals of those 4000 rows of `Y`, repeated on the
  8 rows of slab `t` of a `[25, 8, 128]` array; and the same for the entrywise squares of `Y`.

  An entry of the step depends only on its own row of `X`, `A` and `s`, so the 25 blocks of rows written back are the
  25 blocks of rows of the step applied to the whole arrays; row `p` lies in block `p / 4000`, so the blocks cover the
  array, and likewise slab `t` of the totals is covered by point `t`.
-/
import proofs.«103646_j72808285602083_2_alg».proof.Proof.Gen.KernelIdeal.Frame
import proofs.«103646_j72808285602083_2_alg».proof.Proof.LibConvPayload
import Idealize.ShloMosaic.Lib.Pipeline.Value

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Dense Cert.ResSage Cert.ConvPayload

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's three values as functions of its six blocks -/

/-- The stored block is the step applied to the loaded blocks. -/
theorem pay1_eq (x0 x1 : Vec Ideal S4000x128 .f32) (x2 : Vec Ideal S4000x1 .f32) (x3 x4 : Vec Ideal S128x128 .f32)
    (x5 : Vec Ideal S128 .f32) :
    k1_pay1 x0 x1 x2 x3 x4 x5 = conv (x0 : Mat 4000 128) x1 x2 x3 x4 (row x5) := by
  unfold k1_pay1
  exact vecConv dot_S4000x128_S128x128_S4000x128_1_0_0_1_n_n rfl rfl rfl rfl rfl rfl x0 x1 x2 x3 x4 x5 _ _ _ _ _ _ _ _

/-- The second stored block holds, on each of its 8 rows, the column totals of the step's block. -/
theorem pay2_apply (x0 x1 : Vec Ideal S4000x128 .f32) (x2 : Vec Ideal S4000x1 .f32) (x3 x4 : Vec Ideal S128x128 .f32)
    (x5 : Vec Ideal S128 .f32) (u : Fin 1) (r : Fin 8) (q : Fin 128) :
    k1_pay2 x0 x1 x2 x3 x4 x5 (ix3 u r q) = ∑ p : Fin 4000, conv (x0 : Mat 4000 128) x1 x2 x3 x4 (row x5) (ix2 p q) := by
  unfold k1_pay2
  refine (vecTotals_apply (k1_pay1 x0 x1 x2 x3 x4 x5) _ _ _ _ _ _ _ u r q).trans ?_
  rw [pay1_eq]

/-- The third, the column totals of the entrywise squares. -/
theorem pay3_apply (x0 x1 : Vec Ideal S4000x128 .f32) (x2 : Vec Ideal S4000x1 .f32) (x3 x4 : Vec Ideal S128x128 .f32)
    (x5 : Vec Ideal S128 .f32) (u : Fin 1) (r : Fin 8) (q : Fin 128) :
    k1_pay3 x0 x1 x2 x3 x4 x5 (ix3 u r q)
      = ∑ p : Fin 4000, sq (conv (x0 : Mat 4000 128) x1 x2 x3 x4 (row x5)) (ix2 p q) := by
  unfold k1_pay3
  refine (vecTotals_apply (mulf (k1_pay1 x0 x1 x2 x3 x4 x5) (k1_pay1 x0 x1 x2 x3 x4 x5)) _ _ _ _ _ _ _ u r q).trans ?_
  rw [pay1_eq]
  rfl

/-! ## Where each window's block sits at point `t` -/

/-- The printed index maps over the 25 points: the three row-blocked inputs and the three outputs sit at block `t`
    along their first axis, the weights and the bias at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0
    ∧ win1_8.index t (0 : Fin 3) = t.val ∧ win1_8.index t (1 : Fin 3) = 0 ∧ win1_8.index t (2 : Fin 3) = 0 :=
  (by decide +kernel : ∀ t : Fin grid1.N, _)

theorem t_lt (t : Fin cfg1.N) : t.val < 25 := Nat.lt_of_lt_of_eq t.isLt N_1

/-- The block of the nodes' own rows at point `t` is rows `4000 t …` of the array. -/
theorem blk0_apply (c : Dev nD) (t : Fin cfg1.N) (y : S4000x128.Idx) (k : S100000x128.Idx)
    (hk0 : (k 0).val = 4000 * t.val + (y 0).val) (hk1 : (k 1).val = (y 1).val) :
    (iblk1 V c 0 t : S4000x128.Idx → EReal) y = (V c main_v28 : S100000x128.Idx → EReal) k := by
  obtain ⟨e0, e1, -⟩ := idx_facts t
  unfold iblk1
  rw [View.read_apply]
  show V c main_v28 _ = V c main_v28 _
  congr 1
  funext a
  apply Fin.ext
  match a with
  | ⟨0, _⟩ => show win1_0.index t 0 * 4000 + 1 * (y 0).val = (k 0).val; rw [e0, hk0]; omega
  | ⟨1, _⟩ => show win1_0.index t 1 * 128 + 1 * (y 1).val = (k 1).val; rw [e1, hk1]; omega

/-- The block of the neighbours' row sums at point `t` is rows `4000 t …` of the array. -/
theorem blk1_apply (c : Dev nD) (t : Fin cfg1.N) (y : S4000x128.Idx) (k : S100000x128.Idx)
    (hk0 : (k 0).val = 4000 * t.val + (y 0).val) (hk1 : (k 1).val = (y 1).val) :
    (iblk1 V c 1 t : S4000x128.Idx → EReal) y = (V c main_v40 : S100000x128.Idx → EReal) k := by
  obtain ⟨-, -, e0, e1, -⟩ := idx_facts t
  unfold iblk1
  rw [View.read_apply]
  show V c main_v40 _ = V c main_v40 _
  congr 1
  funext a
  apply Fin.ext
  match a with
  | ⟨0, _⟩ => show win1_1.index t 0 * 4000 + 1 * (y 0).val = (k 0).val; rw [e0, hk0]; omega
  | ⟨1, _⟩ => show win1_1.index t 1 * 128 + 1 * (y 1).val = (k 1).val; rw [e1, hk1]; omega

/-- The block of the factor column at point `t` is rows `4000 t …` of the column. -/
theorem blk2_apply (c : Dev nD) (t : Fin cfg1.N) (y : S4000x1.Idx) (k : S100000x1.Idx)
    (hk0 : (k 0).val = 4000 * t.val + (y 0).val) (hk1 : (k 1).val = (y 1).val) :
    (iblk1 V c 2 t : S4000x1.Idx → EReal) y = (V c main_v27 : S100000x1.Idx → EReal) k := by
  obtain ⟨-, -, -, -, e0, e1, -⟩ := idx_facts t
  unfold iblk1
  rw [View.read_apply]
  show V c main_v27 _ = V c main_v27 _
  congr 1
  funext a
  apply Fin.ext
  match a with
  | ⟨0, _⟩ => show win1_2.index t 0 * 4000 + 1 * (y 0).val = (k 0).val; rw [e0, hk0]; omega
  | ⟨1, _⟩ => show win1_2.index t 1 * 1 + 1 * (y 1).val = (k 1).val; rw [e1, hk1]; omega

/-- The block of the first weight matrix at any point is the whole matrix. -/
theorem blk3_apply (c : Dev nD) (t : Fin cfg1.N) (y : S128x128.Idx) :
    (iblk1 V c 3 t : S128x128.Idx → EReal) y = (V c main_v42 : S128x128.Idx → EReal) y := by
  obtain ⟨-, -, -, -, -, -, e0, e1, -⟩ := idx_facts t
  unfold iblk1
  rw [View.read_apply]
  show V c main_v42 _ = V c main_v42 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The block of the second weight matrix at any point is the whole matrix. -/
theorem blk4_apply (c : Dev nD) (t : Fin cfg1.N) (y : S128x128.Idx) :
    (iblk1 V c 4 t : S128x128.Idx → EReal) y = (V c main_v44 : S128x128.Idx → EReal) y := by
  obtain ⟨-, -, -, -, -, -, -, -, e0, e1, -⟩ := idx_facts t
  unfold iblk1
  rw [View.read_apply]
  show V c main_v44 _ = V c main_v44 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- The block of the bias at any point is the whole vector. -/
theorem blk5_apply (c : Dev nD) (t : Fin cfg1.N) (y : S128.Idx) :
    (iblk1 V c 5 t : S128.Idx → EReal) y = (V c main_v46 : S128.Idx → EReal) y := by
  obtain ⟨-, -, -, -, -, -, -, -, -, -, e0, -⟩ := idx_facts t
  unfold iblk1
  rw [View.read_apply]
  show V c main_v46 _ = V c main_v46 _
  congr 1
  funext a
  apply Fin.ext
  match a with
  | ⟨0, _⟩ => show win1_5.index t 0 * 128 + 1 * (y 0).val = (y 0).val; rw [e0]; omega

/-! ## The three arrays -/

/-- The step applied to the whole arrays as the region finds them. -/
def Y (c : Dev nD) : Mat 100000 128 :=
  conv (V c main_v28 : Mat 100000 128) (V c main_v40 : Mat 100000 128) (V c main_v27 : Mat 100000 1)
    (V c main_v42 : Mat 128 128) (V c main_v44 : Mat 128 128) (row (V c main_v46 : Row 128))

/-- Rows `4000 t …` of the step on the whole arrays, from the blocks at point `t`. -/
theorem point_row (c : Dev nD) (t : Fin cfg1.N) (p : Fin 4000) (P : Fin 100000) (hP : P.val = 4000 * t.val + p.val)
    (q : Fin 128) :
    conv (iblk1 V c 0 t : Mat 4000 128) (iblk1 V c 1 t : Mat 4000 128) (iblk1 V c 2 t : Mat 4000 1)
        (iblk1 V c 3 t : Mat 128 128) (iblk1 V c 4 t : Mat 128 128) (row (iblk1 V c 5 t : Row 128)) (ix2 p q)
      = Y V c (ix2 P q) :=
  conv_block (V c main_v28 : Mat 100000 128) (V c main_v40 : Mat 100000 128) (V c main_v27 : Mat 100000 1)
    (V c main_v42 : Mat 128 128) (V c main_v44 : Mat 128 128) (row (V c main_v46 : Row 128))
    (iblk1 V c 0 t : Mat 4000 128) (iblk1 V c 1 t : Mat 4000 128) (iblk1 V c 2 t : Mat 4000 1)
    (iblk1 V c 3 t : Mat 128 128) (iblk1 V c 4 t : Mat 128 128) (row (iblk1 V c 5 t : Row 128)) (4000 * t.val)
    (fun p P hP k => blk0_apply V c t (ix2 p k) (ix2 P k) hP rfl)
    (fun p P hP k => blk1_apply V c t (ix2 p k) (ix2 P k) hP rfl)
    (fun p P hP => blk2_apply V c t (ix2 p (0 : Fin 1)) (ix2 P (0 : Fin 1)) hP rfl)
    (fun k q => blk3_apply V c t (ix2 k q))
    (fun k q => blk4_apply V c t (ix2 k q))
    (fun q => blk5_apply V c t (ix1 q))
    p P hP q

/-- The column totals of each block of 4000 rows of the step, on the 8 rows of the block's slab. -/
def T1 (c : Dev nD) : S25x8x128.Idx → EReal := blockTotals 25 4000 8 rfl (Y V c)

/-- The same for the entrywise squares of the step. -/
def T2 (c : Dev nD) : S25x8x128.Idx → EReal := blockTotals 25 4000 8 rfl (sq (Y V c))

/-! ## What point `t` writes back -/

/-- Point `t` writes rows `4000 t …` of the step. -/
theorem flushed6_eq (c : Dev nD) (t : Fin cfg1.N) :
    (dat1 (F := Ideal) V c).flushed 6 t = ((cfg1.win 6).blk t).view.read (Elt Ideal) (Y V c) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, e0, e1, -⟩ := idx_facts t
  have hlt := t_lt t
  funext j
  obtain ⟨p, q, rfl⟩ : ∃ (p : Fin 4000) (q : Fin 128), j = ix2 p q := ⟨j 0, j 1, eq_ix2 j⟩
  have hp := p.isLt
  have hi : ((cfg1.win 6).blk t).view.emb (ix2 p q) = ix2 (⟨4000 * t.val + p.val, by omega⟩ : Fin 100000) q := by
    funext a
    apply Fin.ext
    match a with
    | ⟨0, _⟩ => show win1_6.index t (0 : Fin 2) * 4000 + 1 * p.val = 4000 * t.val + p.val; rw [e0]; omega
    | ⟨1, _⟩ => show win1_6.index t (1 : Fin 2) * 128 + 1 * q.val = q.val; rw [e1]; omega
  show k1_pay1 (iblk1 V c 0 t) (iblk1 V c 1 t) (iblk1 V c 2 t) (iblk1 V c 3 t) (iblk1 V c 4 t) (iblk1 V c 5 t) (ix2 p q) = Y V c (((cfg1.win 6).blk t).view.emb (ix2 p q))
  rw [hi]
  exact (congrFun (pay1_eq (iblk1 V c 0 t) (iblk1 V c 1 t) (iblk1 V c 2 t) (iblk1 V c 3 t) (iblk1 V c 4 t) (iblk1 V c 5 t)) (ix2 p q)).trans (point_row V c t p _ rfl q)

/-- Point `t` writes slab `t` of the totals. -/
theorem flushed7_eq (c : Dev nD) (t : Fin cfg1.N) :
    (dat1 (F := Ideal) V c).flushed 7 t = ((cfg1.win 7).blk t).view.read (Elt Ideal) (T1 V c) := by
  show (cfg1.win 7).cut (grid1.coords t) ((dat1 V c).after 7 t) = _
  rw [after1_7]
  unfold out1_7
  rw [View.canon_unit_zero hz3]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, -, -, e0, e1, e2, -⟩ := idx_facts t
  have hlt := t_lt t
  funext j
  obtain ⟨u, r, q, rfl⟩ : ∃ (u : Fin 1) (r : Fin 8) (q : Fin 128), j = ix3 u r q := ⟨j 0, j 1, j 2, eq_ix3 j⟩
  have hu := u.isLt
  show k1_pay2 (iblk1 V c 0 t) (iblk1 V c 1 t) (iblk1 V c 2 t) (iblk1 V c 3 t) (iblk1 V c 4 t) (iblk1 V c 5 t) (ix3 u r q) = T1 V c (((cfg1.win 7).blk t).view.emb (ix3 u r q))
  refine (pay2_apply (iblk1 V c 0 t) (iblk1 V c 1 t) (iblk1 V c 2 t) (iblk1 V c 3 t) (iblk1 V c 4 t) (iblk1 V c 5 t) u r q).trans ?_
  refine Eq.trans ?_ (blockTotals_at 25 4000 8 rfl (Y V c) _ (⟨t.val, hlt⟩ : Fin 25) q ?_ ?_).symm
  · exact Finset.sum_congr rfl fun p _ => point_row V c t p _ rfl q
  · show win1_7.index t (0 : Fin 3) * 1 + 1 * u.val = t.val; rw [e0]; omega
  · show win1_7.index t (2 : Fin 3) * 128 + 1 * q.val = q.val; rw [e2]; omega

/-- Point `t` writes slab `t` of the totals of the squares. -/
theorem flushed8_eq (c : Dev nD) (t : Fin cfg1.N) :
    (dat1 (F := Ideal) V c).flushed 8 t = ((cfg1.win 8).blk t).view.read (Elt Ideal) (T2 V c) := by
  show (cfg1.win 8).cut (grid1.coords t) ((dat1 V c).after 8 t) = _
  rw [after1_8]
  unfold out1_8
  rw [View.canon_unit_zero hz3]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, -, -, -, -, -, e0, e1, e2⟩ := idx_facts t
  have hlt := t_lt t
  funext j
  obtain ⟨u, r, q, rfl⟩ : ∃ (u : Fin 1) (r : Fin 8) (q : Fin 128), j = ix3 u r q := ⟨j 0, j 1, j 2, eq_ix3 j⟩
  have hu := u.isLt
  show k1_pay3 (iblk1 V c 0 t) (iblk1 V c 1 t) (iblk1 V c 2 t) (iblk1 V c 3 t) (iblk1 V c 4 t) (iblk1 V c 5 t) (ix3 u r q) = T2 V c (((cfg1.win 8).blk t).view.emb (ix3 u r q))
  refine (pay3_apply (iblk1 V c 0 t) (iblk1 V c 1 t) (iblk1 V c 2 t) (iblk1 V c 3 t) (iblk1 V c 4 t) (iblk1 V c 5 t) u r q).trans ?_
  refine Eq.trans ?_ (blockTotals_at 25 4000 8 rfl (sq (Y V c)) _ (⟨t.val, hlt⟩ : Fin 25) q ?_ ?_).symm
  · refine Finset.sum_congr rfl fun p _ => ?_
    exact congrArg (fun z : EReal => z * z)
      (point_row V c t p (blockRow (M := 100000) (T := 25) (n := 4000) rfl (⟨t.val, hlt⟩ : Fin 25) p) rfl q)
  · show win1_8.index t (0 : Fin 3) * 1 + 1 * u.val = t.val; rw [e0]; omega
  · show win1_8.index t (2 : Fin 3) * 128 + 1 * q.val = q.val; rw [e2]; omega

/-! ## The blocks cover the arrays -/

theorem mem_blk6 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v47_0).slice (win1_6.rect t)).set ↔ _
  rw [View.set_slice_whole, Rect.mem_set_unit]
  exact Iff.rfl

theorem mem_blk7 (t : Fin cfg1.N) (i : S25x8x128.Idx) :
    i ∈ ((cfg1.win 7).blk t).view.set ↔ ∀ a : Fin 3, win1_7.index t a * S1x8x128.size a ≤ (i a).val
      ∧ (i a).val < win1_7.index t a * S1x8x128.size a + S1x8x128.size a := by
  show i ∈ ((View.whole main_v47_1).slice (win1_7.rect t)).set ↔ _
  rw [View.set_slice_whole, Rect.mem_set_unit]
  exact Iff.rfl

theorem mem_blk8 (t : Fin cfg1.N) (i : S25x8x128.Idx) :
    i ∈ ((cfg1.win 8).blk t).view.set ↔ ∀ a : Fin 3, win1_8.index t a * S1x8x128.size a ≤ (i a).val
      ∧ (i a).val < win1_8.index t a * S1x8x128.size a + S1x8x128.size a := by
  show i ∈ ((View.whole main_v47_2).slice (win1_8.rect t)).set ↔ _
  rw [View.set_slice_whole, Rect.mem_set_unit]
  exact Iff.rfl

/-- Row `p` lies in the block of point `p / 4000`. -/
theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, -, -, -, e0, e1, -⟩ := idx_facts t
  refine ⟨t, flush1_6 t, ?_⟩
  rw [mem_blk6]
  intro a
  match a with
  | ⟨0, _⟩ =>
    show win1_6.index t (0 : Fin 2) * 4000 ≤ (i 0).val ∧ (i 0).val < win1_6.index t (0 : Fin 2) * 4000 + 4000
    rw [e0, ht]; omega
  | ⟨1, _⟩ =>
    show win1_6.index t (1 : Fin 2) * 128 ≤ (i 1).val ∧ (i 1).val < win1_6.index t (1 : Fin 2) * 128 + 128
    rw [e1]; omega

/-- Slab `t` is the block of point `t`. -/
theorem cover7 (i : S25x8x128.Idx) :
    ∃ t : Fin cfg1.N, (cfg1.win 7).flush t = true ∧ i ∈ ((cfg1.win 7).blk t).view.set := by
  have hi0 : (i 0).val < 25 := (i 0).isLt
  have hi1 : (i 1).val < 8 := (i 1).isLt
  have hi2 : (i 2).val < 128 := (i 2).isLt
  obtain ⟨t, ht⟩ : ∃ t : Fin cfg1.N, t.val = (i 0).val :=
    ⟨⟨(i 0).val, by rw [show cfg1.N = 25 from N_1]; omega⟩, rfl⟩
  obtain ⟨-, -, -, -, -, -, -, -, -, -, -, -, -, e0, e1, e2, -⟩ := idx_facts t
  refine ⟨t, flush1_7 t, ?_⟩
  rw [mem_blk7]
  intro a
  match a with
  | ⟨0, _⟩ =>
    show win1_7.index t (0 : Fin 3) * 1 ≤ (i 0).val ∧ (i 0).val < win1_7.index t (0 : Fin 3) * 1 + 1
    rw [e0, ht]; omega
  | ⟨1, _⟩ =>
    show win1_7.index t (1 : Fin 3) * 8 ≤ (i 1).val ∧ (i 1).val < win1_7.index t (1 : Fin 3) * 8 + 8
    rw [e1]; omega
  | ⟨2, _⟩ =>
    show win1_7.index t (2 : Fin 3) * 128 ≤ (i 2).val ∧ (i 2).val < win1_7.index t (2 : Fin 3) * 128 + 128
    rw [e2]; omega

theorem cover8 (i : S25x8x128.Idx) :
    ∃ t : Fin cfg1.N, (cfg1.win 8).flush t = true ∧ i ∈ ((cfg1.win 8).blk t).view.set := by
  have hi0 : (i 0).val < 25 := (i 0).isLt
  have hi1 : (i 1).val < 8 := (i 1).isLt
  have hi2 : (i 2).val < 128 := (i 2).isLt
  obtain ⟨t, ht⟩ : ∃ t : Fin cfg1.N, t.val = (i 0).val :=
    ⟨⟨(i 0).val, by rw [show cfg1.N = 25 from N_1]; omega⟩, rfl⟩
  obtain ⟨-, -, -, -, -, -, -, -, -, -, -, -, -, -, -, -, e0, e1, e2⟩ := idx_facts t
  refine ⟨t, flush1_8 t, ?_⟩
  rw [mem_blk8]
  intro a
  match a with
  | ⟨0, _⟩ =>
    show win1_8.index t (0 : Fin 3) * 1 ≤ (i 0).val ∧ (i 0).val < win1_8.index t (0 : Fin 3) * 1 + 1
    rw [e0, ht]; omega
  | ⟨1, _⟩ =>
    show win1_8.index t (1 : Fin 3) * 8 ≤ (i 1).val ∧ (i 1).val < win1_8.index t (1 : Fin 3) * 8 + 8
    rw [e1]; omega
  | ⟨2, _⟩ =>
    show win1_8.index t (2 : Fin 3) * 128 ≤ (i 2).val ∧ (i 2).val < win1_8.index t (2 : Fin 3) * 128 + 128
    rw [e2]; omega

/-! ## The arrays after the region -/

/-- The first result array ends holding the step of the whole arrays. -/
theorem arr6 (c : Dev nD) : (dat1 (F := Ideal) V c).arrAt 6 cfg1.N = Y V c :=
  (dat1 V c).arrAt_eq_of_cover 6 (Y V c) (fun t _ => flushed6_eq V c t) cover6

/-- The second, the column totals of its blocks of 4000 rows. -/
theorem arr7 (c : Dev nD) : (dat1 (F := Ideal) V c).arrAt 7 cfg1.N = T1 V c :=
  (dat1 V c).arrAt_eq_of_cover 7 (T1 V c) (fun t _ => flushed7_eq V c t) cover7

/-- The third, the column totals of the squares. -/
theorem arr8 (c : Dev nD) : (dat1 (F := Ideal) V c).arrAt 8 cfg1.N = T2 V c :=
  (dat1 V c).arrAt_eq_of_cover 8 (T2 V c) (fun t _ => flushed8_eq V c t) cover8

/-- Entry `(p, q)` of the first result array. -/
theorem arr6_apply (c : Dev nD) (p : Fin 100000) (q : Fin 128) :
    (dat1 (F := Ideal) V c).arrAt 6 cfg1.N (ix2 p q)
      = conv (V c main_v28 : Mat 100000 128) (V c main_v40 : Mat 100000 128) (V c main_v27 : Mat 100000 1)
          (V c main_v42 : Mat 128 128) (V c main_v44 : Mat 128 128) (row (V c main_v46 : Row 128)) (ix2 p q) :=
  congrFun (arr6 V c) (ix2 p q)

/-- Entry `(t, r, q)` of the second: the total of column `q` over rows `4000 t … 4000 t + 3999` of the step. -/
theorem arr7_apply (c : Dev nD) (t : Fin 25) (r : Fin 8) (q : Fin 128) :
    (dat1 (F := Ideal) V c).arrAt 7 cfg1.N (ix3 t r q)
      = ∑ j : Fin 4000, Y V c (ix2 (blockRow (M := 100000) (T := 25) (n := 4000) rfl t j) q) :=
  congrFun (arr7 V c) (ix3 t r q)

/-- Entry `(t, r, q)` of the third: the same total of the squares. -/
theorem arr8_apply (c : Dev nD) (t : Fin 25) (r : Fin 8) (q : Fin 128) :
    (dat1 (F := Ideal) V c).arrAt 8 cfg1.N (ix3 t r q)
      = ∑ j : Fin 4000, Y V c (ix2 (blockRow (M := 100000) (T := 25) (n := 4000) rfl t j) q)
          * Y V c (ix2 (blockRow (M := 100000) (T := 25) (n := 4000) rfl t j) q) :=
  congrFun (arr8 V c) (ix3 t r q)

end Cert.KernelIdeal.Region1

end
-- ==== Proof.Region2.lean ====
/-
  The column-wise normalisation region, read as one whole-array function.

  The region walks the rows of an `[100000, 128]` array in 25 blocks of 4000 rows.  At every block it reads the block and
  four whole vectors of 128 entries — the column means, the column variances, the scales and the shifts — and stores, at
  row `p` and column `q` of the block, `max (((y − μ q) · rsqrt (v q + ε)) · γ q + β q, 0)` with `y` the block's entry and
  `ε` the float the word `0x3727C5AC` spells.  Row `r` of the array lies in block `r / 4000` at row `r % 4000`, every row
  lies in exactly one block, and the four vectors' blocks are the vectors themselves; so after the region the result array
  holds, at every `(r, q)`, that expression of the array's entry `(r, q)` and the vectors' entries `q`.
-/
import proofs.«103646_j72808285602083_2_alg».proof.Proof.Gen.KernelIdeal.Frame
import proofs.«103646_j72808285602083_2_alg».proof.Proof.LibBnStats
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx Cert.Dense Cert.SageBn
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The stabiliser the body adds to the variances: the float the word `0x3727C5AC` spells. -/
abbrev eps : EReal := Ideal.ofBits .f32 0x3727C5AC#32

/-- The body's value at an entry: the entry of the block less the column's mean, times the reciprocal square root of the
    column's variance plus the stabiliser, times the scale, plus the shift, rectified. -/
theorem pay_at (x0 : Vec Ideal S4000x128 .f32) (x1 x2 x3 x4 : Vec Ideal S128 .f32) (p : Fin 4000) (q : Fin 128) :
    k2_pay1 x0 x1 x2 x3 x4 (ix2 p q)
      = bnRelu (x0 : Mat 4000 128) (row x1) (row x2) (row x3) (row x4) eps (ix2 p q) := by
  unfold k2_pay1
  simp only [shapeCast_self]
  show max ((((x0 (ix2 p q) - broadcastTo S4000x128 (shapeCast S1x128 x1 shapeCasts_S128_S1x128) broadcasts_S1x128_S4000x128 (ix2 p q))
      * broadcastTo S4000x128 (shapeCast S1x128 (rsqrt (addf x2 (broadcast S128 (Scalar.ofBits (F := Ideal) .f32 0x3727C5AC#32)))) shapeCasts_S128_S1x128) broadcasts_S1x128_S4000x128 (ix2 p q))
      * broadcastTo S4000x128 (shapeCast S1x128 x3 shapeCasts_S128_S1x128) broadcasts_S1x128_S4000x128 (ix2 p q))
      + broadcastTo S4000x128 (shapeCast S1x128 x4 shapeCasts_S128_S1x128) broadcasts_S1x128_S4000x128 (ix2 p q))
      (Ideal.ofBits .f32 0x00000000#32) = _
  rw [broadcastTo_1b_ab_apply, broadcastTo_1b_ab_apply, broadcastTo_1b_ab_apply, broadcastTo_1b_ab_apply,
    shapeCast_a_1a_apply, shapeCast_a_1a_apply, shapeCast_a_1a_apply, shapeCast_a_1a_apply, Ideal.ofBits_zero_f32]
  rfl

/-- The body's value at an entry of a block whose entry is entry `i` of the whole array and whose four vectors are the
    whole statistics: the normalised whole array at `i`. -/
theorem point_eq (Y : Mat 100000 128) (mu var ga be : Row 128)
    (x0 : Vec Ideal S4000x128 .f32) (x1 x2 x3 x4 : Vec Ideal S128 .f32) (y : S4000x128.Idx) (i : S100000x128.Idx)
    (h0 : x0 y = Y i) (hc : (y 1).val = (i 1).val)
    (h1 : ∀ q : Fin 128, x1 (ix1 q) = mu (ix1 q)) (h2 : ∀ q : Fin 128, x2 (ix1 q) = var (ix1 q))
    (h3 : ∀ q : Fin 128, x3 (ix1 q) = ga (ix1 q)) (h4 : ∀ q : Fin 128, x4 (ix1 q) = be (ix1 q)) :
    k2_pay1 x0 x1 x2 x3 x4 y = bnRelu Y (row mu) (row var) (row ga) (row be) eps i := by
  obtain ⟨p, q, rfl⟩ : ∃ (p : Fin 4000) (q : Fin 128), y = ix2 p q := ⟨y 0, y 1, eq_ix2 y⟩
  rw [pay_at]
  have hq : (c1 i : Fin 128) = q := Fin.ext hc.symm
  refine bnRelu_at Y (row mu) (row var) (row ga) (row be) (x0 : Mat 4000 128) (row x1) (row x2) (row x3) (row x4) eps (ix2 p q) i h0 ?_ ?_ ?_ ?_
  · rw [hq]; exact h1 q
  · rw [hq]; exact h2 q
  · rw [hq]; exact h3 q
  · rw [hq]; exact h4 q

/-- The printed index maps, decided once over the grid: the array's and the result's row blocks move with the point,
    every vector's block stays at zero. -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 1) = 0 ∧ win2_2.index t (0 : Fin 1) = 0
    ∧ win2_3.index t (0 : Fin 1) = 0 ∧ win2_4.index t (0 : Fin 1) = 0 :=
  (by decide +kernel : ∀ t : Fin grid2.N, _)

/-- The whole result: the region's array normalised column by column with the region's four statistics vectors. -/
abbrev G (c : Dev nD) : Mat 100000 128 :=
  bnRelu (V c main_v47_0 : Mat 100000 128) (row (V c main_v55)) (row (V c main_v61)) (row (V c main_v63))
    (row (V c main_v65)) eps

/-- What point `t` writes back is block `t` of the whole result. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S128) hz1]
  obtain ⟨e00, e01, e50, e51, e1, e2, e3, e4⟩ := idx_facts t
  funext j
  show k2_pay1 (iblk2 V c 0 t) (iblk2 V c 1 t) (iblk2 V c 2 t) (iblk2 V c 3 t) (iblk2 V c 4 t) j
    = G V c (((cfg2.win 5).blk t).view.emb j)
  refine point_eq (V c main_v47_0) (V c main_v55) (V c main_v61) (V c main_v63) (V c main_v65) _ _ _ _ _ j _ ?_ ?_ ?_ ?_ ?_ ?_
  · show V c main_v47_0 (((cfg2.win 0).blk t).view.emb j) = V c main_v47_0 (((cfg2.win 5).blk t).view.emb j)
    refine congrArg _ (funext fun a => Fin.ext ?_)
    match a with
    | ⟨0, _⟩ => show win2_0.index t (0 : Fin 2) * 4000 + 1 * (j 0).val = win2_5.index t (0 : Fin 2) * 4000 + 1 * (j 0).val; omega
    | ⟨1, _⟩ => show win2_0.index t (1 : Fin 2) * 128 + 1 * (j 1).val = win2_5.index t (1 : Fin 2) * 128 + 1 * (j 1).val; omega
  · show (j 1).val = win2_5.index t (1 : Fin 2) * 128 + 1 * (j 1).val
    omega
  · intro q
    show V c main_v55 (((cfg2.win 1).blk t).view.emb (ix1 q)) = V c main_v55 (ix1 q)
    refine congrArg _ (funext fun a => Fin.ext ?_)
    match a with
    | ⟨0, _⟩ => show win2_1.index t (0 : Fin 1) * 128 + 1 * q.val = q.val; omega
  · intro q
    show V c main_v61 (((cfg2.win 2).blk t).view.emb (ix1 q)) = V c main_v61 (ix1 q)
    refine congrArg _ (funext fun a => Fin.ext ?_)
    match a with
    | ⟨0, _⟩ => show win2_2.index t (0 : Fin 1) * 128 + 1 * q.val = q.val; omega
  · intro q
    show V c main_v63 (((cfg2.win 3).blk t).view.emb (ix1 q)) = V c main_v63 (ix1 q)
    refine congrArg _ (funext fun a => Fin.ext ?_)
    match a with
    | ⟨0, _⟩ => show win2_3.index t (0 : Fin 1) * 128 + 1 * q.val = q.val; omega
  · intro q
    show V c main_v65 (((cfg2.win 4).blk t).view.emb (ix1 q)) = V c main_v65 (ix1 q)
    refine congrArg _ (funext fun a => Fin.ext ?_)
    match a with
    | ⟨0, _⟩ => show win2_4.index t (0 : Fin 1) * 128 + 1 * q.val = q.val; omega

/-- An index of the result array is in point `t`'s block iff each coordinate is in the block's range on its axis. -/
theorem mem_blk (t : Fin cfg2.N) (i : S100000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v66).slice (win2_5.rect t)).set ↔ _
  rw [View.set_slice_whole, Rect.mem_set_unit]
  exact Iff.rfl

/-- Row `r` of the result is written by point `r / 4000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  have ht : (i 0).val / 4000 < cfg2.N := by rw [hN]; omega
  obtain ⟨-, -, e50, e51, -⟩ := idx_facts ⟨(i 0).val / 4000, ht⟩
  refine ⟨⟨(i 0).val / 4000, ht⟩, flush2_5 _, ?_⟩
  rw [mem_blk]
  intro a
  match a with
  | ⟨0, _⟩ =>
    show win2_5.index ⟨(i 0).val / 4000, ht⟩ (0 : Fin 2) * 4000 ≤ (i 0).val
      ∧ (i 0).val < win2_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win2_5.index ⟨(i 0).val / 4000, ht⟩ (1 : Fin 2) * 128 ≤ (i 1).val
      ∧ (i 1).val < win2_5.index ⟨(i 0).val / 4000, ht⟩ (1 : Fin 2) * 128 + 128
    rw [e51]; omega

/-- REGION 2: the result array after the region, entry by entry, is the region's array normalised column by column. -/
theorem arr (c : Dev nD) (p : Fin 100000) (q : Fin 128) :
    (dat2 (F := Ideal) V c).arrAt 5 cfg2.N (ix2 p q)
      = bnRelu (V c main_v47_0 : Mat 100000 128) (row (V c main_v55)) (row (V c main_v61)) (row (V c main_v63))
          (row (V c main_v65)) eps (ix2 p q) :=
  congrFun ((dat2 V c).arrAt_eq_of_cover 5 (G V c) (fun t _ => flushed_eq V c t) cover) (ix2 p q)

end Cert.KernelIdeal.Region2

end
-- ==== Proof.KL1.lean ====
/-
  The first block of the idealized kernel program, boundary by boundary.

  The embedding array `h0` enters aggregation region 1 together with its neighbour sums over the sorted edges, the
  per-node factor and layer 0's weights; the region leaves the pre-normalisation rows `y1` and their per-block totals;
  the next host stretch turns the totals into the column means and one-pass variances of `y1`; normalisation region 2
  leaves `h1`, the specification's first block of `h0`.
-/
import proofs.«103646_j72808285602083_2_alg».proof.Proof.KDefs
import proofs.«103646_j72808285602083_2_alg».proof.Proof.KKeep
import proofs.«103646_j72808285602083_2_alg».proof.Proof.KArgs
import proofs.«103646_j72808285602083_2_alg».proof.Proof.KEdges
import proofs.«103646_j72808285602083_2_alg».proof.Proof.KHost1
import proofs.«103646_j72808285602083_2_alg».proof.Proof.KHost2
import proofs.«103646_j72808285602083_2_alg».proof.Proof.Region1
import proofs.«103646_j72808285602083_2_alg».proof.Proof.Region2

noncomputable section

namespace Cert.KernelIdeal.KL1

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.EdgeAgg Cert.ResSage Cert.SageBn Cert.ConvPayload
open Cert.KernelIdeal.KDefs Cert.KernelIdeal.Keep Cert.KernelIdeal.KArgs Cert.KernelIdeal.KEdges

variable (m : (ℓ : Loc nD τ sig) → Buf (Elt Ideal) ℓ) (ρ : Dev nD → PrngReg)

/-- Region 1 computes `y1` from what it finds at its entry. -/
theorem Y_eq (c : Dev nD) (hprev : (W4 m ρ c (Proc.devRef .tc main_v28) : Mat 100000 128) = h0 m c) :
    Region1.Y (V5 m ρ) c = y1 m ρ c := by
  have e28 : (V5 m ρ c main_v28 : Mat 100000 128) = h0 m c := (keep1 m ρ c main_v28 (by decide)).trans hprev
  have e40 : (V5 m ρ c main_v40 : Mat 100000 128) = aggK m ρ c (h0 m c) := by
    refine (KHost1.agg_eq m ρ c).trans ?_
    rw [v11_W4 m ρ c, v18_W4 m ρ c, hprev]
    rfl
  have e27 : (V5 m ρ c main_v27 : Mat 100000 1) = sK m ρ c := v27_W5 m ρ c
  have e42 : (V5 m ρ c main_v42 : Mat 128 128) = slab (aWS m c) 0 :=
    (KHost1.ws_eq m ρ c).trans (congrArg (fun W => slab W (0 : Fin 3)) (arg4_W4 m ρ c))
  have e44 : (V5 m ρ c main_v44 : Mat 128 128) = slab (aWN m c) 0 :=
    (KHost1.wn_eq m ρ c).trans (congrArg (fun W => slab W (0 : Fin 3)) (arg5_W4 m ρ c))
  have e46 : row (V5 m ρ c main_v46 : Row 128) = rowAt (aCB m c) 0 :=
    (KHost1.b_eq m ρ c).trans (congrArg (fun B => rowAt B (0 : Fin 3)) (arg6_W4 m ρ c))
  unfold Region1.Y y1
  rw [e28, e40, e27, e42, e44, e46]

/-- The first block's result. -/
theorem v66_W8 (c : Dev nD) (hprev : (W4 m ρ c (Proc.devRef .tc main_v28) : Mat 100000 128) = h0 m c) :
    (W8 m ρ c (Proc.devRef .tc main_v66) : Mat 100000 128) = h1 m ρ c := by
  have hY := Y_eq m ρ c hprev
  have a0 : (W6 m ρ c (Proc.devRef .tc main_v47_0) : Mat 100000 128) = y1 m ρ c :=
    ((W6_arr m ρ c 6).trans (Region1.arr6 (V5 m ρ) c)).trans hY
  have hS1 : ∀ (t : Fin 25) (r : Fin 8) (q : Fin 128),
      (W6 m ρ c (Proc.devRef .tc main_v47_1) : S25x8x128.Idx → EReal) (ix3 t r q)
        = ∑ j : Fin 4000, y1 m ρ c (ix2 (blockRow (M := 100000) (T := 25) (n := 4000) rfl t j) q) := fun t r q => by
    rw [← hY]
    exact (congrFun (W6_arr m ρ c 7) (ix3 t r q)).trans (Region1.arr7_apply (V5 m ρ) c t r q)
  have hS2 : ∀ (t : Fin 25) (r : Fin 8) (q : Fin 128),
      (W6 m ρ c (Proc.devRef .tc main_v47_2) : S25x8x128.Idx → EReal) (ix3 t r q)
        = ∑ j : Fin 4000, y1 m ρ c (ix2 (blockRow (M := 100000) (T := 25) (n := 4000) rfl t j) q)
            * y1 m ρ c (ix2 (blockRow (M := 100000) (T := 25) (n := 4000) rfl t j) q) := fun t r q => by
    rw [← hY]
    exact (congrFun (W6_arr m ρ c 8) (ix3 t r q)).trans (Region1.arr8_apply (V5 m ρ) c t r q)
  have e0 : (V7 m ρ c main_v47_0 : Mat 100000 128) = y1 m ρ c := (keep2 m ρ c main_v47_0 (by decide)).trans a0
  have e1 : row (V7 m ρ c main_v55 : Row 128) = colMean nE (y1 m ρ c) :=
    KHost2.mean_eq m ρ c (y1 m ρ c) (blockRow rfl) (fun _ _ => rfl) hS1
  have e2 : row (V7 m ρ c main_v61 : Row 128) = varOne nE (y1 m ρ c) :=
    KHost2.var_eq m ρ c (y1 m ρ c) (blockRow rfl) (fun _ _ => rfl) hS1 hS2
  have e3 : row (V7 m ρ c main_v63 : Row 128) = rowAt (aGA m c) 0 :=
    (KHost2.ga_eq m ρ c).trans (congrArg (fun B => rowAt B (0 : Fin 3)) (arg7_W6 m ρ c))
  have e4 : row (V7 m ρ c main_v65 : Row 128) = rowAt (aBT m c) 0 :=
    (KHost2.be_eq m ρ c).trans (congrArg (fun B => rowAt B (0 : Fin 3)) (arg8_W6 m ρ c))
  funext i
  obtain ⟨p, q, rfl⟩ : ∃ (p : Fin 100000) (q : Fin 128), i = ix2 p q := ⟨i 0, i 1, eq_ix2 i⟩
  refine (congrFun (W8_arr m ρ c 5) (ix2 p q)).trans ?_
  rw [Region2.arr (V7 m ρ) c p q, e0, e1, e2, e3, e4, h1_eq]
  rfl

end Cert.KernelIdeal.KL1

end
-- ==== Proof.KHost3.lean ====
/-
  The host stretch before aggregation region 1: the neighbour sums and layer 1's weights as the region finds them.

  The neighbour-sum array holds, at `(p, q)`, `0 +` the sum over the sorted edges arriving at `p` of the previous
  rows at the edge's source node; the two weight matrices and the bias row are layer 1 of the stacked arguments.
-/
import proofs.«103646_j72808285602083_2_alg».proof.Proof.Gen.KernelIdeal.Frame
import proofs.«103646_j72808285602083_2_alg».proof.Proof.LibEdgeAggHost
import proofs.«103646_j72808285602083_2_alg».proof.Proof.LibSlabRead
import Idealize.ShloMosaic.Lib.StableHlo.Run

noncomputable section

namespace Cert.KernelIdeal.KHost3

open Idealize.ShloMosaic Idealize.ShloMosaic.TcCoe Idealize.ShloMosaic.ValueIdx Idealize.SL.Sem
open Cert.KernelIdeal Cert.KernelIdeal.Gen Cert.Dense Cert.EdgeAgg Cert.ResSage

variable (m : (ℓ : Loc nD τ sig) → Buf (Elt Ideal) ℓ) (ρ : Dev nD → PrngReg)

set_option maxHeartbeats 2000000 in
/-- The stretch's operations that produce the neighbour sums, composed. -/
theorem agg_term (c : Dev nD) : (W9 m ρ c (Proc.devRef .tc main_v77) : S100000x128.Idx → EReal)
    = Host.scatterAdd (F := Ideal) scatter_S100000x128_S600000x1_S600000x128_1_0_0_1
        (broadcastInDim S100000x128 ![] bcast_S_S100000x128 (constant (F := Ideal) S_ .f32 0x00000000#32))
        (broadcastInDim S600000x1 ![0] bcast_S600000_S600000x1_0 (W8 m ρ c (Proc.devRef .tc main_v18) : IVec S600000 32))
        (Host.gather gather_S100000x128_S600000x1_S600000x128_1_0_n_n_0_1_1128 (W8 m ρ c (Proc.devRef .tc main_v66) : S100000x128.Idx → EReal)
          (broadcastInDim S600000x1 ![0] bcast_S600000_S600000x1_0
            (select (cmpi .slt (W8 m ρ c (Proc.devRef .tc main_v11) : IVec S600000 32) (broadcastInDim S600000 ![] bcast_S_S600000 (constantI S_ 32 0#32)))
              (addi (W8 m ρ c (Proc.devRef .tc main_v11) : IVec S600000 32) (broadcastInDim S600000 ![] bcast_S_S600000 (constantI S_ 32 100000#32)))
              (W8 m ρ c (Proc.devRef .tc main_v11) : IVec S600000 32)))) := by
  show StableHlo.after hostOps3 (W8 m ρ c) (Proc.devRef .tc main_v77) = _
  after_results_simp
  rfl

/-- The neighbour sums as a sum over arriving edges. -/
theorem agg_eq (c : Dev nD) :
    (W9 m ρ c (Proc.devRef .tc main_v77) : Mat 100000 128)
    = aggOf (fun e => nodeOf 100000 (by decide) (wrapW 100000#32 ((W8 m ρ c (Proc.devRef .tc main_v11) : IVec S600000 32) (ix1 e))))
        (fun e => ((W8 m ρ c (Proc.devRef .tc main_v18) : IVec S600000 32) (ix1 e)).toInt)
        (W8 m ρ c (Proc.devRef .tc main_v66) : Mat 100000 128) := by
  funext i
  obtain ⟨p, q, rfl⟩ : ∃ (p : Fin 100000) (q : Fin 128), i = ix2 p q := ⟨i 0, i 1, eq_ix2 i⟩
  rw [agg_term]
  exact Cert.KAgg.agg_apply (by decide) _ rfl rfl rfl rfl rfl rfl rfl _ rfl rfl rfl rfl _ _ _ _ _ _ _ p q

set_option maxHeartbeats 2000000 in
/-- Layer 1's own-row weights. -/
theorem ws_eq (c : Dev nD) : (W9 m ρ c (Proc.devRef .tc main_v79) : Mat 128 128)
    = slab (W8 m ρ c (Proc.devRef .tc main_arg4) : S3x128x128.Idx → EReal) ⟨1, by decide⟩ := by
  refine Eq.trans ?_ (Cert.KLayout.slab_eq (W8 m ρ c (Proc.devRef .tc main_arg4) : S3x128x128.Idx → EReal) 1 (by decide)
    slices_S3x128x128_S1x128x128_1_0_0 shapeCasts_S1x128x128_S128x128)
  show StableHlo.after hostOps3 (W8 m ρ c) (Proc.devRef .tc main_v79) = _
  after_results_simp
  rfl

set_option maxHeartbeats 2000000 in
/-- Layer 1's neighbour weights. -/
theorem wn_eq (c : Dev nD) : (W9 m ρ c (Proc.devRef .tc main_v81) : Mat 128 128)
    = slab (W8 m ρ c (Proc.devRef .tc main_arg5) : S3x128x128.Idx → EReal) ⟨1, by decide⟩ := by
  refine Eq.trans ?_ (Cert.KLayout.slab_eq (W8 m ρ c (Proc.devRef .tc main_arg5) : S3x128x128.Idx → EReal) 1 (by decide)
    slices_S3x128x128_S1x128x128_1_0_0 shapeCasts_S1x128x128_S128x128)
  show StableHlo.after hostOps3 (W8 m ρ c) (Proc.devRef .tc main_v81) = _
  after_results_simp
  rfl

set_option maxHeartbeats 2000000 in
/-- Layer 1's bias row. -/
theorem b_eq (c : Dev nD) : row (W9 m ρ c (Proc.devRef .tc main_v83) : Row 128)
    = rowAt (W8 m ρ c (Proc.devRef .tc main_arg6) : Mat 3 128) ⟨1, by decide⟩ := by
  refine Eq.trans (congrArg row ?_) (Cert.KLayout.row_eq (W8 m ρ c (Proc.devRef .tc main_arg6) : S3x128.Idx → EReal) 1 (by decide)
    slices_S3x128_S1x128_1_0 shapeCasts_S1x128_S128)
  show StableHlo.after hostOps3 (W8 m ρ c) (Proc.devRef .tc main_v83) = _
  after_results_simp
  rfl

end Cert.KernelIdeal.KHost3

end
-- ==== Proof.KHost4.lean ====
/-
  The host stretch before normalisation region 1: the batch statistics from the per-block totals, and layer 1's
  scale and shift rows.

  The aggregation region leaves two arrays of per-block totals, of the pre-normalisation rows `Y` and of their squares.
  The stretch adds the 25 block totals, divides by the number of rows and forms `max (E[y²] − μ², 0)`: the column means
  and the one-pass column variances of `Y`.
-/
import proofs.«103646_j72808285602083_2_alg».proof.Proof.Gen.KernelIdeal.Frame
import proofs.«103646_j72808285602083_2_alg».proof.Proof.LibBlockStats
import proofs.«103646_j72808285602083_2_alg».proof.Proof.LibSlabRead
import Idealize.ShloMosaic.Lib.StableHlo.Run

noncomputable section

namespace Cert.KernelIdeal.KHost4

open Idealize.ShloMosaic Idealize.ShloMosaic.TcCoe Idealize.ShloMosaic.ValueIdx Idealize.SL.Sem
open Cert.KernelIdeal Cert.KernelIdeal.Gen Cert.Dense Cert.ResSage Cert.SageBn

variable (m : (ℓ : Loc nD τ sig) → Buf (Elt Ideal) ℓ) (ρ : Dev nD → PrngReg)

/-- The number of rows as the program's constant. -/
abbrev nW : BitVec 32 := 0x47C35000#32

/-- The column sums of the block totals divided by the row count, as the stretch spells them. -/
def meanT (c : Dev nD) : FVec Ideal S128 .f32 :=
  Host.divf (F := Ideal)
    (Host.reduceAdd (F := Ideal)
      (shapeCast S25x128 (extractStridedSlice S25x1x128 ![0, 0, 0] (W10 m ρ c (Proc.devRef .tc main_v84_1) : S25x8x128.Idx → EReal)
        slices_S25x8x128_S25x1x128_0_0_0) shapeCasts_S25x1x128_S25x128)
      (constant (F := Ideal) S_ .f32 0x00000000#32) reducesTo_S25x128_S128_d0 h_S_)
    (broadcastInDim S128 ![] bcast_S_S128 (constant (F := Ideal) S_ .f32 nW))

set_option maxHeartbeats 2000000 in
theorem mean_term (c : Dev nD) : (W11 m ρ c (Proc.devRef .tc main_v92) : S128.Idx → EReal) = meanT m ρ c := by
  show StableHlo.after hostOps4 (W10 m ρ c) (Proc.devRef .tc main_v92) = _
  unfold meanT
  after_results_simp
  rfl

set_option maxHeartbeats 2000000 in
theorem var_term (c : Dev nD) : (W11 m ρ c (Proc.devRef .tc main_v98) : S128.Idx → EReal)
    = maximumf
        (subf
          (Host.divf (F := Ideal)
            (Host.reduceAdd (F := Ideal)
              (shapeCast S25x128 (extractStridedSlice S25x1x128 ![0, 0, 0] (W10 m ρ c (Proc.devRef .tc main_v84_2) : S25x8x128.Idx → EReal)
                slices_S25x8x128_S25x1x128_0_0_0) shapeCasts_S25x1x128_S25x128)
              (constant (F := Ideal) S_ .f32 0x00000000#32) reducesTo_S25x128_S128_d0 h_S_)
            (broadcastInDim S128 ![] bcast_S_S128 (constant (F := Ideal) S_ .f32 nW)))
          (mulf (meanT m ρ c) (meanT m ρ c)))
        (broadcastInDim S128 ![] bcast_S_S128 (constant (F := Ideal) S_ .f32 0x00000000#32)) := by
  show StableHlo.after hostOps4 (W10 m ρ c) (Proc.devRef .tc main_v98) = _
  unfold meanT
  after_results_simp
  rfl

/-- The means are the column means of `Y` when the first array holds `Y`'s block totals. -/
theorem mean_eq (c : Dev nD) (Y : Mat 100000 128) (blk : Fin 25 → Fin 4000 → Fin 100000)
    (hblk : ∀ t j, (blk t j).val = 4000 * t.val + j.val)
    (hS1 : ∀ (t : Fin 25) (r : Fin 8) (q : Fin 128),
      (W10 m ρ c (Proc.devRef .tc main_v84_1) : S25x8x128.Idx → EReal) (ix3 t r q) = ∑ j : Fin 4000, Y (ix2 (blk t j) q)) :
    row (W11 m ρ c (Proc.devRef .tc main_v92) : Row 128) = colMean (Ideal.ofBits .f32 nW) Y := by
  rw [mean_term]
  exact Cert.KStats.kMean_row (A := 25) (B := 4000) (N := 100000) (K := 128) rfl Y _ blk hblk hS1 nW _ _ _ _ _

/-- The variances are the one-pass column variances of `Y`. -/
theorem var_eq (c : Dev nD) (Y : Mat 100000 128) (blk : Fin 25 → Fin 4000 → Fin 100000)
    (hblk : ∀ t j, (blk t j).val = 4000 * t.val + j.val)
    (hS1 : ∀ (t : Fin 25) (r : Fin 8) (q : Fin 128),
      (W10 m ρ c (Proc.devRef .tc main_v84_1) : S25x8x128.Idx → EReal) (ix3 t r q) = ∑ j : Fin 4000, Y (ix2 (blk t j) q))
    (hS2 : ∀ (t : Fin 25) (r : Fin 8) (q : Fin 128),
      (W10 m ρ c (Proc.devRef .tc main_v84_2) : S25x8x128.Idx → EReal) (ix3 t r q)
        = ∑ j : Fin 4000, Y (ix2 (blk t j) q) * Y (ix2 (blk t j) q)) :
    row (W11 m ρ c (Proc.devRef .tc main_v98) : Row 128) = varOne (Ideal.ofBits .f32 nW) Y := by
  rw [var_term]
  refine Cert.KStats.kVar_row (A := 25) (B := 4000) (N := 100000) (K := 128) rfl Y _ blk hblk hS2 nW _ _ _ _ _ (meanT m ρ c) ?_
  rw [← mean_term]
  exact mean_eq m ρ c Y blk hblk hS1

set_option maxHeartbeats 2000000 in
/-- Layer 1's scale row. -/
theorem ga_eq (c : Dev nD) : row (W11 m ρ c (Proc.devRef .tc main_v100) : Row 128)
    = rowAt (W10 m ρ c (Proc.devRef .tc main_arg7) : Mat 3 128) ⟨1, by decide⟩ := by
  refine Eq.trans (congrArg row ?_) (Cert.KLayout.row_eq (W10 m ρ c (Proc.devRef .tc main_arg7) : S3x128.Idx → EReal) 1 (by decide)
    slices_S3x128_S1x128_1_0 shapeCasts_S1x128_S128)
  show StableHlo.after hostOps4 (W10 m ρ c) (Proc.devRef .tc main_v100) = _
  after_results_simp
  rfl

set_option maxHeartbeats 2000000 in
/-- Layer 1's shift row. -/
theorem be_eq (c : Dev nD) : row (W11 m ρ c (Proc.devRef .tc main_v102) : Row 128)
    = rowAt (W10 m ρ c (Proc.devRef .tc main_arg8) : Mat 3 128) ⟨1, by decide⟩ := by
  refine Eq.trans (congrArg row ?_) (Cert.KLayout.row_eq (W10 m ρ c (Proc.devRef .tc main_arg8) : S3x128.Idx → EReal) 1 (by decide)
    slices_S3x128_S1x128_1_0 shapeCasts_S1x128_S128)
  show StableHlo.after hostOps4 (W10 m ρ c) (Proc.devRef .tc main_v102) = _
  after_results_simp
  rfl

end Cert.KernelIdeal.KHost4

end
-- ==== Proof.Region3.lean ====
/-
  The aggregation kernel of region 3, as whole arrays.

  The region runs over 25 blocks of 4000 rows.  At block `t` it reads rows `4000 t … 4000 t + 3999` of the nodes'
  own rows `X`, of the neighbours' row sums `A` and of the factor column `s`, the whole weight matrices and the
  whole bias vector, and writes three things: rows `4000 t … 4000 t + 3999` of the step's result
  `Y = X · ws + (A scaled row by row by s) · wn + b`; the column totals of those 4000 rows of `Y`, repeated on the
  8 rows of slab `t` of a `[25, 8, 128]` array; and the same for the entrywise squares of `Y`.

  An entry of the step depends only on its own row of `X`, `A` and `s`, so the 25 blocks of rows written back are the
  25 blocks of rows of the step applied to the whole arrays; row `p` lies in block `p / 4000`, so the blocks cover the
  array, and likewise slab `t` of the totals is covered by point `t`.
-/
import proofs.«103646_j72808285602083_2_alg».proof.Proof.Gen.KernelIdeal.Frame
import proofs.«103646_j72808285602083_2_alg».proof.Proof.LibConvPayload
import Idealize.ShloMosaic.Lib.Pipeline.Value

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.Dense Cert.ResSage Cert.ConvPayload

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's three values as functions of its six blocks -/

/-- The stored block is the step applied to the loaded blocks. -/
theorem pay1_eq (x0 : Vec Ideal S4000x128 .bf16) (x1 : Vec Ideal S4000x128 .f32) (x2 : Vec Ideal S4000x1 .f32) (x3 x4 : Vec Ideal S128x128 .f32)
    (x5 : Vec Ideal S128 .f32) :
    k3_pay1 x0 x1 x2 x3 x4 x5 = conv (x0 : Mat 4000 128) x1 x2 x3 x4 (row x5) := by
  unfold k3_pay1
  exact vecConvB dot_S4000x128_S128x128_S4000x128_1_0_0_1_n_n rfl rfl rfl rfl rfl rfl x0 x1 x2 x3 x4 x5 _ _ _ _ _ _ _ _

/-- The second stored block holds, on each of its 8 rows, the column totals of the step's block. -/
theorem pay2_apply (x0 : Vec Ideal S4000x128 .bf16) (x1 : Vec Ideal S4000x128 .f32) (x2 : Vec Ideal S4000x1 .f32) (x3 x4 : Vec Ideal S128x128 .f32)
    (x5 : Vec Ideal S128 .f32) (u : Fin 1) (r : Fin 8) (q : Fin 128) :
    k3_pay2 x0 x1 x2 x3 x4 x5 (ix3 u r q) = ∑ p : Fin 4000, conv (x0 : Mat 4000 128) x1 x2 x3 x4 (row x5) (ix2 p q) := by
  unfold k3_pay2
  refine (vecTotals_apply (k3_pay1 x0 x1 x2 x3 x4 x5) _ _ _ _ _ _ _ u r q).trans ?_
  rw [pay1_eq]

/-- The third, the column totals of the entrywise squares. -/
theorem pay3_apply (x0 : Vec Ideal S4000x128 .bf16) (x1 : Vec Ideal S4000x128 .f32) (x2 : Vec Ideal S4000x1 .f32) (x3 x4 : Vec Ideal S128x128 .f32)
    (x5 : Vec Ideal S128 .f32) (u : Fin 1) (r : Fin 8) (q : Fin 128) :
    k3_pay3 x0 x1 x2 x3 x4 x5 (ix3 u r q)
      = ∑ p : Fin 4000, sq (conv (x0 : Mat 4000 128) x1 x2 x3 x4 (row x5)) (ix2 p q) := by
  unfold k3_pay3
  refine (vecTotals_apply (mulf (k3_pay1 x0 x1 x2 x3 x4 x5) (k3_pay1 x0 x1 x2 x3 x4 x5)) _ _ _ _ _ _ _ u r q).trans ?_
  rw [pay1_eq]
  rfl

/-! ## Where each window's block sits at point `t` -/

/-- The printed index maps over the 25 points: the three row-blocked inputs and the three outputs sit at block `t`
    along their first axis, the weights and the bias at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0
    ∧ win3_7.index t (0 : Fin 3) = t.val ∧ win3_7.index t (1 : Fin 3) = 0 ∧ win3_7.index t (2 : Fin 3) = 0
    ∧ win3_8.index t (0 : Fin 3) = t.val ∧ win3_8.index t (1 : Fin 3) = 0 ∧ win3_8.index t (2 : Fin 3) = 0 :=
  (by decide +kernel : ∀ t : Fin grid3.N, _)

theorem t_lt (t : Fin cfg3.N) : t.val < 25 := Nat.lt_of_lt_of_eq t.isLt N_3

/-- The block of the nodes' own rows at point `t` is rows `4000 t …` of the array. -/
theorem blk0_apply (c : Dev nD) (t : Fin cfg3.N) (y : S4000x128.Idx) (k : S100000x128.Idx)
    (hk0 : (k 0).val = 4000 * t.val + (y 0).val) (hk1 : (k 1).val = (y 1).val) :
    (iblk3 V c 0 t : S4000x128.Idx → EReal) y = (V c main_v66 : S100000x128.Idx → EReal) k := by
  obtain ⟨e0, e1, -⟩ := idx_facts t
  unfold iblk3
  rw [View.read_apply]
  show V c main_v66 _ = V c main_v66 _
  congr 1
  funext a
  apply Fin.ext
  match a with
  | ⟨0, _⟩ => show win3_0.index t 0 * 4000 + 1 * (y 0).val = (k 0).val; rw [e0, hk0]; omega
  | ⟨1, _⟩ => show win3_0.index t 1 * 128 + 1 * (y 1).val = (k 1).val; rw [e1, hk1]; omega

/-- The block of the neighbours' row sums at point `t` is rows `4000 t …` of the array. -/
theorem blk1_apply (c : Dev nD) (t : Fin cfg3.N) (y : S4000x128.Idx) (k : S100000x128.Idx)
    (hk0 : (k 0).val = 4000 * t.val + (y 0).val) (hk1 : (k 1).val = (y 1).val) :
    (iblk3 V c 1 t : S4000x128.Idx → EReal) y = (V c main_v77 : S100000x128.Idx → EReal) k := by
  obtain ⟨-, -, e0, e1, -⟩ := idx_facts t
  unfold iblk3
  rw [View.read_apply]
  show V c main_v77 _ = V c main_v77 _
  congr 1
  funext a
  apply Fin.ext
  match a with
  | ⟨0, _⟩ => show win3_1.index t 0 * 4000 + 1 * (y 0).val = (k 0).val; rw [e0, hk0]; omega
  | ⟨1, _⟩ => show win3_1.index t 1 * 128 + 1 * (y 1).val = (k 1).val; rw [e1, hk1]; omega

/-- The block of the factor column at point `t` is rows `4000 t …` of the column. -/
theorem blk2_apply (c : Dev nD) (t : Fin cfg3.N) (y : S4000x1.Idx) (k : S100000x1.Idx)
    (hk0 : (k 0).val = 4000 * t.val + (y 0).val) (hk1 : (k 1).val = (y 1).val) :
    (iblk3 V c 2 t : S4000x1.Idx → EReal) y = (V c main_v27 : S100000x1.Idx → EReal) k := by
  obtain ⟨-, -, -, -, e0, e1, -⟩ := idx_facts t
  unfold iblk3
  rw [View.read_apply]
  show V c main_v27 _ = V c main_v27 _
  congr 1
  funext a
  apply Fin.ext
  match a with
  | ⟨0, _⟩ => show win3_2.index t 0 * 4000 + 1 * (y 0).val = (k 0).val; rw [e0, hk0]; omega
  | ⟨1, _⟩ => show win3_2.index t 1 * 1 + 1 * (y 1).val = (k 1).val; rw [e1, hk1]; omega

/-- The block of the first weight matrix at any point is the whole matrix. -/
theorem blk3_apply (c : Dev nD) (t : Fin cfg3.N) (y : S128x128.Idx) :
    (iblk3 V c 3 t : S128x128.Idx → EReal) y = (V c main_v79 : S128x128.Idx → EReal) y := by
  obtain ⟨-, -, -, -, -, -, e0, e1, -⟩ := idx_facts t
  unfold iblk3
  rw [View.read_apply]
  show V c main_v79 _ = V c main_v79 _
  congr 1
  funext a
  apply Fin.ext
  match a with
  | ⟨0, _⟩ => show win3_3.index t 0 * 128 + 1 * (y 0).val = (y 0).val; rw [e0]; omega
  | ⟨1, _⟩ => show win3_3.index t 1 * 128 + 1 * (y 1).val = (y 1).val; rw [e1]; omega

/-- The block of the second weight matrix at any point is the whole matrix. -/
theorem blk4_apply (c : Dev nD) (t : Fin cfg3.N) (y : S128x128.Idx) :
    (iblk3 V c 4 t : S128x128.Idx → EReal) y = (V c main_v81 : S128x128.Idx → EReal) y := by
  obtain ⟨-, -, -, -, -, -, -, -, e0, e1, -⟩ := idx_facts t
  unfold iblk3
  rw [View.read_apply]
  show V c main_v81 _ = V c main_v81 _
  congr 1
  funext a
  apply Fin.ext
  match a with
  | ⟨0, _⟩ => show win3_4.index t 0 * 128 + 1 * (y 0).val = (y 0).val; rw [e0]; omega
  | ⟨1, _⟩ => show win3_4.index t 1 * 128 + 1 * (y 1).val = (y 1).val; rw [e1]; omega

/-- The block of the bias at any point is the whole vector. -/
theorem blk5_apply (c : Dev nD) (t : Fin cfg3.N) (y : S128.Idx) :
    (iblk3 V c 5 t : S128.Idx → EReal) y = (V c main_v83 : S128.Idx → EReal) y := by
  obtain ⟨-, -, -, -, -, -, -, -, -, -, e0, -⟩ := idx_facts t
  unfold iblk3
  rw [View.read_apply]
  show V c main_v83 _ = V c main_v83 _
  congr 1
  funext a
  apply Fin.ext
  match a with
  | ⟨0, _⟩ => show win3_5.index t 0 * 128 + 1 * (y 0).val = (y 0).val; rw [e0]; omega

/-! ## The three arrays -/

/-- The step applied to the whole arrays as the region finds them. -/
def Y (c : Dev nD) : Mat 100000 128 :=
  conv (V c main_v66 : Mat 100000 128) (V c main_v77 : Mat 100000 128) (V c main_v27 : Mat 100000 1)
    (V c main_v79 : Mat 128 128) (V c main_v81 : Mat 128 128) (row (V c main_v83 : Row 128))

/-- Rows `4000 t …` of the step on the whole arrays, from the blocks at point `t`. -/
theorem point_row (c : Dev nD) (t : Fin cfg3.N) (p : Fin 4000) (P : Fin 100000) (hP : P.val = 4000 * t.val + p.val)
    (q : Fin 128) :
    conv (iblk3 V c 0 t : Mat 4000 128) (iblk3 V c 1 t : Mat 4000 128) (iblk3 V c 2 t : Mat 4000 1)
        (iblk3 V c 3 t : Mat 128 128) (iblk3 V c 4 t : Mat 128 128) (row (iblk3 V c 5 t : Row 128)) (ix2 p q)
      = Y V c (ix2 P q) :=
  conv_block (V c main_v66 : Mat 100000 128) (V c main_v77 : Mat 100000 128) (V c main_v27 : Mat 100000 1)
    (V c main_v79 : Mat 128 128) (V c main_v81 : Mat 128 128) (row (V c main_v83 : Row 128))
    (iblk3 V c 0 t : Mat 4000 128) (iblk3 V c 1 t : Mat 4000 128) (iblk3 V c 2 t : Mat 4000 1)
    (iblk3 V c 3 t : Mat 128 128) (iblk3 V c 4 t : Mat 128 128) (row (iblk3 V c 5 t : Row 128)) (4000 * t.val)
    (fun p P hP k => blk0_apply V c t (ix2 p k) (ix2 P k) hP rfl)
    (fun p P hP k => blk1_apply V c t (ix2 p k) (ix2 P k) hP rfl)
    (fun p P hP => blk2_apply V c t (ix2 p (0 : Fin 1)) (ix2 P (0 : Fin 1)) hP rfl)
    (fun k q => blk3_apply V c t (ix2 k q))
    (fun k q => blk4_apply V c t (ix2 k q))
    (fun q => blk5_apply V c t (ix1 q))
    p P hP q

/-- The column totals of each block of 4000 rows of the step, on the 8 rows of the block's slab. -/
def T1 (c : Dev nD) : S25x8x128.Idx → EReal := blockTotals 25 4000 8 rfl (Y V c)

/-- The same for the entrywise squares of the step. -/
def T2 (c : Dev nD) : S25x8x128.Idx → EReal := blockTotals 25 4000 8 rfl (sq (Y V c))

/-! ## What point `t` writes back -/

/-- Point `t` writes rows `4000 t …` of the step. -/
theorem flushed6_eq (c : Dev nD) (t : Fin cfg3.N) :
    (dat3 (F := Ideal) V c).flushed 6 t = ((cfg3.win 6).blk t).view.read (Elt Ideal) (Y V c) := by
  show (cfg3.win 6).cut (grid3.coords t) ((dat3 V c).after 6 t) = _
  rw [after3_6]
  unfold out3_6
  rw [View.canon_unit_zero hz2]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, e0, e1, -⟩ := idx_facts t
  have hlt := t_lt t
  funext j
  obtain ⟨p, q, rfl⟩ : ∃ (p : Fin 4000) (q : Fin 128), j = ix2 p q := ⟨j 0, j 1, eq_ix2 j⟩
  have hp := p.isLt
  have hi : ((cfg3.win 6).blk t).view.emb (ix2 p q) = ix2 (⟨4000 * t.val + p.val, by omega⟩ : Fin 100000) q := by
    funext a
    apply Fin.ext
    match a with
    | ⟨0, _⟩ => show win3_6.index t (0 : Fin 2) * 4000 + 1 * p.val = 4000 * t.val + p.val; rw [e0]; omega
    | ⟨1, _⟩ => show win3_6.index t (1 : Fin 2) * 128 + 1 * q.val = q.val; rw [e1]; omega
  show k3_pay1 (iblk3 V c 0 t) (iblk3 V c 1 t) (iblk3 V c 2 t) (iblk3 V c 3 t) (iblk3 V c 4 t) (iblk3 V c 5 t) (ix2 p q) = Y V c (((cfg3.win 6).blk t).view.emb (ix2 p q))
  rw [hi]
  exact (congrFun (pay1_eq (iblk3 V c 0 t) (iblk3 V c 1 t) (iblk3 V c 2 t) (iblk3 V c 3 t) (iblk3 V c 4 t) (iblk3 V c 5 t)) (ix2 p q)).trans (point_row V c t p _ rfl q)

/-- Point `t` writes slab `t` of the totals. -/
theorem flushed7_eq (c : Dev nD) (t : Fin cfg3.N) :
    (dat3 (F := Ideal) V c).flushed 7 t = ((cfg3.win 7).blk t).view.read (Elt Ideal) (T1 V c) := by
  show (cfg3.win 7).cut (grid3.coords t) ((dat3 V c).after 7 t) = _
  rw [after3_7]
  unfold out3_7
  rw [View.canon_unit_zero hz3]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, -, -, e0, e1, e2, -⟩ := idx_facts t
  have hlt := t_lt t
  funext j
  obtain ⟨u, r, q, rfl⟩ : ∃ (u : Fin 1) (r : Fin 8) (q : Fin 128), j = ix3 u r q := ⟨j 0, j 1, j 2, eq_ix3 j⟩
  have hu := u.isLt
  show k3_pay2 (iblk3 V c 0 t) (iblk3 V c 1 t) (iblk3 V c 2 t) (iblk3 V c 3 t) (iblk3 V c 4 t) (iblk3 V c 5 t) (ix3 u r q) = T1 V c (((cfg3.win 7).blk t).view.emb (ix3 u r q))
  refine (pay2_apply (iblk3 V c 0 t) (iblk3 V c 1 t) (iblk3 V c 2 t) (iblk3 V c 3 t) (iblk3 V c 4 t) (iblk3 V c 5 t) u r q).trans ?_
  refine Eq.trans ?_ (blockTotals_at 25 4000 8 rfl (Y V c) _ (⟨t.val, hlt⟩ : Fin 25) q ?_ ?_).symm
  · exact Finset.sum_congr rfl fun p _ => point_row V c t p _ rfl q
  · show win3_7.index t (0 : Fin 3) * 1 + 1 * u.val = t.val; rw [e0]; omega
  · show win3_7.index t (2 : Fin 3) * 128 + 1 * q.val = q.val; rw [e2]; omega

/-- Point `t` writes slab `t` of the totals of the squares. -/
theorem flushed8_eq (c : Dev nD) (t : Fin cfg3.N) :
    (dat3 (F := Ideal) V c).flushed 8 t = ((cfg3.win 8).blk t).view.read (Elt Ideal) (T2 V c) := by
  show (cfg3.win 8).cut (grid3.coords t) ((dat3 V c).after 8 t) = _
  rw [after3_8]
  unfold out3_8
  rw [View.canon_unit_zero hz3]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, -, -, -, -, -, e0, e1, e2⟩ := idx_facts t
  have hlt := t_lt t
  funext j
  obtain ⟨u, r, q, rfl⟩ : ∃ (u : Fin 1) (r : Fin 8) (q : Fin 128), j = ix3 u r q := ⟨j 0, j 1, j 2, eq_ix3 j⟩
  have hu := u.isLt
  show k3_pay3 (iblk3 V c 0 t) (iblk3 V c 1 t) (iblk3 V c 2 t) (iblk3 V c 3 t) (iblk3 V c 4 t) (iblk3 V c 5 t) (ix3 u r q) = T2 V c (((cfg3.win 8).blk t).view.emb (ix3 u r q))
  refine (pay3_apply (iblk3 V c 0 t) (iblk3 V c 1 t) (iblk3 V c 2 t) (iblk3 V c 3 t) (iblk3 V c 4 t) (iblk3 V c 5 t) u r q).trans ?_
  refine Eq.trans ?_ (blockTotals_at 25 4000 8 rfl (sq (Y V c)) _ (⟨t.val, hlt⟩ : Fin 25) q ?_ ?_).symm
  · refine Finset.sum_congr rfl fun p _ => ?_
    exact congrArg (fun z : EReal => z * z)
      (point_row V c t p (blockRow (M := 100000) (T := 25) (n := 4000) rfl (⟨t.val, hlt⟩ : Fin 25) p) rfl q)
  · show win3_8.index t (0 : Fin 3) * 1 + 1 * u.val = t.val; rw [e0]; omega
  · show win3_8.index t (2 : Fin 3) * 128 + 1 * q.val = q.val; rw [e2]; omega

/-! ## The blocks cover the arrays -/

theorem mem_blk6 (t : Fin cfg3.N) (i : S100000x128.Idx) :
    i ∈ ((cfg3.win 6).blk t).view.set ↔ ∀ a : Fin 2, win3_6.index t a * S4000x128.size a ≤ (i a).val
      ∧ (i a).val < win3_6.index t a * S4000x128.size a + S4000x128.size a := by
  show i ∈ ((View.whole main_v84_0).slice (win3_6.rect t)).set ↔ _
  rw [View.set_slice_whole, Rect.mem_set_unit]
  exact Iff.rfl

theorem mem_blk7 (t : Fin cfg3.N) (i : S25x8x128.Idx) :
    i ∈ ((cfg3.win 7).blk t).view.set ↔ ∀ a : Fin 3, win3_7.index t a * S1x8x128.size a ≤ (i a).val
      ∧ (i a).val < win3_7.index t a * S1x8x128.size a + S1x8x128.size a := by
  show i ∈ ((View.whole main_v84_1).slice (win3_7.rect t)).set ↔ _
  rw [View.set_slice_whole, Rect.mem_set_unit]
  exact Iff.rfl

theorem mem_blk8 (t : Fin cfg3.N) (i : S25x8x128.Idx) :
    i ∈ ((cfg3.win 8).blk t).view.set ↔ ∀ a : Fin 3, win3_8.index t a * S1x8x128.size a ≤ (i a).val
      ∧ (i a).val < win3_8.index t a * S1x8x128.size a + S1x8x128.size a := by
  show i ∈ ((View.whole main_v84_2).slice (win3_8.rect t)).set ↔ _
  rw [View.set_slice_whole, Rect.mem_set_unit]
  exact Iff.rfl

/-- Row `p` lies in the block of point `p / 4000`. -/
theorem cover6 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ : ∃ t : Fin cfg3.N, t.val = (i 0).val / 4000 :=
    ⟨⟨(i 0).val / 4000, by rw [show cfg3.N = 25 from N_3]; omega⟩, rfl⟩
  obtain ⟨-, -, -, -, -, -, -, -, -, -, -, e0, e1, -⟩ := idx_facts t
  refine ⟨t, flush3_6 t, ?_⟩
  rw [mem_blk6]
  intro a
  match a with
  | ⟨0, _⟩ =>
    show win3_6.index t (0 : Fin 2) * 4000 ≤ (i 0).val ∧ (i 0).val < win3_6.index t (0 : Fin 2) * 4000 + 4000
    rw [e0, ht]; omega
  | ⟨1, _⟩ =>
    show win3_6.index t (1 : Fin 2) * 128 ≤ (i 1).val ∧ (i 1).val < win3_6.index t (1 : Fin 2) * 128 + 128
    rw [e1]; omega

/-- Slab `t` is the block of point `t`. -/
theorem cover7 (i : S25x8x128.Idx) :
    ∃ t : Fin cfg3.N, (cfg3.win 7).flush t = true ∧ i ∈ ((cfg3.win 7).blk t).view.set := by
  have hi0 : (i 0).val < 25 := (i 0).isLt
  have hi1 : (i 1).val < 8 := (i 1).isLt
  have hi2 : (i 2).val < 128 := (i 2).isLt
  obtain ⟨t, ht⟩ : ∃ t : Fin cfg3.N, t.val = (i 0).val :=
    ⟨⟨(i 0).val, by rw [show cfg3.N = 25 from N_3]; omega⟩, rfl⟩
  obtain ⟨-, -, -, -, -, -, -, -, -, -, -, -, -, e0, e1, e2, -⟩ := idx_facts t
  refine ⟨t, flush3_7 t, ?_⟩
  rw [mem_blk7]
  intro a
  match a with
  | ⟨0, _⟩ =>
    show win3_7.index t (0 : Fin 3) * 1 ≤ (i 0).val ∧ (i 0).val < win3_7.index t (0 : Fin 3) * 1 + 1
    rw [e0, ht]; omega
  | ⟨1, _⟩ =>
    show win3_7.index t (1 : Fin 3) * 8 ≤ (i 1).val ∧ (i 1).val < win3_7.index t (1 : Fin 3) * 8 + 8
    rw [e1]; omega
  | ⟨2, _⟩ =>
    show win3_7.index t (2 : Fin 3) * 128 ≤ (i 2).val ∧ (i 2).val < win3_7.index t (2 : Fin 3) * 128 + 128
    rw [e2]; omega

theorem cover8 (i : S25x8x128.Idx) :
    ∃ t : Fin cfg3.N, (cfg3.win 8).flush t = true ∧ i ∈ ((cfg3.win 8).blk t).view.set := by
  have hi0 : (i 0).val < 25 := (i 0).isLt
  have hi1 : (i 1).val < 8 := (i 1).isLt
  have hi2 : (i 2).val < 128 := (i 2).isLt
  obtain ⟨t, ht⟩ : ∃ t : Fin cfg3.N, t.val = (i 0).val :=
    ⟨⟨(i 0).val, by rw [show cfg3.N = 25 from N_3]; omega⟩, rfl⟩
  obtain ⟨-, -, -, -, -, -, -, -, -, -, -, -, -, -, -, -, e0, e1, e2⟩ := idx_facts t
  refine ⟨t, flush3_8 t, ?_⟩
  rw [mem_blk8]
  intro a
  match a with
  | ⟨0, _⟩ =>
    show win3_8.index t (0 : Fin 3) * 1 ≤ (i 0).val ∧ (i 0).val < win3_8.index t (0 : Fin 3) * 1 + 1
    rw [e0, ht]; omega
  | ⟨1, _⟩ =>
    show win3_8.index t (1 : Fin 3) * 8 ≤ (i 1).val ∧ (i 1).val < win3_8.index t (1 : Fin 3) * 8 + 8
    rw [e1]; omega
  | ⟨2, _⟩ =>
    show win3_8.index t (2 : Fin 3) * 128 ≤ (i 2).val ∧ (i 2).val < win3_8.index t (2 : Fin 3) * 128 + 128
    rw [e2]; omega

/-! ## The arrays after the region -/

/-- The first result array ends holding the step of the whole arrays. -/
theorem arr6 (c : Dev nD) : (dat3 (F := Ideal) V c).arrAt 6 cfg3.N = Y V c :=
  (dat3 V c).arrAt_eq_of_cover 6 (Y V c) (fun t _ => flushed6_eq V c t) cover6

/-- The second, the column totals of its blocks of 4000 rows. -/
theorem arr7 (c : Dev nD) : (dat3 (F := Ideal) V c).arrAt 7 cfg3.N = T1 V c :=
  (dat3 V c).arrAt_eq_of_cover 7 (T1 V c) (fun t _ => flushed7_eq V c t) cover7

/-- The third, the column totals of the squares. -/
theorem arr8 (c : Dev nD) : (dat3 (F := Ideal) V c).arrAt 8 cfg3.N = T2 V c :=
  (dat3 V c).arrAt_eq_of_cover 8 (T2 V c) (fun t _ => flushed8_eq V c t) cover8

/-- Entry `(p, q)` of the first result array. -/
theorem arr6_apply (c : Dev nD) (p : Fin 100000) (q : Fin 128) :
    (dat3 (F := Ideal) V c).arrAt 6 cfg3.N (ix2 p q)
      = conv (V c main_v66 : Mat 100000 128) (V c main_v77 : Mat 100000 128) (V c main_v27 : Mat 100000 1)
          (V c main_v79 : Mat 128 128) (V c main_v81 : Mat 128 128) (row (V c main_v83 : Row 128)) (ix2 p q) :=
  congrFun (arr6 V c) (ix2 p q)

/-- Entry `(t, r, q)` of the second: the total of column `q` over rows `4000 t … 4000 t + 3999` of the step. -/
theorem arr7_apply (c : Dev nD) (t : Fin 25) (r : Fin 8) (q : Fin 128) :
    (dat3 (F := Ideal) V c).arrAt 7 cfg3.N (ix3 t r q)
      = ∑ j : Fin 4000, Y V c (ix2 (blockRow (M := 100000) (T := 25) (n := 4000) rfl t j) q) :=
  congrFun (arr7 V c) (ix3 t r q)

/-- Entry `(t, r, q)` of the third: the same total of the squares. -/
theorem arr8_apply (c : Dev nD) (t : Fin 25) (r : Fin 8) (q : Fin 128) :
    (dat3 (F := Ideal) V c).arrAt 8 cfg3.N (ix3 t r q)
      = ∑ j : Fin 4000, Y V c (ix2 (blockRow (M := 100000) (T := 25) (n := 4000) rfl t j) q)
          * Y V c (ix2 (blockRow (M := 100000) (T := 25) (n := 4000) rfl t j) q) :=
  congrFun (arr8 V c) (ix3 t r q)

end Cert.KernelIdeal.Region3

end
-- ==== Proof.Region4.lean ====
/-
  The column-wise normalisation region with a carried array, read as one whole-array function.

  The region walks the rows of two `[100000, 128]` arrays in 25 blocks of 4000 rows.  At every block it reads the two
  blocks and four whole vectors of 128 entries — the column means, the column variances, the scales and the shifts — and
  stores, at row `p` and column `q` of the block, `max (((y − μ q) · rsqrt (v q + ε)) · γ q + β q, 0) + r` with `y` the first
  block's entry, `r` the second block's entry and `ε` the float the word `0x3727C5AC` spells.  Row `r` of an array lies in
  block `r / 4000` at row `r % 4000`, every row lies in exactly one block, and the four vectors' blocks are the vectors
  themselves; so after the region the result array holds, at every `(r, q)`, that expression of the two arrays' entries
  `(r, q)` and the vectors' entries `q`.
-/
import proofs.«103646_j72808285602083_2_alg».proof.Proof.Gen.KernelIdeal.Frame
import proofs.«103646_j72808285602083_2_alg».proof.Proof.LibBnStats
import proofs.«103646_j72808285602083_2_alg».proof.Proof.LibResSage
import Idealize.ShloMosaic.Lib.Pipeline.Value

noncomputable section

namespace Cert.KernelIdeal.Region4

open Cert.KernelIdeal Cert.KernelIdeal.Gen Idealize.ShloMosaic Idealize.ShloMosaic.TcCoe Idealize.SL.Sem
open Idealize.ShloMosaic.ValueIdx Cert.Dense Cert.SageBn Cert.ResSage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The stabiliser the body adds to the variances: the float the word `0x3727C5AC` spells. -/
abbrev eps : EReal := Ideal.ofBits .f32 0x3727C5AC#32

/-- The body's value at an entry: the normalised, scaled, shifted and rectified entry of the block, plus the same entry
    of the block of the array carried past the normalisation. -/
theorem pay_at (x0 : Vec Ideal S4000x128 .f32) (x1 x2 x3 x4 : Vec Ideal S128 .f32) (x5 : Vec Ideal S4000x128 .bf16)
    (p : Fin 4000) (q : Fin 128) :
    k4_pay1 x0 x1 x2 x3 x4 x5 (ix2 p q)
      = addRes (bnRelu (x0 : Mat 4000 128) (row x1) (row x2) (row x3) (row x4) eps) (x5 : Mat 4000 128) (ix2 p q) := by
  unfold k4_pay1
  simp only [shapeCast_self]
  show max ((((x0 (ix2 p q) - broadcastTo S4000x128 (shapeCast S1x128 x1 shapeCasts_S128_S1x128) broadcasts_S1x128_S4000x128 (ix2 p q))
      * broadcastTo S4000x128 (shapeCast S1x128 (rsqrt (addf x2 (broadcast S128 (Scalar.ofBits (F := Ideal) .f32 0x3727C5AC#32)))) shapeCasts_S128_S1x128) broadcasts_S1x128_S4000x128 (ix2 p q))
      * broadcastTo S4000x128 (shapeCast S1x128 x3 shapeCasts_S128_S1x128) broadcasts_S1x128_S4000x128 (ix2 p q))
      + broadcastTo S4000x128 (shapeCast S1x128 x4 shapeCasts_S128_S1x128) broadcasts_S1x128_S4000x128 (ix2 p q))
      (Ideal.ofBits .f32 0x00000000#32) + x5 (ix2 p q) = _
  rw [broadcastTo_1b_ab_apply, broadcastTo_1b_ab_apply, broadcastTo_1b_ab_apply, broadcastTo_1b_ab_apply,
    shapeCast_a_1a_apply, shapeCast_a_1a_apply, shapeCast_a_1a_apply, shapeCast_a_1a_apply, Ideal.ofBits_zero_f32]
  rfl

/-- The body's value at an entry of a block whose entries are entry `i` of the two whole arrays and whose four vectors
    are the whole statistics: the normalised whole array plus the carried whole array, at `i`. -/
theorem point_eq (Y R : Mat 100000 128) (mu var ga be : Row 128)
    (x0 : Vec Ideal S4000x128 .f32) (x1 x2 x3 x4 : Vec Ideal S128 .f32) (x5 : Vec Ideal S4000x128 .bf16)
    (y : S4000x128.Idx) (i : S100000x128.Idx)
    (h0 : x0 y = Y i) (h5 : x5 y = R i) (hc : (y 1).val = (i 1).val)
    (h1 : ∀ q : Fin 128, x1 (ix1 q) = mu (ix1 q)) (h2 : ∀ q : Fin 128, x2 (ix1 q) = var (ix1 q))
    (h3 : ∀ q : Fin 128, x3 (ix1 q) = ga (ix1 q)) (h4 : ∀ q : Fin 128, x4 (ix1 q) = be (ix1 q)) :
    k4_pay1 x0 x1 x2 x3 x4 x5 y = addRes (bnRelu Y (row mu) (row var) (row ga) (row be) eps) R i := by
  obtain ⟨p, q, rfl⟩ : ∃ (p : Fin 4000) (q : Fin 128), y = ix2 p q := ⟨y 0, y 1, eq_ix2 y⟩
  rw [pay_at]
  have hq : (c1 i : Fin 128) = q := Fin.ext hc.symm
  show bnRelu (x0 : Mat 4000 128) (row x1) (row x2) (row x3) (row x4) eps (ix2 p q) + x5 (ix2 p q)
    = bnRelu Y (row mu) (row var) (row ga) (row be) eps i + R i
  rw [h5]
  refine congrArg (· + R i) ?_
  refine bnRelu_at Y (row mu) (row var) (row ga) (row be) (x0 : Mat 4000 128) (row x1) (row x2) (row x3) (row x4) eps (ix2 p q) i h0 ?_ ?_ ?_ ?_
  · rw [hq]; exact h1 q
  · rw [hq]; exact h2 q
  · rw [hq]; exact h3 q
  · rw [hq]; exact h4 q

/-- The printed index maps, decided once over the grid: the two arrays' and the result's row blocks move with the point,
    every vector's block stays at zero. -/
theorem idx_facts : ∀ t : Fin cfg4.N, win4_0.index t (0 : Fin 2) = t.val ∧ win4_0.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_1.index t (0 : Fin 1) = 0 ∧ win4_2.index t (0 : Fin 1) = 0
    ∧ win4_3.index t (0 : Fin 1) = 0 ∧ win4_4.index t (0 : Fin 1) = 0 :=
  (by decide +kernel : ∀ t : Fin grid4.N, _)

/-- The whole result: the region's array normalised column by column with the region's four statistics vectors, plus the
    carried array. -/
abbrev G (c : Dev nD) : Mat 100000 128 :=
  addRes (bnRelu (V c main_v84_0 : Mat 100000 128) (row (V c main_v92)) (row (V c main_v98)) (row (V c main_v100))
    (row (V c main_v102)) eps) (V c main_v66 : Mat 100000 128)

/-- What point `t` writes back is block `t` of the whole result. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz2]
  simp only [View.ld_unit_zero (S := S4000x128) hz2, View.ld_unit_zero (S := S128) hz1]
  obtain ⟨e00, e01, e50, e51, e60, e61, e1, e2, e3, e4⟩ := idx_facts t
  funext j
  show k4_pay1 (iblk4 V c 0 t) (iblk4 V c 1 t) (iblk4 V c 2 t) (iblk4 V c 3 t) (iblk4 V c 4 t) (iblk4 V c 5 t) j
    = G V c (((cfg4.win 6).blk t).view.emb j)
  refine point_eq (V c main_v84_0) (V c main_v66) (V c main_v92) (V c main_v98) (V c main_v100) (V c main_v102) _ _ _ _ _ _ j _ ?_ ?_ ?_ ?_ ?_ ?_ ?_
  · show V c main_v84_0 (((cfg4.win 0).blk t).view.emb j) = V c main_v84_0 (((cfg4.win 6).blk t).view.emb j)
    refine congrArg _ (funext fun a => Fin.ext ?_)
    match a with
    | ⟨0, _⟩ => show win4_0.index t (0 : Fin 2) * 4000 + 1 * (j 0).val = win4_6.index t (0 : Fin 2) * 4000 + 1 * (j 0).val; omega
    | ⟨1, _⟩ => show win4_0.index t (1 : Fin 2) * 128 + 1 * (j 1).val = win4_6.index t (1 : Fin 2) * 128 + 1 * (j 1).val; omega
  · show V c main_v66 (((cfg4.win 5).blk t).view.emb j) = V c main_v66 (((cfg4.win 6).blk t).view.emb j)
    refine congrArg _ (funext fun a => Fin.ext ?_)
    match a with
    | ⟨0, _⟩ => show win4_5.index t (0 : Fin 2) * 4000 + 1 * (j 0).val = win4_6.index t (0 : Fin 2) * 4000 + 1 * (j 0).val; omega
    | ⟨1, _⟩ => show win4_5.index t (1 : Fin 2) * 128 + 1 * (j 1).val = win4_6.index t (1 : Fin 2) * 128 + 1 * (j 1).val; omega
  · show (j 1).val = win4_6.index t (1 : Fin 2) * 128 + 1 * (j 1).val
    omega
  · intro q
    show V c main_v92 (((cfg4.win 1).blk t).view.emb (ix1 q)) = V c main_v92 (ix1 q)
    refine congrArg _ (funext fun a => Fin.ext ?_)
    match a with
    | ⟨0, _⟩ => show win4_1.index t (0 : Fin 1) * 128 + 1 * q.val = q.val; omega
  · intro q
    show V c main_v98 (((cfg4.win 2).blk t).view.emb (ix1 q)) = V c main_v98 (ix1 q)
    refine congrArg _ (funext fun a => Fin.ext ?_)
    match a with
    | ⟨0, _⟩ => show win4_2.index t (0 : Fin 1) * 128 + 1 * q.val = q.val; omega
  · intro q
    show V c main_v100 (((cfg4.win 3).blk t).view.emb (ix1 q)) = V c main_v100 (ix1 q)
    refine congrArg _ (funext fun a => Fin.ext ?_)
    match a with
    | ⟨0, _⟩ => show win4_3.index t (0 : Fin 1) * 128 + 1 * q.val = q.val; omega
  · intro q
    show V c main_v102 (((cfg4.win 4).blk t).view.emb (ix1 q)) = V c main_v102 (ix1 q)
    refine congrArg _ (funext fun a => Fin.ext ?_)
    match a with
    | ⟨0, _⟩ => show win4_4.index t (0 : Fin 1) * 128 + 1 * q.val = q.val; omega

/-- An index of the result array is in point `t`'s block iff each coordinate is in the block's range on its axis. -/
theorem mem_blk (t : Fin cfg4.N) (i : S100000x128.Idx) :
    i ∈ ((cfg4.win 6).blk t).view.set ↔ ∀ a : Fin 2, win4_6.index t a * S4000x128.size a ≤ (i a).val
      ∧ (i a).val < win4_6.index t a * S4000x128.size a + S4000x128.size a := by
  show i ∈ ((View.whole main_v103).slice (win4_6.rect t)).set ↔ _
  rw [View.set_slice_whole, Rect.mem_set_unit]
  exact Iff.rfl

/-- Row `r` of the result is written by point `r / 4000`. -/
theorem cover (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : cfg4.N = 25 := N_4
  have ht : (i 0).val / 4000 < cfg4.N := by rw [hN]; omega
  obtain ⟨-, -, -, -, e60, e61, -⟩ := idx_facts ⟨(i 0).val / 4000, ht⟩
  refine ⟨⟨(i 0).val / 4000, ht⟩, flush4_6 _, ?_⟩
  rw [mem_blk]
  intro a
  match a with
  | ⟨0, _⟩ =>
    show win4_6.index ⟨(i 0).val / 4000, ht⟩ (0 : Fin 2) * 4000 ≤ (i 0).val
      ∧ (i 0).val < win4_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win4_6.index ⟨(i 0).val / 4000, ht⟩ (1 : Fin 2) * 128 ≤ (i 1).val
      ∧ (i 1).val < win4_6.index ⟨(i 0).val / 4000, ht⟩ (1 : Fin 2) * 128 + 128
    rw [e61]; omega

/-- REGION 4: the result array after the region, entry by entry, is the region's array normalised column by column plus
    the carried array. -/
theorem arr (c : Dev nD) (p : Fin 100000) (q : Fin 128) :
    (dat4 (F := Ideal) V c).arrAt 6 cfg4.N (ix2 p q)
      = addRes (bnRelu (V c main_v84_0 : Mat 100000 128) (row (V c main_v92)) (row (V c main_v98)) (row (V c main_v100))
          (row (V c main_v102)) eps) (V c main_v66 : Mat 100000 128) (ix2 p q) :=
  congrFun ((dat4 V c).arrAt_eq_of_cover 6 (G V c) (fun t _ => flushed_eq V c t) cover) (ix2 p q)

end Cert.KernelIdeal.Region4

end
-- ==== Proof.KL2.lean ====
/-
  The second block of the idealized kernel program, boundary by boundary.

  Given that the first block's result array holds `h1` when the second block's host stretch begins, the array the
  second normalisation region writes holds `h2`.  The host stretch before the aggregation region leaves the neighbour
  sums of `h1` over the sorted edges and layer 1's weights; the aggregation region writes the step `y2` and the block
  totals of its columns and of their squares; the next host stretch turns the totals into the column means and the
  one-pass variances of `y2` and cuts layer 1's scale and shift rows; the normalisation region normalises `y2`, scales,
  shifts, rectifies and adds `h1`, which no operation in between has written.
-/
import proofs.«103646_j72808285602083_2_alg».proof.Proof.KDefs
import proofs.«103646_j72808285602083_2_alg».proof.Proof.KKeep
import proofs.«103646_j72808285602083_2_alg».proof.Proof.KArgs
import proofs.«103646_j72808285602083_2_alg».proof.Proof.KEdges
import proofs.«103646_j72808285602083_2_alg».proof.Proof.KHost3
import proofs.«103646_j72808285602083_2_alg».proof.Proof.KHost4
import proofs.«103646_j72808285602083_2_alg».proof.Proof.Region3
import proofs.«103646_j72808285602083_2_alg».proof.Proof.Region4

noncomputable section

open scoped BigOperators

namespace Cert.KernelIdeal.KL2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Keep Cert.KernelIdeal.KDefs
open Cert.Dense Cert.EdgeAgg Cert.ResSage Cert.SageBn Cert.ConvPayload

variable (m : (ℓ : Loc nD τ sig) → Buf (Elt Ideal) ℓ) (ρ : Dev nD → PrngReg)

/-! ## The aggregation region's inputs, as its host stretch leaves them -/

/-- The block's input rows are not written by the stretch. -/
theorem x_V9 (c : Dev nD) (hprev : (W8 m ρ c (Proc.devRef .tc main_v66) : Mat 100000 128) = h1 m ρ c) :
    (V9 m ρ c main_v66 : Mat 100000 128) = h1 m ρ c :=
  (keep3 m ρ c main_v66 (by decide)).trans hprev

/-- The neighbour sums of the block's input over the sorted edges. -/
theorem agg_V9 (c : Dev nD) (hprev : (W8 m ρ c (Proc.devRef .tc main_v66) : Mat 100000 128) = h1 m ρ c) :
    (V9 m ρ c main_v77 : Mat 100000 128) = aggK m ρ c (h1 m ρ c) := by
  refine (KHost3.agg_eq m ρ c).trans ?_
  rw [KEdges.v11_W8 m ρ c, KEdges.v18_W8 m ρ c, hprev]
  rfl

/-- The per-node factor. -/
theorem s_V9 (c : Dev nD) : (V9 m ρ c main_v27 : Mat 100000 1) = sK m ρ c :=
  KEdges.v27_W9 m ρ c

/-- Layer 1's own-row weights. -/
theorem ws_V9 (c : Dev nD) : (V9 m ρ c main_v79 : Mat 128 128) = slab (aWS m c) 1 :=
  (KHost3.ws_eq m ρ c).trans
    (congrArg (fun W : S3x128x128.Idx → EReal => slab W (⟨1, by decide⟩ : Fin 3)) (KArgs.arg4_W8 m ρ c))

/-- Layer 1's neighbour weights. -/
theorem wn_V9 (c : Dev nD) : (V9 m ρ c main_v81 : Mat 128 128) = slab (aWN m c) 1 :=
  (KHost3.wn_eq m ρ c).trans
    (congrArg (fun W : S3x128x128.Idx → EReal => slab W (⟨1, by decide⟩ : Fin 3)) (KArgs.arg5_W8 m ρ c))

/-- Layer 1's bias row. -/
theorem b_V9 (c : Dev nD) : row (V9 m ρ c main_v83 : Row 128) = rowAt (aCB m c) 1 :=
  (KHost3.b_eq m ρ c).trans
    (congrArg (fun B : Mat 3 128 => rowAt B (⟨1, by decide⟩ : Fin 3)) (KArgs.arg6_W8 m ρ c))

/-- The step the aggregation region computes is the second block's step. -/
theorem Y_eq (c : Dev nD) (hprev : (W8 m ρ c (Proc.devRef .tc main_v66) : Mat 100000 128) = h1 m ρ c) :
    Region3.Y (V9 m ρ) c = y2 m ρ c := by
  unfold Region3.Y y2
  rw [x_V9 m ρ c hprev, agg_V9 m ρ c hprev, s_V9 m ρ c, ws_V9 m ρ c, wn_V9 m ρ c, b_V9 m ρ c]

/-! ## After the aggregation region -/

/-- The step's array. -/
theorem y_W10 (c : Dev nD) (hprev : (W8 m ρ c (Proc.devRef .tc main_v66) : Mat 100000 128) = h1 m ρ c) :
    (W10 m ρ c (Proc.devRef .tc main_v84_0) : Mat 100000 128) = y2 m ρ c :=
  (W10_arr m ρ c 6).trans ((Region3.arr6 (V9 m ρ) c).trans (Y_eq m ρ c hprev))

/-- The block totals of the step's columns. -/
theorem s1_W10 (c : Dev nD) (hprev : (W8 m ρ c (Proc.devRef .tc main_v66) : Mat 100000 128) = h1 m ρ c)
    (t : Fin 25) (r : Fin 8) (q : Fin 128) :
    (W10 m ρ c (Proc.devRef .tc main_v84_1) : S25x8x128.Idx → EReal) (ix3 t r q)
      = ∑ j : Fin 4000, y2 m ρ c (ix2 (blockRow (M := 100000) (T := 25) (n := 4000) rfl t j) q) := by
  refine (congrFun (W10_arr m ρ c 7) (ix3 t r q)).trans ((Region3.arr7_apply (V9 m ρ) c t r q).trans ?_)
  rw [Y_eq m ρ c hprev]

/-- The block totals of the squares. -/
theorem s2_W10 (c : Dev nD) (hprev : (W8 m ρ c (Proc.devRef .tc main_v66) : Mat 100000 128) = h1 m ρ c)
    (t : Fin 25) (r : Fin 8) (q : Fin 128) :
    (W10 m ρ c (Proc.devRef .tc main_v84_2) : S25x8x128.Idx → EReal) (ix3 t r q)
      = ∑ j : Fin 4000, y2 m ρ c (ix2 (blockRow (M := 100000) (T := 25) (n := 4000) rfl t j) q)
          * y2 m ρ c (ix2 (blockRow (M := 100000) (T := 25) (n := 4000) rfl t j) q) := by
  refine (congrFun (W10_arr m ρ c 8) (ix3 t r q)).trans ((Region3.arr8_apply (V9 m ρ) c t r q).trans ?_)
  rw [Y_eq m ρ c hprev]

/-- The block's input rows pass through the region as an input window. -/
theorem x_W10 (c : Dev nD) (hprev : (W8 m ρ c (Proc.devRef .tc main_v66) : Mat 100000 128) = h1 m ρ c) :
    (W10 m ρ c (Proc.devRef .tc main_v66) : Mat 100000 128) = h1 m ρ c :=
  ((W10_arr m ρ c 0).trans (((dat3 (V9 m ρ) c).arrAt_in 0 rfl _).trans (A_eq3 (V9 m ρ) c 0))).trans
    (x_V9 m ρ c hprev)

/-! ## The normalisation region's inputs, as its host stretch leaves them -/

theorem y_V11 (c : Dev nD) (hprev : (W8 m ρ c (Proc.devRef .tc main_v66) : Mat 100000 128) = h1 m ρ c) :
    (V11 m ρ c main_v84_0 : Mat 100000 128) = y2 m ρ c :=
  (keep4 m ρ c main_v84_0 (by decide)).trans (y_W10 m ρ c hprev)

theorem x_V11 (c : Dev nD) (hprev : (W8 m ρ c (Proc.devRef .tc main_v66) : Mat 100000 128) = h1 m ρ c) :
    (V11 m ρ c main_v66 : Mat 100000 128) = h1 m ρ c :=
  (keep4 m ρ c main_v66 (by decide)).trans (x_W10 m ρ c hprev)

/-- The column means of the step. -/
theorem mu_V11 (c : Dev nD) (hprev : (W8 m ρ c (Proc.devRef .tc main_v66) : Mat 100000 128) = h1 m ρ c) :
    row (V11 m ρ c main_v92 : Row 128) = colMean nE (y2 m ρ c) :=
  KHost4.mean_eq m ρ c (y2 m ρ c) (blockRow (M := 100000) (T := 25) (n := 4000) rfl) (fun _ _ => rfl)
    (s1_W10 m ρ c hprev)

/-- The one-pass column variances of the step. -/
theorem var_V11 (c : Dev nD) (hprev : (W8 m ρ c (Proc.devRef .tc main_v66) : Mat 100000 128) = h1 m ρ c) :
    row (V11 m ρ c main_v98 : Row 128) = varOne nE (y2 m ρ c) :=
  KHost4.var_eq m ρ c (y2 m ρ c) (blockRow (M := 100000) (T := 25) (n := 4000) rfl) (fun _ _ => rfl)
    (s1_W10 m ρ c hprev) (s2_W10 m ρ c hprev)

/-- Layer 1's scale row. -/
theorem ga_V11 (c : Dev nD) : row (V11 m ρ c main_v100 : Row 128) = rowAt (aGA m c) 1 :=
  (KHost4.ga_eq m ρ c).trans
    (congrArg (fun B : Mat 3 128 => rowAt B (⟨1, by decide⟩ : Fin 3)) (KArgs.arg7_W10 m ρ c))

/-- Layer 1's shift row. -/
theorem be_V11 (c : Dev nD) : row (V11 m ρ c main_v102 : Row 128) = rowAt (aBT m c) 1 :=
  (KHost4.be_eq m ρ c).trans
    (congrArg (fun B : Mat 3 128 => rowAt B (⟨1, by decide⟩ : Fin 3)) (KArgs.arg8_W10 m ρ c))

/-! ## After the normalisation region -/

/-- The second block's result. -/
theorem v103_W12 (c : Dev nD) (hprev : (W8 m ρ c (Proc.devRef .tc main_v66) : Mat 100000 128) = h1 m ρ c) :
    (W12 m ρ c (Proc.devRef .tc main_v103) : Mat 100000 128) = h2 m ρ c := by
  funext i
  obtain ⟨p, q, rfl⟩ : ∃ (p : Fin 100000) (q : Fin 128), i = ix2 p q := ⟨i 0, i 1, eq_ix2 i⟩
  refine (congrFun (W12_arr m ρ c 6) (ix2 p q)).trans ((Region4.arr (V11 m ρ) c p q).trans ?_)
  rw [y_V11 m ρ c hprev, mu_V11 m ρ c hprev, var_V11 m ρ c hprev, ga_V11 m ρ c, be_V11 m ρ c, x_V11 m ρ c hprev,
    h2_eq]
  rfl

end Cert.KernelIdeal.KL2

end
-- ==== Proof.KHost5.lean ====
/-
  The host stretch before aggregation region 2: the neighbour sums and layer 2's weights as the region finds them.

  The neighbour-sum array holds, at `(p, q)`, `0 +` the sum over the sorted edges arriving at `p` of the previous
  rows at the edge's source node; the two weight matrices and the bias row are layer 2 of the stacked arguments.
-/
import proofs.«103646_j72808285602083_2_alg».proof.Proof.Gen.KernelIdeal.Frame
import proofs.«103646_j72808285602083_2_alg».proof.Proof.LibEdgeAggHost
import proofs.«103646_j72808285602083_2_alg».proof.Proof.LibSlabRead
import Idealize.ShloMosaic.Lib.StableHlo.Run

noncomputable section

namespace Cert.KernelIdeal.KHost5

open Idealize.ShloMosaic Idealize.ShloMosaic.TcCoe Idealize.ShloMosaic.ValueIdx Idealize.SL.Sem
open Cert.KernelIdeal Cert.KernelIdeal.Gen Cert.Dense Cert.EdgeAgg Cert.ResSage

variable (m : (ℓ : Loc nD τ sig) → Buf (Elt Ideal) ℓ) (ρ : Dev nD → PrngReg)

set_option maxHeartbeats 2000000 in
/-- The stretch's operations that produce the neighbour sums, composed. -/
theorem agg_term (c : Dev nD) : (W13 m ρ c (Proc.devRef .tc main_v114) : S100000x128.Idx → EReal)
    = Host.scatterAdd (F := Ideal) scatter_S100000x128_S600000x1_S600000x128_1_0_0_1
        (broadcastInDim S100000x128 ![] bcast_S_S100000x128 (constant (F := Ideal) S_ .f32 0x00000000#32))
        (broadcastInDim S600000x1 ![0] bcast_S600000_S600000x1_0 (W12 m ρ c (Proc.devRef .tc main_v18) : IVec S600000 32))
        (Host.gather gather_S100000x128_S600000x1_S600000x128_1_0_n_n_0_1_1128 (W12 m ρ c (Proc.devRef .tc main_v103) : S100000x128.Idx → EReal)
          (broadcastInDim S600000x1 ![0] bcast_S600000_S600000x1_0
            (select (cmpi .slt (W12 m ρ c (Proc.devRef .tc main_v11) : IVec S600000 32) (broadcastInDim S600000 ![] bcast_S_S600000 (constantI S_ 32 0#32)))
              (addi (W12 m ρ c (Proc.devRef .tc main_v11) : IVec S600000 32) (broadcastInDim S600000 ![] bcast_S_S600000 (constantI S_ 32 100000#32)))
              (W12 m ρ c (Proc.devRef .tc main_v11) : IVec S600000 32)))) := by
  show StableHlo.after hostOps5 (W12 m ρ c) (Proc.devRef .tc main_v114) = _
  after_results_simp
  rfl

/-- The neighbour sums as a sum over arriving edges. -/
theorem agg_eq (c : Dev nD) :
    (W13 m ρ c (Proc.devRef .tc main_v114) : Mat 100000 128)
    = aggOf (fun e => nodeOf 100000 (by decide) (wrapW 100000#32 ((W12 m ρ c (Proc.devRef .tc main_v11) : IVec S600000 32) (ix1 e))))
        (fun e => ((W12 m ρ c (Proc.devRef .tc main_v18) : IVec S600000 32) (ix1 e)).toInt)
        (W12 m ρ c (Proc.devRef .tc main_v103) : Mat 100000 128) := by
  funext i
  obtain ⟨p, q, rfl⟩ : ∃ (p : Fin 100000) (q : Fin 128), i = ix2 p q := ⟨i 0, i 1, eq_ix2 i⟩
  rw [agg_term]
  exact Cert.KAgg.agg_apply (by decide) _ rfl rfl rfl rfl rfl rfl rfl _ rfl rfl rfl rfl _ _ _ _ _ _ _ p q

set_option maxHeartbeats 2000000 in
/-- Layer 2's own-row weights. -/
theorem ws_eq (c : Dev nD) : (W13 m ρ c (Proc.devRef .tc main_v116) : Mat 128 128)
    = slab (W12 m ρ c (Proc.devRef .tc main_arg4) : S3x128x128.Idx → EReal) ⟨2, by decide⟩ := by
  refine Eq.trans ?_ (Cert.KLayout.slab_eq (W12 m ρ c (Proc.devRef .tc main_arg4) : S3x128x128.Idx → EReal) 2 (by decide)
    slices_S3x128x128_S1x128x128_2_0_0 shapeCasts_S1x128x128_S128x128)
  show StableHlo.after hostOps5 (W12 m ρ c) (Proc.devRef .tc main_v116) = _
  after_results_simp
  rfl

set_option maxHeartbeats 2000000 in
/-- Layer 2's neighbour weights. -/
theorem wn_eq (c : Dev nD) : (W13 m ρ c (Proc.devRef .tc main_v118) : Mat 128 128)
    = slab (W12 m ρ c (Proc.devRef .tc main_arg5) : S3x128x128.Idx → EReal) ⟨2, by decide⟩ := by
  refine Eq.trans ?_ (Cert.KLayout.slab_eq (W12 m ρ c (Proc.devRef .tc main_arg5) : S3x128x128.Idx → EReal) 2 (by decide)
    slices_S3x128x128_S1x128x128_2_0_0 shapeCasts_S1x128x128_S128x128)
  show StableHlo.after hostOps5 (W12 m ρ c) (Proc.devRef .tc main_v118) = _
  after_results_simp
  rfl

set_option maxHeartbeats 2000000 in
/-- Layer 2's bias row. -/
theorem b_eq (c : Dev nD) : row (W13 m ρ c (Proc.devRef .tc main_v120) : Row 128)
    = rowAt (W12 m ρ c (Proc.devRef .tc main_arg6) : Mat 3 128) ⟨2, by decide⟩ := by
  refine Eq.trans (congrArg row ?_) (Cert.KLayout.row_eq (W12 m ρ c (Proc.devRef .tc main_arg6) : S3x128.Idx → EReal) 2 (by decide)
    slices_S3x128_S1x128_2_0 shapeCasts_S1x128_S128)
  show StableHlo.after hostOps5 (W12 m ρ c) (Proc.devRef .tc main_v120) = _
  after_results_simp
  rfl

end Cert.KernelIdeal.KHost5

end
-- ==== Proof.KHost6.lean ====
/-
  The host stretch before normalisation region 2: the batch statistics from the per-block totals, and layer 2's
  scale and shift rows.

  The aggregation region leaves two arrays of per-block totals, of the pre-normalisation rows `Y` and of their squares.
  The stretch adds the 25 block totals, divides by the number of rows and forms `max (E[y²] − μ², 0)`: the column means
  and the one-pass column variances of `Y`.
-/
import proofs.«103646_j72808285602083_2_alg».proof.Proof.Gen.KernelIdeal.Frame
import proofs.«103646_j72808285602083_2_alg».proof.Proof.LibBlockStats
import proofs.«103646_j72808285602083_2_alg».proof.Proof.LibSlabRead
import Idealize.ShloMosaic.Lib.StableHlo.Run

noncomputable section

namespace Cert.KernelIdeal.KHost6

open Idealize.ShloMosaic Idealize.ShloMosaic.TcCoe Idealize.ShloMosaic.ValueIdx Idealize.SL.Sem
open Cert.KernelIdeal Cert.KernelIdeal.Gen Cert.Dense Cert.ResSage Cert.SageBn

variable (m : (ℓ : Loc nD τ sig) → Buf (Elt Ideal) ℓ) (ρ : Dev nD → PrngReg)

/-- The number of rows as the program's constant. -/
abbrev nW : BitVec 32 := 0x47C35000#32

/-- The column sums of the block totals divided by the row count, as the stretch spells them. -/
def meanT (c : Dev nD) : FVec Ideal S128 .f32 :=
  Host.divf (F := Ideal)
    (Host.reduceAdd (F := Ideal)
      (shapeCast S25x128 (extractStridedSlice S25x1x128 ![0, 0, 0] (W14 m ρ c (Proc.devRef .tc main_v121_1) : S25x8x128.Idx → EReal)
        slices_S25x8x128_S25x1x128_0_0_0) shapeCasts_S25x1x128_S25x128)
      (constant (F := Ideal) S_ .f32 0x00000000#32) reducesTo_S25x128_S128_d0 h_S_)
    (broadcastInDim S128 ![] bcast_S_S128 (constant (F := Ideal) S_ .f32 nW))

set_option maxHeartbeats 2000000 in
theorem mean_term (c : Dev nD) : (W15 m ρ c (Proc.devRef .tc main_v129) : S128.Idx → EReal) = meanT m ρ c := by
  show StableHlo.after hostOps6 (W14 m ρ c) (Proc.devRef .tc main_v129) = _
  unfold meanT
  after_results_simp
  rfl

set_option maxHeartbeats 2000000 in
theorem var_term (c : Dev nD) : (W15 m ρ c (Proc.devRef .tc main_v135) : S128.Idx → EReal)
    = maximumf
        (subf
          (Host.divf (F := Ideal)
            (Host.reduceAdd (F := Ideal)
              (shapeCast S25x128 (extractStridedSlice S25x1x128 ![0, 0, 0] (W14 m ρ c (Proc.devRef .tc main_v121_2) : S25x8x128.Idx → EReal)
                slices_S25x8x128_S25x1x128_0_0_0) shapeCasts_S25x1x128_S25x128)
              (constant (F := Ideal) S_ .f32 0x00000000#32) reducesTo_S25x128_S128_d0 h_S_)
            (broadcastInDim S128 ![] bcast_S_S128 (constant (F := Ideal) S_ .f32 nW)))
          (mulf (meanT m ρ c) (meanT m ρ c)))
        (broadcastInDim S128 ![] bcast_S_S128 (constant (F := Ideal) S_ .f32 0x00000000#32)) := by
  show StableHlo.after hostOps6 (W14 m ρ c) (Proc.devRef .tc main_v135) = _
  unfold meanT
  after_results_simp
  rfl

/-- The means are the column means of `Y` when the first array holds `Y`'s block totals. -/
theorem mean_eq (c : Dev nD) (Y : Mat 100000 128) (blk : Fin 25 → Fin 4000 → Fin 100000)
    (hblk : ∀ t j, (blk t j).val = 4000 * t.val + j.val)
    (hS1 : ∀ (t : Fin 25) (r : Fin 8) (q : Fin 128),
      (W14 m ρ c (Proc.devRef .tc main_v121_1) : S25x8x128.Idx → EReal) (ix3 t r q) = ∑ j : Fin 4000, Y (ix2 (blk t j) q)) :
    row (W15 m ρ c (Proc.devRef .tc main_v129) : Row 128) = colMean (Ideal.ofBits .f32 nW) Y := by
  rw [mean_term]
  exact Cert.KStats.kMean_row (A := 25) (B := 4000) (N := 100000) (K := 128) rfl Y _ blk hblk hS1 nW _ _ _ _ _

/-- The variances are the one-pass column variances of `Y`. -/
theorem var_eq (c : Dev nD) (Y : Mat 100000 128) (blk : Fin 25 → Fin 4000 → Fin 100000)
    (hblk : ∀ t j, (blk t j).val = 4000 * t.val + j.val)
    (hS1 : ∀ (t : Fin 25) (r : Fin 8) (q : Fin 128),
      (W14 m ρ c (Proc.devRef .tc main_v121_1) : S25x8x128.Idx → EReal) (ix3 t r q) = ∑ j : Fin 4000, Y (ix2 (blk t j) q))
    (hS2 : ∀ (t : Fin 25) (r : Fin 8) (q : Fin 128),
      (W14 m ρ c (Proc.devRef .tc main_v121_2) : S25x8x128.Idx → EReal) (ix3 t r q)
        = ∑ j : Fin 4000, Y (ix2 (blk t j) q) * Y (ix2 (blk t j) q)) :
    row (W15 m ρ c (Proc.devRef .tc main_v135) : Row 128) = varOne (Ideal.ofBits .f32 nW) Y := by
  rw [var_term]
  refine Cert.KStats.kVar_row (A := 25) (B := 4000) (N := 100000) (K := 128) rfl Y _ blk hblk hS2 nW _ _ _ _ _ (meanT m ρ c) ?_
  rw [← mean_term]
  exact mean_eq m ρ c Y blk hblk hS1

set_option maxHeartbeats 2000000 in
/-- Layer 2's scale row. -/
theorem ga_eq (c : Dev nD) : row (W15 m ρ c (Proc.devRef .tc main_v137) : Row 128)
    = rowAt (W14 m ρ c (Proc.devRef .tc main_arg7) : Mat 3 128) ⟨2, by decide⟩ := by
  refine Eq.trans (congrArg row ?_) (Cert.KLayout.row_eq (W14 m ρ c (Proc.devRef .tc main_arg7) : S3x128.Idx → EReal) 2 (by decide)
    slices_S3x128_S1x128_2_0 shapeCasts_S1x128_S128)
  show StableHlo.after hostOps6 (W14 m ρ c) (Proc.devRef .tc main_v137) = _
  after_results_simp
  rfl

set_option maxHeartbeats 2000000 in
/-- Layer 2's shift row. -/
theorem be_eq (c : Dev nD) : row (W15 m ρ c (Proc.devRef .tc main_v139) : Row 128)
    = rowAt (W14 m ρ c (Proc.devRef .tc main_arg8) : Mat 3 128) ⟨2, by decide⟩ := by
  refine Eq.trans (congrArg row ?_) (Cert.KLayout.row_eq (W14 m ρ c (Proc.devRef .tc main_arg8) : S3x128.Idx → EReal) 2 (by decide)
    slices_S3x128_S1x128_2_0 shapeCasts_S1x128_S128)
  show StableHlo.after hostOps6 (W14 m ρ c) (Proc.devRef .tc main_v139) = _
  after_results_simp
  rfl

end Cert.KernelIdeal.KHost6

end
-- ==== Proof.Region5.lean ====
/-
  The aggregation kernel of region 5, as whole arrays.

  The region runs over 25 blocks of 4000 rows.  At block `t` it reads rows `4000 t … 4000 t + 3999` of the nodes'
  own rows `X`, of the neighbours' row sums `A` and of the factor column `s`, the whole weight matrices and the
  whole bias vector, and writes three things: rows `4000 t … 4000 t + 3999` of the step's result
  `Y = X · ws + (A scaled row by row by s) · wn + b`; the column totals of those 4000 rows of `Y`, repeated on the
  8 rows of slab `t` of a `[25, 8, 128]` array; and the same for the entrywise squares of `Y`.

  An entry of the step depends only on its own row of `X`, `A` and `s`, so the 25 blocks of rows written back are the
  25 blocks of rows of the step applied to the whole arrays; row `p` lies in block `p / 4000`, so the blocks cover the
  array, and likewise slab `t` of the totals is covered by point `t`.
-/
import proofs.«103646_j72808285602083_2_alg».proof.Proof.Gen.KernelIdeal.Frame
import proofs.«103646_j72808285602083_2_alg».proof.Proof.LibConvPayload
import Idealize.ShloMosaic.Lib.Pipeline.Value

noncomputable section

open scoped BigOperators

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)
open Cert.Dense Cert.ResSage Cert.ConvPayload

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's three values as functions of its six blocks -/

/-- The stored block is the step applied to the loaded blocks. -/
theorem pay1_eq (x0 : Vec Ideal S4000x128 .bf16) (x1 : Vec Ideal S4000x128 .f32) (x2 : Vec Ideal S4000x1 .f32) (x3 x4 : Vec Ideal S128x128 .f32)
    (x5 : Vec Ideal S128 .f32) :
    k5_pay1 x0 x1 x2 x3 x4 x5 = conv (x0 : Mat 4000 128) x1 x2 x3 x4 (row x5) := by
  unfold k5_pay1
  exact vecConvB dot_S4000x128_S128x128_S4000x128_1_0_0_1_n_n rfl rfl rfl rfl rfl rfl x0 x1 x2 x3 x4 x5 _ _ _ _ _ _ _ _

/-- The second stored block holds, on each of its 8 rows, the column totals of the step's block. -/
theorem pay2_apply (x0 : Vec Ideal S4000x128 .bf16) (x1 : Vec Ideal S4000x128 .f32) (x2 : Vec Ideal S4000x1 .f32) (x3 x4 : Vec Ideal S128x128 .f32)
    (x5 : Vec Ideal S128 .f32) (u : Fin 1) (r : Fin 8) (q : Fin 128) :
    k5_pay2 x0 x1 x2 x3 x4 x5 (ix3 u r q) = ∑ p : Fin 4000, conv (x0 : Mat 4000 128) x1 x2 x3 x4 (row x5) (ix2 p q) := by
  unfold k5_pay2
  refine (vecTotals_apply (k5_pay1 x0 x1 x2 x3 x4 x5) _ _ _ _ _ _ _ u r q).trans ?_
  rw [pay1_eq]

/-- The third, the column totals of the entrywise squares. -/
theorem pay3_apply (x0 : Vec Ideal S4000x128 .bf16) (x1 : Vec Ideal S4000x128 .f32) (x2 : Vec Ideal S4000x1 .f32) (x3 x4 : Vec Ideal S128x128 .f32)
    (x5 : Vec Ideal S128 .f32) (u : Fin 1) (r : Fin 8) (q : Fin 128) :
    k5_pay3 x0 x1 x2 x3 x4 x5 (ix3 u r q)
      = ∑ p : Fin 4000, sq (conv (x0 : Mat 4000 128) x1 x2 x3 x4 (row x5)) (ix2 p q) := by
  unfold k5_pay3
  refine (vecTotals_apply (mulf (k5_pay1 x0 x1 x2 x3 x4 x5) (k5_pay1 x0 x1 x2 x3 x4 x5)) _ _ _ _ _ _ _ u r q).trans ?_
  rw [pay1_eq]
  rfl

/-! ## Where each window's block sits at point `t` -/

/-- The printed index maps over the 25 points: the three row-blocked inputs and the three outputs sit at block `t`
    along their first axis, the weights and the bias at the origin. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0
    ∧ win5_7.index t (0 : Fin 3) = t.val ∧ win5_7.index t (1 : Fin 3) = 0 ∧ win5_7.index t (2 : Fin 3) = 0
    ∧ win5_8.index t (0 : Fin 3) = t.val ∧ win5_8.index t (1 : Fin 3) = 0 ∧ win5_8.index t (2 : Fin 3) = 0 :=
  (by decide +kernel : ∀ t : Fin grid5.N, _)

theorem t_lt (t : Fin cfg5.N) : t.val < 25 := Nat.lt_of_lt_of_eq t.isLt N_5

/-- The block of the nodes' own rows at point `t` is rows `4000 t …` of the array. -/
theorem blk0_apply (c : Dev nD) (t : Fin cfg5.N) (y : S4000x128.Idx) (k : S100000x128.Idx)
    (hk0 : (k 0).val = 4000 * t.val + (y 0).val) (hk1 : (k 1).val = (y 1).val) :
    (iblk5 V c 0 t : S4000x128.Idx → EReal) y = (V c main_v103 : S100000x128.Idx → EReal) k := by
  obtain ⟨e0, e1, -⟩ := idx_facts t
  unfold iblk5
  rw [View.read_apply]
  show V c main_v103 _ = V c main_v103 _
  congr 1
  funext a
  apply Fin.ext
  match a with
  | ⟨0, _⟩ => show win5_0.index t 0 * 4000 + 1 * (y 0).val = (k 0).val; rw [e0, hk0]; omega
  | ⟨1, _⟩ => show win5_0.index t 1 * 128 + 1 * (y 1).val = (k 1).val; rw [e1, hk1]; omega

/-- The block of the neighbours' row sums at point `t` is rows `4000 t …` of the array. -/
theorem blk1_apply (c : Dev nD) (t : Fin cfg5.N) (y : S4000x128.Idx) (k : S100000x128.Idx)
    (hk0 : (k 0).val = 4000 * t.val + (y 0).val) (hk1 : (k 1).val = (y 1).val) :
    (iblk5 V c 1 t : S4000x128.Idx → EReal) y = (V c main_v114 : S100000x128.Idx → EReal) k := by
  obtain ⟨-, -, e0, e1, -⟩ := idx_facts t
  unfold iblk5
  rw [View.read_apply]
  show V c main_v114 _ = V c main_v114 _
  congr 1
  funext a
  apply Fin.ext
  match a with
  | ⟨0, _⟩ => show win5_1.index t 0 * 4000 + 1 * (y 0).val = (k 0).val; rw [e0, hk0]; omega
  | ⟨1, _⟩ => show win5_1.index t 1 * 128 + 1 * (y 1).val = (k 1).val; rw [e1, hk1]; omega

/-- The block of the factor column at point `t` is rows `4000 t …` of the column. -/
theorem blk2_apply (c : Dev nD) (t : Fin cfg5.N) (y : S4000x1.Idx) (k : S100000x1.Idx)
    (hk0 : (k 0).val = 4000 * t.val + (y 0).val) (hk1 : (k 1).val = (y 1).val) :
    (iblk5 V c 2 t : S4000x1.Idx → EReal) y = (V c main_v27 : S100000x1.Idx → EReal) k := by
  obtain ⟨-, -, -, -, e0, e1, -⟩ := idx_facts t
  unfold iblk5
  rw [View.read_apply]
  show V c main_v27 _ = V c main_v27 _
  congr 1
  funext a
  apply Fin.ext
  match a with
  | ⟨0, _⟩ => show win5_2.index t 0 * 4000 + 1 * (y 0).val = (k 0).val; rw [e0, hk0]; omega
  | ⟨1, _⟩ => show win5_2.index t 1 * 1 + 1 * (y 1).val = (k 1).val; rw [e1, hk1]; omega

/-- The block of the first weight matrix at any point is the whole matrix. -/
theorem blk3_apply (c : Dev nD) (t : Fin cfg5.N) (y : S128x128.Idx) :
    (iblk5 V c 3 t : S128x128.Idx → EReal) y = (V c main_v116 : S128x128.Idx → EReal) y := by
  obtain ⟨-, -, -, -, -, -, e0, e1, -⟩ := idx_facts t
  unfold iblk5
  rw [View.read_apply]
  show V c main_v116 _ = V c main_v116 _
  congr 1
  funext a
  apply Fin.ext
  match a with
  | ⟨0, _⟩ => show win5_3.index t 0 * 128 + 1 * (y 0).val = (y 0).val; rw [e0]; omega
  | ⟨1, _⟩ => show win5_3.index t 1 * 128 + 1 * (y 1).val = (y 1).val; rw [e1]; omega

/-- The block of the second weight matrix at any point is the whole matrix. -/
theorem blk4_apply (c : Dev nD) (t : Fin cfg5.N) (y : S128x128.Idx) :
    (iblk5 V c 4 t : S128x128.Idx → EReal) y = (V c main_v118 : S128x128.Idx → EReal) y := by
  obtain ⟨-, -, -, -, -, -, -, -, e0, e1, -⟩ := idx_facts t
  unfold iblk5
  rw [View.read_apply]
  show V c main_v118 _ = V c main_v118 _
  congr 1
  funext a
  apply Fin.ext
  match a with
  | ⟨0, _⟩ => show win5_4.index t 0 * 128 + 1 * (y 0).val = (y 0).val; rw [e0]; omega
  | ⟨1, _⟩ => show win5_4.index t 1 * 128 + 1 * (y 1).val = (y 1).val; rw [e1]; omega

/-- The block of the bias at any point is the whole vector. -/
theorem blk5_apply (c : Dev nD) (t : Fin cfg5.N) (y : S128.Idx) :
    (iblk5 V c 5 t : S128.Idx → EReal) y = (V c main_v120 : S128.Idx → EReal) y := by
  obtain ⟨-, -, -, -, -, -, -, -, -, -, e0, -⟩ := idx_facts t
  unfold iblk5
  rw [View.read_apply]
  show V c main_v120 _ = V c main_v120 _
  congr 1
  funext a
  apply Fin.ext
  match a with
  | ⟨0, _⟩ => show win5_5.index t 0 * 128 + 1 * (y 0).val = (y 0).val; rw [e0]; omega

/-! ## The three arrays -/

/-- The step applied to the whole arrays as the region finds them. -/
def Y (c : Dev nD) : Mat 100000 128 :=
  conv (V c main_v103 : Mat 100000 128) (V c main_v114 : Mat 100000 128) (V c main_v27 : Mat 100000 1)
    (V c main_v116 : Mat 128 128) (V c main_v118 : Mat 128 128) (row (V c main_v120 : Row 128))

/-- Rows `4000 t …` of the step on the whole arrays, from the blocks at point `t`. -/
theorem point_row (c : Dev nD) (t : Fin cfg5.N) (p : Fin 4000) (P : Fin 100000) (hP : P.val = 4000 * t.val + p.val)
    (q : Fin 128) :
    conv (iblk5 V c 0 t : Mat 4000 128) (iblk5 V c 1 t : Mat 4000 128) (iblk5 V c 2 t : Mat 4000 1)
        (iblk5 V c 3 t : Mat 128 128) (iblk5 V c 4 t : Mat 128 128) (row (iblk5 V c 5 t : Row 128)) (ix2 p q)
      = Y V c (ix2 P q) :=
  conv_block (V c main_v103 : Mat 100000 128) (V c main_v114 : Mat 100000 128) (V c main_v27 : Mat 100000 1)
    (V c main_v116 : Mat 128 128) (V c main_v118 : Mat 128 128) (row (V c main_v120 : Row 128))
    (iblk5 V c 0 t : Mat 4000 128) (iblk5 V c 1 t : Mat 4000 128) (iblk5 V c 2 t : Mat 4000 1)
    (iblk5 V c 3 t : Mat 128 128) (iblk5 V c 4 t : Mat 128 128) (row (iblk5 V c 5 t : Row 128)) (4000 * t.val)
    (fun p P hP k => blk0_apply V c t (ix2 p k) (ix2 P k) hP rfl)
    (fun p P hP k => blk1_apply V c t (ix2 p k) (ix2 P k) hP rfl)
    (fun p P hP => blk2_apply V c t (ix2 p (0 : Fin 1)) (ix2 P (0 : Fin 1)) hP rfl)
    (fun k q => blk3_apply V c t (ix2 k q))
    (fun k q => blk4_apply V c t (ix2 k q))
    (fun q => blk5_apply V c t (ix1 q))
    p P hP q

/-- The column totals of each block of 4000 rows of the step, on the 8 rows of the block's slab. -/
def T1 (c : Dev nD) : S25x8x128.Idx → EReal := blockTotals 25 4000 8 rfl (Y V c)

/-- The same for the entrywise squares of the step. -/
def T2 (c : Dev nD) : S25x8x128.Idx → EReal := blockTotals 25 4000 8 rfl (sq (Y V c))

/-! ## What point `t` writes back -/

/-- Point `t` writes rows `4000 t …` of the step. -/
theorem flushed6_eq (c : Dev nD) (t : Fin cfg5.N) :
    (dat5 (F := Ideal) V c).flushed 6 t = ((cfg5.win 6).blk t).view.read (Elt Ideal) (Y V c) := by
  show (cfg5.win 6).cut (grid5.coords t) ((dat5 V c).after 6 t) = _
  rw [after5_6]
  unfold out5_6
  rw [View.canon_unit_zero hz2]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, e0, e1, -⟩ := idx_facts t
  have hlt := t_lt t
  funext j
  obtain ⟨p, q, rfl⟩ : ∃ (p : Fin 4000) (q : Fin 128), j = ix2 p q := ⟨j 0, j 1, eq_ix2 j⟩
  have hp := p.isLt
  have hi : ((cfg5.win 6).blk t).view.emb (ix2 p q) = ix2 (⟨4000 * t.val + p.val, by omega⟩ : Fin 100000) q := by
    funext a
    apply Fin.ext
    match a with
    | ⟨0, _⟩ => show win5_6.index t (0 : Fin 2) * 4000 + 1 * p.val = 4000 * t.val + p.val; rw [e0]; omega
    | ⟨1, _⟩ => show win5_6.index t (1 : Fin 2) * 128 + 1 * q.val = q.val; rw [e1]; omega
  show k5_pay1 (iblk5 V c 0 t) (iblk5 V c 1 t) (iblk5 V c 2 t) (iblk5 V c 3 t) (iblk5 V c 4 t) (iblk5 V c 5 t) (ix2 p q) = Y V c (((cfg5.win 6).blk t).view.emb (ix2 p q))
  rw [hi]
  exact (congrFun (pay1_eq (iblk5 V c 0 t) (iblk5 V c 1 t) (iblk5 V c 2 t) (iblk5 V c 3 t) (iblk5 V c 4 t) (iblk5 V c 5 t)) (ix2 p q)).trans (point_row V c t p _ rfl q)

/-- Point `t` writes slab `t` of the totals. -/
theorem flushed7_eq (c : Dev nD) (t : Fin cfg5.N) :
    (dat5 (F := Ideal) V c).flushed 7 t = ((cfg5.win 7).blk t).view.read (Elt Ideal) (T1 V c) := by
  show (cfg5.win 7).cut (grid5.coords t) ((dat5 V c).after 7 t) = _
  rw [after5_7]
  unfold out5_7
  rw [View.canon_unit_zero hz3]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, -, -, e0, e1, e2, -⟩ := idx_facts t
  have hlt := t_lt t
  funext j
  obtain ⟨u, r, q, rfl⟩ : ∃ (u : Fin 1) (r : Fin 8) (q : Fin 128), j = ix3 u r q := ⟨j 0, j 1, j 2, eq_ix3 j⟩
  have hu := u.isLt
  show k5_pay2 (iblk5 V c 0 t) (iblk5 V c 1 t) (iblk5 V c 2 t) (iblk5 V c 3 t) (iblk5 V c 4 t) (iblk5 V c 5 t) (ix3 u r q) = T1 V c (((cfg5.win 7).blk t).view.emb (ix3 u r q))
  refine (pay2_apply (iblk5 V c 0 t) (iblk5 V c 1 t) (iblk5 V c 2 t) (iblk5 V c 3 t) (iblk5 V c 4 t) (iblk5 V c 5 t) u r q).trans ?_
  refine Eq.trans ?_ (blockTotals_at 25 4000 8 rfl (Y V c) _ (⟨t.val, hlt⟩ : Fin 25) q ?_ ?_).symm
  · exact Finset.sum_congr rfl fun p _ => point_row V c t p _ rfl q
  · show win5_7.index t (0 : Fin 3) * 1 + 1 * u.val = t.val; rw [e0]; omega
  · show win5_7.index t (2 : Fin 3) * 128 + 1 * q.val = q.val; rw [e2]; omega

/-- Point `t` writes slab `t` of the totals of the squares. -/
theorem flushed8_eq (c : Dev nD) (t : Fin cfg5.N) :
    (dat5 (F := Ideal) V c).flushed 8 t = ((cfg5.win 8).blk t).view.read (Elt Ideal) (T2 V c) := by
  show (cfg5.win 8).cut (grid5.coords t) ((dat5 V c).after 8 t) = _
  rw [after5_8]
  unfold out5_8
  rw [View.canon_unit_zero hz3]
  simp only [View.ld_unit_zero (S := S4000x128) hz2, View.ld_unit_zero (S := S4000x1) hz2,
    View.ld_unit_zero (S := S128x128) hz2, View.ld_unit_zero (S := S128) hz1]
  obtain ⟨-, -, -, -, -, -, -, -, -, -, -, -, -, -, -, -, e0, e1, e2⟩ := idx_facts t
  have hlt := t_lt t
  funext j
  obtain ⟨u, r, q, rfl⟩ : ∃ (u : Fin 1) (r : Fin 8) (q : Fin 128), j = ix3 u r q := ⟨j 0, j 1, j 2, eq_ix3 j⟩
  have hu := u.isLt
  show k5_pay3 (iblk5 V c 0 t) (iblk5 V c 1 t) (iblk5 V c 2 t) (iblk5 V c 3 t) (iblk5 V c 4 t) (iblk5 V c 5 t) (ix3 u r q) = T2 V c (((cfg5.win 8).blk t).view.emb (ix3 u r q))
  refine (pay3_apply (iblk5 V c 0 t) (iblk5 V c 1 t) (iblk5 V c 2 t) (iblk5 V c 3 t) (iblk5 V c 4 t) (iblk5 V c 5 t) u r q).trans ?_
  refine Eq.trans ?_ (blockTotals_at 25 4000 8 rfl (sq (Y V c)) _ (⟨t.val, hlt⟩ : Fin 25) q ?_ ?_).symm
  · refine Finset.sum_congr rfl fun p _ => ?_
    exact congrArg (fun z : EReal => z * z)
      (point_row V c t p (blockRow (M := 100000) (T := 25) (n := 4000) rfl (⟨t.val, hlt⟩ : Fin 25) p) rfl q)
  · show win5_8.index t (0 : Fin 3) * 1 + 1 * u.val = t.val; rw [e0]; omega
  · show win5_8.index t (2 : Fin 3) * 128 + 1 * q.val = q.val; rw [e2]; omega

/-! ## The blocks cover the arrays -/

theorem mem_blk6 (t : Fin cfg5.N) (i : S100000x128.Idx) :
    i ∈ ((cfg5.win 6).blk t).view.set ↔ ∀ a : Fin 2, win5_6.index t a * S4000x128.size a ≤ (i a).val
      ∧ (i a).val < win5_6.index t a * S4000x128.size a + S4000x128.size a := by
  show i ∈ ((View.whole main_v121_0).slice (win5_6.rect t)).set ↔ _
  rw [View.set_slice_whole, Rect.mem_set_unit]
  exact Iff.rfl

theorem mem_blk7 (t : Fin cfg5.N) (i : S25x8x128.Idx) :
    i ∈ ((cfg5.win 7).blk t).view.set ↔ ∀ a : Fin 3, win5_7.index t a * S1x8x128.size a ≤ (i a).val
      ∧ (i a).val < win5_7.index t a * S1x8x128.size a + S1x8x128.size a := by
  show i ∈ ((View.whole main_v121_1).slice (win5_7.rect t)).set ↔ _
  rw [View.set_slice_whole, Rect.mem_set_unit]
  exact Iff.rfl

theorem mem_blk8 (t : Fin cfg5.N) (i : S25x8x128.Idx) :
    i ∈ ((cfg5.win 8).blk t).view.set ↔ ∀ a : Fin 3, win5_8.index t a * S1x8x128.size a ≤ (i a).val
      ∧ (i a).val < win5_8.index t a * S1x8x128.size a + S1x8x128.size a := by
  show i ∈ ((View.whole main_v121_2).slice (win5_8.rect t)).set ↔ _
  rw [View.set_slice_whole, Rect.mem_set_unit]
  exact Iff.rfl

/-- Row `p` lies in the block of point `p / 4000`. -/
theorem cover6 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  obtain ⟨t, ht⟩ : ∃ t : Fin cfg5.N, t.val = (i 0).val / 4000 :=
    ⟨⟨(i 0).val / 4000, by rw [show cfg5.N = 25 from N_5]; omega⟩, rfl⟩
  obtain ⟨-, -, -, -, -, -, -, -, -, -, -, e0, e1, -⟩ := idx_facts t
  refine ⟨t, flush5_6 t, ?_⟩
  rw [mem_blk6]
  intro a
  match a with
  | ⟨0, _⟩ =>
    show win5_6.index t (0 : Fin 2) * 4000 ≤ (i 0).val ∧ (i 0).val < win5_6.index t (0 : Fin 2) * 4000 + 4000
    rw [e0, ht]; omega
  | ⟨1, _⟩ =>
    show win5_6.index t (1 : Fin 2) * 128 ≤ (i 1).val ∧ (i 1).val < win5_6.index t (1 : Fin 2) * 128 + 128
    rw [e1]; omega

/-- Slab `t` is the block of point `t`. -/
theorem cover7 (i : S25x8x128.Idx) :
    ∃ t : Fin cfg5.N, (cfg5.win 7).flush t = true ∧ i ∈ ((cfg5.win 7).blk t).view.set := by
  have hi0 : (i 0).val < 25 := (i 0).isLt
  have hi1 : (i 1).val < 8 := (i 1).isLt
  have hi2 : (i 2).val < 128 := (i 2).isLt
  obtain ⟨t, ht⟩ : ∃ t : Fin cfg5.N, t.val = (i 0).val :=
    ⟨⟨(i 0).val, by rw [show cfg5.N = 25 from N_5]; omega⟩, rfl⟩
  obtain ⟨-, -, -, -, -, -, -, -, -, -, -, -, -, e0, e1, e2, -⟩ := idx_facts t
  refine ⟨t, flush5_7 t, ?_⟩
  rw [mem_blk7]
  intro a
  match a with
  | ⟨0, _⟩ =>
    show win5_7.index t (0 : Fin 3) * 1 ≤ (i 0).val ∧ (i 0).val < win5_7.index t (0 : Fin 3) * 1 + 1
    rw [e0, ht]; omega
  | ⟨1, _⟩ =>
    show win5_7.index t (1 : Fin 3) * 8 ≤ (i 1).val ∧ (i 1).val < win5_7.index t (1 : Fin 3) * 8 + 8
    rw [e1]; omega
  | ⟨2, _⟩ =>
    show win5_7.index t (2 : Fin 3) * 128 ≤ (i 2).val ∧ (i 2).val < win5_7.index t (2 : Fin 3) * 128 + 128
    rw [e2]; omega

theorem cover8 (i : S25x8x128.Idx) :
    ∃ t : Fin cfg5.N, (cfg5.win 8).flush t = true ∧ i ∈ ((cfg5.win 8).blk t).view.set := by
  have hi0 : (i 0).val < 25 := (i 0).isLt
  have hi1 : (i 1).val < 8 := (i 1).isLt
  have hi2 : (i 2).val < 128 := (i 2).isLt
  obtain ⟨t, ht⟩ : ∃ t : Fin cfg5.N, t.val = (i 0).val :=
    ⟨⟨(i 0).val, by rw [show cfg5.N = 25 from N_5]; omega⟩, rfl⟩
  obtain ⟨-, -, -, -, -, -, -, -, -, -, -, -, -, -, -, -, e0, e1, e2⟩ := idx_facts t
  refine ⟨t, flush5_8 t, ?_⟩
  rw [mem_blk8]
  intro a
  match a with
  | ⟨0, _⟩ =>
    show win5_8.index t (0 : Fin 3) * 1 ≤ (i 0).val ∧ (i 0).val < win5_8.index t (0 : Fin 3) * 1 + 1
    rw [e0, ht]; omega
  | ⟨1, _⟩ =>
    show win5_8.index t (1 : Fin 3) * 8 ≤ (i 1).val ∧ (i 1).val < win5_8.index t (1 : Fin 3) * 8 + 8
    rw [e1]; omega
  | ⟨2, _⟩ =>
    show win5_8.index t (2 : Fin 3) * 128 ≤ (i 2).val ∧ (i 2).val < win5_8.index t (2 : Fin 3) * 128 + 128
    rw [e2]; omega

/-! ## The arrays after the region -/

/-- The first result array ends holding the step of the whole arrays. -/
theorem arr6 (c : Dev nD) : (dat5 (F := Ideal) V c).arrAt 6 cfg5.N = Y V c :=
  (dat5 V c).arrAt_eq_of_cover 6 (Y V c) (fun t _ => flushed6_eq V c t) cover6

/-- The second, the column totals of its blocks of 4000 rows. -/
theorem arr7 (c : Dev nD) : (dat5 (F := Ideal) V c).arrAt 7 cfg5.N = T1 V c :=
  (dat5 V c).arrAt_eq_of_cover 7 (T1 V c) (fun t _ => flushed7_eq V c t) cover7

/-- The third, the column totals of the squares. -/
theorem arr8 (c : Dev nD) : (dat5 (F := Ideal) V c).arrAt 8 cfg5.N = T2 V c :=
  (dat5 V c).arrAt_eq_of_cover 8 (T2 V c) (fun t _ => flushed8_eq V c t) cover8

/-- Entry `(p, q)` of the first result array. -/
theorem arr6_apply (c : Dev nD) (p : Fin 100000) (q : Fin 128) :
    (dat5 (F := Ideal) V c).arrAt 6 cfg5.N (ix2 p q)
      = conv (V c main_v103 : Mat 100000 128) (V c main_v114 : Mat 100000 128) (V c main_v27 : Mat 100000 1)
          (V c main_v116 : Mat 128 128) (V c main_v118 : Mat 128 128) (row (V c main_v120 : Row 128)) (ix2 p q) :=
  congrFun (arr6 V c) (ix2 p q)

/-- Entry `(t, r, q)` of the second: the total of column `q` over rows `4000 t … 4000 t + 3999` of the step. -/
theorem arr7_apply (c : Dev nD) (t : Fin 25) (r : Fin 8) (q : Fin 128) :
    (dat5 (F := Ideal) V c).arrAt 7 cfg5.N (ix3 t r q)
      = ∑ j : Fin 4000, Y V c (ix2 (blockRow (M := 100000) (T := 25) (n := 4000) rfl t j) q) :=
  congrFun (arr7 V c) (ix3 t r q)

/-- Entry `(t, r, q)` of the third: the same total of the squares. -/
theorem arr8_apply (c : Dev nD) (t : Fin 25) (r : Fin 8) (q : Fin 128) :
    (dat5 (F := Ideal) V c).arrAt 8 cfg5.N (ix3 t r q)
      = ∑ j : Fin 4000, Y V c (ix2 (blockRow (M := 100000) (T := 25) (n := 4000) rfl t j) q)
          * Y V c (ix2 (blockRow (M := 100000) (T := 25) (n := 4000) rfl t j) q) :=
  congrFun (arr8 V c) (ix3 t r q)

end Cert.KernelIdeal.Region5

end
-- ==== Proof.Region6.lean ====
/-
  The column-wise normalisation region with a carried array, read as one whole-array function.

  The region walks the rows of two `[100000, 128]` arrays in 25 blocks of 4000 rows.  At every block it reads the two
  blocks and four whole vectors of 128 entries — the column means, the column variances, the scales and the shifts — and
  stores, at row `p` and column `q` of the block, `max (((y − μ q) · rsqrt (v q + ε)) · γ q + β q, 0) + r` with `y` the first
  block's entry, `r` the second block's entry and `ε` the float the word `0x3727C5AC` spells.  Row `r` of an array lies in
  block `r / 4000` at row `r % 4000`, every row lies in exactly one block, and the four vectors' blocks are the vectors
  themselves; so after the region the result array holds, at every `(r, q)`, that expression of the two arrays' entries
  `(r, q)` and the vectors' entries `q`.
-/
import proofs.«103646_j72808285602083_2_alg».proof.Proof.Gen.KernelIdeal.Frame
import proofs.«103646_j72808285602083_2_alg».proof.Proof.LibBnStats
import proofs.«103646_j72808285602083_2_alg».proof.Proof.LibResSage
import Idealize.ShloMosaic.Lib.Pipeline.Value

noncomputable section

namespace Cert.KernelIdeal.Region6

open Cert.KernelIdeal Cert.KernelIdeal.Gen Idealize.ShloMosaic Idealize.ShloMosaic.TcCoe Idealize.SL.Sem
open Idealize.ShloMosaic.ValueIdx Cert.Dense Cert.SageBn Cert.ResSage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The stabiliser the body adds to the variances: the float the word `0x3727C5AC` spells. -/
abbrev eps : EReal := Ideal.ofBits .f32 0x3727C5AC#32

/-- The body's value at an entry: the normalised, scaled, shifted and rectified entry of the block, plus the same entry
    of the block of the array carried past the normalisation. -/
theorem pay_at (x0 : Vec Ideal S4000x128 .f32) (x1 x2 x3 x4 : Vec Ideal S128 .f32) (x5 : Vec Ideal S4000x128 .bf16)
    (p : Fin 4000) (q : Fin 128) :
    k6_pay1 x0 x1 x2 x3 x4 x5 (ix2 p q)
      = addRes (bnRelu (x0 : Mat 4000 128) (row x1) (row x2) (row x3) (row x4) eps) (x5 : Mat 4000 128) (ix2 p q) := by
  unfold k6_pay1
  simp only [shapeCast_self]
  show max ((((x0 (ix2 p q) - broadcastTo S4000x128 (shapeCast S1x128 x1 shapeCasts_S128_S1x128) broadcasts_S1x128_S4000x128 (ix2 p q))
      * broadcastTo S4000x128 (shapeCast S1x128 (rsqrt (addf x2 (broadcast S128 (Scalar.ofBits (F := Ideal) .f32 0x3727C5AC#32)))) shapeCasts_S128_S1x128) broadcasts_S1x128_S4000x128 (ix2 p q))
      * broadcastTo S4000x128 (shapeCast S1x128 x3 shapeCasts_S128_S1x128) broadcasts_S1x128_S4000x128 (ix2 p q))
      + broadcastTo S4000x128 (shapeCast S1x128 x4 shapeCasts_S128_S1x128) broadcasts_S1x128_S4000x128 (ix2 p q))
      (Ideal.ofBits .f32 0x00000000#32) + x5 (ix2 p q) = _
  rw [broadcastTo_1b_ab_apply, broadcastTo_1b_ab_apply, broadcastTo_1b_ab_apply, broadcastTo_1b_ab_apply,
    shapeCast_a_1a_apply, shapeCast_a_1a_apply, shapeCast_a_1a_apply, shapeCast_a_1a_apply, Ideal.ofBits_zero_f32]
  rfl

/-- The body's value at an entry of a block whose entries are entry `i` of the two whole arrays and whose four vectors
    are the whole statistics: the normalised whole array plus the carried whole array, at `i`. -/
theorem point_eq (Y R : Mat 100000 128) (mu var ga be : Row 128)
    (x0 : Vec Ideal S4000x128 .f32) (x1 x2 x3 x4 : Vec Ideal S128 .f32) (x5 : Vec Ideal S4000x128 .bf16)
    (y : S4000x128.Idx) (i : S100000x128.Idx)
    (h0 : x0 y = Y i) (h5 : x5 y = R i) (hc : (y 1).val = (i 1).val)
    (h1 : ∀ q : Fin 128, x1 (ix1 q) = mu (ix1 q)) (h2 : ∀ q : Fin 128, x2 (ix1 q) = var (ix1 q))
    (h3 : ∀ q : Fin 128, x3 (ix1 q) = ga (ix1 q)) (h4 : ∀ q : Fin 128, x4 (ix1 q) = be (ix1 q)) :
    k6_pay1 x0 x1 x2 x3 x4 x5 y = addRes (bnRelu Y (row mu) (row var) (row ga) (row be) eps) R i := by
  obtain ⟨p, q, rfl⟩ : ∃ (p : Fin 4000) (q : Fin 128), y = ix2 p q := ⟨y 0, y 1, eq_ix2 y⟩
  rw [pay_at]
  have hq : (c1 i : Fin 128) = q := Fin.ext hc.symm
  show bnRelu (x0 : Mat 4000 128) (row x1) (row x2) (row x3) (row x4) eps (ix2 p q) + x5 (ix2 p q)
    = bnRelu Y (row mu) (row var) (row ga) (row be) eps i + R i
  rw [h5]
  refine congrArg (· + R i) ?_
  refine bnRelu_at Y (row mu) (row var) (row ga) (row be) (x0 : Mat 4000 128) (row x1) (row x2) (row x3) (row x4) eps (ix2 p q) i h0 ?_ ?_ ?_ ?_
  · rw [hq]; exact h1 q
  · rw [hq]; exact h2 q
  · rw [hq]; exact h3 q
  · rw [hq]; exact h4 q

/-- The printed index maps, decided once over the grid: the two arrays' and the result's row blocks move with the point,
    every vector's block stays at zero. -/
theorem idx_facts : ∀ t : Fin cfg6.N, win6_0.index t (0 : Fin 2) = t.val ∧ win6_0.index t (1 : Fin 2) = 0
    ∧ win6_5.index t (0 : Fin 2) = t.val ∧ win6_5.index t (1 : Fin 2) = 0
    ∧ win6_6.index t (0 : Fin 2) = t.val ∧ win6_6.index t (1 : Fin 2) = 0
    ∧ win6_1.index t (0 : Fin 1) = 0 ∧ win6_2.index t (0 : Fin 1) = 0
    ∧ win6_3.index t (0 : Fin 1) = 0 ∧ win6_4.index t (0 : Fin 1) = 0 :=
  (by decide +kernel : ∀ t : Fin grid6.N, _)

/-- The whole result: the region's array normalised column by column with the region's four statistics vectors, plus the
    carried array. -/
abbrev G (c : Dev nD) : Mat 100000 128 :=
  addRes (bnRelu (V c main_v121_0 : Mat 100000 128) (row (V c main_v129)) (row (V c main_v135)) (row (V c main_v137))
    (row (V c main_v139)) eps) (V c main_v103 : Mat 100000 128)

/-- What point `t` writes back is block `t` of the whole result. -/
theorem flushed_eq (c : Dev nD) (t : Fin cfg6.N) :
    (dat6 V c).flushed 6 t = ((cfg6.win 6).blk t).view.read (Elt Ideal) (G V c) := by
  show (cfg6.win 6).cut (grid6.coords t) ((dat6 V c).after 6 t) = _
  rw [after6_6]
  unfold out6_6
  rw [View.canon_unit_zero hz2]
  simp only [View.ld_unit_zero (S := S4000x128) hz2, View.ld_unit_zero (S := S128) hz1]
  obtain ⟨e00, e01, e50, e51, e60, e61, e1, e2, e3, e4⟩ := idx_facts t
  funext j
  show k6_pay1 (iblk6 V c 0 t) (iblk6 V c 1 t) (iblk6 V c 2 t) (iblk6 V c 3 t) (iblk6 V c 4 t) (iblk6 V c 5 t) j
    = G V c (((cfg6.win 6).blk t).view.emb j)
  refine point_eq (V c main_v121_0) (V c main_v103) (V c main_v129) (V c main_v135) (V c main_v137) (V c main_v139) _ _ _ _ _ _ j _ ?_ ?_ ?_ ?_ ?_ ?_ ?_
  · show V c main_v121_0 (((cfg6.win 0).blk t).view.emb j) = V c main_v121_0 (((cfg6.win 6).blk t).view.emb j)
    refine congrArg _ (funext fun a => Fin.ext ?_)
    match a with
    | ⟨0, _⟩ => show win6_0.index t (0 : Fin 2) * 4000 + 1 * (j 0).val = win6_6.index t (0 : Fin 2) * 4000 + 1 * (j 0).val; omega
    | ⟨1, _⟩ => show win6_0.index t (1 : Fin 2) * 128 + 1 * (j 1).val = win6_6.index t (1 : Fin 2) * 128 + 1 * (j 1).val; omega
  · show V c main_v103 (((cfg6.win 5).blk t).view.emb j) = V c main_v103 (((cfg6.win 6).blk t).view.emb j)
    refine congrArg _ (funext fun a => Fin.ext ?_)
    match a with
    | ⟨0, _⟩ => show win6_5.index t (0 : Fin 2) * 4000 + 1 * (j 0).val = win6_6.index t (0 : Fin 2) * 4000 + 1 * (j 0).val; omega
    | ⟨1, _⟩ => show win6_5.index t (1 : Fin 2) * 128 + 1 * (j 1).val = win6_6.index t (1 : Fin 2) * 128 + 1 * (j 1).val; omega
  · show (j 1).val = win6_6.index t (1 : Fin 2) * 128 + 1 * (j 1).val
    omega
  · intro q
    show V c main_v129 (((cfg6.win 1).blk t).view.emb (ix1 q)) = V c main_v129 (ix1 q)
    refine congrArg _ (funext fun a => Fin.ext ?_)
    match a with
    | ⟨0, _⟩ => show win6_1.index t (0 : Fin 1) * 128 + 1 * q.val = q.val; omega
  · intro q
    show V c main_v135 (((cfg6.win 2).blk t).view.emb (ix1 q)) = V c main_v135 (ix1 q)
    refine congrArg _ (funext fun a => Fin.ext ?_)
    match a with
    | ⟨0, _⟩ => show win6_2.index t (0 : Fin 1) * 128 + 1 * q.val = q.val; omega
  · intro q
    show V c main_v137 (((cfg6.win 3).blk t).view.emb (ix1 q)) = V c main_v137 (ix1 q)
    refine congrArg _ (funext fun a => Fin.ext ?_)
    match a with
    | ⟨0, _⟩ => show win6_3.index t (0 : Fin 1) * 128 + 1 * q.val = q.val; omega
  · intro q
    show V c main_v139 (((cfg6.win 4).blk t).view.emb (ix1 q)) = V c main_v139 (ix1 q)
    refine congrArg _ (funext fun a => Fin.ext ?_)
    match a with
    | ⟨0, _⟩ => show win6_4.index t (0 : Fin 1) * 128 + 1 * q.val = q.val; omega

/-- An index of the result array is in point `t`'s block iff each coordinate is in the block's range on its axis. -/
theorem mem_blk (t : Fin cfg6.N) (i : S100000x128.Idx) :
    i ∈ ((cfg6.win 6).blk t).view.set ↔ ∀ a : Fin 2, win6_6.index t a * S4000x128.size a ≤ (i a).val
      ∧ (i a).val < win6_6.index t a * S4000x128.size a + S4000x128.size a := by
  show i ∈ ((View.whole main_v140).slice (win6_6.rect t)).set ↔ _
  rw [View.set_slice_whole, Rect.mem_set_unit]
  exact Iff.rfl

/-- Row `r` of the result is written by point `r / 4000`. -/
theorem cover (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  have hN : cfg6.N = 25 := N_6
  have ht : (i 0).val / 4000 < cfg6.N := by rw [hN]; omega
  obtain ⟨-, -, -, -, e60, e61, -⟩ := idx_facts ⟨(i 0).val / 4000, ht⟩
  refine ⟨⟨(i 0).val / 4000, ht⟩, flush6_6 _, ?_⟩
  rw [mem_blk]
  intro a
  match a with
  | ⟨0, _⟩ =>
    show win6_6.index ⟨(i 0).val / 4000, ht⟩ (0 : Fin 2) * 4000 ≤ (i 0).val
      ∧ (i 0).val < win6_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win6_6.index ⟨(i 0).val / 4000, ht⟩ (1 : Fin 2) * 128 ≤ (i 1).val
      ∧ (i 1).val < win6_6.index ⟨(i 0).val / 4000, ht⟩ (1 : Fin 2) * 128 + 128
    rw [e61]; omega

/-- REGION 6: the result array after the region, entry by entry, is the region's array normalised column by column plus
    the carried array. -/
theorem arr (c : Dev nD) (p : Fin 100000) (q : Fin 128) :
    (dat6 (F := Ideal) V c).arrAt 6 cfg6.N (ix2 p q)
      = addRes (bnRelu (V c main_v121_0 : Mat 100000 128) (row (V c main_v129)) (row (V c main_v135)) (row (V c main_v137))
          (row (V c main_v139)) eps) (V c main_v103 : Mat 100000 128) (ix2 p q) :=
  congrFun ((dat6 V c).arrAt_eq_of_cover 6 (G V c) (fun t _ => flushed_eq V c t) cover) (ix2 p q)

end Cert.KernelIdeal.Region6

end
-- ==== Proof.KL3.lean ====
/-
  The third block of the idealized kernel program, boundary by boundary.

  Entering the block, the previous block's result `h₂` sits in the array the third aggregation region reads as the
  nodes' own rows.  The host stretch before that region forms the neighbour sums of `h₂` over the sorted edges and
  cuts layer 2 out of the stacked weights and biases; nothing writes `h₂` or the per-node factor.  So the region's
  step on the whole arrays is `y₃ = h₂ · ws₂ + (agg h₂ scaled by s) · wn₂ + b₂`, and the region leaves `y₃` and the
  column totals of its 25 blocks of 4000 rows, and of their squares.  The next host stretch turns the totals into
  the column means and the one-pass column variances of `y₃` and cuts layer 2's scale and shift rows; it writes
  neither `y₃` nor `h₂`.  The normalisation region then leaves `relu ((y₃ − μ) · rsqrt (v + ε) · γ₂ + β₂) + h₂`,
  which is the third block's result `h₃`.
-/
import proofs.«103646_j72808285602083_2_alg».proof.Proof.KDefs
import proofs.«103646_j72808285602083_2_alg».proof.Proof.KKeep
import proofs.«103646_j72808285602083_2_alg».proof.Proof.KArgs
import proofs.«103646_j72808285602083_2_alg».proof.Proof.KEdges
import proofs.«103646_j72808285602083_2_alg».proof.Proof.KHost5
import proofs.«103646_j72808285602083_2_alg».proof.Proof.KHost6
import proofs.«103646_j72808285602083_2_alg».proof.Proof.Region5
import proofs.«103646_j72808285602083_2_alg».proof.Proof.Region6

noncomputable section

open scoped BigOperators

namespace Cert.KernelIdeal.KL3

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.EdgeAgg Cert.ResSage Cert.SageBn
open Cert.KernelIdeal.KDefs Cert.KernelIdeal.Keep Cert.ConvPayload

variable (m : (ℓ : Loc nD τ sig) → Buf (Elt Ideal) ℓ) (ρ : Dev nD → PrngReg)

/-! ## The aggregation region's six inputs as it finds them -/

/-- The nodes' own rows: the previous block's result, which the host stretch does not write. -/
theorem own_W13 (c : Dev nD) (hprev : (W12 m ρ c (Proc.devRef .tc main_v103) : Mat 100000 128) = h2 m ρ c) :
    (V13 m ρ c main_v103 : Mat 100000 128) = h2 m ρ c :=
  (keep5 m ρ c main_v103 (by decide)).trans hprev

set_option maxHeartbeats 400000 in
/-- The neighbours' row sums of the previous block's result over the sorted edges. -/
theorem agg_W13 (c : Dev nD) (hprev : (W12 m ρ c (Proc.devRef .tc main_v103) : Mat 100000 128) = h2 m ρ c) :
    (V13 m ρ c main_v114 : Mat 100000 128) = aggK m ρ c (h2 m ρ c) := by
  refine (KHost5.agg_eq m ρ c).trans ?_
  rw [KEdges.v11_W12 m ρ c, KEdges.v18_W12 m ρ c, hprev]
  rfl

/-- The per-node factor. -/
theorem fac_W13 (c : Dev nD) : (V13 m ρ c main_v27 : Mat 100000 1) = sK m ρ c :=
  KEdges.v27_W13 m ρ c

/-- Layer 2 of the own-row weights. -/
theorem ws_W13 (c : Dev nD) : (V13 m ρ c main_v116 : Mat 128 128) = slab (aWS m c) 2 := by
  refine (KHost5.ws_eq m ρ c).trans ?_
  rw [KArgs.arg4_W12 m ρ c]
  rfl

/-- Layer 2 of the neighbour weights. -/
theorem wn_W13 (c : Dev nD) : (V13 m ρ c main_v118 : Mat 128 128) = slab (aWN m c) 2 := by
  refine (KHost5.wn_eq m ρ c).trans ?_
  rw [KArgs.arg5_W12 m ρ c]
  rfl

/-- Layer 2 of the bias rows. -/
theorem b_W13 (c : Dev nD) : row (V13 m ρ c main_v120 : Row 128) = rowAt (aCB m c) 2 := by
  refine (KHost5.b_eq m ρ c).trans ?_
  rw [KArgs.arg6_W12 m ρ c]
  rfl

/-- So the region's step on the whole arrays is the third block's pre-normalisation rows. -/
theorem step_eq (c : Dev nD) (hprev : (W12 m ρ c (Proc.devRef .tc main_v103) : Mat 100000 128) = h2 m ρ c) :
    Region5.Y (V13 m ρ) c = y3 m ρ c := by
  unfold Region5.Y y3
  rw [own_W13 m ρ c hprev, agg_W13 m ρ c hprev, fac_W13 m ρ c, ws_W13 m ρ c, wn_W13 m ρ c, b_W13 m ρ c]

/-! ## What the aggregation region leaves -/

/-- The first result array holds the pre-normalisation rows. -/
theorem y_W14 (c : Dev nD) (hprev : (W12 m ρ c (Proc.devRef .tc main_v103) : Mat 100000 128) = h2 m ρ c) :
    (W14 m ρ c (Proc.devRef .tc main_v121_0) : Mat 100000 128) = y3 m ρ c :=
  ((W14_arr m ρ c 6).trans (Region5.arr6 (V13 m ρ) c)).trans (step_eq m ρ c hprev)

/-- The second, the column totals of their blocks of 4000 rows. -/
theorem tot_W14 (c : Dev nD) (hprev : (W12 m ρ c (Proc.devRef .tc main_v103) : Mat 100000 128) = h2 m ρ c)
    (t : Fin 25) (r : Fin 8) (q : Fin 128) :
    (W14 m ρ c (Proc.devRef .tc main_v121_1) : S25x8x128.Idx → EReal) (ix3 t r q)
      = ∑ j : Fin 4000, y3 m ρ c (ix2 (blockRow (M := 100000) (T := 25) (n := 4000) rfl t j) q) := by
  refine (congrFun (W14_arr m ρ c 7) (ix3 t r q)).trans ?_
  refine (Region5.arr7_apply (V13 m ρ) c t r q).trans ?_
  rw [step_eq m ρ c hprev]

/-- The third, the column totals of the squares. -/
theorem sqtot_W14 (c : Dev nD) (hprev : (W12 m ρ c (Proc.devRef .tc main_v103) : Mat 100000 128) = h2 m ρ c)
    (t : Fin 25) (r : Fin 8) (q : Fin 128) :
    (W14 m ρ c (Proc.devRef .tc main_v121_2) : S25x8x128.Idx → EReal) (ix3 t r q)
      = ∑ j : Fin 4000, y3 m ρ c (ix2 (blockRow (M := 100000) (T := 25) (n := 4000) rfl t j) q)
          * y3 m ρ c (ix2 (blockRow (M := 100000) (T := 25) (n := 4000) rfl t j) q) := by
  refine (congrFun (W14_arr m ρ c 8) (ix3 t r q)).trans ?_
  refine (Region5.arr8_apply (V13 m ρ) c t r q).trans ?_
  rw [step_eq m ρ c hprev]

/-- The nodes' own rows pass through the region as an input. -/
theorem own_W14 (c : Dev nD) (hprev : (W12 m ρ c (Proc.devRef .tc main_v103) : Mat 100000 128) = h2 m ρ c) :
    (W14 m ρ c (Proc.devRef .tc main_v103) : Mat 100000 128) = h2 m ρ c :=
  ((W14_arr m ρ c 0).trans (((dat5 (V13 m ρ) c).arrAt_in 0 rfl _).trans (A_eq5 (V13 m ρ) c 0))).trans
    (own_W13 m ρ c hprev)

/-! ## The normalisation region's six inputs as it finds them -/

/-- The pre-normalisation rows: the host stretch does not write them. -/
theorem y_W15 (c : Dev nD) (hprev : (W12 m ρ c (Proc.devRef .tc main_v103) : Mat 100000 128) = h2 m ρ c) :
    (V15 m ρ c main_v121_0 : Mat 100000 128) = y3 m ρ c :=
  (keep6 m ρ c main_v121_0 (by decide)).trans (y_W14 m ρ c hprev)

/-- The carried rows: the previous block's result. -/
theorem own_W15 (c : Dev nD) (hprev : (W12 m ρ c (Proc.devRef .tc main_v103) : Mat 100000 128) = h2 m ρ c) :
    (V15 m ρ c main_v103 : Mat 100000 128) = h2 m ρ c :=
  (keep6 m ρ c main_v103 (by decide)).trans (own_W14 m ρ c hprev)

/-- The column means. -/
theorem mean_W15 (c : Dev nD) (hprev : (W12 m ρ c (Proc.devRef .tc main_v103) : Mat 100000 128) = h2 m ρ c) :
    row (V15 m ρ c main_v129 : Row 128) = colMean nE (y3 m ρ c) :=
  KHost6.mean_eq m ρ c (y3 m ρ c) (blockRow (M := 100000) (T := 25) (n := 4000) rfl) (fun _ _ => rfl)
    (tot_W14 m ρ c hprev)

/-- The one-pass column variances. -/
theorem var_W15 (c : Dev nD) (hprev : (W12 m ρ c (Proc.devRef .tc main_v103) : Mat 100000 128) = h2 m ρ c) :
    row (V15 m ρ c main_v135 : Row 128) = varOne nE (y3 m ρ c) :=
  KHost6.var_eq m ρ c (y3 m ρ c) (blockRow (M := 100000) (T := 25) (n := 4000) rfl) (fun _ _ => rfl)
    (tot_W14 m ρ c hprev) (sqtot_W14 m ρ c hprev)

/-- Layer 2 of the scale rows. -/
theorem ga_W15 (c : Dev nD) : row (V15 m ρ c main_v137 : Row 128) = rowAt (aGA m c) 2 := by
  refine (KHost6.ga_eq m ρ c).trans ?_
  rw [KArgs.arg7_W14 m ρ c]
  rfl

/-- Layer 2 of the shift rows. -/
theorem be_W15 (c : Dev nD) : row (V15 m ρ c main_v139 : Row 128) = rowAt (aBT m c) 2 := by
  refine (KHost6.be_eq m ρ c).trans ?_
  rw [KArgs.arg8_W14 m ρ c]
  rfl

/-! ## The block's result -/

/-- After the normalisation region the result array holds the third block's result. -/
theorem v140_W16 (c : Dev nD) (hprev : (W12 m ρ c (Proc.devRef .tc main_v103) : Mat 100000 128) = h2 m ρ c) :
    (W16 m ρ c (Proc.devRef .tc main_v140) : Mat 100000 128) = h3 m ρ c := by
  refine (W16_arr m ρ c 6).trans ?_
  funext i
  obtain ⟨p, q, rfl⟩ : ∃ (p : Fin 100000) (q : Fin 128), i = ix2 p q := ⟨i 0, i 1, eq_ix2 i⟩
  refine (Region6.arr (V15 m ρ) c p q).trans ?_
  rw [y_W15 m ρ c hprev, own_W15 m ρ c hprev, mean_W15 m ρ c hprev, var_W15 m ρ c hprev, ga_W15 m ρ c, be_W15 m ρ c,
    h3_eq m ρ c]
  rfl

end Cert.KernelIdeal.KL3

end
-- ==== Proof.Region7.lean ====
/-
  The two-step head region, read as one whole-array function.

  The region walks the rows of an `[100000, 128]` array in 25 blocks of 4000 rows.  At every block it reads the block, the
  whole `[128, 64]` and `[64, 2]` weight matrices and the whole bias vectors of 64 and 2 entries, and stores
  `max (x · w₁ + b₁, 0) · w₂ + b₂` of the block `x`, each bias under every row.  The entry at row `p` reads row `p` of the block
  only; row `r` of the array lies in block `r / 4000` at row `r % 4000`, and every row lies in exactly one block; so after
  the region the `[100000, 2]` result array holds, at every `(r, q)`, the same expression of row `r` of the whole array.
-/
import proofs.«103646_j72808285602083_2_alg».proof.Proof.Gen.KernelIdeal.Frame
import proofs.«103646_j72808285602083_2_alg».proof.Proof.LibBiasRow
import proofs.«103646_j72808285602083_2_alg».proof.Proof.LibResSage
import Idealize.ShloMosaic.Lib.Pipeline.Value

noncomputable section

namespace Cert.KernelIdeal.Region7

open Cert.KernelIdeal Cert.KernelIdeal.Gen Idealize.ShloMosaic Idealize.ShloMosaic.TcCoe Idealize.SL.Sem
open Idealize.ShloMosaic.ValueIdx Cert.Dense Cert.BiasRow Cert.ResSage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's value: the block of rows times the first weights plus the first bias under every row, rectified, times
    the second weights plus the second bias under every row (both products into zero accumulators; the operands' changes
    of float format are the identity on the extended reals). -/
theorem pay_eq (x0 : Vec Ideal S4000x128 .bf16) (x1 : Vec Ideal S128x64 .f32) (x2 : Vec Ideal S64 .f32)
    (x3 : Vec Ideal S64x2 .f32) (x4 : Vec Ideal S2 .f32) :
    k7_pay1 x0 x1 x2 x3 x4
      = head (x0 : Mat 4000 128) (x1 : Mat 128 64) (row x2) (x3 : Mat 64 2) (row x4) := by
  unfold k7_pay1
  simp only [shapeCast_self]
  show addf (matmul (F := Ideal) dot_S4000x64_S64x2_S4000x2_1_0_0_1_n_n none
      (truncf .bf16
        (maximumf
          (addf (matmul (F := Ideal) dot_S4000x128_S128x64_S4000x64_1_0_0_1_n_n none x0 (truncf .bf16 x1 bitsLt_bf16_f32)
              (constant S4000x64 .f32 0x00000000#32))
            (broadcastTo S4000x64 (shapeCast S1x64 x2 shapeCasts_S64_S1x64) broadcasts_S1x64_S4000x64))
          (broadcast S4000x64 (Scalar.ofBits (F := Ideal) .f32 0x00000000#32))) bitsLt_bf16_f32)
      (truncf .bf16 x3 bitsLt_bf16_f32) (constant S4000x2 .f32 0x00000000#32))
    (broadcastTo S4000x2 (shapeCast S1x2 x4 shapeCasts_S2_S1x2) broadcasts_S1x2_S4000x2) = _
  rw [matmul_zero_eq_mm dot_S4000x64_S64x2_S4000x2_1_0_0_1_n_n rfl rfl rfl rfl rfl rfl,
    matmul_zero_eq_mm dot_S4000x128_S128x64_S4000x64_1_0_0_1_n_n rfl rfl rfl rfl rfl rfl,
    shapeCast_row, shapeCast_row, vecReluBias, vecAddRow]
  rfl

/-- The head at an entry depends on one row of its left operand. -/
theorem head_at {M M' : ℕ} (H : Mat M 128) (H' : Mat M' 128) (w1 : Mat 128 64) (b1 : Mat 1 64) (w2 : Mat 64 2)
    (b2 : Mat 1 2) (j : (⟨2, ![M', 2]⟩ : Shape).Idx) (i : (⟨2, ![M, 2]⟩ : Shape).Idx)
    (hc : (c1 j : Fin 2) = c1 i) (hH : ∀ k : Fin 128, H' (ix2 (c0 j) k) = H (ix2 (c0 i) k)) :
    head H' w1 b1 w2 b2 j = head H w1 b1 w2 b2 i := by
  unfold head
  refine addRow_at _ b2 _ b2 j i ?_ (by rw [hc])
  refine mm_at _ w2 _ w2 j i (fun k => ?_) (fun k => by rw [hc])
  refine reluBias_at _ b1 _ b1 _ _ ?_ rfl
  exact mm_at H w1 H' w1 _ _ hH (fun _ => rfl)

/-- The body's value at an entry of a block whose row is row `i 0` of the whole array and whose weights and biases are
    the whole ones: the head of the whole array at `i`. -/
theorem point_eq (H : Mat 100000 128) (w1 : Mat 128 64) (b1 : Row 64) (w2 : Mat 64 2) (b2 : Row 2)
    (x0 : Vec Ideal S4000x128 .bf16) (x1 : Vec Ideal S128x64 .f32) (x2 : Vec Ideal S64 .f32)
    (x3 : Vec Ideal S64x2 .f32) (x4 : Vec Ideal S2 .f32)
    (y : S4000x2.Idx) (i : S100000x2.Idx)
    (hc : (y 1).val = (i 1).val)
    (h0 : ∀ k : Fin 128, x0 (ix2 (c0 y) k) = H (ix2 (c0 i) k))
    (h1 : ∀ (k : Fin 128) (q : Fin 64), x1 (ix2 k q) = w1 (ix2 k q))
    (h2 : ∀ q : Fin 64, x2 (ix1 q) = b1 (ix1 q))
    (h3 : ∀ (k : Fin 64) (q : Fin 2), x3 (ix2 k q) = w2 (ix2 k q))
    (h4 : ∀ q : Fin 2, x4 (ix1 q) = b2 (ix1 q)) :
    k7_pay1 x0 x1 x2 x3 x4 y = head H w1 (row b1) w2 (row b2) i := by
  rw [pay_eq]
  obtain rfl : x1 = w1 := funext fun a => by rw [eq_ix2 a]; exact h1 _ _
  obtain rfl : x2 = b1 := funext fun a => by rw [eq_ix1 a]; exact h2 _
  obtain rfl : x3 = w2 := funext fun a => by rw [eq_ix2 a]; exact h3 _ _
  obtain rfl : x4 = b2 := funext fun a => by rw [eq_ix1 a]; exact h4 _
  exact head_at H (x0 : Mat 4000 128) x1 (row x2) x3 (row x4) y i (Fin.ext hc) h0

/-- The printed index maps, decided once over the grid: the array's and the result's row blocks move with the point,
    the weights' and the biases' blocks stay at zero. -/
theorem idx_facts : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0 ∧ win7_2.index t (0 : Fin 1) = 0
    ∧ win7_3.index t (0 : Fin 2) = 0 ∧ win7_3.index t (1 : Fin 2) = 0 ∧ win7_4.index t (0 : Fin 1) = 0 :=
  (by decide +kernel : ∀ t : Fin grid7.N, _)

/-- The whole result: the head of the whole array. -/
abbrev G (c : Dev nD) : Mat 100000 2 :=
  head (V c main_v140 : Mat 100000 128) (V c main_arg9 : Mat 128 64) (row (V c main_arg10)) (V c main_arg11 : Mat 64 2)
    (row (V c main_arg12))

/-- What point `t` writes back is block `t` of the whole result. -/
theorem flushed_eq (c : Dev nD) (t : Fin cfg7.N) :
    (dat7 V c).flushed 5 t = ((cfg7.win 5).blk t).view.read (Elt Ideal) (G V c) := by
  show (cfg7.win 5).cut (grid7.coords t) ((dat7 V c).after 5 t) = _
  rw [after7_5]
  unfold out7_5
  rw [View.canon_unit_zero hz2]
  simp only [View.ld_unit_zero (S := S4000x128) hz2, View.ld_unit_zero (S := S128x64) hz2, View.ld_unit_zero (S := S64) hz1,
    View.ld_unit_zero (S := S64x2) hz2, View.ld_unit_zero (S := S2) hz1]
  obtain ⟨e00, e01, e50, e51, e10, e11, e2, e30, e31, e4⟩ := idx_facts t
  funext j
  show k7_pay1 (iblk7 V c 0 t) (iblk7 V c 1 t) (iblk7 V c 2 t) (iblk7 V c 3 t) (iblk7 V c 4 t) j
    = G V c (((cfg7.win 5).blk t).view.emb j)
  refine point_eq (V c main_v140) (V c main_arg9) (V c main_arg10) (V c main_arg11) (V c main_arg12) _ _ _ _ _ j _ ?_ ?_ ?_ ?_ ?_ ?_
  · show (j 1).val = win7_5.index t (1 : Fin 2) * 2 + 1 * (j 1).val
    omega
  · intro k
    show V c main_v140 (((cfg7.win 0).blk t).view.emb (ix2 (c0 j) k))
      = V c main_v140 (ix2 (c0 (((cfg7.win 5).blk t).view.emb j)) k)
    refine congrArg _ (funext fun a => Fin.ext ?_)
    match a with
    | ⟨0, _⟩ => show win7_0.index t (0 : Fin 2) * 4000 + 1 * (j 0).val = win7_5.index t (0 : Fin 2) * 4000 + 1 * (j 0).val; omega
    | ⟨1, _⟩ => show win7_0.index t (1 : Fin 2) * 128 + 1 * k.val = k.val; omega
  · intro k q
    show V c main_arg9 (((cfg7.win 1).blk t).view.emb (ix2 k q)) = V c main_arg9 (ix2 k q)
    refine congrArg _ (funext fun a => Fin.ext ?_)
    match a with
    | ⟨0, _⟩ => show win7_1.index t (0 : Fin 2) * 128 + 1 * k.val = k.val; omega
    | ⟨1, _⟩ => show win7_1.index t (1 : Fin 2) * 64 + 1 * q.val = q.val; omega
  · intro q
    show V c main_arg10 (((cfg7.win 2).blk t).view.emb (ix1 q)) = V c main_arg10 (ix1 q)
    refine congrArg _ (funext fun a => Fin.ext ?_)
    match a with
    | ⟨0, _⟩ => show win7_2.index t (0 : Fin 1) * 64 + 1 * q.val = q.val; omega
  · intro k q
    show V c main_arg11 (((cfg7.win 3).blk t).view.emb (ix2 k q)) = V c main_arg11 (ix2 k q)
    refine congrArg _ (funext fun a => Fin.ext ?_)
    match a with
    | ⟨0, _⟩ => show win7_3.index t (0 : Fin 2) * 64 + 1 * k.val = k.val; omega
    | ⟨1, _⟩ => show win7_3.index t (1 : Fin 2) * 2 + 1 * q.val = q.val; omega
  · intro q
    show V c main_arg12 (((cfg7.win 4).blk t).view.emb (ix1 q)) = V c main_arg12 (ix1 q)
    refine congrArg _ (funext fun a => Fin.ext ?_)
    match a with
    | ⟨0, _⟩ => show win7_4.index t (0 : Fin 1) * 2 + 1 * q.val = q.val; omega

/-- An index of the result array is in point `t`'s block iff each coordinate is in the block's range on its axis. -/
theorem mem_blk (t : Fin cfg7.N) (i : S100000x2.Idx) :
    i ∈ ((cfg7.win 5).blk t).view.set ↔ ∀ a : Fin 2, win7_5.index t a * S4000x2.size a ≤ (i a).val
      ∧ (i a).val < win7_5.index t a * S4000x2.size a + S4000x2.size a := by
  show i ∈ ((View.whole main_v141).slice (win7_5.rect t)).set ↔ _
  rw [View.set_slice_whole, Rect.mem_set_unit]
  exact Iff.rfl

/-- Row `r` of the result is written by point `r / 4000`. -/
theorem cover (i : S100000x2.Idx) :
    ∃ t : Fin cfg7.N, (cfg7.win 5).flush t = true ∧ i ∈ ((cfg7.win 5).blk t).view.set := by
  have hi0 : (i 0).val < 100000 := (i 0).isLt
  have hi1 : (i 1).val < 2 := (i 1).isLt
  have hN : cfg7.N = 25 := N_7
  have ht : (i 0).val / 4000 < cfg7.N := by rw [hN]; omega
  obtain ⟨-, -, e50, e51, -⟩ := idx_facts ⟨(i 0).val / 4000, ht⟩
  refine ⟨⟨(i 0).val / 4000, ht⟩, flush7_5 _, ?_⟩
  rw [mem_blk]
  intro a
  match a with
  | ⟨0, _⟩ =>
    show win7_5.index ⟨(i 0).val / 4000, ht⟩ (0 : Fin 2) * 4000 ≤ (i 0).val
      ∧ (i 0).val < win7_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win7_5.index ⟨(i 0).val / 4000, ht⟩ (1 : Fin 2) * 2 ≤ (i 1).val
      ∧ (i 1).val < win7_5.index ⟨(i 0).val / 4000, ht⟩ (1 : Fin 2) * 2 + 2
    rw [e51]; omega

/-- REGION 7: the result array after the region, entry by entry, is the head of the region's array. -/
theorem arr (c : Dev nD) (p : Fin 100000) (q : Fin 2) :
    (dat7 (F := Ideal) V c).arrAt 5 cfg7.N (ix2 p q)
      = head (V c main_v140 : Mat 100000 128) (V c main_arg9 : Mat 128 64) (row (V c main_arg10))
          (V c main_arg11 : Mat 64 2) (row (V c main_arg12)) (ix2 p q) :=
  congrFun ((dat7 V c).arrAt_eq_of_cover 5 (G V c) (fun t _ => flushed_eq V c t) cover) (ix2 p q)

end Cert.KernelIdeal.Region7

end
-- ==== Proof.KL4.lean ====
/-
  The last link of the chain of boundary contents: after the head region the result array holds the head of the array
  the last block left, by the launch's head weights and biases.

  The region's result is the head of the five arrays as the region finds them.  The first is the last block's result;
  the other four are arguments: the region stages them and never writes them back, so it leaves them as it found them,
  and they end as launched, so the region found them as launched.
-/
import proofs.«103646_j72808285602083_2_alg».proof.Proof.Region7
import proofs.«103646_j72808285602083_2_alg».proof.Proof.KDefs

noncomputable section

namespace Cert.KernelIdeal.KL4

open Cert.KernelIdeal Cert.KernelIdeal.Gen Idealize.ShloMosaic Idealize.ShloMosaic.TcCoe Idealize.SL.Sem
open Idealize.ShloMosaic.ValueIdx Cert.Dense Cert.ResSage Cert.KernelIdeal.KDefs
open Idealize.ShloMosaic.Pipeline (Dat)

variable (m : (ℓ : Loc nD τ sig) → Buf (Elt Ideal) ℓ) (ρ : Dev nD → PrngReg)

/-- The head region finds each of its four argument arrays as launched. -/
theorem arg9_W16 (c : Dev nD) : (V16 m ρ c main_arg9 : Mat 128 64) = aW1 m c :=
  ((W17_arr m ρ c 1).trans (((dat7 (V16 m ρ) c).arrAt_in 1 rfl _).trans (A_eq7 (V16 m ρ) c 1))).symm.trans
    (W17_main_arg9 m ρ c)
theorem arg10_W16 (c : Dev nD) : (V16 m ρ c main_arg10 : Row 64) = aC1 m c :=
  ((W17_arr m ρ c 2).trans (((dat7 (V16 m ρ) c).arrAt_in 2 rfl _).trans (A_eq7 (V16 m ρ) c 2))).symm.trans
    (W17_main_arg10 m ρ c)
theorem arg11_W16 (c : Dev nD) : (V16 m ρ c main_arg11 : Mat 64 2) = aW2 m c :=
  ((W17_arr m ρ c 3).trans (((dat7 (V16 m ρ) c).arrAt_in 3 rfl _).trans (A_eq7 (V16 m ρ) c 3))).symm.trans
    (W17_main_arg11 m ρ c)
theorem arg12_W16 (c : Dev nD) : (V16 m ρ c main_arg12 : Row 2) = aC2 m c :=
  ((W17_arr m ρ c 4).trans (((dat7 (V16 m ρ) c).arrAt_in 4 rfl _).trans (A_eq7 (V16 m ρ) c 4))).symm.trans
    (W17_main_arg12 m ρ c)

/-- After the head region the result array is the head of the last block's result. -/
theorem v141_W17 (c : Dev nD) (hprev : (W16 m ρ c (Proc.devRef .tc main_v140) : Mat 100000 128) = h3 m ρ c) :
    (W17 m ρ c (Proc.devRef .tc main_v141) : Mat 100000 2) = out m ρ c := by
  have e0 : (V16 m ρ c main_v140 : Mat 100000 128) = h3 m ρ c := hprev
  have e1 := arg9_W16 m ρ c
  have e2 := arg10_W16 m ρ c
  have e3 := arg11_W16 m ρ c
  have e4 := arg12_W16 m ρ c
  funext i
  obtain ⟨p, q, rfl⟩ : ∃ (p : Fin 100000) (q : Fin 2), i = ix2 p q := ⟨i 0, i 1, eq_ix2 i⟩
  refine ((congrFun (W17_arr m ρ c 5) (ix2 p q)).trans (Region7.arr (V16 m ρ) c p q)).trans ?_
  rw [e0, e1, e2, e3, e4]
  rfl

end Cert.KernelIdeal.KL4

end
-- ==== Proof.KFinal.lean ====
/-
  The idealized kernel program's run with its result as the specification's network.

  Boundary by boundary the eight regions and the host stretches between them leave the embedding, the three blocks and
  the head, so the result array ends at `out`: the network with the one-pass variance over the sorted edges.
-/
import proofs.«103646_j72808285602083_2_alg».proof.Proof.KRun
import proofs.«103646_j72808285602083_2_alg».proof.Proof.KL0
import proofs.«103646_j72808285602083_2_alg».proof.Proof.KL1
import proofs.«103646_j72808285602083_2_alg».proof.Proof.KL2
import proofs.«103646_j72808285602083_2_alg».proof.Proof.KL3
import proofs.«103646_j72808285602083_2_alg».proof.Proof.KL4

noncomputable section

namespace Cert.KernelIdeal.KFinal

open Idealize.ShloMosaic Idealize.ShloMosaic.TcCoe Idealize.ShloMosaic.ValueIdx Idealize.SL.Sem
open Cert.KernelIdeal Cert.KernelIdeal.Gen Cert.Dense Cert.KernelIdeal.KDefs

variable (m : (ℓ : Loc nD τ sig) → Buf (Elt Ideal) ℓ) (ρ : Dev nD → PrngReg)

/-- The result array at the last boundary. -/
theorem v141 (c : Dev nD) : (W17 m ρ c (Proc.devRef .tc main_v141) : Mat 100000 2) = out m ρ c :=
  KL4.v141_W17 m ρ c (KL3.v140_W16 m ρ c (KL2.v103_W12 m ρ c (KL1.v66_W8 m ρ c (KL0.v28_W4 m ρ c))))

/-- The run: the result ends at `out`, the arguments as launched. -/
theorem run : θ_run (defs (F := Ideal)) (onTc (τ := τ) (main (F := Ideal))) ⟨m, fun _ => 0, ρ⟩ (fun r => ∀ c : Dev nD,
      r.2.mem ((c.tc : Thread nD τ).loc main_v141) = (out m ρ c : Mat 100000 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c => ⟨(h c).1.trans (v141 m ρ c), (h c).2⟩) (KRun.run (F := Ideal) m ρ)

end Cert.KernelIdeal.KFinal

end
-- ==== Proof.LibResSageReal.lean ====
/-
  Realness through the residual mean-aggregating network, and the agreement of its two variance forms.

  An extended real is real when it is the coercion of a real number.  Sums, products, differences and maxima of
  real entries are real; a real number divided by a nonzero real is real; the reciprocal square root of a positive
  real is real.  Hence every stage of the network — embedding, aggregation step, column mean, either variance, the
  normalisation (whose radicand `var + eps` is a nonnegative real plus a positive real) and the residual sum — maps
  arrays of real entries to arrays of real entries, as long as the neighbour sum `agg` does and the per-node factor
  `s` is real.

  On arrays of real entries, with `n` the number of rows, the one-pass variance is the two-pass variance.  The three
  blocks are therefore rewritten one after the other: the first block's pre-normalisation rows are real, so its
  variance may be exchanged; its output is then the same array for both networks, and is real; and so on.
-/
import proofs.«103646_j72808285602083_2_alg».proof.Proof.LibResSage
import proofs.«103646_j72808285602083_2_alg».proof.Proof.LibEdgeAgg

noncomputable section

open scoped BigOperators

namespace Cert.GcnStats

/-- The larger of two real numbers is a real number. -/
theorem IsReal.max {a b : EReal} (ha : IsReal a) (hb : IsReal b) : IsReal (max a b) := by
  rcases max_choice a b with h | h
  · rw [h]; exact ha
  · rw [h]; exact hb

end Cert.GcnStats

namespace Cert.ResSage

open Idealize.ShloMosaic Idealize.ShloMosaic.ValueIdx Cert.Dense Cert.RowScale Cert.BiasRow Cert.SageDense Cert.SageBn
  Cert.GcnStats Cert.EdgeAgg

/-! ### Elementary stages -/

/-- A matrix product of real entries is real. -/
theorem isReal_mm {M K N : ℕ} (A : Mat M K) (B : Mat K N) (hA : ∀ i, IsReal (A i)) (hB : ∀ i, IsReal (B i))
    (i : (⟨2, ![M, N]⟩ : Shape).Idx) : IsReal (mm A B i) := by
  show IsReal (∑ k : Fin K, A (ix2 (c0 i) k) * B (ix2 k (c1 i)))
  exact isReal_sum _ _ fun k _ => (hA _).mul (hB _)

/-- Adding a real row to real rows gives real rows. -/
theorem isReal_addRow {M N : ℕ} (X : Mat M N) (b : Mat 1 N) (hX : ∀ i, IsReal (X i)) (hb : ∀ i, IsReal (b i))
    (i : (⟨2, ![M, N]⟩ : Shape).Idx) : IsReal (addRow X b i) := by
  show IsReal (X i + b (ix2 (0 : Fin 1) (c1 i)))
  exact (hX _).add (hb _)

/-- Scaling real rows by real factors gives real rows. -/
theorem isReal_scaleRows {M N : ℕ} (G : Mat M N) (s : Mat M 1) (hG : ∀ i, IsReal (G i)) (hs : ∀ i, IsReal (s i))
    (i : (⟨2, ![M, N]⟩ : Shape).Idx) : IsReal (scaleRows G s i) := by
  show IsReal (G i * s (ix2 (c0 i) (0 : Fin 1)))
  exact (hG _).mul (hs _)

/-- The rectified sum of real rows and a real row is real. -/
theorem isReal_reluBias {M N : ℕ} (X : Mat M N) (b : Mat 1 N) (hX : ∀ i, IsReal (X i)) (hb : ∀ i, IsReal (b i))
    (i : (⟨2, ![M, N]⟩ : Shape).Idx) : IsReal (reluBias X b i) := by
  show IsReal (max (X i + b (ix2 (0 : Fin 1) (c1 i))) 0)
  exact ((hX _).add (hb _)).max isReal_zero

/-- A layer of a stack of real matrices is real. -/
theorem isReal_slab {L K N : ℕ} (W : (⟨3, ![L, K, N]⟩ : Shape).Idx → EReal) (l : Fin L) (hW : ∀ i, IsReal (W i))
    (i : (⟨2, ![K, N]⟩ : Shape).Idx) : IsReal (slab W l i) := hW _

/-- A row of a stack of real rows is real. -/
theorem isReal_rowAt {L N : ℕ} (B : Mat L N) (l : Fin L) (hB : ∀ i, IsReal (B i))
    (i : (⟨2, ![1, N]⟩ : Shape).Idx) : IsReal (rowAt B l i) := hB _

/-- A real vector laid out as one row is real. -/
theorem isReal_row {N : ℕ} (b : Row N) (hb : ∀ i, IsReal (b i)) (i : (⟨2, ![1, N]⟩ : Shape).Idx) :
    IsReal (Cert.Dense.row b i) := hb _

/-- A real vector laid out as one column is real. -/
theorem isReal_col {M : ℕ} (v : Row M) (hv : ∀ i, IsReal (v i)) (i : (⟨2, ![M, 1]⟩ : Shape).Idx) :
    IsReal (Cert.RowScale.col v i) := hv _

/-! ### The stages of the network -/

/-- The embedding of real features by real weights and a real bias is real. -/
theorem isReal_embed {M J K : ℕ} (x : Mat M J) (we : Mat J K) (bE : Mat 1 K) (hx : ∀ i, IsReal (x i))
    (hwe : ∀ i, IsReal (we i)) (hbE : ∀ i, IsReal (bE i)) (i : (⟨2, ![M, K]⟩ : Shape).Idx) :
    IsReal (embed x we bE i) :=
  isReal_addRow _ _ (isReal_mm x we hx hwe) hbE i

/-- An aggregation step reading real arrays only is real. -/
theorem isReal_conv {M K N : ℕ} (X A : Mat M K) (s : Mat M 1) (ws wn : Mat K N) (b : Mat 1 N)
    (hX : ∀ i, IsReal (X i)) (hA : ∀ i, IsReal (A i)) (hs : ∀ i, IsReal (s i)) (hws : ∀ i, IsReal (ws i))
    (hwn : ∀ i, IsReal (wn i)) (hb : ∀ i, IsReal (b i)) (i : (⟨2, ![M, N]⟩ : Shape).Idx) :
    IsReal (conv X A s ws wn b i) := by
  show IsReal ((mm X ws i + mm (scaleRows A s) wn i) + b (ix2 (0 : Fin 1) (c1 i)))
  exact ((isReal_mm X ws hX hws i).add (isReal_mm _ wn (isReal_scaleRows A s hA hs) hwn i)).add (hb _)

/-- The column means of real rows, over a positive number of rows, are real. -/
theorem isReal_colMean {M K : ℕ} (hpos : 0 < M) (n : EReal) (hn : n = ((M : ℝ) : EReal)) (Y : Mat M K)
    (hY : ∀ i, IsReal (Y i)) (i : (⟨2, ![1, K]⟩ : Shape).Idx) : IsReal (colMean n Y i) := by
  have hM : (M : ℝ) ≠ 0 := by exact_mod_cast hpos.ne'
  show IsReal (Ideal.div (0 + ∑ p : Fin M, Y (ix2 p (c1 i))) n)
  rw [hn]
  exact isReal_div_coe (isReal_zero.add (isReal_sum _ _ fun p _ => hY _)) hM

/-- The one-pass column variances of real rows are real. -/
theorem isReal_varOne {M K : ℕ} (hpos : 0 < M) (n : EReal) (hn : n = ((M : ℝ) : EReal)) (Y : Mat M K)
    (hY : ∀ i, IsReal (Y i)) (i : (⟨2, ![1, K]⟩ : Shape).Idx) : IsReal (varOne n Y i) := by
  have hM : (M : ℝ) ≠ 0 := by exact_mod_cast hpos.ne'
  have hmu := isReal_colMean hpos n hn Y hY i
  show IsReal (max (Ideal.div (0 + ∑ p : Fin M, Y (ix2 p (c1 i)) * Y (ix2 p (c1 i))) n
    - colMean n Y i * colMean n Y i) 0)
  refine (IsReal.sub ?_ (hmu.mul hmu)).max isReal_zero
  rw [hn]
  exact isReal_div_coe (isReal_zero.add (isReal_sum _ _ fun p _ => (hY _).mul (hY _))) hM

/-- The one-pass column variances are nonnegative, whatever the entries. -/
theorem varOne_nonneg {M K : ℕ} (n : EReal) (Y : Mat M K) (i : (⟨2, ![1, K]⟩ : Shape).Idx) : 0 ≤ varOne n Y i :=
  le_max_right _ _

/-- The two-pass column variances of real rows are real. -/
theorem isReal_varTwo {M K : ℕ} (hpos : 0 < M) (n : EReal) (hn : n = ((M : ℝ) : EReal)) (Y : Mat M K)
    (hY : ∀ i, IsReal (Y i)) (i : (⟨2, ![1, K]⟩ : Shape).Idx) : IsReal (varTwo n Y i) := by
  rw [← varOne_eq_varTwo hpos n hn Y hY]
  exact isReal_varOne hpos n hn Y hY i

/-- The two-pass column variances of real rows are nonnegative. -/
theorem varTwo_nonneg {M K : ℕ} (hpos : 0 < M) (n : EReal) (hn : n = ((M : ℝ) : EReal)) (Y : Mat M K)
    (hY : ∀ i, IsReal (Y i)) (i : (⟨2, ![1, K]⟩ : Shape).Idx) : 0 ≤ varTwo n Y i := by
  rw [← varOne_eq_varTwo hpos n hn Y hY]
  exact varOne_nonneg n Y i

/-- A nonnegative real plus a positive real is a positive real, so its reciprocal square root is real. -/
theorem isReal_rsqrt_add {v eps : EReal} (hv : IsReal v) (hv0 : 0 ≤ v) (heps : ∃ r : ℝ, 0 < r ∧ eps = (r : EReal)) :
    IsReal (Ideal.rsqrt (v + eps)) := by
  obtain ⟨e, he0, rfl⟩ := heps
  obtain ⟨w, rfl⟩ := hv
  have hw : (0 : ℝ) ≤ w := by exact_mod_cast hv0
  refine isReal_rsqrt_pos ((isReal_coe w).add (isReal_coe e)) ?_
  rw [← EReal.coe_add]
  exact_mod_cast add_pos_of_nonneg_of_pos hw he0

/-- Normalising real rows by real means and real nonnegative variances, with real scale and shift, gives real rows. -/
theorem isReal_bnRelu {M K : ℕ} (Y : Mat M K) (mu var ga be : Mat 1 K) (eps : EReal)
    (heps : ∃ r : ℝ, 0 < r ∧ eps = (r : EReal)) (hY : ∀ i, IsReal (Y i)) (hmu : ∀ i, IsReal (mu i))
    (hvar : ∀ i, IsReal (var i)) (hvar0 : ∀ i, 0 ≤ var i) (hga : ∀ i, IsReal (ga i)) (hbe : ∀ i, IsReal (be i))
    (i : (⟨2, ![M, K]⟩ : Shape).Idx) : IsReal (bnRelu Y mu var ga be eps i) := by
  show IsReal (max ((((Y i - mu (ix2 (0 : Fin 1) (c1 i))) * Ideal.rsqrt (var (ix2 (0 : Fin 1) (c1 i)) + eps))
    * ga (ix2 (0 : Fin 1) (c1 i))) + be (ix2 (0 : Fin 1) (c1 i))) 0)
  exact (((((hY _).sub (hmu _)).mul (isReal_rsqrt_add (hvar _) (hvar0 _) heps)).mul (hga _)).add (hbe _)).max
    isReal_zero

/-- The normalisation with the one-pass variance maps real rows to real rows. -/
theorem isReal_norm_one {M K : ℕ} (hpos : 0 < M) (n eps : EReal) (hn : n = ((M : ℝ) : EReal))
    (heps : ∃ r : ℝ, 0 < r ∧ eps = (r : EReal)) (Y : Mat M K) (ga be : Mat 1 K) (hY : ∀ i, IsReal (Y i))
    (hga : ∀ i, IsReal (ga i)) (hbe : ∀ i, IsReal (be i)) (i : (⟨2, ![M, K]⟩ : Shape).Idx) :
    IsReal (norm varOne n eps Y ga be i) :=
  isReal_bnRelu Y _ _ ga be eps heps hY (isReal_colMean hpos n hn Y hY) (isReal_varOne hpos n hn Y hY)
    (varOne_nonneg n Y) hga hbe i

/-- The normalisation with the two-pass variance maps real rows to real rows. -/
theorem isReal_norm_two {M K : ℕ} (hpos : 0 < M) (n eps : EReal) (hn : n = ((M : ℝ) : EReal))
    (heps : ∃ r : ℝ, 0 < r ∧ eps = (r : EReal)) (Y : Mat M K) (ga be : Mat 1 K) (hY : ∀ i, IsReal (Y i))
    (hga : ∀ i, IsReal (ga i)) (hbe : ∀ i, IsReal (be i)) (i : (⟨2, ![M, K]⟩ : Shape).Idx) :
    IsReal (norm varTwo n eps Y ga be i) :=
  isReal_bnRelu Y _ _ ga be eps heps hY (isReal_colMean hpos n hn Y hY) (isReal_varTwo hpos n hn Y hY)
    (varTwo_nonneg hpos n hn Y hY) hga hbe i

/-- The entrywise sum of two real arrays is real. -/
theorem isReal_addRes {M K : ℕ} (Z R : Mat M K) (hZ : ∀ i, IsReal (Z i)) (hR : ∀ i, IsReal (R i))
    (i : (⟨2, ![M, K]⟩ : Shape).Idx) : IsReal (addRes Z R i) :=
  (hZ i).add (hR i)

/-- On real rows the two normalisations are one function. -/
theorem norm_one_eq_two {M K : ℕ} (hpos : 0 < M) (n eps : EReal) (hn : n = ((M : ℝ) : EReal)) (Y : Mat M K)
    (ga be : Mat 1 K) (hY : ∀ i, IsReal (Y i)) : norm varOne n eps Y ga be = norm varTwo n eps Y ga be := by
  unfold norm
  rw [varOne_eq_varTwo hpos n hn Y hY]

/-! ### The blocks -/

section Blocks

variable {M K : ℕ} (hpos : 0 < M) (agg : Mat M K → Mat M K) (s : Mat M 1) (n eps : EReal)
  (hn : n = ((M : ℝ) : EReal)) (heps : ∃ r : ℝ, 0 < r ∧ eps = (r : EReal))
  (hagg : ∀ H : Mat M K, (∀ i, IsReal (H i)) → ∀ i, IsReal (agg H i)) (hs : ∀ i, IsReal (s i))

include hpos hn hagg hs in
/-- The first block with either variance, on real input: one array. -/
theorem block0_one_eq_two (H : Mat M K) (ws wn : Mat K K) (b ga be : Mat 1 K) (hH : ∀ i, IsReal (H i))
    (hws : ∀ i, IsReal (ws i)) (hwn : ∀ i, IsReal (wn i)) (hb : ∀ i, IsReal (b i)) :
    block0 varOne agg s n eps H ws wn b ga be = block0 varTwo agg s n eps H ws wn b ga be :=
  norm_one_eq_two hpos n eps hn _ ga be (isReal_conv H (agg H) s ws wn b hH (hagg H hH) hs hws hwn hb)

include hpos hn hagg hs in
/-- A later block with either variance, on real input: one array. -/
theorem blockR_one_eq_two (H : Mat M K) (ws wn : Mat K K) (b ga be : Mat 1 K) (hH : ∀ i, IsReal (H i))
    (hws : ∀ i, IsReal (ws i)) (hwn : ∀ i, IsReal (wn i)) (hb : ∀ i, IsReal (b i)) :
    blockR varOne agg s n eps H ws wn b ga be = blockR varTwo agg s n eps H ws wn b ga be := by
  unfold blockR
  rw [norm_one_eq_two hpos n eps hn _ ga be (isReal_conv H (agg H) s ws wn b hH (hagg H hH) hs hws hwn hb)]

include hpos hn heps hagg hs in
/-- The first block (two-pass variance) maps real rows to real rows. -/
theorem isReal_block0_two (H : Mat M K) (ws wn : Mat K K) (b ga be : Mat 1 K) (hH : ∀ i, IsReal (H i))
    (hws : ∀ i, IsReal (ws i)) (hwn : ∀ i, IsReal (wn i)) (hb : ∀ i, IsReal (b i)) (hga : ∀ i, IsReal (ga i))
    (hbe : ∀ i, IsReal (be i)) (i : (⟨2, ![M, K]⟩ : Shape).Idx) :
    IsReal (block0 varTwo agg s n eps H ws wn b ga be i) :=
  isReal_norm_two hpos n eps hn heps _ ga be (isReal_conv H (agg H) s ws wn b hH (hagg H hH) hs hws hwn hb) hga hbe i

include hpos hn heps hagg hs in
/-- A later block (two-pass variance) maps real rows to real rows. -/
theorem isReal_blockR_two (H : Mat M K) (ws wn : Mat K K) (b ga be : Mat 1 K) (hH : ∀ i, IsReal (H i))
    (hws : ∀ i, IsReal (ws i)) (hwn : ∀ i, IsReal (wn i)) (hb : ∀ i, IsReal (b i)) (hga : ∀ i, IsReal (ga i))
    (hbe : ∀ i, IsReal (be i)) (i : (⟨2, ![M, K]⟩ : Shape).Idx) :
    IsReal (blockR varTwo agg s n eps H ws wn b ga be i) :=
  isReal_addRes _ H
    (isReal_norm_two hpos n eps hn heps _ ga be (isReal_conv H (agg H) s ws wn b hH (hagg H hH) hs hws hwn hb) hga hbe)
    hH i

include hpos hn heps hagg hs in
/-- The first block (one-pass variance) maps real rows to real rows. -/
theorem isReal_block0_one (H : Mat M K) (ws wn : Mat K K) (b ga be : Mat 1 K) (hH : ∀ i, IsReal (H i))
    (hws : ∀ i, IsReal (ws i)) (hwn : ∀ i, IsReal (wn i)) (hb : ∀ i, IsReal (b i)) (hga : ∀ i, IsReal (ga i))
    (hbe : ∀ i, IsReal (be i)) (i : (⟨2, ![M, K]⟩ : Shape).Idx) :
    IsReal (block0 varOne agg s n eps H ws wn b ga be i) :=
  isReal_norm_one hpos n eps hn heps _ ga be (isReal_conv H (agg H) s ws wn b hH (hagg H hH) hs hws hwn hb) hga hbe i

include hpos hn heps hagg hs in
/-- A later block (one-pass variance) maps real rows to real rows. -/
theorem isReal_blockR_one (H : Mat M K) (ws wn : Mat K K) (b ga be : Mat 1 K) (hH : ∀ i, IsReal (H i))
    (hws : ∀ i, IsReal (ws i)) (hwn : ∀ i, IsReal (wn i)) (hb : ∀ i, IsReal (b i)) (hga : ∀ i, IsReal (ga i))
    (hbe : ∀ i, IsReal (be i)) (i : (⟨2, ![M, K]⟩ : Shape).Idx) :
    IsReal (blockR varOne agg s n eps H ws wn b ga be i) :=
  isReal_addRes _ H
    (isReal_norm_one hpos n eps hn heps _ ga be (isReal_conv H (agg H) s ws wn b hH (hagg H hH) hs hws hwn hb) hga hbe)
    hH i

end Blocks

/-! ### The network -/

/-- The network with the one-pass variance is the network with the two-pass variance, when the features, the
    per-node factor and every weight and bias array up to the last normalisation hold real numbers, the neighbour
    sum maps real rows to real rows, `n` is the number of rows and `eps` is a positive real. -/
theorem net_one_eq_two {M J K P Q : ℕ} (hpos : 0 < M) (agg : Mat M K → Mat M K) (s : Mat M 1) (n eps : EReal)
    (hn : n = ((M : ℝ) : EReal)) (heps : ∃ r : ℝ, 0 < r ∧ eps = (r : EReal))
    (hagg : ∀ H : Mat M K, (∀ i, IsReal (H i)) → ∀ i, IsReal (agg H i)) (hs : ∀ i, IsReal (s i))
    (x : Mat M J) (we : Mat J K) (bE : Mat 1 K)
    (ws0 wn0 : Mat K K) (b0 g0 be0 : Mat 1 K) (ws1 wn1 : Mat K K) (b1 g1 be1 : Mat 1 K)
    (ws2 wn2 : Mat K K) (b2 g2 be2 : Mat 1 K)
    (w1 : Mat K P) (c1' : Mat 1 P) (w2 : Mat P Q) (c2 : Mat 1 Q)
    (hx : ∀ i, IsReal (x i)) (hwe : ∀ i, IsReal (we i)) (hbE : ∀ i, IsReal (bE i))
    (hws0 : ∀ i, IsReal (ws0 i)) (hwn0 : ∀ i, IsReal (wn0 i)) (hb0 : ∀ i, IsReal (b0 i))
    (hg0 : ∀ i, IsReal (g0 i)) (hbe0 : ∀ i, IsReal (be0 i))
    (hws1 : ∀ i, IsReal (ws1 i)) (hwn1 : ∀ i, IsReal (wn1 i)) (hb1 : ∀ i, IsReal (b1 i))
    (hg1 : ∀ i, IsReal (g1 i)) (hbe1 : ∀ i, IsReal (be1 i))
    (hws2 : ∀ i, IsReal (ws2 i)) (hwn2 : ∀ i, IsReal (wn2 i)) (hb2 : ∀ i, IsReal (b2 i))
    (hg2 : ∀ i, IsReal (g2 i)) (hbe2 : ∀ i, IsReal (be2 i)) :
    net varOne agg s n eps x we bE ws0 wn0 b0 g0 be0 ws1 wn1 b1 g1 be1 ws2 wn2 b2 g2 be2 w1 c1' w2 c2
      = net varTwo agg s n eps x we bE ws0 wn0 b0 g0 be0 ws1 wn1 b1 g1 be1 ws2 wn2 b2 g2 be2 w1 c1' w2 c2 := by
  have hE := isReal_embed x we bE hx hwe hbE
  have h1 := block0_one_eq_two hpos agg s n eps hn hagg hs (embed x we bE) ws0 wn0 b0 g0 be0 hE hws0 hwn0 hb0
  have hH1 := isReal_block0_two hpos agg s n eps hn heps hagg hs (embed x we bE) ws0 wn0 b0 g0 be0 hE hws0 hwn0 hb0
    hg0 hbe0
  have h2 := blockR_one_eq_two hpos agg s n eps hn hagg hs _ ws1 wn1 b1 g1 be1 hH1 hws1 hwn1 hb1
  have hH2 := isReal_blockR_two hpos agg s n eps hn heps hagg hs _ ws1 wn1 b1 g1 be1 hH1 hws1 hwn1 hb1 hg1 hbe1
  have h3 := blockR_one_eq_two hpos agg s n eps hn hagg hs _ ws2 wn2 b2 g2 be2 hH2 hws2 hwn2 hb2
  unfold net
  rw [h1, h2, h3]

/-! ### The neighbour sum and the per-node factor -/

/-- A sum of real rows over arriving edges is real. -/
theorem isReal_aggOf {E M K : ℕ} (src : Fin E → Fin M) (dst : Fin E → ℤ) (H : Mat M K) (hH : ∀ i, IsReal (H i))
    (i : (⟨2, ![M, K]⟩ : Shape).Idx) : IsReal (aggOf src dst H i) := by
  show IsReal (0 + ∑ e ∈ arriving dst (c0 i).val, H (ix2 (src e) (c1 i)))
  exact isReal_zero.add (isReal_sum _ _ fun e _ => hH _)

/-- The in-degree is a natural number, as a real. -/
theorem degOf_eq {E : ℕ} (dst : Fin E → ℤ) (p : ℕ) : degOf dst p = (((arriving dst p).card : ℝ) : EReal) :=
  Cert.MeanAffine.count_eq _

/-- One over a real number clamped below by one is real. -/
theorem isReal_div_one_max {a : EReal} (ha : IsReal a) : IsReal (Ideal.div 1 (max a 1)) := by
  obtain ⟨r, rfl⟩ := ha
  have h : max ((r : ℝ) : EReal) 1 = ((max r 1 : ℝ) : EReal) := by
    rw [← EReal.coe_one]
    exact (EReal.coe_strictMono.monotone.map_max (a := r) (b := 1)).symm
  rw [h]
  have h1 : (1 : ℝ) ≤ max r 1 := le_max_right r 1
  exact isReal_div_coe isReal_one (by linarith : max r 1 ≠ 0)

/-- The reciprocal of the clamped in-degree is real. -/
theorem isReal_invDeg {E M : ℕ} (dst : Fin E → ℤ) (i : (⟨2, ![M, 1]⟩ : Shape).Idx) :
    IsReal (invDeg (M := M) dst i) := by
  show IsReal (Ideal.div 1 (max (degOf dst (c0 i).val) 1))
  rw [degOf_eq]
  exact isReal_div_one_max (isReal_coe _)

/-! ### Two literals -/

/-- The pattern `0x3727C5AC`: exponent field 110, significand `2^23 + 0x27C5AC = 10995116`; it denotes the positive
    real `10995116 · 2^(110 − 127 − 23)`, about `1e-5`. -/
theorem eps_pos : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

/-- The pattern of `100000.0` denotes the natural number one hundred thousand. -/
theorem n_eq : Ideal.ofBits .f32 0x47C35000#32 = (((100000 : ℕ) : ℝ) : EReal) := by
  rw [ofBits_1e5, Nat.cast_ofNat]

end Cert.ResSage

end
-- ==== Proof.PreReal.lean ====
/-
  Under the finiteness precondition every float input holds real numbers.

  The precondition is the conjunction, over the twelve float inputs, of `all (|x| < +∞)`: for each input the array of
  comparison bits `|x i| < +∞` is reduced by `and` from 1 to a single bit, and the twelve bits are and-ed together.  The
  hypothesis states that the result is 1.  An `and` is 1 only when both operands are, a reduction by `and` that is 1 met
  only 1s, and on the extended reals `max x (−x) < ⊤` fails for `x = ⊥` and for `x = ⊤`: so every entry is the
  coercion of a real number.
-/
import Idealize.ShloMosaic.Lib.ReduceAll
import Idealize.ShloMosaic.Lib.ValueIdx
import proofs.«103646_j72808285602083_2_alg».proof.Pre_finite_inputs
import proofs.«103646_j72808285602083_2_alg».proof.Proof.LibResSageReal

noncomputable section

namespace Cert.PreReal

open Idealize.ShloMosaic Idealize.ShloMosaic.ValueIdx Cert.GcnStats

/-- The rank-0 shape has one index. -/
instance : Subsingleton (⟨0, ![]⟩ : Shape).Idx := ⟨fun a b => funext fun d => d.elim0⟩

/-- The pattern `0x7F800000` is `+∞`. -/
theorem ofBits_inf : Ideal.ofBits .f32 0x7F800000#32 = (⊤ : EReal) := by
  simp [Ideal.ofBits, Ideal.ieee]

/-- An extended real whose absolute value compares below `+∞` is a real number. -/
theorem real_of_abs_lt {x : EReal} (h : Ideal.cmp .olt (max x (-x)) (Ideal.ofBits .f32 0x7F800000#32) = 1#1) :
    IsReal x := by
  rw [ofBits_inf] at h
  induction x using EReal.rec with
  | bot => simp [Ideal.cmp] at h
  | top => simp [Ideal.cmp] at h
  | coe r => exact ⟨r, rfl⟩

/-- `all (|x| < +∞) = 1` makes every entry of `x` a real number, whatever the shape. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hz : 0 < (⟨0, ![]⟩ : Shape).numel)
    (e : Host.reduce IntOp.andi
      (cmpf .olt (Host.absf x) (broadcastInDim s ![] hb (constant (F := Ideal) (⟨0, ![]⟩ : Shape) .f32 0x7F800000#32)))
      (constantI (⟨0, ![]⟩ : Shape) 1 1#1) hr hz ix0 = 1#1) (i : s.Idx) : IsReal (x i) := by
  have h := Host.reduce_andi_all _ _ hr hz ix0 e i
  have hbc : broadcastInDim s ![] hb (constant (F := Ideal) (⟨0, ![]⟩ : Shape) .f32 0x7F800000#32) i
      = Ideal.ofBits .f32 0x7F800000#32 :=
    broadcastInDim_apply ![] hb _ i ix0 fun a => a.elim0
  have h' : Ideal.cmp .olt (max (x i) (-(x i))) (Ideal.ofBits .f32 0x7F800000#32) = 1#1 := by
    rw [← hbc]; exact h
  exact real_of_abs_lt h'

open Cert.Pre_finite_inputs in
/-- The precondition gives realness of the twelve float inputs. -/
theorem real_of_pre [Cert.Pre_finite_inputs.Facts] (a0 : FVec Ideal S100000x12 .f32) (a1 : IVec S2x600000 32)
    (a2 : FVec Ideal S12x128 .f32) (a3 : FVec Ideal S128 .f32) (a4 : FVec Ideal S3x128x128 .f32)
    (a5 : FVec Ideal S3x128x128 .f32) (a6 : FVec Ideal S3x128 .f32) (a7 : FVec Ideal S3x128 .f32)
    (a8 : FVec Ideal S3x128 .f32) (a9 : FVec Ideal S128x64 .f32) (a10 : FVec Ideal S64 .f32)
    (a11 : FVec Ideal S64x2 .f32) (a12 : FVec Ideal S2 .f32)
    (h : Cert.Pre_finite_inputs.fn (F := Ideal) a0 a1 a2 a3 a4 a5 a6 a7 a8 a9 a10 a11 a12 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) := by
  have h0 := congrFun h ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7, real_of_all a8 _ _ _ e8,
    real_of_all a9 _ _ _ e9, real_of_all a10 _ _ _ e10, real_of_all a11 _ _ _ e11, real_of_all a12 _ _ _ e12⟩

end Cert.PreReal

end
-- ==== Proof.RefStages.lean ====
/-
  The stages of the two-pass reference network, each the host operations the program prints for it, applied to
  variable arrays.

  The program is one sequence of host operations.  It falls into stages: the two rows of the edge index array read as
  vectors, the source one wrapped (a negative entry has the node count added) and both laid out as columns; the
  reciprocal clamped in-degree (ones scattered onto zeros, maximum with one, one divided by it); the embedding (a dot
  product plus a broadcast bias); per block the neighbour sum (a row gather at the source column scattered onto zeros
  at the destination column), the layer's weight slabs and rows (a slice and a reshape), the linear step (two dot
  products, the neighbour sum first scaled by the degree column broadcast along the rows, plus a broadcast bias), the
  column mean (a reduction from zero divided by the node count), the two-pass variance (mean, subtract, square, reduce,
  divide by the node count minus a converted zero, selected against a not-a-number word), the normalisation (subtract,
  add epsilon, reciprocal square root, two multiplications, add, maximum with zero), the residual sum; and the
  two-step head.  Each definition below is that stage's operations, with the program's own shape evidence, at the
  extended reals; `hostNet` composes them in the program's order.
-/
import proofs.«103646_j72808285602083_2_alg».proof.ReferenceIdeal
import Idealize.ShloMosaic.PureOps.Ideal.Laws

noncomputable section

namespace Cert.RefStages

open Idealize.ShloMosaic Cert.ReferenceIdeal
open Cert.ReferenceIdeal.Facts₀ Cert.ReferenceIdeal.Facts

variable [Cert.ReferenceIdeal.Facts]

/-- Row 0 of the edge index array (the sources) as a vector. -/
def hostRow0 (ei : IVec S2x600000 32) : IVec S600000 32 :=
  shapeCast S600000 (extractStridedSlice S1x600000 ![0, 0] ei slices_S2x600000_S1x600000_0_0) shapeCasts_S1x600000_S600000

/-- Row 1 of the edge index array (the destinations) as a vector. -/
def hostRow1 (ei : IVec S2x600000 32) : IVec S600000 32 :=
  shapeCast S600000 (extractStridedSlice S1x600000 ![1, 0] ei slices_S2x600000_S1x600000_1_0) shapeCasts_S1x600000_S600000

/-- A vector of edge entries laid out as a column. -/
def hostCol (v : IVec S600000 32) : IVec S600000x1 32 :=
  broadcastInDim S600000x1 ![0] bcast_S600000_S600000x1_0 v

/-- The negative-index wrap of a vector of edge entries: an entry below zero has the node count added. -/
def hostWrap (v : IVec S600000 32) : IVec S600000 32 :=
  select (cmpi .slt v (broadcastInDim S600000 ![] bcast_S_S600000 (constantI S_ 32 0#32)))
    (addi v (broadcastInDim S600000 ![] bcast_S_S600000 (constantI S_ 32 100000#32))) v

/-- The wrapped source entries as a column. -/
def hostSrcCol (ei : IVec S2x600000 32) : IVec S600000x1 32 := hostCol (hostWrap (hostRow0 ei))

/-- The destination entries as a column. -/
def hostDstCol (ei : IVec S2x600000 32) : IVec S600000x1 32 := hostCol (hostRow1 ei)

/-- One over the in-degree clamped below by one: ones scattered onto zeros at the destination column. -/
def hostInvDeg (dstCol : IVec S600000x1 32) : FVec Ideal S100000 .f32 :=
  Host.divf (F := Ideal) (broadcastInDim S100000 ![] bcast_S_S100000 (constant (F := Ideal) S_ .f32 0x3F800000#32))
    (maximumf (F := Ideal)
      (Host.scatterAdd (F := Ideal) scatter_S100000_S600000x1_S600000_n_0_0_1
        (broadcastInDim S100000 ![] bcast_S_S100000 (constant (F := Ideal) S_ .f32 0x00000000#32)) dstCol
        (broadcastInDim S600000 ![] bcast_S_S600000 (constant (F := Ideal) S_ .f32 0x3F800000#32)))
      (broadcastInDim S100000 ![] bcast_S_S100000 (constant (F := Ideal) S_ .f32 0x3F800000#32)))

/-- The embedding: a dot product plus the bias vector broadcast to every row. -/
def hostEmbed (x : FVec Ideal S100000x12 .f32) (we : FVec Ideal S12x128 .f32) (bE : FVec Ideal S128 .f32) :
    FVec Ideal S100000x128 .f32 :=
  addf (F := Ideal) (Host.dotGeneral (F := Ideal) dot_S100000x12_S12x128_S100000x128_1_0_0_1_n_n none x we)
    (broadcastInDim S100000x128 ![0, 1] bcast_S1x128_S100000x128_0_1 (broadcastInDim S1x128 ![1] bcast_S128_S1x128_1 bE))

/-- The neighbour sum: the rows gathered at the source column, scattered onto zeros at the destination column. -/
def hostAgg (H : FVec Ideal S100000x128 .f32) (srcCol dstCol : IVec S600000x1 32) : FVec Ideal S100000x128 .f32 :=
  Host.scatterAdd (F := Ideal) scatter_S100000x128_S600000x1_S600000x128_1_0_0_1
    (broadcastInDim S100000x128 ![] bcast_S_S100000x128 (constant (F := Ideal) S_ .f32 0x00000000#32)) dstCol
    (Host.gather gather_S100000x128_S600000x1_S600000x128_1_0_n_n_0_1_1128 H srcCol)

/-- One slab of a stack of three weight matrices: a slice at the offsets `off` and a reshape. -/
def hostSlab (W : FVec Ideal S3x128x128 .f32) (off : Fin 3 → ℕ) (h : S3x128x128.Slices off S1x128x128) :
    FVec Ideal S128x128 .f32 :=
  shapeCast S128x128 (extractStridedSlice S1x128x128 off W h) shapeCasts_S1x128x128_S128x128

/-- One row of a stack of three rows as a vector: a slice at the offsets `off` and a reshape. -/
def hostRowAt (B : FVec Ideal S3x128 .f32) (off : Fin 2 → ℕ) (h : S3x128.Slices off S1x128) : FVec Ideal S128 .f32 :=
  shapeCast S128 (extractStridedSlice S1x128 off B h) shapeCasts_S1x128_S128

/-- The linear step: own rows times `ws`, plus the neighbour sums scaled row by row by the degree vector times
    `wn`, plus the bias vector broadcast to every row. -/
def hostConv (H msg : FVec Ideal S100000x128 .f32) (invdeg : FVec Ideal S100000 .f32)
    (ws wn : FVec Ideal S128x128 .f32) (b : FVec Ideal S128 .f32) : FVec Ideal S100000x128 .f32 :=
  addf (F := Ideal)
    (addf (F := Ideal) (Host.dotGeneral (F := Ideal) dot_S100000x128_S128x128_S100000x128_1_0_0_1_n_n none H ws)
      (Host.dotGeneral (F := Ideal) dot_S100000x128_S128x128_S100000x128_1_0_0_1_n_n none
        (mulf (F := Ideal) msg
          (broadcastInDim S100000x128 ![0, 1] bcast_S100000x1_S100000x128_0_1
            (broadcastInDim S100000x1 ![0] bcast_S100000_S100000x1_0 invdeg))) wn))
    (broadcastInDim S100000x128 ![0, 1] bcast_S1x128_S100000x128_0_1 (broadcastInDim S1x128 ![1] bcast_S128_S1x128_1 b))

/-- The column mean: the column sums from zero divided by the node count. -/
def hostMean (Y : FVec Ideal S100000x128 .f32) : FVec Ideal S128 .f32 :=
  Host.divf (F := Ideal)
    (Host.reduceAdd (F := Ideal) Y (constant (F := Ideal) S_ .f32 0x00000000#32) reducesTo_S100000x128_S128_d0 h_S_)
    (broadcastInDim S128 ![] bcast_S_S128 (constant (F := Ideal) S_ .f32 0x47C35000#32))

/-- The centred squares of the two-pass variance: every entry minus its column's mean, squared. -/
def hostSq (Y : FVec Ideal S100000x128 .f32) : FVec Ideal S100000x128 .f32 :=
  mulf (F := Ideal)
    (subf (F := Ideal) Y
      (broadcastInDim S100000x128 ![0, 1] bcast_S1x128_S100000x128_0_1
        (Host.divf (F := Ideal)
          (broadcastInDim S1x128 ![1] bcast_S128_S1x128_1
            (Host.reduceAdd (F := Ideal) Y (constant (F := Ideal) S_ .f32 0x00000000#32) reducesTo_S100000x128_S128_d0 h_S_))
          (broadcastInDim S1x128 ![] bcast_S_S1x128 (constant (F := Ideal) S_ .f32 0x47C35000#32)))))
    (subf (F := Ideal) Y
      (broadcastInDim S100000x128 ![0, 1] bcast_S1x128_S100000x128_0_1
        (Host.divf (F := Ideal)
          (broadcastInDim S1x128 ![1] bcast_S128_S1x128_1
            (Host.reduceAdd (F := Ideal) Y (constant (F := Ideal) S_ .f32 0x00000000#32) reducesTo_S100000x128_S128_d0 h_S_))
          (broadcastInDim S1x128 ![] bcast_S_S1x128 (constant (F := Ideal) S_ .f32 0x47C35000#32)))))

/-- The divisor of the two-pass variance: the node count minus the converted correction `c`. -/
def hostDen (c : IVec S_ 32) : FVec Ideal S_ .f32 :=
  subf (F := Ideal) (constant (F := Ideal) S_ .f32 0x47C35000#32) (sitofp (F := Ideal) .f32 c)

/-- The two-pass variance: the column sums of the centred squares divided by the divisor where the divisor is
    positive, the not-a-number word elsewhere. -/
def hostVarOf (Y : FVec Ideal S100000x128 .f32) (c : IVec S_ 32) : FVec Ideal S128 .f32 :=
  select (broadcastInDim S128 ![] bcast_S_S128 (cmpf (F := Ideal) .ogt (hostDen c) (constant (F := Ideal) S_ .f32 0x00000000#32)))
    (Host.divf (F := Ideal)
      (Host.reduceAdd (F := Ideal) (hostSq Y) (constant (F := Ideal) S_ .f32 0x00000000#32) reducesTo_S100000x128_S128_d0 h_S_)
      (broadcastInDim S128 ![] bcast_S_S128 (hostDen c)))
    (broadcastInDim S128 ![] bcast_S_S128 (id (constant (F := Ideal) S_ .f32 0x7FC00000#32)))

/-- The two-pass variance as the program calls it: with the correction zero. -/
def hostVar (Y : FVec Ideal S100000x128 .f32) : FVec Ideal S128 .f32 := hostVarOf Y (constantI S_ 32 0#32)

/-- The normalisation: centre by the mean vector, scale by the reciprocal root of the variance vector plus epsilon,
    scale by `ga`, shift by `be` (each vector broadcast to every row), and rectify. -/
def hostNorm (Y : FVec Ideal S100000x128 .f32) (mean var ga be : FVec Ideal S128 .f32) : FVec Ideal S100000x128 .f32 :=
  maximumf (F := Ideal)
    (addf (F := Ideal)
      (mulf (F := Ideal)
        (mulf (F := Ideal)
          (subf (F := Ideal) Y
            (broadcastInDim S100000x128 ![0, 1] bcast_S1x128_S100000x128_0_1 (broadcastInDim S1x128 ![1] bcast_S128_S1x128_1 mean)))
          (broadcastInDim S100000x128 ![0, 1] bcast_S1x128_S100000x128_0_1
            (broadcastInDim S1x128 ![1] bcast_S128_S1x128_1
              (Host.rsqrt (F := Ideal)
                (addf (F := Ideal) var (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 ga)))
      (broadcastInDim S100000x128 ![0, 1] bcast_S1x128_S100000x128_0_1 (broadcastInDim S1x128 ![1] bcast_S128_S1x128_1 be)))
    (broadcastInDim S100000x128 ![] bcast_S_S100000x128 (constant (F := Ideal) S_ .f32 0x00000000#32))

/-- The residual sum. -/
def hostAddRes (Z R : FVec Ideal S100000x128 .f32) : FVec Ideal S100000x128 .f32 := addf (F := Ideal) Z R

/-- The head: a dot product plus a broadcast bias, rectified, a second dot product plus a broadcast bias. -/
def hostHead (H : FVec Ideal S100000x128 .f32) (w1 : FVec Ideal S128x64 .f32) (c1 : FVec Ideal S64 .f32)
    (w2 : FVec Ideal S64x2 .f32) (c2 : FVec Ideal S2 .f32) : FVec Ideal S100000x2 .f32 :=
  addf (F := Ideal)
    (Host.dotGeneral (F := Ideal) dot_S100000x64_S64x2_S100000x2_1_0_0_1_n_n none
      (maximumf (F := Ideal)
        (addf (F := Ideal) (Host.dotGeneral (F := Ideal) dot_S100000x128_S128x64_S100000x64_1_0_0_1_n_n none H w1)
          (broadcastInDim S100000x64 ![0, 1] bcast_S1x64_S100000x64_0_1 (broadcastInDim S1x64 ![1] bcast_S64_S1x64_1 c1)))
        (broadcastInDim S100000x64 ![] bcast_S_S100000x64 (constant (F := Ideal) S_ .f32 0x00000000#32))) w2)
    (broadcastInDim S100000x2 ![0, 1] bcast_S1x2_S100000x2_0_1 (broadcastInDim S1x2 ![1] bcast_S2_S1x2_1 c2))

/-- One block before its residual: neighbour sum, linear step, mean, variance, normalisation, with the layer's
    weights and rows. -/
def hostBlock (H : FVec Ideal S100000x128 .f32) (srcCol dstCol : IVec S600000x1 32) (invdeg : FVec Ideal S100000 .f32)
    (ws wn : FVec Ideal S128x128 .f32) (b ga be : FVec Ideal S128 .f32) : FVec Ideal S100000x128 .f32 :=
  hostNorm (hostConv H (hostAgg H srcCol dstCol) invdeg ws wn b) (hostMean (hostConv H (hostAgg H srcCol dstCol) invdeg ws wn b))
    (hostVar (hostConv H (hostAgg H srcCol dstCol) invdeg ws wn b)) ga be

/-- The network in the program's order: embedding, a block, two blocks with their residual sums, the head. -/
def hostNet (x : FVec Ideal S100000x12 .f32) (ei : IVec S2x600000 32) (we : FVec Ideal S12x128 .f32)
    (bE : FVec Ideal S128 .f32) (Ws Wn : FVec Ideal S3x128x128 .f32) (cb ga be : FVec Ideal S3x128 .f32)
    (w1 : FVec Ideal S128x64 .f32) (c1 : FVec Ideal S64 .f32) (w2 : FVec Ideal S64x2 .f32) (c2 : FVec Ideal S2 .f32) :
    FVec Ideal S100000x2 .f32 :=
  let sc := hostSrcCol ei
  let dc := hostDstCol ei
  let dg := hostInvDeg dc
  let h0 := hostEmbed x we bE
  let h1 := hostBlock h0 sc dc dg
    (hostSlab Ws ![0, 0, 0] slices_S3x128x128_S1x128x128_0_0_0) (hostSlab Wn ![0, 0, 0] slices_S3x128x128_S1x128x128_0_0_0)
    (hostRowAt cb ![0, 0] slices_S3x128_S1x128_0_0) (hostRowAt ga ![0, 0] slices_S3x128_S1x128_0_0)
    (hostRowAt be ![0, 0] slices_S3x128_S1x128_0_0)
  let h2 := hostAddRes (hostBlock h1 sc dc dg
    (hostSlab Ws ![1, 0, 0] slices_S3x128x128_S1x128x128_1_0_0) (hostSlab Wn ![1, 0, 0] slices_S3x128x128_S1x128x128_1_0_0)
    (hostRowAt cb ![1, 0] slices_S3x128_S1x128_1_0) (hostRowAt ga ![1, 0] slices_S3x128_S1x128_1_0)
    (hostRowAt be ![1, 0] slices_S3x128_S1x128_1_0)) h1
  let h3 := hostAddRes (hostBlock h2 sc dc dg
    (hostSlab Ws ![2, 0, 0] slices_S3x128x128_S1x128x128_2_0_0) (hostSlab Wn ![2, 0, 0] slices_S3x128x128_S1x128x128_2_0_0)
    (hostRowAt cb ![2, 0] slices_S3x128_S1x128_2_0) (hostRowAt ga ![2, 0] slices_S3x128_S1x128_2_0)
    (hostRowAt be ![2, 0] slices_S3x128_S1x128_2_0)) h2
  hostHead h3 w1 c1 w2 c2

end Cert.RefStages

end
-- ==== Proof.RefStageFactsDense.lean ====
/-
  The dense stages of the reference network as whole-array functions on the extended reals.

  A host dot product that contracts the left operand's columns with the right operand's rows is the matrix product; a
  vector broadcast to one row and that row to every row, added, is the one-row bias added to every row; a vector
  broadcast to a column and the column along the rows, multiplied in, is the row scaling.  Hence the embedding is
  `x · we + bE`, the linear step is `H · ws + (msg scaled by the degree column) · wn + b`, and the head is
  `relu (H · w1 + c1) · w2 + c2`.  A unit slice of a stack at offset `l` along the first axis followed by the reshape
  that drops that axis is layer `l` of the stack.
-/
import proofs.«103646_j72808285602083_2_alg».proof.Proof.RefStages
import proofs.«103646_j72808285602083_2_alg».proof.Proof.LibResSage
import proofs.«103646_j72808285602083_2_alg».proof.Proof.LibHostLayout

noncomputable section

namespace Cert.RefStages

open Idealize.ShloMosaic Idealize.ShloMosaic.ValueIdx Cert.ReferenceIdeal
open Cert.ReferenceIdeal.Facts₀ Cert.ReferenceIdeal.Facts
open Cert.Dense Cert.RowScale Cert.BiasRow Cert.SageDense

variable [Cert.ReferenceIdeal.Facts]

/-- The embedding stage is `x · we` plus the bias row. -/
theorem hostEmbed_eq (x : FVec Ideal S100000x12 .f32) (we : FVec Ideal S12x128 .f32) (bE : FVec Ideal S128 .f32) :
    hostEmbed x we bE = Cert.ResSage.embed x we (row bE) := by
  unfold hostEmbed Cert.ResSage.embed
  rw [hostDot_eq_mm _ rfl rfl rfl rfl rfl rfl none x we]
  exact hostAddRow (mm x we) bE _ _

/-- The linear stage is the two products summed plus the bias row, the neighbour sums scaled by the degree column. -/
theorem hostConv_eq (H msg : FVec Ideal S100000x128 .f32) (invdeg : FVec Ideal S100000 .f32)
    (ws wn : FVec Ideal S128x128 .f32) (b : FVec Ideal S128 .f32) :
    hostConv H msg invdeg ws wn b = Cert.ResSage.conv H msg (col invdeg) ws wn (row b) := by
  unfold hostConv Cert.ResSage.conv
  rw [hostScaleRows msg invdeg _ _, hostDot_eq_mm _ rfl rfl rfl rfl rfl rfl none H ws,
    hostDot_eq_mm _ rfl rfl rfl rfl rfl rfl none (scaleRows msg (col invdeg)) wn]
  exact hostAddRow (addf (F := Ideal) (mm H ws) (mm (scaleRows msg (col invdeg)) wn)) b _ _

/-- The head stage is `relu (H · w1 + c1) · w2 + c2`. -/
theorem hostHead_eq (H : FVec Ideal S100000x128 .f32) (w1 : FVec Ideal S128x64 .f32) (c1 : FVec Ideal S64 .f32)
    (w2 : FVec Ideal S64x2 .f32) (c2 : FVec Ideal S2 .f32) :
    hostHead H w1 c1 w2 c2 = Cert.ResSage.head H w1 (row c1) w2 (row c2) := by
  unfold hostHead Cert.ResSage.head
  rw [hostDot_eq_mm _ rfl rfl rfl rfl rfl rfl none H w1, hostReluBias (mm H w1) c1 _ _ _,
    hostDot_eq_mm _ rfl rfl rfl rfl rfl rfl none (reluBias (mm H w1) (row c1)) w2]
  exact hostAddRow (mm (reluBias (mm H w1) (row c1)) w2) c2 _ _

/-- The residual stage is the entrywise sum. -/
theorem hostAddRes_eq (Z R : FVec Ideal S100000x128 .f32) : hostAddRes Z R = Cert.ResSage.addRes Z R := rfl

/-- A unit slice of a stack of matrices at offset `o` along the first axis, reshaped to a matrix, is layer `o`. -/
theorem hostSlab_eq (W : FVec Ideal S3x128x128 .f32) (o : ℕ) (h : S3x128x128.Slices ![o, 0, 0] S1x128x128)
    (l : Fin 3) (hl : l.val = o) : hostSlab W ![o, 0, 0] h = Cert.ResSage.slab W l := by
  funext i
  obtain ⟨k, q, rfl⟩ : ∃ (k : Fin 128) (q : Fin 128), i = ix2 k q := ⟨i 0, i 1, eq_ix2 i⟩
  unfold hostSlab
  rw [shapeCast_1ab_ab_apply,
    extractStridedSlice_apply ![o, 0, 0] W h (ix3 (0 : Fin 1) k q) (ix3 l k q) (fun a => by
      match a with
      | ⟨0, _⟩ => exact hl.trans (Nat.add_zero o).symm
      | ⟨1, _⟩ => exact (Nat.zero_add _).symm
      | ⟨2, _⟩ => exact (Nat.zero_add _).symm)]
  rfl

/-- A unit slice of a stack of rows at offset `o` along the first axis, reshaped to a vector and laid out as one row,
    is row `o`. -/
theorem hostRowAt_eq (B : FVec Ideal S3x128 .f32) (o : ℕ) (h : S3x128.Slices ![o, 0] S1x128)
    (l : Fin 3) (hl : l.val = o) : row (hostRowAt B ![o, 0] h) = Cert.ResSage.rowAt B l := by
  funext i
  obtain ⟨u, q, rfl⟩ : ∃ (u : Fin 1) (q : Fin 128), i = ix2 u q := ⟨i 0, i 1, eq_ix2 i⟩
  rw [row_apply]
  unfold hostRowAt
  rw [shapeCast_1a_a_apply, slice2_axis0_apply o B h (0 : Fin 1) q l (hl.trans (Nat.add_zero o).symm)]
  rfl

end Cert.RefStages

end
-- ==== Proof.RefStageFactsBn.lean ====
/-
  The batch statistics and the normalisation of the reference network as whole-array functions on the extended reals.

  The column sums from zero divided by the broadcast node count are the column means.  The two-pass variance subtracts
  from every entry its column's mean, squares, sums the columns from zero and divides by the node count minus a converted
  integer zero; that divisor is the node count itself, it is positive, and so the selection against the not-a-number
  word picks the quotient.  The normalisation reads, at every entry, the four vectors at the entry's column.
-/
import proofs.«103646_j72808285602083_2_alg».proof.Proof.RefStages
import proofs.«103646_j72808285602083_2_alg».proof.Proof.LibResSage
import proofs.«103646_j72808285602083_2_alg».proof.Proof.LibBnStats
import proofs.«103646_j72808285602083_2_alg».proof.Proof.LibMeanForms

noncomputable section

open scoped BigOperators

namespace Cert.RefStages

open Idealize.ShloMosaic Idealize.ShloMosaic.ValueIdx Cert.ReferenceIdeal
open Cert.ReferenceIdeal.Facts₀ Cert.ReferenceIdeal.Facts
open Cert.Dense Cert.SageBn Cert.GcnStats

variable [Cert.ReferenceIdeal.Facts]

/-- The node count as the program's float constant. -/
abbrev nodeCount : EReal := Ideal.ofBits .f32 0x47C35000#32

/-- The normalisation's stabiliser as the program's float constant. -/
abbrev bnEps : EReal := Ideal.ofBits .f32 0x3727C5AC#32

/-- A one-row array broadcast to every row reads, at `(p, q)`, the row at `q`. -/
theorem bcast_row_mat {α : Type} {M N : ℕ} (x : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 x (ix2 p q) = x (ix2 (0 : Fin 1) q) :=
  broadcastInDim_apply ![0, 1] h2 x (ix2 p q) (ix2 (0 : Fin 1) q) (fun a => by
    match a with
    | ⟨0, _⟩ => rfl
    | ⟨1, _⟩ =>
      show q.val = if N = 1 then 0 else q.val
      split
      · have := q.isLt; omega
      · rfl)

/-- The mean stage, laid out as one row, is the row of column means. -/
theorem hostMean_eq (Y : FVec Ideal S100000x128 .f32) : row (hostMean Y) = colMean nodeCount Y := by
  funext i
  obtain ⟨u, q, rfl⟩ : ∃ (u : Fin 1) (q : Fin 128), i = ix2 u q := ⟨i 0, i 1, eq_ix2 i⟩
  rw [row_apply]
  unfold hostMean
  rw [hostDivf_apply, hostColSum Y _ _ q, broadcastInDim_scalar_apply, constant_apply]
  rfl

/-- The centred squares at an entry. -/
theorem hostSq_apply (Y : FVec Ideal S100000x128 .f32) (p : Fin 100000) (q : Fin 128) :
    hostSq Y (ix2 p q) = (Y (ix2 p q) - colMean nodeCount Y (ix2 (0 : Fin 1) q))
      * (Y (ix2 p q) - colMean nodeCount Y (ix2 (0 : Fin 1) q)) := by
  unfold hostSq
  rw [hostColMean Y 0x47C35000#32 _ _ _ _, mulf_apply, subf_apply, bcast_row_mat]

/-- The divisor with the correction zero is the node count. -/
theorem hostDen_zero : hostDen (constantI S_ 32 0#32) ix0 = ((100000 : ℝ) : EReal) := by
  show Ideal.ofBits .f32 0x47C35000#32 - (((0#32 : BitVec 32).toInt : ℝ) : EReal) = _
  rw [ofBits_1e5]
  simp

/-- The variance stage, laid out as one row, is the row of two-pass column variances. -/
theorem hostVar_eq (Y : FVec Ideal S100000x128 .f32) : row (hostVar Y) = varTwo nodeCount Y := by
  funext i
  obtain ⟨u, q, rfl⟩ : ∃ (u : Fin 1) (q : Fin 128), i = ix2 u q := ⟨i 0, i 1, eq_ix2 i⟩
  obtain rfl : u = 0 := Subsingleton.elim _ _
  rw [row_apply]
  unfold hostVar hostVarOf
  have hc : broadcastInDim S128 ![] bcast_S_S128
      (cmpf (F := Ideal) .ogt (hostDen (constantI S_ 32 0#32)) (constant (F := Ideal) S_ .f32 0x00000000#32)) (ix1 q) = 1#1 := by
    rw [broadcastInDim_scalar_apply, cmpf_apply, hostDen_zero, constant_apply, Ideal.ofBits_zero_f32]
    show Ideal.cmp .ogt _ _ = 1#1
    unfold Ideal.cmp
    have h : (0 : EReal) < ((100000 : ℝ) : EReal) := by exact_mod_cast (by norm_num : (0 : ℝ) < 100000)
    simp [h]
  rw [select_apply, hc, select_one, hostDivf_apply, hostColSum (hostSq Y) _ _ q, broadcastInDim_scalar_apply,
    hostDen_zero, ← ofBits_1e5]
  show Ideal.div (0 + ∑ p : Fin 100000, hostSq Y (ix2 p q)) nodeCount = _
  simp only [hostSq_apply]
  rfl

/-- The normalisation stage reads the four vectors at the entry's column. -/
theorem hostNorm_eq (Y : FVec Ideal S100000x128 .f32) (mean var ga be : FVec Ideal S128 .f32) :
    hostNorm Y mean var ga be = bnRelu Y (row mean) (row var) (row ga) (row be) bnEps := by
  funext i
  obtain ⟨p, q, rfl⟩ : ∃ (p : Fin 100000) (q : Fin 128), i = ix2 p q := ⟨i 0, i 1, eq_ix2 i⟩
  unfold hostNorm
  rw [maximumf_apply, addf_apply, mulf_apply, mulf_apply, subf_apply, Cert.HostLayout.bcast_vec_mat,
    Cert.HostLayout.bcast_vec_mat, Cert.HostLayout.bcast_vec_mat, Cert.HostLayout.bcast_vec_mat,
    Cert.MeanForms.bcastZero]
  show max ((((Y (ix2 p q) - mean (ix1 q)) * Ideal.rsqrt (var (ix1 q)
    + broadcastInDim S128 ![] bcast_S_S128 (constant (F := Ideal) S_ .f32 0x3727C5AC#32) (ix1 q))) * ga (ix1 q))
    + be (ix1 q)) 0 = _
  rw [broadcastInDim_scalar_apply]
  rfl

/-- Mean, variance and normalisation together are the batch normalisation with the two-pass variance. -/
theorem hostNormStage_eq (Y : FVec Ideal S100000x128 .f32) (ga be : FVec Ideal S128 .f32) :
    hostNorm Y (hostMean Y) (hostVar Y) ga be = Cert.ResSage.norm varTwo nodeCount bnEps Y (row ga) (row be) := by
  rw [hostNorm_eq, hostMean_eq, hostVar_eq]
  rfl

end Cert.RefStages

end
-- ==== Proof.RefStageFactsAgg.lean ====
/-
  The edge stages of the reference network as sums over arriving edges.

  Row `r` of the edge index array, sliced out and reshaped to a vector, reads the array at `(r, e)`.  The gather of rows
  at the wrapped source column reads, for edge `e`, the row of the node that the wrapped entry names once clamped.  The
  accumulating scatter at the destination column adds, at node `p`, the updates of the edges whose destination entry
  read signed is `p`.  Hence the neighbour-sum stage is the sum over arriving edges of the source rows, and the degree
  stage is one over the number of arriving edges clamped below by one.
-/
import proofs.«103646_j72808285602083_2_alg».proof.Proof.RefStages
import proofs.«103646_j72808285602083_2_alg».proof.Proof.LibEdgeAgg
import proofs.«103646_j72808285602083_2_alg».proof.Proof.LibSelfLoops
import proofs.«103646_j72808285602083_2_alg».proof.Proof.LibMeanForms

noncomputable section

open scoped BigOperators

namespace Cert.RefStages

open Idealize.ShloMosaic Idealize.ShloMosaic.ValueIdx Cert.ReferenceIdeal
open Cert.ReferenceIdeal.Facts₀ Cert.ReferenceIdeal.Facts
open Cert.Dense Cert.RowScale Cert.EdgeAgg

variable [Cert.ReferenceIdeal.Facts]

/-- The source node of edge `e`: the wrapped entry `(0, e)` of the edge index array, clamped. -/
def srcN (ei : IVec S2x600000 32) : Fin 600000 → Fin 100000 :=
  fun e => nodeOf 100000 (by norm_num) (wrapW 100000#32 (ei (ix2 (0 : Fin 2) e)))

/-- The destination of edge `e`: the entry `(1, e)` of the edge index array read signed. -/
def dstI (ei : IVec S2x600000 32) : Fin 600000 → ℤ := fun e => (ei (ix2 (1 : Fin 2) e)).toInt

/-- Row 0 of the edge index array as a vector reads the array at `(0, e)`. -/
theorem hostRow0_apply (ei : IVec S2x600000 32) (e : Fin 600000) : hostRow0 ei (ix1 e) = ei (ix2 (0 : Fin 2) e) := by
  unfold hostRow0
  rw [shapeCast_1a_a_apply, slice2_axis0_apply 0 ei slices_S2x600000_S1x600000_0_0 (0 : Fin 1) e (0 : Fin 2) rfl]

/-- Row 1 of the edge index array as a vector reads the array at `(1, e)`. -/
theorem hostRow1_apply (ei : IVec S2x600000 32) (e : Fin 600000) : hostRow1 ei (ix1 e) = ei (ix2 (1 : Fin 2) e) := by
  unfold hostRow1
  rw [shapeCast_1a_a_apply, slice2_axis0_apply 1 ei slices_S2x600000_S1x600000_1_0 (0 : Fin 1) e (1 : Fin 2) rfl]

/-- The destination column reads the array at `(1, e)`. -/
theorem hostDstCol_apply (ei : IVec S2x600000 32) (e : Fin 600000) (u : Fin 1) :
    hostDstCol ei (ix2 e u) = ei (ix2 (1 : Fin 2) e) := by
  unfold hostDstCol hostCol
  rw [Cert.HostLayout.bcast_vec_col, hostRow1_apply]

/-- The edges whose destination-column entry read signed is `p` are the edges arriving at `p`. -/
theorem filter_dst (ei : IVec S2x600000 32) (p : Fin 100000) :
    Finset.univ.filter (fun e : Fin 600000 => (hostDstCol ei (ix2 e (0 : Fin 1))).toInt = (p.val : Int))
      = arriving (dstI ei) p.val := by
  unfold arriving dstI
  exact Finset.filter_congr (fun e _ => by rw [hostDstCol_apply])

/-- The gather at the wrapped source column reads the source node's row. -/
theorem gatherSrc_apply (H : FVec Ideal S100000x128 .f32) (ei : IVec S2x600000 32) (e : Fin 600000) (q : Fin 128) :
    Host.gather gather_S100000x128_S600000x1_S600000x128_1_0_n_n_0_1_1128 H (hostSrcCol ei) (ix2 e q)
      = H (ix2 (srcN ei e) q) := by
  unfold hostSrcCol hostCol hostWrap
  refine (Cert.SelfLoops.gather_wrap_apply (by norm_num) _ rfl rfl rfl rfl rfl rfl rfl H 100000#32 (hostRow0 ei)
    bcast_S_S600000 bcast_S600000_S600000x1_0 e q).trans ?_
  refine congrArg H (congrArg (fun n : Fin 100000 => ix2 n q) (Fin.ext ?_))
  show min (Cert.SelfLoops.wrapWord 100000#32 (hostRow0 ei (ix1 e))).toInt.toNat (100000 - 1)
    = min (wrapW 100000#32 (ei (ix2 (0 : Fin 2) e))).toInt.toNat (100000 - 1)
  rw [hostRow0_apply]
  rfl

/-- The neighbour-sum stage is the sum over arriving edges of the source nodes' rows. -/
theorem hostAgg_eq (H : FVec Ideal S100000x128 .f32) (ei : IVec S2x600000 32) :
    hostAgg H (hostSrcCol ei) (hostDstCol ei) = aggOf (srcN ei) (dstI ei) H := by
  funext i
  obtain ⟨p, q, rfl⟩ : ∃ (p : Fin 100000) (q : Fin 128), i = ix2 p q := ⟨i 0, i 1, eq_ix2 i⟩
  unfold hostAgg
  rw [Cert.SegmentSum.segSumRows_apply _ rfl rfl rfl rfl, Cert.MeanForms.bcastZero, aggOf_apply, filter_dst]
  exact congrArg (fun t : EReal => 0 + t) (Finset.sum_congr rfl fun e _ => gatherSrc_apply H ei e q)

/-- The degree stage, laid out as a column, is one over the number of arriving edges clamped below by one. -/
theorem hostInvDeg_eq (ei : IVec S2x600000 32) :
    col (hostInvDeg (hostDstCol ei)) = invDeg (M := 100000) (dstI ei) := by
  funext i
  obtain ⟨p, u, rfl⟩ : ∃ (p : Fin 100000) (u : Fin 1), i = ix2 p u := ⟨i 0, i 1, eq_ix2 i⟩
  rw [col_apply, invDeg_apply]
  unfold hostInvDeg degOf
  rw [hostDivf_apply, maximumf_apply, Cert.SageDense.bcastOne, Cert.SegmentSum.segSumVec_apply _ rfl rfl rfl rfl,
    Cert.MeanForms.bcastZero, filter_dst]
  exact congrArg (fun t : EReal => Ideal.div 1 (max (0 + t) 1))
    (Finset.sum_congr rfl fun e _ => Cert.SageDense.bcastOne _ _)

end Cert.RefStages

end
-- ==== Proof.RefValue.lean ====
/-
  The reference network's result as the residual mean-aggregating network with the two-pass variance.

  Each stage of the program is the whole-array function of the same name: the embedding, per block the neighbour sum
  over arriving edges, the linear step with the reciprocal clamped in-degree as the row factor, the batch normalisation
  with the two-pass variance, the residual sum, and the head.  Composing the stage equations in the program's order gives
  the network of the specification, its weights the layers of the stacked arrays.
-/
import proofs.«103646_j72808285602083_2_alg».proof.Proof.RefStageFactsDense
import proofs.«103646_j72808285602083_2_alg».proof.Proof.RefStageFactsBn
import proofs.«103646_j72808285602083_2_alg».proof.Proof.RefStageFactsAgg

noncomputable section

namespace Cert.RefStages

open Idealize.ShloMosaic Idealize.ShloMosaic.ValueIdx Cert.ReferenceIdeal
open Cert.ReferenceIdeal.Facts₀ Cert.ReferenceIdeal.Facts
open Cert.Dense Cert.RowScale Cert.EdgeAgg Cert.SageBn Cert.ResSage

variable [Cert.ReferenceIdeal.Facts]

/-- One block before its residual is the specification's first block. -/
theorem hostBlock_eq (H : FVec Ideal S100000x128 .f32) (ei : IVec S2x600000 32) (ws wn : FVec Ideal S128x128 .f32)
    (b ga be : FVec Ideal S128 .f32) :
    hostBlock H (hostSrcCol ei) (hostDstCol ei) (hostInvDeg (hostDstCol ei)) ws wn b ga be
      = block0 varTwo (aggOf (srcN ei) (dstI ei)) (invDeg (dstI ei)) nodeCount bnEps H ws wn (row b) (row ga) (row be) := by
  unfold hostBlock block0
  rw [hostNormStage_eq, hostConv_eq, hostAgg_eq, hostInvDeg_eq]

/-- THE REFERENCE'S VALUE: the stages composed in the program's order are the network of the specification. -/
theorem out_eq (x : FVec Ideal S100000x12 .f32) (ei : IVec S2x600000 32) (we : FVec Ideal S12x128 .f32)
    (bE : FVec Ideal S128 .f32) (Ws Wn : FVec Ideal S3x128x128 .f32) (cb ga be : FVec Ideal S3x128 .f32)
    (w1 : FVec Ideal S128x64 .f32) (c1 : FVec Ideal S64 .f32) (w2 : FVec Ideal S64x2 .f32) (c2 : FVec Ideal S2 .f32) :
    hostNet x ei we bE Ws Wn cb ga be w1 c1 w2 c2
      = net varTwo (aggOf (srcN ei) (dstI ei)) (invDeg (dstI ei)) nodeCount bnEps x we (row bE)
          (slab Ws 0) (slab Wn 0) (rowAt cb 0) (rowAt ga 0) (rowAt be 0)
          (slab Ws 1) (slab Wn 1) (rowAt cb 1) (rowAt ga 1) (rowAt be 1)
          (slab Ws 2) (slab Wn 2) (rowAt cb 2) (rowAt ga 2) (rowAt be 2)
          w1 (row c1) w2 (row c2) := by
  unfold hostNet
  dsimp only
  simp only [hostHead_eq, hostAddRes_eq, hostBlock_eq, hostEmbed_eq]
  rw [hostSlab_eq Ws 0 _ 0 rfl, hostSlab_eq Wn 0 _ 0 rfl, hostRowAt_eq cb 0 _ 0 rfl, hostRowAt_eq ga 0 _ 0 rfl,
    hostRowAt_eq be 0 _ 0 rfl,
    hostSlab_eq Ws 1 _ 1 rfl, hostSlab_eq Wn 1 _ 1 rfl, hostRowAt_eq cb 1 _ 1 rfl, hostRowAt_eq ga 1 _ 1 rfl,
    hostRowAt_eq be 1 _ 1 rfl,
    hostSlab_eq Ws 2 _ 2 rfl, hostSlab_eq Wn 2 _ 2 rfl, hostRowAt_eq cb 2 _ 2 rfl, hostRowAt_eq ga 2 _ 2 rfl,
    hostRowAt_eq be 2 _ 2 rfl]
  rfl

end Cert.RefStages

end
-- ==== Proof.LibSortPerm.lean ====
/-
  A stable sort of pairs along a vector permutes the positions; reading tables through the sorted positions.

  Sorting two vectors of length `n` alike — by a comparator on the pairs of their entries — reads both through one
  self-map of the positions: the map sending a sorted position to the position its entry came from.  A stable sort
  only rearranges the list of positions, so this map is onto, hence (on a finite set) one-to-one: it is a permutation
  `σ` of the `n` positions, and the sorted vectors are `x ∘ σ` and `y ∘ σ`.  When the second vector is the identity
  table `0, 1, …, n − 1` (an argsort), the second sorted vector lists the values of `σ` itself, as words.

  The permutation is obtained as an existence statement only: nothing below ever needs its values.

  Three layout facts follow, each at arbitrary extents.  A row of an `[R, n]` table cut out and flattened reads the
  table's row.  A gather of single entries of a vector `x : [N]` at the column of an index vector whose entry `s` is
  the word of a position `k < N ≤ 2^31` reads `x k`: the word is not negative, so the negative-index wrap leaves it
  alone, and read signed it is `k`, which the clamp into `[0, N − 1]` leaves alone.  And the reciprocal of the in-degree
  clamped below by one — the in-degree counted by an accumulating scatter of ones into zeros at the destination words —
  laid out as a column is the per-node factor of the destinations read signed.
-/
import Idealize.ShloMosaic.Lib.SortFacts
import Idealize.ShloMosaic.Lib.ValueIdx
import proofs.«103646_j72808285602083_2_alg».proof.Proof.LibEdgeAgg
import proofs.«103646_j72808285602083_2_alg».proof.Proof.LibGatherVec
import proofs.«103646_j72808285602083_2_alg».proof.Proof.LibSelfLoops
import proofs.«103646_j72808285602083_2_alg».proof.Proof.LibMeanForms
import proofs.«103646_j72808285602083_2_alg».proof.Proof.LibRowBlocks

noncomputable section

open scoped BigOperators

namespace Cert.SortPerm

open Idealize.ShloMosaic Idealize.ShloMosaic.ValueIdx

/-! ## The sort permutes -/

/-- The rank-1 index at coordinate `k`, in the two ways it is written. -/
theorem ofFin_eq_ix1 {n : ℕ} (k : Fin n) : Shape.Idx.ofFin k = ix1 k := by
  funext a
  match a with
  | ⟨0, _⟩ => exact Fin.ext rfl

/-- The positions a stable sort under `before` reads from, as a permutation. -/
def sortPerm {n : ℕ} (before : Fin n → Fin n → Bool) : Equiv.Perm (Fin n) :=
  Equiv.ofBijective (sortedFrom before) ⟨sortedFrom_injective before, sortedFrom_surjective before⟩

theorem sortPerm_apply {n : ℕ} (before : Fin n → Fin n → Bool) (k : Fin n) : sortPerm before k = sortedFrom before k := rfl

/-- Both results of a sort of two vectors, read at position `k`: the operands at the position the sort reads from. -/
theorem sort2_rank1 {n : ℕ} {α β : Type} (cmp : α × β → α × β → BitVec 1) (x : (⟨1, ![n]⟩ : Shape).Idx → α)
    (y : (⟨1, ![n]⟩ : Shape).Idx → β) (k : Fin n) :
    (Host.sort2 ⟨1, ![n]⟩ 0 cmp x y).1 (ix1 k)
        = x (ix1 (sortedFrom (fun a b => cmp (x (ix1 a), y (ix1 a)) (x (ix1 b), y (ix1 b)) == 1#1) k))
      ∧ (Host.sort2 ⟨1, ![n]⟩ 0 cmp x y).2 (ix1 k)
        = y (ix1 (sortedFrom (fun a b => cmp (x (ix1 a), y (ix1 a)) (x (ix1 b), y (ix1 b)) == 1#1) k)) := by
  unfold Host.sort2
  simp [ofFin_eq_ix1]

/-- A SORT OF TWO VECTORS PERMUTES: there is a permutation `σ` of the positions with both results the operands read
    through `σ`. -/
theorem sort2_perm {n : ℕ} {α β : Type} (cmp : α × β → α × β → BitVec 1) (x : (⟨1, ![n]⟩ : Shape).Idx → α)
    (y : (⟨1, ![n]⟩ : Shape).Idx → β) :
    ∃ σ : Equiv.Perm (Fin n), ∀ k : Fin n,
      (Host.sort2 ⟨1, ![n]⟩ 0 cmp x y).1 (ix1 k) = x (ix1 (σ k))
        ∧ (Host.sort2 ⟨1, ![n]⟩ 0 cmp x y).2 (ix1 k) = y (ix1 (σ k)) :=
  ⟨sortPerm (fun a b => cmp (x (ix1 a), y (ix1 a)) (x (ix1 b), y (ix1 b)) == 1#1), fun k => sort2_rank1 cmp x y k⟩

/-- AN ARGSORT LISTS A PERMUTATION: sorting the identity table along with the keys, the second result at position `k`
    is the word of `σ k` for a permutation `σ` of the positions. -/
theorem argsort_perm {n w : ℕ} {α : Type} (cmp : α × BitVec w → α × BitVec w → BitVec 1)
    (x : (⟨1, ![n]⟩ : Shape).Idx → α) :
    ∃ σ : Equiv.Perm (Fin n), ∀ k : Fin n,
      (Host.sort2 ⟨1, ![n]⟩ 0 cmp x (iotaInDim ⟨1, ![n]⟩ w 0)).2 (ix1 k) = BitVec.ofNat w (σ k).val := by
  obtain ⟨σ, hσ⟩ := sort2_perm cmp x (iotaInDim ⟨1, ![n]⟩ w 0)
  exact ⟨σ, fun k => (hσ k).2⟩

/-! ## Reading tables through the sorted positions -/

/-- Row `r` of an `[R, n]` table, cut out as `[1, n]` at row offset `o = r` and flattened to `[n]`, reads at `e` the
    table at `(r, e)`. -/
theorem row_slice_apply {α : Type} {R n : ℕ} (o : ℕ) (x : (⟨2, ![R, n]⟩ : Shape).Idx → α)
    (hs : (⟨2, ![R, n]⟩ : Shape).Slices ![o, 0] ⟨2, ![1, n]⟩) (hc : (⟨2, ![1, n]⟩ : Shape).ShapeCasts ⟨1, ![n]⟩)
    (r : Fin R) (hr : r.val = o) (e : Fin n) :
    shapeCast ⟨1, ![n]⟩ (extractStridedSlice ⟨2, ![1, n]⟩ ![o, 0] x hs) hc (ix1 e) = x (ix2 r e) := by
  rw [shapeCast_apply _ hc (ix1 e) (ix2 (0 : Fin 1) e) (by
    rw [Shape.rowMajor_val_two, Shape.rowMajor_val_one]
    show 0 * n + e.val = e.val
    omega)]
  exact extractStridedSlice_apply ![o, 0] x hs (ix2 (0 : Fin 1) e) (ix2 r e) (fun a => match a with
    | ⟨0, _⟩ => by show r.val = o + 0; omega
    | ⟨1, _⟩ => by show e.val = 0 + e.val; omega)

/-- A gather of single entries at the wrapped column of an index vector whose entry `s` is the word of a position
    `k` of the operand: the operand at `k`. -/
theorem gather_at_position {α : Type} {N M : ℕ} (hN : N ≤ 2 ^ 31)
    (wf : GatherDims.WF ⟨1, ![N]⟩ ⟨2, ![M, 1]⟩ ⟨1, ![M]⟩ [] [0] [] [0] [] 1 ![1])
    (x : (⟨1, ![N]⟩ : Shape).Idx → α) (c : BitVec 32) (v : IVec ⟨1, ![M]⟩ 32)
    (hz : (⟨0, ![]⟩ : Shape).BroadcastsInDim ⟨1, ![M]⟩ ![])
    (hb : (⟨1, ![M]⟩ : Shape).BroadcastsInDim ⟨2, ![M, 1]⟩ ![0]) (s : Fin M) (k : Fin N)
    (hv : v (ix1 s) = BitVec.ofNat 32 k.val) :
    Host.gather (Cert.GatherVec.vecDims N M wf) x (broadcastInDim ⟨2, ![M, 1]⟩ ![0] hb
        (select (cmpi .slt v (broadcastInDim ⟨1, ![M]⟩ ![] hz (constantI ⟨0, ![]⟩ 32 0#32)))
          (addi v (broadcastInDim ⟨1, ![M]⟩ ![] hz (constantI ⟨0, ![]⟩ 32 c))) v)) (ix1 s) = x (ix1 k) := by
  have hk := k.isLt
  rw [Cert.GatherVec.gather_vec_apply (by omega) wf]
  refine congrArg x (congrArg (fun r : Fin N => ix1 r) (Fin.ext ?_))
  show min (BitVec.toInt _).toNat (N - 1) = k.val
  rw [Cert.HostLayout.bcast_vec_col _ hb s 0, Cert.SelfLoops.wrap_apply c v hz (ix1 s), hv,
    Cert.SelfLoops.wrapWord_ofNat_small c (by omega), Cert.SelfLoops.toInt_ofNat_small (by omega)]
  omega

/-- The reciprocal of the in-degree clamped below by one, the in-degree counted by a scatter of ones into zeros at the
    destination words `dstW`, laid out as a column: the per-node factor of the destinations read signed. -/
theorem invDeg_col_apply {N E : ℕ} (d : ScatterDims ⟨1, ![N]⟩ ⟨2, ![E, 1]⟩ ⟨1, ![E]⟩)
    (v1 : d.updateWindowDims = []) (v2 : d.insertedWindowDims = [0]) (v3 : d.scatterDimsToOperandDims = [0])
    (v4 : d.indexVectorDim = 1) (dstW : IVec ⟨1, ![E]⟩ 32)
    (hN : (⟨0, ![]⟩ : Shape).BroadcastsInDim ⟨1, ![N]⟩ ![]) (hE : (⟨0, ![]⟩ : Shape).BroadcastsInDim ⟨1, ![E]⟩ ![])
    (hbE : (⟨1, ![E]⟩ : Shape).BroadcastsInDim ⟨2, ![E, 1]⟩ ![0])
    (hc : (⟨1, ![N]⟩ : Shape).ShapeCasts ⟨2, ![N, 1]⟩) (p : Fin N) (u : Fin 1) :
    shapeCast ⟨2, ![N, 1]⟩
        (Host.divf (F := Ideal) (broadcastInDim ⟨1, ![N]⟩ ![] hN (constant (F := Ideal) ⟨0, ![]⟩ .f32 0x3F800000#32))
          (maximumf (F := Ideal)
            (Host.scatterAdd (F := Ideal) d
              (broadcastInDim ⟨1, ![N]⟩ ![] hN (constant (F := Ideal) ⟨0, ![]⟩ .f32 0x00000000#32))
              (broadcastInDim ⟨2, ![E, 1]⟩ ![0] hbE dstW)
              (broadcastInDim ⟨1, ![E]⟩ ![] hE (constant (F := Ideal) ⟨0, ![]⟩ .f32 0x3F800000#32)))
            (broadcastInDim ⟨1, ![N]⟩ ![] hN (constant (F := Ideal) ⟨0, ![]⟩ .f32 0x3F800000#32)))) hc (ix2 p u)
      = Cert.EdgeAgg.invDeg (M := N) (fun e : Fin E => (dstW (ix1 e)).toInt) (ix2 p u) := by
  rw [Cert.RowBlocks.shapeCast_col_apply, Cert.EdgeAgg.invDeg_apply]
  show Ideal.div (broadcastInDim ⟨1, ![N]⟩ ![] hN (constant (F := Ideal) ⟨0, ![]⟩ .f32 0x3F800000#32) (ix1 p))
      (max (Host.scatterAdd (F := Ideal) d _ _ _ (ix1 p))
        (broadcastInDim ⟨1, ![N]⟩ ![] hN (constant (F := Ideal) ⟨0, ![]⟩ .f32 0x3F800000#32) (ix1 p))) = _
  rw [Cert.SageDense.bcastOne hN, Cert.SegmentSum.segSumVec_apply d v1 v2 v3 v4, Cert.MeanForms.bcastZero hN]
  unfold Cert.EdgeAgg.degOf Cert.EdgeAgg.arriving
  refine congrArg (fun t : EReal => Ideal.div 1 (max (0 + t) 1)) ?_
  refine Finset.sum_congr ?_ (fun e _ => Cert.SageDense.bcastOne hE (ix1 e))
  ext e
  simp only [Finset.mem_filter, Finset.mem_univ, true_and]
  rw [Cert.HostLayout.bcast_vec_col dstW hbE e 0]

end Cert.SortPerm

end
-- ==== Proof.LibEdgeAggPerm.lean ====
/-
  Sums over the edges arriving at a node do not depend on how the edges are numbered.

  `arriving dst p` is the set of edges `e` with `dst e = p`.  Renumbering the edges by a permutation `σ` turns the
  edge data `src, dst` into `src ∘ σ, dst ∘ σ`; an edge `e` arrives at `p` in the new numbering exactly when `σ e`
  does in the old, so a sum over the arriving edges of the new numbering is the sum over the arriving edges of the
  old one with its terms taken in another order.  Hence the neighbour sums `aggOf`, the in-degree `degOf` and the
  per-node factor `invDeg` are unchanged.
-/
import proofs.«103646_j72808285602083_2_alg».proof.Proof.LibEdgeAgg

noncomputable section

open scoped BigOperators

namespace Cert.EdgeAgg

open Idealize.ShloMosaic Idealize.ShloMosaic.ValueIdx Cert.Dense

/-- A sum over the edges arriving at `p`, after renumbering the edges by `σ`. -/
theorem sum_arriving_perm {E : ℕ} (σ : Equiv.Perm (Fin E)) (dst : Fin E → ℤ) (p : ℕ) (f : Fin E → EReal) :
    ∑ e ∈ arriving (dst ∘ σ) p, f (σ e) = ∑ e ∈ arriving dst p, f e := by
  unfold arriving
  rw [Finset.sum_filter, Finset.sum_filter]
  exact Equiv.sum_comp σ (fun e => if dst e = (p : ℤ) then f e else 0)

/-- The neighbour sums are unchanged by renumbering the edges. -/
theorem aggOf_perm {E M K : ℕ} (σ : Equiv.Perm (Fin E)) (src : Fin E → Fin M) (dst : Fin E → ℤ) (H : Mat M K) :
    aggOf (src ∘ σ) (dst ∘ σ) H = aggOf src dst H := by
  funext i
  unfold aggOf
  congr 1
  exact sum_arriving_perm σ dst _ (fun e => H (ix2 (src e) (c1 i)))

/-- The in-degree is unchanged by renumbering the edges. -/
theorem degOf_perm {E : ℕ} (σ : Equiv.Perm (Fin E)) (dst : Fin E → ℤ) (p : ℕ) : degOf (dst ∘ σ) p = degOf dst p := by
  unfold degOf
  congr 1
  exact sum_arriving_perm σ dst p (fun _ => (1 : EReal))

/-- The per-node factor is unchanged by renumbering the edges. -/
theorem invDeg_perm {E M : ℕ} (σ : Equiv.Perm (Fin E)) (dst : Fin E → ℤ) :
    invDeg (M := M) (dst ∘ σ) = invDeg dst := by
  funext i
  unfold invDeg
  rw [degOf_perm]

end Cert.EdgeAgg

end
-- ==== Proof.EdgeSort.lean ====
/-
  The kernel program's edge sort, read off its host operations.

  Before its first region the kernel program renumbers the edges.  From the edge list `ei : i32[2, E]` (row 0 the
  sources, row 1 the destinations, `E = 600000`) it takes the two rows, sorts the identity table `0 … E − 1` along
  with the destinations (a stable sort of pairs by the destination), gathers both rows at the sorted positions —
  after the negative-index wrap, which leaves a position alone —, counts every node's in-degree by a scatter of ones
  at the gathered destinations, and lays the reciprocal of the count clamped below by one out as a column.

  The sorted positions are the values of a permutation `σ` of the edges, so the gathered rows are the two rows of
  `ei` read through `σ`.  Sums over the edges arriving at a node do not depend on how the edges are numbered: the
  neighbour sums and the per-node factor of the gathered rows are those of `ei` itself, and the column the program
  builds is the per-node factor of `ei`'s destinations.

  Each stretch of host operations is read over an arbitrary starting valuation; the permutation enters as an
  existence statement, and its values are never needed.
-/
import proofs.«103646_j72808285602083_2_alg».proof.Proof.Gen.KernelIdeal.Frame
import proofs.«103646_j72808285602083_2_alg».proof.Proof.LibSortPerm
import proofs.«103646_j72808285602083_2_alg».proof.Proof.LibEdgeAggPerm
set_option maxRecDepth 16384

noncomputable section

open scoped BigOperators

namespace Cert.EdgeSort

open Cert.KernelIdeal Cert.KernelIdeal.Gen
open Idealize.ShloMosaic Idealize.ShloMosaic.TcCoe Idealize.ShloMosaic.Tactic Idealize.ShloMosaic.ValueIdx
open Idealize.SL.Sem
open Cert.Dense Cert.EdgeAgg

/-! ## The three stretches, each from an arbitrary valuation -/

section Stretches

variable (V : Valuation τ sig (Elt Ideal))

/-- The first stretch: the two rows of the edge list, flattened. -/
theorem rows_read (e : Fin 600000) :
    (StableHlo.after (hostOps0 (F := Ideal)) V (Proc.devRef .tc main_v1) : IVec S600000 32) (ix1 e)
        = (V (Proc.devRef .tc main_arg1) : IVec S2x600000 32) (ix2 (0 : Fin 2) e)
      ∧ (StableHlo.after (hostOps0 (F := Ideal)) V (Proc.devRef .tc main_v3) : IVec S600000 32) (ix1 e)
        = (V (Proc.devRef .tc main_arg1) : IVec S2x600000 32) (ix2 (1 : Fin 2) e) := by
  have h1 : (StableHlo.after (hostOps0 (F := Ideal)) V (Proc.devRef .tc main_v1) : IVec S600000 32)
      = shapeCast S600000 (extractStridedSlice S1x600000 ![0, 0] (V (Proc.devRef .tc main_arg1) : IVec S2x600000 32)
          slices_S2x600000_S1x600000_0_0) shapeCasts_S1x600000_S600000 := by
    after_results; rfl
  have h3 : (StableHlo.after (hostOps0 (F := Ideal)) V (Proc.devRef .tc main_v3) : IVec S600000 32)
      = shapeCast S600000 (extractStridedSlice S1x600000 ![1, 0] (V (Proc.devRef .tc main_arg1) : IVec S2x600000 32)
          slices_S2x600000_S1x600000_1_0) shapeCasts_S1x600000_S600000 := by
    after_results; rfl
  exact ⟨(congrFun h1 (ix1 e)).trans (Cert.SortPerm.row_slice_apply 0 _ _ _ (0 : Fin 2) rfl e),
    (congrFun h3 (ix1 e)).trans (Cert.SortPerm.row_slice_apply 1 _ _ _ (1 : Fin 2) rfl e)⟩

/-- The second stretch: the argsort of the destinations lists a permutation of the edges, and leaves the two rows
    alone. -/
theorem argsort_read :
    (∃ σ : Equiv.Perm (Fin 600000), ∀ e : Fin 600000,
      (StableHlo.after (hostOps0_1 (F := Ideal)) V (Proc.devRef .tc main_v4) : IVec S600000 32) (ix1 e)
        = BitVec.ofNat 32 (σ e).val)
      ∧ StableHlo.after (hostOps0_1 (F := Ideal)) V (Proc.devRef .tc main_v1) = V (Proc.devRef .tc main_v1)
      ∧ StableHlo.after (hostOps0_1 (F := Ideal)) V (Proc.devRef .tc main_v3) = V (Proc.devRef .tc main_v3) := by
  have h4 : (StableHlo.after (hostOps0_1 (F := Ideal)) V (Proc.devRef .tc main_v4) : IVec S600000 32)
      = (Host.sort2 S600000 0 comparator_i32_i32_d0 (V (Proc.devRef .tc main_v3) : IVec S600000 32)
          (iotaInDim S600000 32 0)).2 := by
    after_results; rfl
  refine ⟨?_, by after_results, by after_results⟩
  obtain ⟨σ, hσ⟩ := Cert.SortPerm.argsort_perm (n := 600000) (w := 32) comparator_i32_i32_d0
    (V (Proc.devRef .tc main_v3) : IVec S600000 32)
  exact ⟨σ, fun e => (congrFun h4 (ix1 e)).trans (hσ e)⟩

/-- The third stretch, the two gathers: where the sorted position of edge `e` is the word of position `k`, the
    gathered rows at `e` are the rows at `k`. -/
theorem gathers_read (e k : Fin 600000)
    (h4 : (V (Proc.devRef .tc main_v4) : IVec S600000 32) (ix1 e) = BitVec.ofNat 32 k.val) :
    (StableHlo.after (hostOps0_2 (F := Ideal)) V (Proc.devRef .tc main_v11) : IVec S600000 32) (ix1 e)
        = (V (Proc.devRef .tc main_v1) : IVec S600000 32) (ix1 k)
      ∧ (StableHlo.after (hostOps0_2 (F := Ideal)) V (Proc.devRef .tc main_v18) : IVec S600000 32) (ix1 e)
        = (V (Proc.devRef .tc main_v3) : IVec S600000 32) (ix1 k) := by
  have h11 : (StableHlo.after (hostOps0_2 (F := Ideal)) V (Proc.devRef .tc main_v11) : IVec S600000 32)
      = Host.gather gather_S600000_S600000x1_S600000_n_0_n_n_0_1_1 (V (Proc.devRef .tc main_v1) : IVec S600000 32)
          (broadcastInDim S600000x1 ![0] bcast_S600000_S600000x1_0
            (select (cmpi .slt (V (Proc.devRef .tc main_v4) : IVec S600000 32)
                (broadcastInDim S600000 ![] bcast_S_S600000 (constantI S_ 32 0#32)))
              (addi (V (Proc.devRef .tc main_v4) : IVec S600000 32)
                (broadcastInDim S600000 ![] bcast_S_S600000 (constantI S_ 32 600000#32)))
              (V (Proc.devRef .tc main_v4) : IVec S600000 32))) := by
    after_results
  have h18 : (StableHlo.after (hostOps0_2 (F := Ideal)) V (Proc.devRef .tc main_v18) : IVec S600000 32)
      = Host.gather gather_S600000_S600000x1_S600000_n_0_n_n_0_1_1 (V (Proc.devRef .tc main_v3) : IVec S600000 32)
          (broadcastInDim S600000x1 ![0] bcast_S600000_S600000x1_0
            (select (cmpi .slt (V (Proc.devRef .tc main_v4) : IVec S600000 32)
                (broadcastInDim S600000 ![] bcast_S_S600000 (constantI S_ 32 0#32)))
              (addi (V (Proc.devRef .tc main_v4) : IVec S600000 32)
                (broadcastInDim S600000 ![] bcast_S_S600000 (constantI S_ 32 600000#32)))
              (V (Proc.devRef .tc main_v4) : IVec S600000 32))) := by
    after_results_simp
    all_goals rfl
  exact ⟨(congrFun h11 (ix1 e)).trans (Cert.SortPerm.gather_at_position (N := 600000) (M := 600000) (by norm_num)
      gather_S600000_S600000x1_S600000_n_0_n_n_0_1_1_wf (V (Proc.devRef .tc main_v1) : IVec S600000 32) 600000#32
      (V (Proc.devRef .tc main_v4) : IVec S600000 32) bcast_S_S600000 bcast_S600000_S600000x1_0 e k h4),
    (congrFun h18 (ix1 e)).trans (Cert.SortPerm.gather_at_position (N := 600000) (M := 600000) (by norm_num)
      gather_S600000_S600000x1_S600000_n_0_n_n_0_1_1_wf (V (Proc.devRef .tc main_v3) : IVec S600000 32) 600000#32
      (V (Proc.devRef .tc main_v4) : IVec S600000 32) bcast_S_S600000 bcast_S600000_S600000x1_0 e k h4)⟩

/-- The third stretch, the column: the per-node factor of the gathered destinations read signed. -/
theorem column_read (p : Fin 100000) (u : Fin 1) :
    (StableHlo.after (hostOps0_2 (F := Ideal)) V (Proc.devRef .tc main_v27) : Mat 100000 1) (ix2 p u)
      = invDeg (M := 100000) (fun e : Fin 600000 =>
          ((StableHlo.after (hostOps0_2 (F := Ideal)) V (Proc.devRef .tc main_v18) : IVec S600000 32) (ix1 e)).toInt)
        (ix2 p u) := by
  have h27 : (StableHlo.after (hostOps0_2 (F := Ideal)) V (Proc.devRef .tc main_v27) : Mat 100000 1)
      = shapeCast S100000x1
          (Host.divf (F := Ideal) (broadcastInDim S100000 ![] bcast_S_S100000 (constant (F := Ideal) S_ .f32 0x3F800000#32))
            (maximumf (F := Ideal)
              (Host.scatterAdd (F := Ideal) scatter_S100000_S600000x1_S600000_n_0_0_1
                (broadcastInDim S100000 ![] bcast_S_S100000 (constant (F := Ideal) S_ .f32 0x00000000#32))
                (broadcastInDim S600000x1 ![0] bcast_S600000_S600000x1_0
                  (StableHlo.after (hostOps0_2 (F := Ideal)) V (Proc.devRef .tc main_v18) : IVec S600000 32))
                (broadcastInDim S600000 ![] bcast_S_S600000 (constant (F := Ideal) S_ .f32 0x3F800000#32)))
              (broadcastInDim S100000 ![] bcast_S_S100000 (constant (F := Ideal) S_ .f32 0x3F800000#32))))
          shapeCasts_S100000_S100000x1 := by
    after_results_simp
    all_goals rfl
  exact (congrFun h27 (ix2 p u)).trans (Cert.SortPerm.invDeg_col_apply (N := 100000) (E := 600000)
    scatter_S100000_S600000x1_S600000_n_0_0_1 rfl rfl rfl rfl
    (StableHlo.after (hostOps0_2 (F := Ideal)) V (Proc.devRef .tc main_v18) : IVec S600000 32)
    bcast_S_S100000 bcast_S_S600000 bcast_S600000_S600000x1_0 shapeCasts_S100000_S100000x1 p u)

end Stretches

/-! ## The run: the sorted edge list at the first region's entry -/

section Run

variable (m : (ℓ : Loc nD τ sig) → Buf (Elt Ideal) ℓ) (ρ : Dev nD → PrngReg) (c : Dev nD)

/-- The edge list at launch: `i32[2, 600000]`, row 0 the sources, row 1 the destinations. -/
def ei : IVec S2x600000 32 := m ((c : Thread nD τ).loc main_arg1)

/-- The launch contents of the edge list's buffer are the edge list. -/
theorem W0_edges : (W0 m ρ c (Proc.devRef .tc main_arg1) : IVec S2x600000 32) = ei m c := rfl

/-- THE SORTED EDGE LIST: at the first region's entry the two gathered rows are the rows of `ei` read through one
    permutation of the edges. -/
theorem sorted_edges : ∃ σ : Equiv.Perm (Fin 600000), ∀ e : Fin 600000,
    (W3 m ρ c (Proc.devRef .tc main_v11) : IVec S600000 32) (ix1 e) = ei m c (ix2 (0 : Fin 2) (σ e))
      ∧ (W3 m ρ c (Proc.devRef .tc main_v18) : IVec S600000 32) (ix1 e) = ei m c (ix2 (1 : Fin 2) (σ e)) := by
  obtain ⟨⟨σ, hσ⟩, k1, k3⟩ := argsort_read (W1 m ρ c)
  refine ⟨σ, fun e => ?_⟩
  obtain ⟨g11, g18⟩ := gathers_read (W2 m ρ c) e (σ e) (hσ e)
  obtain ⟨r1, r3⟩ := rows_read (W0 m ρ c) (σ e)
  rw [W0_edges] at r1 r3
  exact ⟨g11.trans ((congrFun k1 (ix1 (σ e))).trans r1), g18.trans ((congrFun k3 (ix1 (σ e))).trans r3)⟩

/-- The source node of edge `e` of the launch edge list: the entry after the negative-index wrap, clamped. -/
def srcN : Fin 600000 → Fin 100000 :=
  fun e => nodeOf 100000 (by norm_num) (wrapW 100000#32 (ei m c (ix2 (0 : Fin 2) e)))

/-- The destination of edge `e` of the launch edge list, read signed. -/
def dstI : Fin 600000 → ℤ := fun e => (ei m c (ix2 (1 : Fin 2) e)).toInt

/-- The source node of edge `e` of the sorted edge list. -/
def srcN' : Fin 600000 → Fin 100000 :=
  fun e => nodeOf 100000 (by norm_num) (wrapW 100000#32 ((W3 m ρ c (Proc.devRef .tc main_v11) : IVec S600000 32) (ix1 e)))

/-- The destination of edge `e` of the sorted edge list, read signed. -/
def dstI' : Fin 600000 → ℤ := fun e => ((W3 m ρ c (Proc.devRef .tc main_v18) : IVec S600000 32) (ix1 e)).toInt

/-- The sorted edge list is the launch edge list renumbered by a permutation. -/
theorem sorted_eq_perm : ∃ σ : Equiv.Perm (Fin 600000), srcN' m ρ c = srcN m c ∘ σ ∧ dstI' m ρ c = dstI m c ∘ σ := by
  obtain ⟨σ, hσ⟩ := sorted_edges m ρ c
  refine ⟨σ, funext fun e => ?_, funext fun e => ?_⟩
  · unfold srcN'
    rw [(hσ e).1]
    rfl
  · unfold dstI'
    rw [(hσ e).2]
    rfl

/-- The neighbour sums over the sorted edge list are those over the launch edge list. -/
theorem agg_sorted {K : ℕ} (H : Mat 100000 K) :
    aggOf (srcN' m ρ c) (dstI' m ρ c) H = aggOf (srcN m c) (dstI m c) H := by
  obtain ⟨σ, hs, hd⟩ := sorted_eq_perm m ρ c
  rw [hs, hd]
  exact aggOf_perm σ _ _ H

/-- The per-node factor of the sorted edge list is that of the launch edge list. -/
theorem invDeg_sorted : invDeg (M := 100000) (dstI' m ρ c) = invDeg (dstI m c) := by
  obtain ⟨σ, _, hd⟩ := sorted_eq_perm m ρ c
  rw [hd]
  exact invDeg_perm σ _

/-- THE COLUMN the program builds before its first region is the per-node factor of the launch edge list. -/
theorem column_eq (p : Fin 100000) (u : Fin 1) :
    (W3 m ρ c (Proc.devRef .tc main_v27) : Mat 100000 1) (ix2 p u) = invDeg (dstI m c) (ix2 p u) :=
  (column_read (W2 m ρ c) p u).trans (congrFun (invDeg_sorted m ρ c) (ix2 p u))

end Run

end Cert.EdgeSort

end
-- ==== Proof.FinalBridge.lean ====
/-
  The kernel program's result and the reference program's result are one array.

  The kernel program's result is the residual mean-aggregating network with the one-pass variance, its neighbour sums
  taken over the edge list sorted by destination and its per-node factor the column built from the sorted
  destinations.  The reference program's result is the same network with the two-pass variance, its neighbour sums
  taken over the edge list as given and its per-node factor the reciprocal clamped in-degree of the given
  destinations.

  The sorted edge list is the given one renumbered by a permutation, so the neighbour sums and the per-node factor
  agree.  Under the finiteness precondition every float input holds real numbers; the neighbour sum of real rows is
  real and the per-node factor is real; the number of rows is one hundred thousand and the epsilon is a positive
  real: so every block's pre-normalisation rows are real, where the one-pass and the two-pass variance agree.
-/
import proofs.«103646_j72808285602083_2_alg».proof.Proof.KDefs
import proofs.«103646_j72808285602083_2_alg».proof.Proof.LibResSageReal
import proofs.«103646_j72808285602083_2_alg».proof.Proof.PreReal
import proofs.«103646_j72808285602083_2_alg».proof.Proof.RefValue
import proofs.«103646_j72808285602083_2_alg».proof.Proof.EdgeSort
set_option maxRecDepth 16384

noncomputable section

namespace Cert.FinalBridge

open Idealize.ShloMosaic Idealize.ShloMosaic.TcCoe Idealize.ShloMosaic.ValueIdx Idealize.SL.Sem
open Cert.Dense Cert.EdgeAgg Cert.ResSage Cert.SageBn Cert.GcnStats

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The sorted edge list's source nodes and destinations, under their two names. -/
theorem srcK_eq : Cert.KernelIdeal.KDefs.srcN m ρ c = Cert.EdgeSort.srcN' m ρ c := rfl
theorem dstK_eq : Cert.KernelIdeal.KDefs.dstI m ρ c = Cert.EdgeSort.dstI' m ρ c := rfl

/-- The given edge list's source nodes and destinations, under their two names. -/
theorem srcR_eq [Cert.ReferenceIdeal.Facts] :
    Cert.RefStages.srcN (Cert.EdgeSort.ei m c) = Cert.EdgeSort.srcN m c := rfl
theorem dstR_eq [Cert.ReferenceIdeal.Facts] :
    Cert.RefStages.dstI (Cert.EdgeSort.ei m c) = Cert.EdgeSort.dstI m c := rfl

/-- The neighbour sum over the sorted edge list is the neighbour sum over the given one. -/
theorem aggK_eq [Cert.ReferenceIdeal.Facts] :
    Cert.KernelIdeal.KDefs.aggK m ρ c
      = aggOf (Cert.RefStages.srcN (Cert.EdgeSort.ei m c)) (Cert.RefStages.dstI (Cert.EdgeSort.ei m c)) := by
  funext H
  unfold Cert.KernelIdeal.KDefs.aggK
  rw [srcK_eq, dstK_eq, srcR_eq, dstR_eq]
  exact Cert.EdgeSort.agg_sorted m ρ c H

/-- The column built from the sorted destinations is the per-node factor of the given destinations. -/
theorem sK_eq [Cert.ReferenceIdeal.Facts] :
    Cert.KernelIdeal.KDefs.sK m ρ c = invDeg (M := 100000) (Cert.RefStages.dstI (Cert.EdgeSort.ei m c)) := by
  funext i
  obtain ⟨p, u, rfl⟩ : ∃ (p : Fin 100000) (u : Fin 1), i = ix2 p u := ⟨i 0, i 1, eq_ix2 i⟩
  rw [dstR_eq]
  exact Cert.EdgeSort.column_eq m ρ c p u

/-- THE TWO RESULTS AGREE: under the finiteness precondition the kernel program's result is the reference program's
    network applied to the same argument arrays. -/
theorem out_eq_hostNet [Cert.ReferenceIdeal.Facts] [Cert.Pre_finite_inputs.Facts]
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) = fun _ => 1#1) :
    Cert.KernelIdeal.KDefs.out m ρ c = Cert.RefStages.hostNet
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) := by
  obtain ⟨r0, r2, r3, r4, r5, r6, r7, r8, r9, r10, r11, r12⟩ :=
    Cert.PreReal.real_of_pre _ _ _ _ _ _ _ _ _ _ _ _ _ hpre
  have hX : ∀ i, IsReal (Cert.KernelIdeal.KDefs.aX m c i) := r0
  have hWE : ∀ i, IsReal (Cert.KernelIdeal.KDefs.aWE m c i) := r2
  have hBE : ∀ i, IsReal (Cert.KernelIdeal.KDefs.aBE m c i) := r3
  have hWS : ∀ i, IsReal (Cert.KernelIdeal.KDefs.aWS m c i) := r4
  have hWN : ∀ i, IsReal (Cert.KernelIdeal.KDefs.aWN m c i) := r5
  have hCB : ∀ i, IsReal (Cert.KernelIdeal.KDefs.aCB m c i) := r6
  have hGA : ∀ i, IsReal (Cert.KernelIdeal.KDefs.aGA m c i) := r7
  have hBT : ∀ i, IsReal (Cert.KernelIdeal.KDefs.aBT m c i) := r8
  rw [Cert.KernelIdeal.KDefs.out_eq, aggK_eq, sK_eq]
  refine (net_one_eq_two (M := 100000) (by norm_num) _ _ _ _ n_eq eps_pos
    (fun H hH => isReal_aggOf _ _ H hH) (fun i => isReal_invDeg _ i)
    (Cert.KernelIdeal.KDefs.aX m c) (Cert.KernelIdeal.KDefs.aWE m c) (row (Cert.KernelIdeal.KDefs.aBE m c))
    _ _ _ _ _ _ _ _ _ _ _ _ _ _ _ _ _ _ _
    hX hWE (isReal_row _ hBE)
    (isReal_slab _ 0 hWS) (isReal_slab _ 0 hWN) (isReal_rowAt _ 0 hCB) (isReal_rowAt _ 0 hGA) (isReal_rowAt _ 0 hBT)
    (isReal_slab _ 1 hWS) (isReal_slab _ 1 hWN) (isReal_rowAt _ 1 hCB) (isReal_rowAt _ 1 hGA) (isReal_rowAt _ 1 hBT)
    (isReal_slab _ 2 hWS) (isReal_slab _ 2 hWN) (isReal_rowAt _ 2 hCB) (isReal_rowAt _ 2 hGA)
    (isReal_rowAt _ 2 hBT)).trans ?_
  exact (Cert.RefStages.out_eq _ _ _ _ _ _ _ _ _ _ _ _ _).symm

end Cert.FinalBridge

end
-- ==== Proof.RefRunBase.lean ====
/-
  What the stretch-by-stretch reading of a line of host operations uses: an operation that writes one buffer of a
  list writes inside that list.
-/
import proofs.«103646_j72808285602083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-- An operation whose only written buffer is a member of the list `W` writes inside `W`. -/
theorem writes_sub_of {τ : Topo} {sig : RefSig} {Val : EltTy → Type} {op : HloOp τ sig Val} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Cert.ReferenceIdeal.RefRun

end
-- ==== Proof.RefRunP0.lean ====
/-
  Statements of the reference program's window 0 as lists of host operations, one list per stretch, the functions the
  window calls written out at their calls over the calls' own buffers.  For each stretch: the list, the buffers it writes,
  that it touches only device buffers, and that a buffer it does not write keeps its contents through it.  Then the
  window itself is the sequence of its stretches.
-/
import proofs.«103646_j72808285602083_2_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge rows as vectors, the reciprocal clamped in-degree, and the embedding. -/
abbrev stS0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_cst (constant S_ .f32 0x3F800000#32),
    StableHlo.unary main_cst main_v4 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S600000x1 ![0] bcast_S600000_S600000x1_0 : (⟨S600000, .i32⟩ : BufTy).Contents (Elt F) → (⟨S600000x1, .i32⟩ : BufTy).Contents (Elt F)),
    StableHlo.ternary main_v5 main_v6 main_v4 main_v7 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.binary main_arg0 main_arg2 main_v12 ((fun l r => Host.dotGeneral dot_S100000x12_S12x128_S100000x128_1_0_0_1_n_n none l r) : (⟨S100000x12, .f32⟩ : BufTy).Contents (Elt F) → (⟨S12x128, .f32⟩ : BufTy).Contents (Elt F) → (⟨S100000x128, .f32⟩ : BufTy).Contents (Elt F)),
    StableHlo.unary main_arg3 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S100000x128 ![0, 1] bcast_S1x128_S100000x128_0_1 : (⟨S1x128, .f32⟩ : BufTy).Contents (Elt F) → (⟨S100000x128, .f32⟩ : BufTy).Contents (Elt F)),
    StableHlo.binary main_v12 main_v14 main_v15 (addf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stS0_W : List (Ref sig .tc) := [main_v0, main_v1, main_v2, main_v3, main_cst, main_v4, main_cst_0, main_v5, main_v6, main_v7, main_cst_1, main_v8, main_v9, main_cst_2, main_v10, main_v11, main_v12, main_v13, main_v14, main_v15]

theorem stS0_sub : (stS0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩

theorem stS0_fresh : (stS0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem stS0_writes : (stS0 : List (HloOp τ sig (Elt F))).Forall fun op => op.writes ⊆ (stS0_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stS0_keep (W : Valuation τ sig (Elt F)) (r : Ref sig .tc) (h : r ∉ stS0_W) :
    after stS0 W (Proc.devRef .tc r) = W (Proc.devRef .tc r) :=
  after_of_writes_sub stS0 W stS0_writes h

/-- Layer 0: the neighbour sum scaled by the reciprocal degree. -/
abbrev stA0 : List (HloOp τ sig (Elt F)) :=
  [ StableHlo.nullary main_c (constantI S_ 32 0#32),
    StableHlo.unary main_c main_v16 (broadcastInDim S600000 ![] bcast_S_S600000 : (⟨S_, .i32⟩ : BufTy).Contents (Elt F) → (⟨S600000, .i32⟩ : BufTy).Contents (Elt F)),
    StableHlo.binary main_v1 main_v16 main_v17 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 100000#32),
    StableHlo.unary main_c_3 main_v18 (broadcastInDim S600000 ![] bcast_S_S600000 : (⟨S_, .i32⟩ : BufTy).Contents (Elt F) → (⟨S600000, .i32⟩ : BufTy).Contents (Elt F)),
    StableHlo.binary main_v1 main_v18 main_v19 (addi : (⟨S600000, .i32⟩ : BufTy).Contents (Elt F) → (⟨S600000, .i32⟩ : BufTy).Contents (Elt F) → (⟨S600000, .i32⟩ : BufTy).Contents (Elt F)),
    StableHlo.ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v20 main_v21 (broadcastInDim S600000x1 ![0] bcast_S600000_S600000x1_0 : (⟨S600000, .i32⟩ : BufTy).Contents (Elt F) → (⟨S600000x1, .i32⟩ : BufTy).Contents (Elt F)),
    StableHlo.binary main_v15 main_v21 main_v22 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_4 (constant S_ .f32 0x00000000#32),
    StableHlo.unary main_cst_4 main_v23 (broadcastInDim S100000x128 ![] bcast_S_S100000x128 : (⟨S_, .f32⟩ : BufTy).Contents (Elt F) → (⟨S100000x128, .f32⟩ : BufTy).Contents (Elt F)),
    StableHlo.unary main_v3 main_v24 (broadcastInDim S600000x1 ![0] bcast_S600000_S600000x1_0 : (⟨S600000, .i32⟩ : BufTy).Contents (Elt F) → (⟨S600000x1, .i32⟩ : BufTy).Contents (Elt F)),
    StableHlo.ternary main_v23 main_v24 main_v22 main_v25 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_v11 main_v26 (broadcastInDim S100000x1 ![0] bcast_S100000_S100000x1_0 : (⟨S100000, .f32⟩ : BufTy).Contents (Elt F) → (⟨S100000x1, .f32⟩ : BufTy).Contents (Elt F)),
    StableHlo.unary main_v26 main_v27 (broadcastInDim S100000x128 ![0, 1] bcast_S100000x1_S100000x128_0_1 : (⟨S100000x1, .f32⟩ : BufTy).Contents (Elt F) → (⟨S100000x128, .f32⟩ : BufTy).Contents (Elt F)),
    StableHlo.binary main_v25 main_v27 main_v28 (mulf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stA0_W : List (Ref sig .tc) := [main_c, main_v16, main_v17, main_c_3, main_v18, main_v19, main_v20, main_v21, main_v22, main_cst_4, main_v23, main_v24, main_v25, main_v26, main_v27, main_v28]

theorem stA0_sub : (stA0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem stA0_fresh : (stA0 : List (HloOp τ sig (Elt F))).Forall fun op => op.fresh = ∅ :=
  ⟨rfl, rfl, rfl, rfl, rfl, rfl, rfl, rfl, rfl, rfl, rfl, rfl, rfl, rfl, rfl, rfl⟩

theorem stA0_writes : (stA0 : List (HloOp τ sig (Elt F))).Forall fun op => op.writes ⊆ (stA0_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stA0_keep (W : Valuation τ sig (Elt F)) (r : Ref sig .tc) (h : r ∉ stA0_W) :
    after stA0 W (Proc.devRef .tc r) = W (Proc.devRef .tc r) :=
  after_of_writes_sub stA0 W stA0_writes h

/-- Layer 0: the linear step. -/
abbrev stC0 : List (HloOp τ sig (Elt F)) :=
  [ StableHlo.unary main_arg4 main_v29 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v29 main_v30 rfl shapeCasts_S1x128x128_S128x128,
    StableHlo.binary main_v15 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v32 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v32 main_v33 rfl shapeCasts_S1x128x128_S128x128,
    StableHlo.binary main_v28 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v31 main_v34 main_v35 (addf : (⟨S100000x128, .f32⟩ : BufTy).Contents (Elt F) → (⟨S100000x128, .f32⟩ : BufTy).Contents (Elt F) → (⟨S100000x128, .f32⟩ : BufTy).Contents (Elt F)),
    StableHlo.unary main_arg6 main_v36 ((extractStridedSlice S1x128 ![0, 0] · slices_S3x128_S1x128_0_0) : (⟨S3x128, .f32⟩ : BufTy).Contents (Elt F) → (⟨S1x128, .f32⟩ : BufTy).Contents (Elt F)),
    StableHlo.reshape main_v36 main_v37 rfl shapeCasts_S1x128_S128,
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v39 main_v40 (addf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stC0_W : List (Ref sig .tc) := [main_v29, main_v30, main_v31, main_v32, main_v33, main_v34, main_v35, main_v36, main_v37, main_v38, main_v39, main_v40]

theorem stC0_sub : (stC0 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem stC0_fresh : (stC0 : List (HloOp τ sig (Elt F))).Forall fun op => op.fresh = ∅ :=
  ⟨rfl, rfl, rfl, rfl, rfl, rfl, rfl, rfl, rfl, rfl, rfl, rfl⟩

theorem stC0_writes : (stC0 : List (HloOp τ sig (Elt F))).Forall fun op => op.writes ⊆ (stC0_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stC0_keep (W : Valuation τ sig (Elt F)) (r : Ref sig .tc) (h : r ∉ stC0_W) :
    after stC0 W (Proc.devRef .tc r) = W (Proc.devRef .tc r) :=
  after_of_writes_sub stC0 W stC0_writes h

/-- Layer 0: the column mean, the two-pass variance, the centred rows and the epsilon vector. -/
abbrev stN0a : List (HloOp τ sig (Elt F)) :=
  [ StableHlo.nullary main_cst_5 (constant S_ .f32 0x00000000#32),
    StableHlo.binary main_v40 main_cst_5 main_v41 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v42 (broadcastInDim S128 ![] bcast_S_S128 : (⟨S_, .f32⟩ : BufTy).Contents (Elt F) → (⟨S128, .f32⟩ : BufTy).Contents (Elt F)),
    StableHlo.binary main_v41 main_v42 main_v43 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call0.cst (constant S_ .f32 0x00000000#32),
    StableHlo.TRef.binary (.of main_v40 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v40 : StableHlo.TRef sig ⟨S100000x128, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v43 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v46 main_v47 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v48 (broadcastInDim S128 ![] bcast_S_S128 : (⟨S_, .f32⟩ : BufTy).Contents (Elt F) → (⟨S128, .f32⟩ : BufTy).Contents (Elt F)) ]

/-- The buffers that stretch writes. -/
abbrev stN0a_W : List (Ref sig .tc) := [main_cst_5, main_v41, main_cst_6, main_v42, main_v43, main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v44, main_v45, main_v46, main_v47, main_cst_8, main_v48]

theorem stN0a_sub : (stN0a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

theorem stN0a_fresh : (stN0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem stN0a_writes : (stN0a : List (HloOp τ sig (Elt F))).Forall fun op => op.writes ⊆ (stN0a_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stN0a_keep (W : Valuation τ sig (Elt F)) (r : Ref sig .tc) (h : r ∉ stN0a_W) :
    after stN0a W (Proc.devRef .tc r) = W (Proc.devRef .tc r) :=
  after_of_writes_sub stN0a W stN0a_writes h

/-- The window's operations, in order. -/
abbrev part0Ops : List (HloOp τ sig (Elt F)) := stS0 ++ stA0 ++ stC0 ++ stN0a

set_option maxRecDepth 8192 in
set_option maxHeartbeats 4000000 in
/-- The window is the sequence of its operations: the called functions' definitions unfolded at their calls, both sides
    are one chain of host steps once the sequencing is reassociated. -/
theorem part0_eq (c : Dev nD) : main_part0 (F := F) c = seq part0Ops := by
  simp only [main_part0, fn_var.body, fn_where.body, fn_relu.body, seq, List.cons_append, List.nil_append, bind_assoc, pure_bind] <;> rfl

theorem part0_sub : (part0Ops : List (HloOp τ sig (Elt F))).Forall fun op => op.bufs ⊆ tcRefs τ sig :=
  List.forall_iff_forall_mem.mpr fun op h => by
    simp only [part0Ops, List.mem_append] at h
    rcases h with ((h | h) | h) | h
    exacts [List.forall_iff_forall_mem.mp stS0_sub op h, List.forall_iff_forall_mem.mp stA0_sub op h, List.forall_iff_forall_mem.mp stC0_sub op h, List.forall_iff_forall_mem.mp stN0a_sub op h]

/-- Every operation of the window determines what it writes. -/
theorem part0_fresh : ∀ op ∈ (part0Ops : List (HloOp τ sig (Elt F))), op.fresh = ∅ := fun op h => by
  simp only [part0Ops, List.mem_append] at h
  rcases h with ((h | h) | h) | h
  exacts [List.forall_iff_forall_mem.mp stS0_fresh op h, List.forall_iff_forall_mem.mp stA0_fresh op h, List.forall_iff_forall_mem.mp stC0_fresh op h, List.forall_iff_forall_mem.mp stN0a_fresh op h]

end Cert.ReferenceIdeal.RefRun

end
-- ==== Proof.RefRunP1.lean ====
/-
  Statements of the reference program's window 1 as lists of host operations, one list per stretch, the functions the
  window calls written out at their calls over the calls' own buffers.  For each stretch: the list, the buffers it writes,
  that it touches only device buffers, and that a buffer it does not write keeps its contents through it.  Then the
  window itself is the sequence of its stretches.
-/
import proofs.«103646_j72808285602083_2_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0: the scaling, the affine map and the rectification (one stretch of it). -/
abbrev stN0b : List (HloOp τ sig (Elt F)) :=
  [ StableHlo.binary main_v44 main_v48 main_v49 (addf : (⟨S128, .f32⟩ : BufTy).Contents (Elt F) → (⟨S128, .f32⟩ : BufTy).Contents (Elt F) → (⟨S128, .f32⟩ : BufTy).Contents (Elt F)),
    StableHlo.unary main_v49 main_v50 (Host.rsqrt : (⟨S128, .f32⟩ : BufTy).Contents (Elt F) → (⟨S128, .f32⟩ : BufTy).Contents (Elt F)),
    StableHlo.unary main_v50 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v52 main_v53 (mulf : (⟨S100000x128, .f32⟩ : BufTy).Contents (Elt F) → (⟨S100000x128, .f32⟩ : BufTy).Contents (Elt F) → (⟨S100000x128, .f32⟩ : BufTy).Contents (Elt F)),
    StableHlo.unary main_arg7 main_v54 ((extractStridedSlice S1x128 ![0, 0] · slices_S3x128_S1x128_0_0) : (⟨S3x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v57 main_v58 (mulf : (⟨S100000x128, .f32⟩ : BufTy).Contents (Elt F) → (⟨S100000x128, .f32⟩ : BufTy).Contents (Elt F) → (⟨S100000x128, .f32⟩ : BufTy).Contents (Elt F)),
    StableHlo.unary main_arg8 main_v59 ((extractStridedSlice S1x128 ![0, 0] · slices_S3x128_S1x128_0_0) : (⟨S3x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v62 main_v63 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v63 : StableHlo.TRef sig ⟨S100000x128, .f32⟩) main_call1.v0 main_call1.v1 maximumf ]

/-- The buffers that stretch writes. -/
abbrev stN0b_W : List (Ref sig .tc) := [main_v49, main_v50, main_v51, main_v52, main_v53, main_v54, main_v55, main_v56, main_v57, main_v58, main_v59, main_v60, main_v61, main_v62, main_v63, main_call1_cst, main_call1_v0, main_v64]

theorem stN0b_sub : (stN0b : List (HloOp τ sig (Elt F))).Forall fun op => op.bufs ⊆ tcRefs τ sig :=
  ⟨binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem stN0b_fresh : (stN0b : List (HloOp τ sig (Elt F))).Forall fun op => op.fresh = ∅ :=
  ⟨rfl, rfl, rfl, rfl, rfl, rfl, rfl, rfl, rfl, rfl, rfl, rfl, rfl, rfl, rfl, rfl, rfl, rfl⟩

theorem stN0b_writes : (stN0b : List (HloOp τ sig (Elt F))).Forall fun op => op.writes ⊆ (stN0b_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stN0b_keep (W : Valuation τ sig (Elt F)) (r : Ref sig .tc) (h : r ∉ stN0b_W) :
    after stN0b W (Proc.devRef .tc r) = W (Proc.devRef .tc r) :=
  after_of_writes_sub stN0b W stN0b_writes h

/-- Layer 1: the neighbour sum scaled by the reciprocal degree. -/
abbrev stA1 : List (HloOp τ sig (Elt F)) :=
  [ StableHlo.nullary main_c_9 (constantI S_ 32 0#32),
    StableHlo.unary main_c_9 main_v65 (broadcastInDim S600000 ![] bcast_S_S600000 : (⟨S_, .i32⟩ : BufTy).Contents (Elt F) → (⟨S600000, .i32⟩ : BufTy).Contents (Elt F)),
    StableHlo.binary main_v1 main_v65 main_v66 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 100000#32),
    StableHlo.unary main_c_10 main_v67 (broadcastInDim S600000 ![] bcast_S_S600000 : (⟨S_, .i32⟩ : BufTy).Contents (Elt F) → (⟨S600000, .i32⟩ : BufTy).Contents (Elt F)),
    StableHlo.binary main_v1 main_v67 main_v68 (addi : (⟨S600000, .i32⟩ : BufTy).Contents (Elt F) → (⟨S600000, .i32⟩ : BufTy).Contents (Elt F) → (⟨S600000, .i32⟩ : BufTy).Contents (Elt F)),
    StableHlo.ternary main_v66 main_v68 main_v1 main_v69 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v69 main_v70 (broadcastInDim S600000x1 ![0] bcast_S600000_S600000x1_0 : (⟨S600000, .i32⟩ : BufTy).Contents (Elt F) → (⟨S600000x1, .i32⟩ : BufTy).Contents (Elt F)),
    StableHlo.binary main_v64 main_v70 main_v71 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_11 (constant S_ .f32 0x00000000#32),
    StableHlo.unary main_cst_11 main_v72 (broadcastInDim S100000x128 ![] bcast_S_S100000x128 : (⟨S_, .f32⟩ : BufTy).Contents (Elt F) → (⟨S100000x128, .f32⟩ : BufTy).Contents (Elt F)),
    StableHlo.unary main_v3 main_v73 (broadcastInDim S600000x1 ![0] bcast_S600000_S600000x1_0 : (⟨S600000, .i32⟩ : BufTy).Contents (Elt F) → (⟨S600000x1, .i32⟩ : BufTy).Contents (Elt F)),
    StableHlo.ternary main_v72 main_v73 main_v71 main_v74 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_v11 main_v75 (broadcastInDim S100000x1 ![0] bcast_S100000_S100000x1_0 : (⟨S100000, .f32⟩ : BufTy).Contents (Elt F) → (⟨S100000x1, .f32⟩ : BufTy).Contents (Elt F)),
    StableHlo.unary main_v75 main_v76 (broadcastInDim S100000x128 ![0, 1] bcast_S100000x1_S100000x128_0_1 : (⟨S100000x1, .f32⟩ : BufTy).Contents (Elt F) → (⟨S100000x128, .f32⟩ : BufTy).Contents (Elt F)),
    StableHlo.binary main_v74 main_v76 main_v77 (mulf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stA1_W : List (Ref sig .tc) := [main_c_9, main_v65, main_v66, main_c_10, main_v67, main_v68, main_v69, main_v70, main_v71, main_cst_11, main_v72, main_v73, main_v74, main_v75, main_v76, main_v77]

theorem stA1_sub : (stA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem stA1_fresh : (stA1 : List (HloOp τ sig (Elt F))).Forall fun op => op.fresh = ∅ :=
  ⟨rfl, rfl, rfl, rfl, rfl, rfl, rfl, rfl, rfl, rfl, rfl, rfl, rfl, rfl, rfl, rfl⟩

theorem stA1_writes : (stA1 : List (HloOp τ sig (Elt F))).Forall fun op => op.writes ⊆ (stA1_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stA1_keep (W : Valuation τ sig (Elt F)) (r : Ref sig .tc) (h : r ∉ stA1_W) :
    after stA1 W (Proc.devRef .tc r) = W (Proc.devRef .tc r) :=
  after_of_writes_sub stA1 W stA1_writes h

/-- Layer 1: the linear step. -/
abbrev stC1 : List (HloOp τ sig (Elt F)) :=
  [ StableHlo.unary main_arg4 main_v78 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v78 main_v79 rfl shapeCasts_S1x128x128_S128x128,
    StableHlo.binary main_v64 main_v79 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v81 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v81 main_v82 rfl shapeCasts_S1x128x128_S128x128,
    StableHlo.binary main_v77 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v80 main_v83 main_v84 (addf : (⟨S100000x128, .f32⟩ : BufTy).Contents (Elt F) → (⟨S100000x128, .f32⟩ : BufTy).Contents (Elt F) → (⟨S100000x128, .f32⟩ : BufTy).Contents (Elt F)),
    StableHlo.unary main_arg6 main_v85 ((extractStridedSlice S1x128 ![1, 0] · slices_S3x128_S1x128_1_0) : (⟨S3x128, .f32⟩ : BufTy).Contents (Elt F) → (⟨S1x128, .f32⟩ : BufTy).Contents (Elt F)),
    StableHlo.reshape main_v85 main_v86 rfl shapeCasts_S1x128_S128,
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v88 main_v89 (addf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stC1_W : List (Ref sig .tc) := [main_v78, main_v79, main_v80, main_v81, main_v82, main_v83, main_v84, main_v85, main_v86, main_v87, main_v88, main_v89]

theorem stC1_sub : (stC1 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem stC1_fresh : (stC1 : List (HloOp τ sig (Elt F))).Forall fun op => op.fresh = ∅ :=
  ⟨rfl, rfl, rfl, rfl, rfl, rfl, rfl, rfl, rfl, rfl, rfl, rfl⟩

theorem stC1_writes : (stC1 : List (HloOp τ sig (Elt F))).Forall fun op => op.writes ⊆ (stC1_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stC1_keep (W : Valuation τ sig (Elt F)) (r : Ref sig .tc) (h : r ∉ stC1_W) :
    after stC1 W (Proc.devRef .tc r) = W (Proc.devRef .tc r) :=
  after_of_writes_sub stC1 W stC1_writes h

/-- Layer 1: the column mean, the two-pass variance, the centred rows and the epsilon vector. -/
abbrev stN1a : List (HloOp τ sig (Elt F)) :=
  [ StableHlo.nullary main_cst_12 (constant S_ .f32 0x00000000#32),
    StableHlo.binary main_v89 main_cst_12 main_v90 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v91 (broadcastInDim S128 ![] bcast_S_S128 : (⟨S_, .f32⟩ : BufTy).Contents (Elt F) → (⟨S128, .f32⟩ : BufTy).Contents (Elt F)),
    StableHlo.binary main_v90 main_v91 main_v92 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v89 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v89 : StableHlo.TRef sig ⟨S100000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v92 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v95 main_v96 (subf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v97 (broadcastInDim S128 ![] bcast_S_S128 : (⟨S_, .f32⟩ : BufTy).Contents (Elt F) → (⟨S128, .f32⟩ : BufTy).Contents (Elt F)) ]

/-- The buffers that stretch writes. -/
abbrev stN1a_W : List (Ref sig .tc) := [main_cst_12, main_v90, main_cst_13, main_v91, main_v92, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v93, main_v94, main_v95, main_v96, main_cst_15, main_v97]

theorem stN1a_sub : (stN1a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

theorem stN1a_fresh : (stN1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem stN1a_writes : (stN1a : List (HloOp τ sig (Elt F))).Forall fun op => op.writes ⊆ (stN1a_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stN1a_keep (W : Valuation τ sig (Elt F)) (r : Ref sig .tc) (h : r ∉ stN1a_W) :
    after stN1a W (Proc.devRef .tc r) = W (Proc.devRef .tc r) :=
  after_of_writes_sub stN1a W stN1a_writes h

/-- Layer 1: the scaling, the affine map and the rectification (one stretch of it). -/
abbrev stN1b1 : List (HloOp τ sig (Elt F)) :=
  [ StableHlo.binary main_v93 main_v97 main_v98 (addf : (⟨S128, .f32⟩ : BufTy).Contents (Elt F) → (⟨S128, .f32⟩ : BufTy).Contents (Elt F) → (⟨S128, .f32⟩ : BufTy).Contents (Elt F)),
    StableHlo.unary main_v98 main_v99 (Host.rsqrt : (⟨S128, .f32⟩ : BufTy).Contents (Elt F) → (⟨S128, .f32⟩ : BufTy).Contents (Elt F)),
    StableHlo.unary main_v99 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)) ]

/-- The buffers that stretch writes. -/
abbrev stN1b1_W : List (Ref sig .tc) := [main_v98, main_v99, main_v100, main_v101]

theorem stN1b1_sub : (stN1b1 : List (HloOp τ sig (Elt F))).Forall fun op => op.bufs ⊆ tcRefs τ sig :=
  ⟨binary_bufs_sub .., unary_bufs_sub .., unary_bufs_sub .., unary_bufs_sub ..⟩

theorem stN1b1_fresh : (stN1b1 : List (HloOp τ sig (Elt F))).Forall fun op => op.fresh = ∅ :=
  ⟨rfl, rfl, rfl, rfl⟩

theorem stN1b1_writes : (stN1b1 : List (HloOp τ sig (Elt F))).Forall fun op => op.writes ⊆ (stN1b1_W.map (Proc.devRef (τ := τ) .tc)).toFinset :=
  ⟨writes_sub_of rfl (by decide), writes_sub_of rfl (by decide), writes_sub_of rfl (by decide), writes_sub_of rfl (by decide)⟩

/-- A buffer the stretch does not write keeps its contents through it. -/
theorem stN1b1_keep (W : Valuation τ sig (Elt F)) (r : Ref sig .tc) (h : r ∉ stN1b1_W) :
    after stN1b1 W (Proc.devRef .tc r) = W (Proc.devRef .tc r) :=
  after_of_writes_sub stN1b1 W stN1b1_writes h

/-- The window's operations, in order. -/
abbrev part1Ops : List (HloOp τ sig (Elt F)) := stN0b ++ stA1 ++ stC1 ++ stN1a ++ stN1b1

set_option maxRecDepth 8192 in
set_option maxHeartbeats 4000000 in
/-- The window is the sequence of its operations: the called functions' definitions unfolded at their calls, both sides
    are one chain of host steps once the sequencing is reassociated. -/
theorem part1_eq (c : Dev nD) : main_part1 (F := F) c = seq part1Ops := by
  simp only [main_part1, fn_var.body, fn_where.body, fn_relu.body, seq, List.cons_append, List.nil_append, bind_assoc, pure_bind] <;> rfl

theorem part1_sub : (part1Ops : List (HloOp τ sig (Elt F))).Forall fun op => op.bufs ⊆ tcRefs τ sig :=
  List.forall_iff_forall_mem.mpr fun op h => by
    simp only [part1Ops, List.mem_append] at h
    rcases h with (((h | h) | h) | h) | h
    exacts [List.forall_iff_forall_mem.mp stN0b_sub op h, List.forall_iff_forall_mem.mp stA1_sub op h, List.forall_iff_forall_mem.mp stC1_sub op h, List.forall_iff_forall_mem.mp stN1a_sub op h, List.forall_iff_forall_mem.mp stN1b1_sub op h]

/-- Every operation of the window determines what it writes. -/
theorem part1_fresh : ∀ op ∈ (part1Ops : List (HloOp τ sig (Elt F))), op.fresh = ∅ := fun op h => by
  simp only [part1Ops, List.mem_append] at h
  rcases h with (((h | h) | h) | h) | h
  exacts [List.forall_iff_forall_mem.mp stN0b_fresh op h, List.forall_iff_forall_mem.mp stA1_fresh op h, List.forall_iff_forall_mem.mp stC1_fresh op h, List.forall_iff_forall_mem.mp stN1a_fresh op h, List.forall_iff_forall_mem.mp stN1b1_fresh op h]

end Cert.ReferenceIdeal.RefRun

end
-- ==== Proof.RefRunP2.lean ====
/-
  Statements of the reference program's window 2 as lists of host operations, one list per stretch, the functions the
  window calls written out at their calls over the calls' own buffers.  For each stretch: the list, the buffers it writes,
  that it touches only device buffers, and that a buffer it does not write keeps its contents through it.  Then the
  window itself is the sequence of its stretches.
-/
import proofs.«103646_j72808285602083_2_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1: the scaling, the affine map and the rectification (one stretch of it). -/
abbrev stN1b2 : List (HloOp τ sig (Elt F)) :=
  [ StableHlo.binary main_v96 main_v101 main_v102 (mulf : (⟨S100000x128, .f32⟩ : BufTy).Contents (Elt F) → (⟨S100000x128, .f32⟩ : BufTy).Contents (Elt F) → (⟨S100000x128, .f32⟩ : BufTy).Contents (Elt F)),
    StableHlo.unary main_arg7 main_v103 ((extractStridedSlice S1x128 ![1, 0] · slices_S3x128_S1x128_1_0) : (⟨S3x128, .f32⟩ : BufTy).Contents (Elt F) → (⟨S1x128, .f32⟩ : BufTy).Contents (Elt F)),
    StableHlo.reshape main_v103 main_v104 rfl shapeCasts_S1x128_S128,
    StableHlo.unary main_v104 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v102 main_v106 main_v107 (mulf : (⟨S100000x128, .f32⟩ : BufTy).Contents (Elt F) → (⟨S100000x128, .f32⟩ : BufTy).Contents (Elt F) → (⟨S100000x128, .f32⟩ : BufTy).Contents (Elt F)),
    StableHlo.unary main_arg8 main_v108 ((extractStridedSlice S1x128 ![1, 0] · slices_S3x128_S1x128_1_0) : (⟨S3x128, .f32⟩ : BufTy).Contents (Elt F) → (⟨S1x128, .f32⟩ : BufTy).Contents (Elt F)),
    StableHlo.reshape main_v108 main_v109 rfl shapeCasts_S1x128_S128,
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v111 main_v112 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v112 : StableHlo.TRef sig ⟨S100000x128, .f32⟩) main_call3.v0 main_call3.v1 maximumf,
    StableHlo.binary main_v113 main_v64 main_v114 (addf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stN1b2_W : List (Ref sig .tc) := [main_v102, main_v103, main_v104, main_v105, main_v106, main_v107, main_v108, main_v109, main_v110, main_v111, main_v112, main_call3_cst, main_call3_v0, main_v113, main_v114]

theorem stN1b2_sub : (stN1b2 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem stN1b2_fresh : (stN1b2 : List (HloOp τ sig (Elt F))).Forall fun op => op.fresh = ∅ :=
  ⟨rfl, rfl, rfl, rfl, rfl, rfl, rfl, rfl, rfl, rfl, rfl, rfl, rfl, rfl, rfl⟩

theorem stN1b2_writes : (stN1b2 : List (HloOp τ sig (Elt F))).Forall fun op => op.writes ⊆ (stN1b2_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stN1b2_keep (W : Valuation τ sig (Elt F)) (r : Ref sig .tc) (h : r ∉ stN1b2_W) :
    after stN1b2 W (Proc.devRef .tc r) = W (Proc.devRef .tc r) :=
  after_of_writes_sub stN1b2 W stN1b2_writes h

/-- Layer 2: the neighbour sum scaled by the reciprocal degree. -/
abbrev stA2 : List (HloOp τ sig (Elt F)) :=
  [ StableHlo.nullary main_c_16 (constantI S_ 32 0#32),
    StableHlo.unary main_c_16 main_v115 (broadcastInDim S600000 ![] bcast_S_S600000 : (⟨S_, .i32⟩ : BufTy).Contents (Elt F) → (⟨S600000, .i32⟩ : BufTy).Contents (Elt F)),
    StableHlo.binary main_v1 main_v115 main_v116 (cmpi .slt : (⟨S600000, .i32⟩ : BufTy).Contents (Elt F) → (⟨S600000, .i32⟩ : BufTy).Contents (Elt F) → (⟨S600000, .i1⟩ : BufTy).Contents (Elt F)),
    StableHlo.nullary main_c_17 (constantI S_ 32 100000#32),
    StableHlo.unary main_c_17 main_v117 (broadcastInDim S600000 ![] bcast_S_S600000 : (⟨S_, .i32⟩ : BufTy).Contents (Elt F) → (⟨S600000, .i32⟩ : BufTy).Contents (Elt F)),
    StableHlo.binary main_v1 main_v117 main_v118 (addi : (⟨S600000, .i32⟩ : BufTy).Contents (Elt F) → (⟨S600000, .i32⟩ : BufTy).Contents (Elt F) → (⟨S600000, .i32⟩ : BufTy).Contents (Elt F)),
    StableHlo.ternary main_v116 main_v118 main_v1 main_v119 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v119 main_v120 (broadcastInDim S600000x1 ![0] bcast_S600000_S600000x1_0 : (⟨S600000, .i32⟩ : BufTy).Contents (Elt F) → (⟨S600000x1, .i32⟩ : BufTy).Contents (Elt F)),
    StableHlo.binary main_v114 main_v120 main_v121 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_18 (constant S_ .f32 0x00000000#32),
    StableHlo.unary main_cst_18 main_v122 (broadcastInDim S100000x128 ![] bcast_S_S100000x128 : (⟨S_, .f32⟩ : BufTy).Contents (Elt F) → (⟨S100000x128, .f32⟩ : BufTy).Contents (Elt F)),
    StableHlo.unary main_v3 main_v123 (broadcastInDim S600000x1 ![0] bcast_S600000_S600000x1_0 : (⟨S600000, .i32⟩ : BufTy).Contents (Elt F) → (⟨S600000x1, .i32⟩ : BufTy).Contents (Elt F)),
    StableHlo.ternary main_v122 main_v123 main_v121 main_v124 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_v11 main_v125 (broadcastInDim S100000x1 ![0] bcast_S100000_S100000x1_0 : (⟨S100000, .f32⟩ : BufTy).Contents (Elt F) → (⟨S100000x1, .f32⟩ : BufTy).Contents (Elt F)),
    StableHlo.unary main_v125 main_v126 (broadcastInDim S100000x128 ![0, 1] bcast_S100000x1_S100000x128_0_1 : (⟨S100000x1, .f32⟩ : BufTy).Contents (Elt F) → (⟨S100000x128, .f32⟩ : BufTy).Contents (Elt F)),
    StableHlo.binary main_v124 main_v126 main_v127 (mulf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stA2_W : List (Ref sig .tc) := [main_c_16, main_v115, main_v116, main_c_17, main_v117, main_v118, main_v119, main_v120, main_v121, main_cst_18, main_v122, main_v123, main_v124, main_v125, main_v126, main_v127]

theorem stA2_sub : (stA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem stA2_fresh : (stA2 : List (HloOp τ sig (Elt F))).Forall fun op => op.fresh = ∅ :=
  ⟨rfl, rfl, rfl, rfl, rfl, rfl, rfl, rfl, rfl, rfl, rfl, rfl, rfl, rfl, rfl, rfl⟩

theorem stA2_writes : (stA2 : List (HloOp τ sig (Elt F))).Forall fun op => op.writes ⊆ (stA2_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stA2_keep (W : Valuation τ sig (Elt F)) (r : Ref sig .tc) (h : r ∉ stA2_W) :
    after stA2 W (Proc.devRef .tc r) = W (Proc.devRef .tc r) :=
  after_of_writes_sub stA2 W stA2_writes h

/-- Layer 2: the linear step. -/
abbrev stC2 : List (HloOp τ sig (Elt F)) :=
  [ StableHlo.unary main_arg4 main_v128 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v128 main_v129 rfl shapeCasts_S1x128x128_S128x128,
    StableHlo.binary main_v114 main_v129 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v131 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v131 main_v132 rfl shapeCasts_S1x128x128_S128x128,
    StableHlo.binary main_v127 main_v132 main_v133 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v130 main_v133 main_v134 (addf : (⟨S100000x128, .f32⟩ : BufTy).Contents (Elt F) → (⟨S100000x128, .f32⟩ : BufTy).Contents (Elt F) → (⟨S100000x128, .f32⟩ : BufTy).Contents (Elt F)),
    StableHlo.unary main_arg6 main_v135 ((extractStridedSlice S1x128 ![2, 0] · slices_S3x128_S1x128_2_0) : (⟨S3x128, .f32⟩ : BufTy).Contents (Elt F) → (⟨S1x128, .f32⟩ : BufTy).Contents (Elt F)),
    StableHlo.reshape main_v135 main_v136 rfl shapeCasts_S1x128_S128,
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v134 main_v138 main_v139 (addf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stC2_W : List (Ref sig .tc) := [main_v128, main_v129, main_v130, main_v131, main_v132, main_v133, main_v134, main_v135, main_v136, main_v137, main_v138, main_v139]

theorem stC2_sub : (stC2 : List (HloOp τ sig (Elt F))).Forall fun op => op.bufs ⊆ tcRefs τ sig :=
  ⟨unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

theorem stC2_fresh : (stC2 : List (HloOp τ sig (Elt F))).Forall fun op => op.fresh = ∅ :=
  ⟨rfl, rfl, rfl, rfl, rfl, rfl, rfl, rfl, rfl, rfl, rfl, rfl⟩

theorem stC2_writes : (stC2 : List (HloOp τ sig (Elt F))).Forall fun op => op.writes ⊆ (stC2_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stC2_keep (W : Valuation τ sig (Elt F)) (r : Ref sig .tc) (h : r ∉ stC2_W) :
    after stC2 W (Proc.devRef .tc r) = W (Proc.devRef .tc r) :=
  after_of_writes_sub stC2 W stC2_writes h

/-- Layer 2: the column mean, the two-pass variance, the centred rows and the epsilon vector. -/
abbrev stN2a : List (HloOp τ sig (Elt F)) :=
  [ StableHlo.nullary main_cst_19 (constant S_ .f32 0x00000000#32),
    StableHlo.binary main_v139 main_cst_19 main_v140 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v141 (broadcastInDim S128 ![] bcast_S_S128 : (⟨S_, .f32⟩ : BufTy).Contents (Elt F) → (⟨S128, .f32⟩ : BufTy).Contents (Elt F)),
    StableHlo.binary main_v140 main_v141 main_v142 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v139 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v139 : StableHlo.TRef sig ⟨S100000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v142 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v145 main_v146 (subf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v147 (broadcastInDim S128 ![] bcast_S_S128 : (⟨S_, .f32⟩ : BufTy).Contents (Elt F) → (⟨S128, .f32⟩ : BufTy).Contents (Elt F)) ]

/-- The buffers that stretch writes. -/
abbrev stN2a_W : List (Ref sig .tc) := [main_cst_19, main_v140, main_cst_20, main_v141, main_v142, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v143, main_v144, main_v145, main_v146, main_cst_22, main_v147]

theorem stN2a_sub : (stN2a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

theorem stN2a_fresh : (stN2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem stN2a_writes : (stN2a : List (HloOp τ sig (Elt F))).Forall fun op => op.writes ⊆ (stN2a_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stN2a_keep (W : Valuation τ sig (Elt F)) (r : Ref sig .tc) (h : r ∉ stN2a_W) :
    after stN2a W (Proc.devRef .tc r) = W (Proc.devRef .tc r) :=
  after_of_writes_sub stN2a W stN2a_writes h

/-- Layer 2: the scaling, the affine map and the rectification (one stretch of it). -/
abbrev stN2b1 : List (HloOp τ sig (Elt F)) :=
  [ StableHlo.binary main_v143 main_v147 main_v148 (addf : (⟨S128, .f32⟩ : BufTy).Contents (Elt F) → (⟨S128, .f32⟩ : BufTy).Contents (Elt F) → (⟨S128, .f32⟩ : BufTy).Contents (Elt F)),
    StableHlo.unary main_v148 main_v149 (Host.rsqrt : (⟨S128, .f32⟩ : BufTy).Contents (Elt F) → (⟨S128, .f32⟩ : BufTy).Contents (Elt F)),
    StableHlo.unary main_v149 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v151 main_v152 (mulf : (⟨S100000x128, .f32⟩ : BufTy).Contents (Elt F) → (⟨S100000x128, .f32⟩ : BufTy).Contents (Elt F) → (⟨S100000x128, .f32⟩ : BufTy).Contents (Elt F)),
    StableHlo.unary main_arg7 main_v153 ((extractStridedSlice S1x128 ![2, 0] · slices_S3x128_S1x128_2_0) : (⟨S3x128, .f32⟩ : BufTy).Contents (Elt F) → (⟨S1x128, .f32⟩ : BufTy).Contents (Elt F)),
    StableHlo.reshape main_v153 main_v154 rfl shapeCasts_S1x128_S128 ]

/-- The buffers that stretch writes. -/
abbrev stN2b1_W : List (Ref sig .tc) := [main_v148, main_v149, main_v150, main_v151, main_v152, main_v153, main_v154]

theorem stN2b1_sub : (stN2b1 : List (HloOp τ sig (Elt F))).Forall fun op => op.bufs ⊆ tcRefs τ sig :=
  ⟨binary_bufs_sub .., unary_bufs_sub .., unary_bufs_sub .., unary_bufs_sub .., binary_bufs_sub .., unary_bufs_sub .., reshape_bufs_sub ..⟩

theorem stN2b1_fresh : (stN2b1 : List (HloOp τ sig (Elt F))).Forall fun op => op.fresh = ∅ :=
  ⟨rfl, rfl, rfl, rfl, rfl, rfl, rfl⟩

theorem stN2b1_writes : (stN2b1 : List (HloOp τ sig (Elt F))).Forall fun op => op.writes ⊆ (stN2b1_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stN2b1_keep (W : Valuation τ sig (Elt F)) (r : Ref sig .tc) (h : r ∉ stN2b1_W) :
    after stN2b1 W (Proc.devRef .tc r) = W (Proc.devRef .tc r) :=
  after_of_writes_sub stN2b1 W stN2b1_writes h

/-- The window's operations, in order. -/
abbrev part2Ops : List (HloOp τ sig (Elt F)) := stN1b2 ++ stA2 ++ stC2 ++ stN2a ++ stN2b1

set_option maxRecDepth 8192 in
set_option maxHeartbeats 4000000 in
/-- The window is the sequence of its operations: the called functions' definitions unfolded at their calls, both sides
    are one chain of host steps once the sequencing is reassociated. -/
theorem part2_eq (c : Dev nD) : main_part2 (F := F) c = seq part2Ops := by
  simp only [main_part2, fn_var.body, fn_where.body, fn_relu.body, seq, List.cons_append, List.nil_append, bind_assoc, pure_bind] <;> rfl

theorem part2_sub : (part2Ops : List (HloOp τ sig (Elt F))).Forall fun op => op.bufs ⊆ tcRefs τ sig :=
  List.forall_iff_forall_mem.mpr fun op h => by
    simp only [part2Ops, List.mem_append] at h
    rcases h with (((h | h) | h) | h) | h
    exacts [List.forall_iff_forall_mem.mp stN1b2_sub op h, List.forall_iff_forall_mem.mp stA2_sub op h, List.forall_iff_forall_mem.mp stC2_sub op h, List.forall_iff_forall_mem.mp stN2a_sub op h, List.forall_iff_forall_mem.mp stN2b1_sub op h]

/-- Every operation of the window determines what it writes. -/
theorem part2_fresh : ∀ op ∈ (part2Ops : List (HloOp τ sig (Elt F))), op.fresh = ∅ := fun op h => by
  simp only [part2Ops, List.mem_append] at h
  rcases h with (((h | h) | h) | h) | h
  exacts [List.forall_iff_forall_mem.mp stN1b2_fresh op h, List.forall_iff_forall_mem.mp stA2_fresh op h, List.forall_iff_forall_mem.mp stC2_fresh op h, List.forall_iff_forall_mem.mp stN2a_fresh op h, List.forall_iff_forall_mem.mp stN2b1_fresh op h]

end Cert.ReferenceIdeal.RefRun

end
-- ==== Proof.RefRunP3.lean ====
/-
  Statements of the reference program's window 3 as lists of host operations, one list per stretch, the functions the
  window calls written out at their calls over the calls' own buffers.  For each stretch: the list, the buffers it writes,
  that it touches only device buffers, and that a buffer it does not write keeps its contents through it.  Then the
  window itself is the sequence of its stretches.
-/
import proofs.«103646_j72808285602083_2_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 2: the scaling, the affine map and the rectification (one stretch of it). -/
abbrev stN2b2 : List (HloOp τ sig (Elt F)) :=
  [ StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v156 main_v157 (mulf : (⟨S100000x128, .f32⟩ : BufTy).Contents (Elt F) → (⟨S100000x128, .f32⟩ : BufTy).Contents (Elt F) → (⟨S100000x128, .f32⟩ : BufTy).Contents (Elt F)),
    StableHlo.unary main_arg8 main_v158 ((extractStridedSlice S1x128 ![2, 0] · slices_S3x128_S1x128_2_0) : (⟨S3x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v161 main_v162 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v162 : StableHlo.TRef sig ⟨S100000x128, .f32⟩) main_call5.v0 main_call5.v1 maximumf,
    StableHlo.binary main_v163 main_v114 main_v164 (addf : (⟨S100000x128, .f32⟩ : BufTy).Contents (Elt F) → (⟨S100000x128, .f32⟩ : BufTy).Contents (Elt F) → (⟨S100000x128, .f32⟩ : BufTy).Contents (Elt F)) ]

/-- The buffers that stretch writes. -/
abbrev stN2b2_W : List (Ref sig .tc) := [main_v155, main_v156, main_v157, main_v158, main_v159, main_v160, main_v161, main_v162, main_call5_cst, main_call5_v0, main_v163, main_v164]

theorem stN2b2_sub : (stN2b2 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem stN2b2_fresh : (stN2b2 : List (HloOp τ sig (Elt F))).Forall fun op => op.fresh = ∅ :=
  ⟨rfl, rfl, rfl, rfl, rfl, rfl, rfl, rfl, rfl, rfl, rfl, rfl⟩

theorem stN2b2_writes : (stN2b2 : List (HloOp τ sig (Elt F))).Forall fun op => op.writes ⊆ (stN2b2_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stN2b2_keep (W : Valuation τ sig (Elt F)) (r : Ref sig .tc) (h : r ∉ stN2b2_W) :
    after stN2b2 W (Proc.devRef .tc r) = W (Proc.devRef .tc r) :=
  after_of_writes_sub stN2b2 W stN2b2_writes h

/-- The head. -/
abbrev stH : List (HloOp τ sig (Elt F)) :=
  [ StableHlo.binary main_v164 main_arg9 main_v165 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v166 (broadcastInDim S1x64 ![1] bcast_S64_S1x64_1 : (⟨S64, .f32⟩ : BufTy).Contents (Elt F) → (⟨S1x64, .f32⟩ : BufTy).Contents (Elt F)),
    StableHlo.unary main_v166 main_v167 (broadcastInDim S100000x64 ![0, 1] bcast_S1x64_S100000x64_0_1 : (⟨S1x64, .f32⟩ : BufTy).Contents (Elt F) → (⟨S100000x64, .f32⟩ : BufTy).Contents (Elt F)),
    StableHlo.binary main_v165 main_v167 main_v168 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v168 : StableHlo.TRef sig ⟨S100000x64, .f32⟩) main_call6.v0 main_call6.v1 maximumf,
    StableHlo.binary main_v169 main_arg11 main_v170 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    StableHlo.unary main_arg12 main_v171 (broadcastInDim S1x2 ![1] bcast_S2_S1x2_1 : (⟨S2, .f32⟩ : BufTy).Contents (Elt F) → (⟨S1x2, .f32⟩ : BufTy).Contents (Elt F)),
    StableHlo.unary main_v171 main_v172 (broadcastInDim S100000x2 ![0, 1] bcast_S1x2_S100000x2_0_1 : (⟨S1x2, .f32⟩ : BufTy).Contents (Elt F) → (⟨S100000x2, .f32⟩ : BufTy).Contents (Elt F)),
    StableHlo.binary main_v170 main_v172 main_v173 (addf : (⟨S100000x2, .f32⟩ : BufTy).Contents (Elt F) → (⟨S100000x2, .f32⟩ : BufTy).Contents (Elt F) → (⟨S100000x2, .f32⟩ : BufTy).Contents (Elt F)) ]

/-- The buffers that stretch writes. -/
abbrev stH_W : List (Ref sig .tc) := [main_v165, main_v166, main_v167, main_v168, main_call6_cst, main_call6_v0, main_v169, main_v170, main_v171, main_v172, main_v173]

theorem stH_sub : (stH : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem stH_fresh : (stH : List (HloOp τ sig (Elt F))).Forall fun op => op.fresh = ∅ :=
  ⟨rfl, rfl, rfl, rfl, rfl, rfl, rfl, rfl, rfl, rfl, rfl⟩

theorem stH_writes : (stH : List (HloOp τ sig (Elt F))).Forall fun op => op.writes ⊆ (stH_W.map (Proc.devRef (τ := τ) .tc)).toFinset :=
  ⟨writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide), writes_sub_of rfl (by decide)⟩

/-- A buffer the stretch does not write keeps its contents through it. -/
theorem stH_keep (W : Valuation τ sig (Elt F)) (r : Ref sig .tc) (h : r ∉ stH_W) :
    after stH W (Proc.devRef .tc r) = W (Proc.devRef .tc r) :=
  after_of_writes_sub stH W stH_writes h

/-- The window's operations, in order. -/
abbrev part3Ops : List (HloOp τ sig (Elt F)) := stN2b2 ++ stH

set_option maxRecDepth 8192 in
set_option maxHeartbeats 4000000 in
/-- The window is the sequence of its operations: the called functions' definitions unfolded at their calls, both sides
    are one chain of host steps once the sequencing is reassociated. -/
theorem part3_eq (c : Dev nD) : main_part3 (F := F) c = seq part3Ops := by
  simp only [main_part3, fn_relu.body, fn_relu_0.body, seq, List.cons_append, List.nil_append, bind_assoc, pure_bind] <;> rfl

theorem part3_sub : (part3Ops : List (HloOp τ sig (Elt F))).Forall fun op => op.bufs ⊆ tcRefs τ sig :=
  List.forall_iff_forall_mem.mpr fun op h => by
    simp only [part3Ops, List.mem_append] at h
    rcases h with h | h
    exacts [List.forall_iff_forall_mem.mp stN2b2_sub op h, List.forall_iff_forall_mem.mp stH_sub op h]

/-- Every operation of the window determines what it writes. -/
theorem part3_fresh : ∀ op ∈ (part3Ops : List (HloOp τ sig (Elt F))), op.fresh = ∅ := fun op h => by
  simp only [part3Ops, List.mem_append] at h
  rcases h with h | h
  exacts [List.forall_iff_forall_mem.mp stN2b2_fresh op h, List.forall_iff_forall_mem.mp stH_fresh op h]

end Cert.ReferenceIdeal.RefRun

end
-- ==== Proof.RefRunMain.lean ====
/-
  The reference program's entry function as one line of host operations, and its run read back as a fold.

  The entry function runs its four windows in order, so it is the sequence of the concatenation of their operation lists.
  The program scopes no buffer and no semaphore, every operation touches only device buffers and determines what it
  writes; so from any memory with zero counters every weakly fair execution terminates, and every buffer of every device
  ends at the fold of the operations' results over the contents the launch gave it.
-/
import proofs.«103646_j72808285602083_2_alg».proof.Proof.RefRunP0
import proofs.«103646_j72808285602083_2_alg».proof.Proof.RefRunP1
import proofs.«103646_j72808285602083_2_alg».proof.Proof.RefRunP2
import proofs.«103646_j72808285602083_2_alg».proof.Proof.RefRunP3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations, in order. -/
abbrev ops : List (HloOp τ sig (Elt F)) := part0Ops ++ (part1Ops ++ (part2Ops ++ part3Ops))

/-- The entry function is the sequence of its operations. -/
theorem main_eq (c : Dev nD) : main (F := F) c = seq ops := by
  simp only [ops, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp part0_sub op h
    rcases List.mem_append.mp h with h | h
    · exact List.forall_iff_forall_mem.mp part1_sub op h
    rcases List.mem_append.mp h with h | h
    · exact List.forall_iff_forall_mem.mp part2_sub op h
    · exact List.forall_iff_forall_mem.mp part3_sub op h

theorem ops_fresh : ∀ op ∈ (ops : List (HloOp τ sig (Elt F))), op.fresh = ∅ := fun op h => by
  rcases List.mem_append.mp h with h | h
  · exact part0_fresh op h
  rcases List.mem_append.mp h with h | h
  · exact part1_fresh op h
  rcases List.mem_append.mp h with h | h
  · exact part2_fresh op h
  · exact part3_fresh op h

/-- On every device, for any float values, from any memory with zero counters: every weakly fair execution of the entry
    function terminates, and every final state has each device buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.RefRunV0.lean ====
/-
  The stretches of the reference program's window 0 read back: after a stretch, from any buffer contents, each buffer
  a later stretch reads holds the stretch's operations composed, applied to the contents the stretch found in the
  buffers it reads.  The composed term of each such buffer is named, as a function of those contents.
-/
import proofs.«103646_j72808285602083_2_alg».proof.Proof.RefRunP0
import proofs.«103646_j72808285602083_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.TypedRef

variable {F : FTy → Type} [FloatOps F]

/-- The contents of `main_v1` after the stretch, as a function of the contents of `main_arg1`. -/
def tS0_v1 (x0 : (⟨S2x600000, .i32⟩ : BufTy).Contents (Elt F)) : (⟨S600000, .i32⟩ : BufTy).Contents (Elt F) :=
  shapeCast S600000 (((extractStridedSlice S1x600000 ![0, 0] · slices_S2x600000_S1x600000_0_0) : (⟨S2x600000, .i32⟩ : BufTy).Contents (Elt F) → (⟨S1x600000, .i32⟩ : BufTy).Contents (Elt F)) x0) shapeCasts_S1x600000_S600000

set_option maxRecDepth 8192 in
set_option maxHeartbeats 4000000 in
theorem stS0_v1 (W : Valuation τ sig (Elt F)) :
    after stS0 W (no_index (Proc.devRef .tc main_v1)) = tS0_v1 (W (Proc.devRef .tc main_arg1)) := by
  simp only [stS0]
  after_results_simp
  try simp only [ofBuf_toBuf]
  all_goals rfl

/-- The contents of `main_v3` after the stretch, as a function of the contents of `main_arg1`. -/
def tS0_v3 (x0 : (⟨S2x600000, .i32⟩ : BufTy).Contents (Elt F)) : (⟨S600000, .i32⟩ : BufTy).Contents (Elt F) :=
  shapeCast S600000 (((extractStridedSlice S1x600000 ![1, 0] · slices_S2x600000_S1x600000_1_0) : (⟨S2x600000, .i32⟩ : BufTy).Contents (Elt F) → (⟨S1x600000, .i32⟩ : BufTy).Contents (Elt F)) x0) shapeCasts_S1x600000_S600000

set_option maxRecDepth 8192 in
set_option maxHeartbeats 4000000 in
theorem stS0_v3 (W : Valuation τ sig (Elt F)) :
    after stS0 W (no_index (Proc.devRef .tc main_v3)) = tS0_v3 (W (Proc.devRef .tc main_arg1)) := by
  simp only [stS0]
  after_results_simp
  try simp only [ofBuf_toBuf]
  all_goals rfl

/-- The contents of `main_v11` after the stretch, as a function of the contents of `main_arg1`. -/
def tS0_v11 (x0 : (⟨S2x600000, .i32⟩ : BufTy).Contents (Elt F)) : (⟨S100000, .f32⟩ : BufTy).Contents (Elt F) :=
  (Host.divf : (⟨S100000, .f32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x3F800000#32)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast S600000 (((extractStridedSlice S1x600000 ![1, 0] · slices_S2x600000_S1x600000_1_0) : (⟨S2x600000, .i32⟩ : BufTy).Contents (Elt F) → (⟨S1x600000, .i32⟩ : BufTy).Contents (Elt F)) x0) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))

set_option maxRecDepth 8192 in
set_option maxHeartbeats 4000000 in
theorem stS0_v11 (W : Valuation τ sig (Elt F)) :
    after stS0 W (no_index (Proc.devRef .tc main_v11)) = tS0_v11 (W (Proc.devRef .tc main_arg1)) := by
  simp only [stS0]
  after_results_simp
  try simp only [ofBuf_toBuf]
  all_goals rfl

/-- The contents of `main_v15` after the stretch, as a function of the contents of `main_arg0`, `main_arg2`, `main_arg3`. -/
def tS0_v15 (x0 : (⟨S100000x12, .f32⟩ : BufTy).Contents (Elt F)) (x1 : (⟨S12x128, .f32⟩ : BufTy).Contents (Elt F)) (x2 : (⟨S128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x12_S12x128_S100000x128_1_0_0_1_n_n none l r) : (⟨S100000x12, .f32⟩ : BufTy).Contents (Elt F) → (⟨S12x128, .f32⟩ : BufTy).Contents (Elt F) → (⟨S100000x128, .f32⟩ : BufTy).Contents (Elt F)) x0 x1) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x2))

set_option maxRecDepth 8192 in
set_option maxHeartbeats 4000000 in
theorem stS0_v15 (W : Valuation τ sig (Elt F)) :
    after stS0 W (no_index (Proc.devRef .tc main_v15)) = tS0_v15 (W (Proc.devRef .tc main_arg0)) (W (Proc.devRef .tc main_arg2)) (W (Proc.devRef .tc main_arg3)) := by
  simp only [stS0]
  after_results_simp
  try simp only [ofBuf_toBuf]
  all_goals rfl

/-- The contents of `main_v28` after the stretch, as a function of the contents of `main_v3`, `main_v15`, `main_v1`, `main_v11`. -/
def tA0_v28 (x0 : (⟨S600000, .i32⟩ : BufTy).Contents (Elt F)) (x1 : (⟨S100000x128, .f32⟩ : BufTy).Contents (Elt F)) (x2 : (⟨S600000, .i32⟩ : BufTy).Contents (Elt F)) (x3 : (⟨S100000, .f32⟩ : BufTy).Contents (Elt F)) : (⟨S100000x128, .f32⟩ : BufTy).Contents (Elt F) :=
  (mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) x0) (((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) x1 ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) x2 ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) x2 ((broadcastInDim S600000 ![] bcast_S_S600000 : (⟨S_, .i32⟩ : BufTy).Contents (Elt F) → (⟨S600000, .i32⟩ : BufTy).Contents (Elt F)) (constantI S_ 32 100000#32))) x2)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) x3))

set_option maxRecDepth 8192 in
set_option maxHeartbeats 3200000 in
theorem stA0_v28 (W : Valuation τ sig (Elt F)) :
    after stA0 W (no_index (Proc.devRef .tc main_v28)) = tA0_v28 (W (Proc.devRef .tc main_v3)) (W (Proc.devRef .tc main_v15)) (W (Proc.devRef .tc main_v1)) (W (Proc.devRef .tc main_v11)) := by
  simp only [stA0]
  after_results_simp
  try simp only [ofBuf_toBuf]
  all_goals rfl

/-- The contents of `main_v40` after the stretch, as a function of the contents of `main_v15`, `main_arg4`, `main_v28`, `main_arg5`, `main_arg6`. -/
def tC0_v40 (x0 : (⟨S100000x128, .f32⟩ : BufTy).Contents (Elt F)) (x1 : (⟨S3x128x128, .f32⟩ : BufTy).Contents (Elt F)) (x2 : (⟨S100000x128, .f32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x0 (shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) x1) shapeCasts_S1x128x128_S128x128)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x2 (shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) x3) shapeCasts_S1x128x128_S128x128))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x4) shapeCasts_S1x128_S128)))

set_option maxRecDepth 8192 in
set_option maxHeartbeats 2400000 in
theorem stC0_v40 (W : Valuation τ sig (Elt F)) :
    after stC0 W (no_index (Proc.devRef .tc main_v40)) = tC0_v40 (W (Proc.devRef .tc main_v15)) (W (Proc.devRef .tc main_arg4)) (W (Proc.devRef .tc main_v28)) (W (Proc.devRef .tc main_arg5)) (W (Proc.devRef .tc main_arg6)) := by
  simp only [stC0]
  after_results_simp
  try simp only [ofBuf_toBuf]
  all_goals rfl

/-- The contents of `main_v44` after the stretch, as a function of the contents of `main_v40`. -/
def tN0a_v44 (x0 : (⟨S100000x128, .f32⟩ : BufTy).Contents (Elt F)) : (⟨S128, .f32⟩ : BufTy).Contents (Elt F) :=
  (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47C35000#32 : (⟨S_, .f32⟩ : BufTy).Contents (Elt F))) ((sitofp .f32 : (⟨S_, .i32⟩ : BufTy).Contents (Elt F) → (⟨S_, .f32⟩ : BufTy).Contents (Elt F)) (constantI S_ 32 0#32))) ((constant S_ .f32 0x00000000#32 : (⟨S_, .f32⟩ : BufTy).Contents (Elt F)))) ((Host.divf : (⟨S128, .f32⟩ : BufTy).Contents (Elt F) → (⟨S128, .f32⟩ : BufTy).Contents (Elt F) → (⟨S128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) x0 ((constant S_ .f32 0x00000000#32 : (⟨S_, .f32⟩ : BufTy).Contents (Elt F))))) ((broadcastInDim S1x128 ![] bcast_S_S1x128 : (⟨S_, .f32⟩ : BufTy).Contents (Elt F) → (⟨S1x128, .f32⟩ : BufTy).Contents (Elt F)) ((constant S_ .f32 0x47C35000#32 : (⟨S_, .f32⟩ : BufTy).Contents (Elt F))))))) ((subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) x0 ((constant S_ .f32 0x00000000#32 : (⟨S_, .f32⟩ : BufTy).Contents (Elt F))))) ((broadcastInDim S1x128 ![] bcast_S_S1x128 : (⟨S_, .f32⟩ : BufTy).Contents (Elt F) → (⟨S1x128, .f32⟩ : BufTy).Contents (Elt F)) ((constant S_ .f32 0x47C35000#32 : (⟨S_, .f32⟩ : BufTy).Contents (Elt F)))))))) ((constant S_ .f32 0x00000000#32 : (⟨S_, .f32⟩ : BufTy).Contents (Elt F)))) ((broadcastInDim S128 ![] bcast_S_S128 : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47C35000#32 : (⟨S_, .f32⟩ : BufTy).Contents (Elt F))) ((sitofp .f32 : (⟨S_, .i32⟩ : BufTy).Contents (Elt F) → (⟨S_, .f32⟩ : BufTy).Contents (Elt F)) (constantI S_ 32 0#32))))) ((broadcastInDim S128 ![] bcast_S_S128 : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))

set_option maxRecDepth 8192 in
set_option maxHeartbeats 4000000 in
theorem stN0a_v44 (W : Valuation τ sig (Elt F)) :
    after stN0a W (no_index (Proc.devRef .tc main_v44)) = tN0a_v44 (W (Proc.devRef .tc main_v40)) := by
  simp only [stN0a]
  after_results_simp
  try simp only [ofBuf_toBuf]
  all_goals rfl

/-- The contents of `main_v47` after the stretch, as a function of the contents of `main_v40`. -/
def tN0a_v47 (x0 : (⟨S100000x128, .f32⟩ : BufTy).Contents (Elt F)) : (⟨S100000x128, .f32⟩ : BufTy).Contents (Elt F) :=
  (subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) x0 (constant S_ .f32 0x00000000#32)) ((broadcastInDim S128 ![] bcast_S_S128 : (⟨S_, .f32⟩ : BufTy).Contents (Elt F) → (⟨S128, .f32⟩ : BufTy).Contents (Elt F)) (constant S_ .f32 0x47C35000#32)))))

set_option maxRecDepth 8192 in
set_option maxHeartbeats 4000000 in
theorem stN0a_v47 (W : Valuation τ sig (Elt F)) :
    after stN0a W (no_index (Proc.devRef .tc main_v47)) = tN0a_v47 (W (Proc.devRef .tc main_v40)) := by
  simp only [stN0a]
  after_results_simp
  try simp only [ofBuf_toBuf]
  all_goals rfl

/-- The contents of `main_v48` after the stretch, as a function of the contents of nothing. -/
def tN0a_v48  : (⟨S128, .f32⟩ : BufTy).Contents (Elt F) :=
  (broadcastInDim S128 ![] bcast_S_S128 : (⟨S_, .f32⟩ : BufTy).Contents (Elt F) → (⟨S128, .f32⟩ : BufTy).Contents (Elt F)) (constant S_ .f32 0x3727C5AC#32)

set_option maxRecDepth 8192 in
set_option maxHeartbeats 4000000 in
theorem stN0a_v48 (W : Valuation τ sig (Elt F)) :
    after stN0a W (no_index (Proc.devRef .tc main_v48)) = tN0a_v48  := by
  simp only [stN0a]
  after_results_simp
  try simp only [ofBuf_toBuf]
  all_goals rfl

end Cert.ReferenceIdeal.RefRun

end
-- ==== Proof.RefRunV1.lean ====
/-
  The stretches of the reference program's window 1 read back: after a stretch, from any buffer contents, each buffer
  a later stretch reads holds the stretch's operations composed, applied to the contents the stretch found in the
  buffers it reads.  The composed term of each such buffer is named, as a function of those contents.
-/
import proofs.«103646_j72808285602083_2_alg».proof.Proof.RefRunP1
import proofs.«103646_j72808285602083_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.TypedRef

variable {F : FTy → Type} [FloatOps F]

/-- The contents of `main_v64` after the stretch, as a function of the contents of `main_v47`, `main_v44`, `main_v48`, `main_arg7`, `main_arg8`. -/
def tN0b_v64 (x0 : (⟨S100000x128, .f32⟩ : BufTy).Contents (Elt F)) (x1 : (⟨S128, .f32⟩ : BufTy).Contents (Elt F)) (x2 : (⟨S128, .f32⟩ : BufTy).Contents (Elt F)) (x3 : (⟨S3x128, .f32⟩ : BufTy).Contents (Elt F)) (x4 : (⟨S3x128, .f32⟩ : BufTy).Contents (Elt F)) : (⟨S100000x128, .f32⟩ : BufTy).Contents (Elt F) :=
  (maximumf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) x1 x2))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x3) shapeCasts_S1x128_S128)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S3x128_S1x128_0_0) : (⟨S3x128, .f32⟩ : BufTy).Contents (Elt F) → (⟨S1x128, .f32⟩ : BufTy).Contents (Elt F)) x4) shapeCasts_S1x128_S128)))) ((broadcastInDim S100000x128 ![] bcast_S_S100000x128 : (⟨S_, .f32⟩ : BufTy).Contents (Elt F) → (⟨S100000x128, .f32⟩ : BufTy).Contents (Elt F)) ((constant S_ .f32 0x00000000#32 : (⟨S_, .f32⟩ : BufTy).Contents (Elt F))))

set_option maxRecDepth 8192 in
set_option maxHeartbeats 3600000 in
theorem stN0b_v64 (W : Valuation τ sig (Elt F)) :
    after stN0b W (no_index (Proc.devRef .tc main_v64)) = tN0b_v64 (W (Proc.devRef .tc main_v47)) (W (Proc.devRef .tc main_v44)) (W (Proc.devRef .tc main_v48)) (W (Proc.devRef .tc main_arg7)) (W (Proc.devRef .tc main_arg8)) := by
  simp only [stN0b]
  after_results_simp
  try simp only [ofBuf_toBuf]
  all_goals rfl

/-- The contents of `main_v77` after the stretch, as a function of the contents of `main_v3`, `main_v64`, `main_v1`, `main_v11`. -/
def tA1_v77 (x0 : (⟨S600000, .i32⟩ : BufTy).Contents (Elt F)) (x1 : (⟨S100000x128, .f32⟩ : BufTy).Contents (Elt F)) (x2 : (⟨S600000, .i32⟩ : BufTy).Contents (Elt F)) (x3 : (⟨S100000, .f32⟩ : BufTy).Contents (Elt F)) : (⟨S100000x128, .f32⟩ : BufTy).Contents (Elt F) :=
  (mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) x0) (((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) x1 ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) x2 ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) x2 ((broadcastInDim S600000 ![] bcast_S_S600000 : (⟨S_, .i32⟩ : BufTy).Contents (Elt F) → (⟨S600000, .i32⟩ : BufTy).Contents (Elt F)) (constantI S_ 32 100000#32))) x2)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) x3))

set_option maxRecDepth 8192 in
set_option maxHeartbeats 3200000 in
theorem stA1_v77 (W : Valuation τ sig (Elt F)) :
    after stA1 W (no_index (Proc.devRef .tc main_v77)) = tA1_v77 (W (Proc.devRef .tc main_v3)) (W (Proc.devRef .tc main_v64)) (W (Proc.devRef .tc main_v1)) (W (Proc.devRef .tc main_v11)) := by
  simp only [stA1]
  after_results_simp
  try simp only [ofBuf_toBuf]
  all_goals rfl

/-- The contents of `main_v89` after the stretch, as a function of the contents of `main_v64`, `main_arg4`, `main_v77`, `main_arg5`, `main_arg6`. -/
def tC1_v89 (x0 : (⟨S100000x128, .f32⟩ : BufTy).Contents (Elt F)) (x1 : (⟨S3x128x128, .f32⟩ : BufTy).Contents (Elt F)) (x2 : (⟨S100000x128, .f32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x0 (shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) x1) shapeCasts_S1x128x128_S128x128)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x2 (shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) x3) shapeCasts_S1x128x128_S128x128))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) x4) shapeCasts_S1x128_S128)))

set_option maxRecDepth 8192 in
set_option maxHeartbeats 2400000 in
theorem stC1_v89 (W : Valuation τ sig (Elt F)) :
    after stC1 W (no_index (Proc.devRef .tc main_v89)) = tC1_v89 (W (Proc.devRef .tc main_v64)) (W (Proc.devRef .tc main_arg4)) (W (Proc.devRef .tc main_v77)) (W (Proc.devRef .tc main_arg5)) (W (Proc.devRef .tc main_arg6)) := by
  simp only [stC1]
  after_results_simp
  try simp only [ofBuf_toBuf]
  all_goals rfl

/-- The contents of `main_v93` after the stretch, as a function of the contents of `main_v89`. -/
def tN1a_v93 (x0 : (⟨S100000x128, .f32⟩ : BufTy).Contents (Elt F)) : (⟨S128, .f32⟩ : BufTy).Contents (Elt F) :=
  (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47C35000#32 : (⟨S_, .f32⟩ : BufTy).Contents (Elt F))) ((sitofp .f32 : (⟨S_, .i32⟩ : BufTy).Contents (Elt F) → (⟨S_, .f32⟩ : BufTy).Contents (Elt F)) (constantI S_ 32 0#32))) ((constant S_ .f32 0x00000000#32 : (⟨S_, .f32⟩ : BufTy).Contents (Elt F)))) ((Host.divf : (⟨S128, .f32⟩ : BufTy).Contents (Elt F) → (⟨S128, .f32⟩ : BufTy).Contents (Elt F) → (⟨S128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) x0 ((constant S_ .f32 0x00000000#32 : (⟨S_, .f32⟩ : BufTy).Contents (Elt F))))) ((broadcastInDim S1x128 ![] bcast_S_S1x128 : (⟨S_, .f32⟩ : BufTy).Contents (Elt F) → (⟨S1x128, .f32⟩ : BufTy).Contents (Elt F)) ((constant S_ .f32 0x47C35000#32 : (⟨S_, .f32⟩ : BufTy).Contents (Elt F))))))) ((subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) x0 ((constant S_ .f32 0x00000000#32 : (⟨S_, .f32⟩ : BufTy).Contents (Elt F))))) ((broadcastInDim S1x128 ![] bcast_S_S1x128 : (⟨S_, .f32⟩ : BufTy).Contents (Elt F) → (⟨S1x128, .f32⟩ : BufTy).Contents (Elt F)) ((constant S_ .f32 0x47C35000#32 : (⟨S_, .f32⟩ : BufTy).Contents (Elt F)))))))) ((constant S_ .f32 0x00000000#32 : (⟨S_, .f32⟩ : BufTy).Contents (Elt F)))) ((broadcastInDim S128 ![] bcast_S_S128 : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47C35000#32 : (⟨S_, .f32⟩ : BufTy).Contents (Elt F))) ((sitofp .f32 : (⟨S_, .i32⟩ : BufTy).Contents (Elt F) → (⟨S_, .f32⟩ : BufTy).Contents (Elt F)) (constantI S_ 32 0#32))))) ((broadcastInDim S128 ![] bcast_S_S128 : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))

set_option maxRecDepth 8192 in
set_option maxHeartbeats 4000000 in
theorem stN1a_v93 (W : Valuation τ sig (Elt F)) :
    after stN1a W (no_index (Proc.devRef .tc main_v93)) = tN1a_v93 (W (Proc.devRef .tc main_v89)) := by
  simp only [stN1a]
  after_results_simp
  try simp only [ofBuf_toBuf]
  all_goals rfl

/-- The contents of `main_v96` after the stretch, as a function of the contents of `main_v89`. -/
def tN1a_v96 (x0 : (⟨S100000x128, .f32⟩ : BufTy).Contents (Elt F)) : (⟨S100000x128, .f32⟩ : BufTy).Contents (Elt F) :=
  (subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) x0 (constant S_ .f32 0x00000000#32)) ((broadcastInDim S128 ![] bcast_S_S128 : (⟨S_, .f32⟩ : BufTy).Contents (Elt F) → (⟨S128, .f32⟩ : BufTy).Contents (Elt F)) (constant S_ .f32 0x47C35000#32)))))

set_option maxRecDepth 8192 in
set_option maxHeartbeats 4000000 in
theorem stN1a_v96 (W : Valuation τ sig (Elt F)) :
    after stN1a W (no_index (Proc.devRef .tc main_v96)) = tN1a_v96 (W (Proc.devRef .tc main_v89)) := by
  simp only [stN1a]
  after_results_simp
  try simp only [ofBuf_toBuf]
  all_goals rfl

/-- The contents of `main_v97` after the stretch, as a function of the contents of nothing. -/
def tN1a_v97  : (⟨S128, .f32⟩ : BufTy).Contents (Elt F) :=
  (broadcastInDim S128 ![] bcast_S_S128 : (⟨S_, .f32⟩ : BufTy).Contents (Elt F) → (⟨S128, .f32⟩ : BufTy).Contents (Elt F)) (constant S_ .f32 0x3727C5AC#32)

set_option maxRecDepth 8192 in
set_option maxHeartbeats 4000000 in
theorem stN1a_v97 (W : Valuation τ sig (Elt F)) :
    after stN1a W (no_index (Proc.devRef .tc main_v97)) = tN1a_v97  := by
  simp only [stN1a]
  after_results_simp
  try simp only [ofBuf_toBuf]
  all_goals rfl

/-- The contents of `main_v101` after the stretch, as a function of the contents of `main_v93`, `main_v97`. -/
def tN1b1_v101 (x0 : (⟨S128, .f32⟩ : BufTy).Contents (Elt F)) (x1 : (⟨S128, .f32⟩ : BufTy).Contents (Elt F)) : (⟨S100000x128, .f32⟩ : BufTy).Contents (Elt F) :=
  (broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) x0 x1)))

set_option maxRecDepth 8192 in
theorem stN1b1_v101 (W : Valuation τ sig (Elt F)) :
    after stN1b1 W (no_index (Proc.devRef .tc main_v101)) = tN1b1_v101 (W (Proc.devRef .tc main_v93)) (W (Proc.devRef .tc main_v97)) := by
  simp only [stN1b1]
  after_results_simp
  try simp only [ofBuf_toBuf]
  all_goals rfl

end Cert.ReferenceIdeal.RefRun

end
-- ==== Proof.RefRunV2.lean ====
/-
  The stretches of the reference program's window 2 read back: after a stretch, from any buffer contents, each buffer
  a later stretch reads holds the stretch's operations composed, applied to the contents the stretch found in the
  buffers it reads.  The composed term of each such buffer is named, as a function of those contents.
-/
import proofs.«103646_j72808285602083_2_alg».proof.Proof.RefRunP2
import proofs.«103646_j72808285602083_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.TypedRef

variable {F : FTy → Type} [FloatOps F]

/-- The contents of `main_v114` after the stretch, as a function of the contents of `main_v96`, `main_v101`, `main_arg7`, `main_arg8`, `main_v64`. -/
def tN1b2_v114 (x0 : (⟨S100000x128, .f32⟩ : BufTy).Contents (Elt F)) (x1 : (⟨S100000x128, .f32⟩ : BufTy).Contents (Elt F)) (x2 : (⟨S3x128, .f32⟩ : BufTy).Contents (Elt F)) (x3 : (⟨S3x128, .f32⟩ : BufTy).Contents (Elt F)) (x4 : (⟨S100000x128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x0 x1) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) x2) shapeCasts_S1x128_S128)))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![1, 0] · slices_S3x128_S1x128_1_0) : (⟨S3x128, .f32⟩ : BufTy).Contents (Elt F) → (⟨S1x128, .f32⟩ : BufTy).Contents (Elt F)) x3) shapeCasts_S1x128_S128)))) ((broadcastInDim S100000x128 ![] bcast_S_S100000x128 : (⟨S_, .f32⟩ : BufTy).Contents (Elt F) → (⟨S100000x128, .f32⟩ : BufTy).Contents (Elt F)) ((constant S_ .f32 0x00000000#32 : (⟨S_, .f32⟩ : BufTy).Contents (Elt F))))) x4

set_option maxRecDepth 8192 in
set_option maxHeartbeats 3000000 in
theorem stN1b2_v114 (W : Valuation τ sig (Elt F)) :
    after stN1b2 W (no_index (Proc.devRef .tc main_v114)) = tN1b2_v114 (W (Proc.devRef .tc main_v96)) (W (Proc.devRef .tc main_v101)) (W (Proc.devRef .tc main_arg7)) (W (Proc.devRef .tc main_arg8)) (W (Proc.devRef .tc main_v64)) := by
  simp only [stN1b2]
  after_results_simp
  try simp only [ofBuf_toBuf]
  all_goals rfl

/-- The contents of `main_v127` after the stretch, as a function of the contents of `main_v3`, `main_v114`, `main_v1`, `main_v11`. -/
def tA2_v127 (x0 : (⟨S600000, .i32⟩ : BufTy).Contents (Elt F)) (x1 : (⟨S100000x128, .f32⟩ : BufTy).Contents (Elt F)) (x2 : (⟨S600000, .i32⟩ : BufTy).Contents (Elt F)) (x3 : (⟨S100000, .f32⟩ : BufTy).Contents (Elt F)) : (⟨S100000x128, .f32⟩ : BufTy).Contents (Elt F) :=
  (mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) x0) (((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) x1 ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) x2 ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) x2 ((broadcastInDim S600000 ![] bcast_S_S600000 : (⟨S_, .i32⟩ : BufTy).Contents (Elt F) → (⟨S600000, .i32⟩ : BufTy).Contents (Elt F)) (constantI S_ 32 100000#32))) x2)))) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) x3))

set_option maxRecDepth 8192 in
set_option maxHeartbeats 3200000 in
theorem stA2_v127 (W : Valuation τ sig (Elt F)) :
    after stA2 W (no_index (Proc.devRef .tc main_v127)) = tA2_v127 (W (Proc.devRef .tc main_v3)) (W (Proc.devRef .tc main_v114)) (W (Proc.devRef .tc main_v1)) (W (Proc.devRef .tc main_v11)) := by
  simp only [stA2]
  after_results_simp
  try simp only [ofBuf_toBuf]
  all_goals rfl

/-- The contents of `main_v139` after the stretch, as a function of the contents of `main_v114`, `main_arg4`, `main_v127`, `main_arg5`, `main_arg6`. -/
def tC2_v139 (x0 : (⟨S100000x128, .f32⟩ : BufTy).Contents (Elt F)) (x1 : (⟨S3x128x128, .f32⟩ : BufTy).Contents (Elt F)) (x2 : (⟨S100000x128, .f32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x0 (shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) x1) shapeCasts_S1x128x128_S128x128)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x2 (shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) x3) shapeCasts_S1x128x128_S128x128))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) x4) shapeCasts_S1x128_S128)))

set_option maxRecDepth 8192 in
set_option maxHeartbeats 2400000 in
theorem stC2_v139 (W : Valuation τ sig (Elt F)) :
    after stC2 W (no_index (Proc.devRef .tc main_v139)) = tC2_v139 (W (Proc.devRef .tc main_v114)) (W (Proc.devRef .tc main_arg4)) (W (Proc.devRef .tc main_v127)) (W (Proc.devRef .tc main_arg5)) (W (Proc.devRef .tc main_arg6)) := by
  simp only [stC2]
  after_results_simp
  try simp only [ofBuf_toBuf]
  all_goals rfl

/-- The contents of `main_v143` after the stretch, as a function of the contents of `main_v139`. -/
def tN2a_v143 (x0 : (⟨S100000x128, .f32⟩ : BufTy).Contents (Elt F)) : (⟨S128, .f32⟩ : BufTy).Contents (Elt F) :=
  (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47C35000#32 : (⟨S_, .f32⟩ : BufTy).Contents (Elt F))) ((sitofp .f32 : (⟨S_, .i32⟩ : BufTy).Contents (Elt F) → (⟨S_, .f32⟩ : BufTy).Contents (Elt F)) (constantI S_ 32 0#32))) ((constant S_ .f32 0x00000000#32 : (⟨S_, .f32⟩ : BufTy).Contents (Elt F)))) ((Host.divf : (⟨S128, .f32⟩ : BufTy).Contents (Elt F) → (⟨S128, .f32⟩ : BufTy).Contents (Elt F) → (⟨S128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) x0 ((constant S_ .f32 0x00000000#32 : (⟨S_, .f32⟩ : BufTy).Contents (Elt F))))) ((broadcastInDim S1x128 ![] bcast_S_S1x128 : (⟨S_, .f32⟩ : BufTy).Contents (Elt F) → (⟨S1x128, .f32⟩ : BufTy).Contents (Elt F)) ((constant S_ .f32 0x47C35000#32 : (⟨S_, .f32⟩ : BufTy).Contents (Elt F))))))) ((subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S100000x128_S128_d0 h_S_ : (⟨S100000x128, .f32⟩ : BufTy).Contents (Elt F) → (⟨S_, .f32⟩ : BufTy).Contents (Elt F) → (⟨S128, .f32⟩ : BufTy).Contents (Elt F)) x0 ((constant S_ .f32 0x00000000#32 : (⟨S_, .f32⟩ : BufTy).Contents (Elt F))))) ((broadcastInDim S1x128 ![] bcast_S_S1x128 : (⟨S_, .f32⟩ : BufTy).Contents (Elt F) → (⟨S1x128, .f32⟩ : BufTy).Contents (Elt F)) ((constant S_ .f32 0x47C35000#32 : (⟨S_, .f32⟩ : BufTy).Contents (Elt F)))))))) ((constant S_ .f32 0x00000000#32 : (⟨S_, .f32⟩ : BufTy).Contents (Elt F)))) ((broadcastInDim S128 ![] bcast_S_S128 : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47C35000#32 : (⟨S_, .f32⟩ : BufTy).Contents (Elt F))) ((sitofp .f32 : (⟨S_, .i32⟩ : BufTy).Contents (Elt F) → (⟨S_, .f32⟩ : BufTy).Contents (Elt F)) (constantI S_ 32 0#32))))) ((broadcastInDim S128 ![] bcast_S_S128 : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))

set_option maxRecDepth 8192 in
set_option maxHeartbeats 4000000 in
theorem stN2a_v143 (W : Valuation τ sig (Elt F)) :
    after stN2a W (no_index (Proc.devRef .tc main_v143)) = tN2a_v143 (W (Proc.devRef .tc main_v139)) := by
  simp only [stN2a]
  after_results_simp
  try simp only [ofBuf_toBuf]
  all_goals rfl

/-- The contents of `main_v146` after the stretch, as a function of the contents of `main_v139`. -/
def tN2a_v146 (x0 : (⟨S100000x128, .f32⟩ : BufTy).Contents (Elt F)) : (⟨S100000x128, .f32⟩ : BufTy).Contents (Elt F) :=
  (subf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) x0 (constant S_ .f32 0x00000000#32)) ((broadcastInDim S128 ![] bcast_S_S128 : (⟨S_, .f32⟩ : BufTy).Contents (Elt F) → (⟨S128, .f32⟩ : BufTy).Contents (Elt F)) (constant S_ .f32 0x47C35000#32)))))

set_option maxRecDepth 8192 in
set_option maxHeartbeats 4000000 in
theorem stN2a_v146 (W : Valuation τ sig (Elt F)) :
    after stN2a W (no_index (Proc.devRef .tc main_v146)) = tN2a_v146 (W (Proc.devRef .tc main_v139)) := by
  simp only [stN2a]
  after_results_simp
  try simp only [ofBuf_toBuf]
  all_goals rfl

/-- The contents of `main_v147` after the stretch, as a function of the contents of nothing. -/
def tN2a_v147  : (⟨S128, .f32⟩ : BufTy).Contents (Elt F) :=
  (broadcastInDim S128 ![] bcast_S_S128 : (⟨S_, .f32⟩ : BufTy).Contents (Elt F) → (⟨S128, .f32⟩ : BufTy).Contents (Elt F)) (constant S_ .f32 0x3727C5AC#32)

set_option maxRecDepth 8192 in
set_option maxHeartbeats 4000000 in
theorem stN2a_v147 (W : Valuation τ sig (Elt F)) :
    after stN2a W (no_index (Proc.devRef .tc main_v147)) = tN2a_v147  := by
  simp only [stN2a]
  after_results_simp
  try simp only [ofBuf_toBuf]
  all_goals rfl

/-- The contents of `main_v152` after the stretch, as a function of the contents of `main_v146`, `main_v143`, `main_v147`. -/
def tN2b1_v152 (x0 : (⟨S100000x128, .f32⟩ : BufTy).Contents (Elt F)) (x1 : (⟨S128, .f32⟩ : BufTy).Contents (Elt F)) (x2 : (⟨S128, .f32⟩ : BufTy).Contents (Elt F)) : (⟨S100000x128, .f32⟩ : BufTy).Contents (Elt F) :=
  (mulf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) x1 x2))))

set_option maxRecDepth 8192 in
theorem stN2b1_v152 (W : Valuation τ sig (Elt F)) :
    after stN2b1 W (no_index (Proc.devRef .tc main_v152)) = tN2b1_v152 (W (Proc.devRef .tc main_v146)) (W (Proc.devRef .tc main_v143)) (W (Proc.devRef .tc main_v147)) := by
  simp only [stN2b1]
  after_results_simp
  try simp only [ofBuf_toBuf]
  all_goals rfl

/-- The contents of `main_v154` after the stretch, as a function of the contents of `main_arg7`. -/
def tN2b1_v154 (x0 : (⟨S3x128, .f32⟩ : BufTy).Contents (Elt F)) : (⟨S128, .f32⟩ : BufTy).Contents (Elt F) :=
  shapeCast S128 (((extractStridedSlice S1x128 ![2, 0] · slices_S3x128_S1x128_2_0) : (⟨S3x128, .f32⟩ : BufTy).Contents (Elt F) → (⟨S1x128, .f32⟩ : BufTy).Contents (Elt F)) x0) shapeCasts_S1x128_S128

set_option maxRecDepth 8192 in
theorem stN2b1_v154 (W : Valuation τ sig (Elt F)) :
    after stN2b1 W (no_index (Proc.devRef .tc main_v154)) = tN2b1_v154 (W (Proc.devRef .tc main_arg7)) := by
  simp only [stN2b1]
  after_results_simp
  try simp only [ofBuf_toBuf]
  all_goals rfl

end Cert.ReferenceIdeal.RefRun

end
-- ==== Proof.RefRunV3.lean ====
/-
  The stretches of the reference program's window 3 read back: after a stretch, from any buffer contents, each buffer
  a later stretch reads holds the stretch's operations composed, applied to the contents the stretch found in the
  buffers it reads.  The composed term of each such buffer is named, as a function of those contents.
-/
import proofs.«103646_j72808285602083_2_alg».proof.Proof.RefRunP3
import proofs.«103646_j72808285602083_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.TypedRef

variable {F : FTy → Type} [FloatOps F]

/-- The contents of `main_v164` after the stretch, as a function of the contents of `main_v152`, `main_v154`, `main_arg8`, `main_v114`. -/
def tN2b2_v164 (x0 : (⟨S100000x128, .f32⟩ : BufTy).Contents (Elt F)) (x1 : (⟨S128, .f32⟩ : BufTy).Contents (Elt F)) (x2 : (⟨S3x128, .f32⟩ : BufTy).Contents (Elt F)) (x3 : (⟨S100000x128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) x0 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x1))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![2, 0] · slices_S3x128_S1x128_2_0) : (⟨S3x128, .f32⟩ : BufTy).Contents (Elt F) → (⟨S1x128, .f32⟩ : BufTy).Contents (Elt F)) x2) shapeCasts_S1x128_S128)))) ((broadcastInDim S100000x128 ![] bcast_S_S100000x128 : (⟨S_, .f32⟩ : BufTy).Contents (Elt F) → (⟨S100000x128, .f32⟩ : BufTy).Contents (Elt F)) ((constant S_ .f32 0x00000000#32 : (⟨S_, .f32⟩ : BufTy).Contents (Elt F))))) x3

set_option maxRecDepth 8192 in
set_option maxHeartbeats 2400000 in
theorem stN2b2_v164 (W : Valuation τ sig (Elt F)) :
    after stN2b2 W (no_index (Proc.devRef .tc main_v164)) = tN2b2_v164 (W (Proc.devRef .tc main_v152)) (W (Proc.devRef .tc main_v154)) (W (Proc.devRef .tc main_arg8)) (W (Proc.devRef .tc main_v114)) := by
  simp only [stN2b2]
  after_results_simp
  try simp only [ofBuf_toBuf]
  all_goals rfl

/-- The contents of `main_v173` after the stretch, as a function of the contents of `main_v164`, `main_arg9`, `main_arg10`, `main_arg11`, `main_arg12`. -/
def tH_v173 (x0 : (⟨S100000x128, .f32⟩ : BufTy).Contents (Elt F)) (x1 : (⟨S128x64, .f32⟩ : BufTy).Contents (Elt F)) (x2 : (⟨S64, .f32⟩ : BufTy).Contents (Elt F)) (x3 : (⟨S64x2, .f32⟩ : BufTy).Contents (Elt F)) (x4 : (⟨S2, .f32⟩ : BufTy).Contents (Elt F)) : (⟨S100000x2, .f32⟩ : BufTy).Contents (Elt F) :=
  (addf : (⟨S100000x2, .f32⟩ : BufTy).Contents (Elt F) → (⟨S100000x2, .f32⟩ : BufTy).Contents (Elt F) → (⟨S100000x2, .f32⟩ : BufTy).Contents (Elt F)) (((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)) ((maximumf : (⟨S100000x64, .f32⟩ : BufTy).Contents (Elt F) → (⟨S100000x64, .f32⟩ : BufTy).Contents (Elt F) → (⟨S100000x64, .f32⟩ : BufTy).Contents (Elt F)) ((addf : (⟨S100000x64, .f32⟩ : BufTy).Contents (Elt F) → (⟨S100000x64, .f32⟩ : BufTy).Contents (Elt F) → (⟨S100000x64, .f32⟩ : BufTy).Contents (Elt F)) (((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) x0 x1) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) x2))) ((broadcastInDim S100000x64 ![] bcast_S_S100000x64 : (⟨S_, .f32⟩ : BufTy).Contents (Elt F) → (⟨S100000x64, .f32⟩ : BufTy).Contents (Elt F)) ((constant S_ .f32 0x00000000#32 : (⟨S_, .f32⟩ : BufTy).Contents (Elt F))))) x3) ((broadcastInDim S100000x2 ![0, 1] bcast_S1x2_S100000x2_0_1 : (⟨S1x2, .f32⟩ : BufTy).Contents (Elt F) → (⟨S100000x2, .f32⟩ : BufTy).Contents (Elt F)) ((broadcastInDim S1x2 ![1] bcast_S2_S1x2_1 : (⟨S2, .f32⟩ : BufTy).Contents (Elt F) → (⟨S1x2, .f32⟩ : BufTy).Contents (Elt F)) x4))

set_option maxRecDepth 8192 in
set_option maxHeartbeats 2200000 in
theorem stH_v173 (W : Valuation τ sig (Elt F)) :
    after stH W (no_index (Proc.devRef .tc main_v173)) = tH_v173 (W (Proc.devRef .tc main_v164)) (W (Proc.devRef .tc main_arg9)) (W (Proc.devRef .tc main_arg10)) (W (Proc.devRef .tc main_arg11)) (W (Proc.devRef .tc main_arg12)) := by
  simp only [stH]
  after_results_simp
  try simp only [ofBuf_toBuf]
  all_goals rfl

end Cert.ReferenceIdeal.RefRun

end
-- ==== Proof.RefRunStages.lean ====
/-
  The composed terms of the reference program's stretches, at the extended reals, are the network's stages: the
  stretches cut the program at other places than the stages do, and each equation below regroups the same host
  operations, so each holds by unfolding the definitions.
-/
import proofs.«103646_j72808285602083_2_alg».proof.Proof.RefRunV0
import proofs.«103646_j72808285602083_2_alg».proof.Proof.RefRunV1
import proofs.«103646_j72808285602083_2_alg».proof.Proof.RefRunV2
import proofs.«103646_j72808285602083_2_alg».proof.Proof.RefRunV3
import proofs.«103646_j72808285602083_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.RefStages

attribute [local irreducible] Host.reduceAdd Host.scatterAdd Host.gather

/-- Row 0 of the edge index array. -/
theorem tS0_v1_eq (e : IVec S2x600000 32) : tS0_v1 (F := Ideal) e = hostRow0 e := rfl

/-- Row 1 of the edge index array. -/
theorem tS0_v3_eq (e : IVec S2x600000 32) : tS0_v3 (F := Ideal) e = hostRow1 e := rfl

/-- The reciprocal clamped in-degree. -/
theorem tS0_v11_eq (e : IVec S2x600000 32) : tS0_v11 (F := Ideal) e = hostInvDeg (hostDstCol e) := rfl

/-- The embedding. -/
theorem tS0_v15_eq (x : FVec Ideal S100000x12 .f32) (w : FVec Ideal S12x128 .f32) (b : FVec Ideal S128 .f32) :
    tS0_v15 (F := Ideal) x w b = hostEmbed x w b := rfl

/-- Layer 0: the scaled neighbour sum and the linear step. -/
theorem conv0_eq (H : FVec Ideal S100000x128 .f32) (a4 : FVec Ideal S3x128x128 .f32) (dst src : IVec S600000 32)
    (g : FVec Ideal S100000 .f32) (a5 : FVec Ideal S3x128x128 .f32) (a6 : FVec Ideal S3x128 .f32) :
    tC0_v40 (F := Ideal) H a4 (tA0_v28 (F := Ideal) dst H src g) a5 a6
      = hostConv H (hostAgg H (hostCol (hostWrap src)) (hostCol dst)) g
          (hostSlab a4 ![0, 0, 0] slices_S3x128x128_S1x128x128_0_0_0) (hostSlab a5 ![0, 0, 0] slices_S3x128x128_S1x128x128_0_0_0)
          (hostRowAt a6 ![0, 0] slices_S3x128_S1x128_0_0) := rfl

/-- Layer 1: the scaled neighbour sum and the linear step. -/
theorem conv1_eq (H : FVec Ideal S100000x128 .f32) (a4 : FVec Ideal S3x128x128 .f32) (dst src : IVec S600000 32)
    (g : FVec Ideal S100000 .f32) (a5 : FVec Ideal S3x128x128 .f32) (a6 : FVec Ideal S3x128 .f32) :
    tC1_v89 (F := Ideal) H a4 (tA1_v77 (F := Ideal) dst H src g) a5 a6
      = hostConv H (hostAgg H (hostCol (hostWrap src)) (hostCol dst)) g
          (hostSlab a4 ![1, 0, 0] slices_S3x128x128_S1x128x128_1_0_0) (hostSlab a5 ![1, 0, 0] slices_S3x128x128_S1x128x128_1_0_0)
          (hostRowAt a6 ![1, 0] slices_S3x128_S1x128_1_0) := rfl

/-- Layer 2: the scaled neighbour sum and the linear step. -/
theorem conv2_eq (H : FVec Ideal S100000x128 .f32) (a4 : FVec Ideal S3x128x128 .f32) (dst src : IVec S600000 32)
    (g : FVec Ideal S100000 .f32) (a5 : FVec Ideal S3x128x128 .f32) (a6 : FVec Ideal S3x128 .f32) :
    tC2_v139 (F := Ideal) H a4 (tA2_v127 (F := Ideal) dst H src g) a5 a6
      = hostConv H (hostAgg H (hostCol (hostWrap src)) (hostCol dst)) g
          (hostSlab a4 ![2, 0, 0] slices_S3x128x128_S1x128x128_2_0_0) (hostSlab a5 ![2, 0, 0] slices_S3x128x128_S1x128x128_2_0_0)
          (hostRowAt a6 ![2, 0] slices_S3x128_S1x128_2_0) := rfl

/-- Layer 0: mean, variance and normalisation. -/
theorem norm0_eq (Y : FVec Ideal S100000x128 .f32) (a7 a8 : FVec Ideal S3x128 .f32) :
    tN0b_v64 (F := Ideal) (tN0a_v47 (F := Ideal) Y) (tN0a_v44 (F := Ideal) Y) (tN0a_v48 (F := Ideal)) a7 a8
      = hostNorm Y (hostMean Y) (hostVar Y) (hostRowAt a7 ![0, 0] slices_S3x128_S1x128_0_0)
          (hostRowAt a8 ![0, 0] slices_S3x128_S1x128_0_0) := rfl

/-- Layer 1: mean, variance, normalisation and the residual sum. -/
theorem norm1_eq (Y : FVec Ideal S100000x128 .f32) (a7 a8 : FVec Ideal S3x128 .f32) (R : FVec Ideal S100000x128 .f32) :
    tN1b2_v114 (F := Ideal) (tN1a_v96 (F := Ideal) Y) (tN1b1_v101 (F := Ideal) (tN1a_v93 (F := Ideal) Y) (tN1a_v97 (F := Ideal))) a7 a8 R
      = hostAddRes (hostNorm Y (hostMean Y) (hostVar Y) (hostRowAt a7 ![1, 0] slices_S3x128_S1x128_1_0)
          (hostRowAt a8 ![1, 0] slices_S3x128_S1x128_1_0)) R := rfl

/-- Layer 2: mean, variance, normalisation and the residual sum. -/
theorem norm2_eq (Y : FVec Ideal S100000x128 .f32) (a7 a8 : FVec Ideal S3x128 .f32) (R : FVec Ideal S100000x128 .f32) :
    tN2b2_v164 (F := Ideal) (tN2b1_v152 (F := Ideal) (tN2a_v146 (F := Ideal) Y) (tN2a_v143 (F := Ideal) Y) (tN2a_v147 (F := Ideal)))
        (tN2b1_v154 (F := Ideal) a7) a8 R
      = hostAddRes (hostNorm Y (hostMean Y) (hostVar Y) (hostRowAt a7 ![2, 0] slices_S3x128_S1x128_2_0)
          (hostRowAt a8 ![2, 0] slices_S3x128_S1x128_2_0)) R := rfl

/-- The head. -/
theorem head_eq (H : FVec Ideal S100000x128 .f32) (a9 : FVec Ideal S128x64 .f32) (a10 : FVec Ideal S64 .f32)
    (a11 : FVec Ideal S64x2 .f32) (a12 : FVec Ideal S2 .f32) :
    tH_v173 (F := Ideal) H a9 a10 a11 a12 = hostHead H a9 a10 a11 a12 := rfl

end Cert.ReferenceIdeal.RefRun

end
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.RefRunChain.lean ====
/-
  The reference program's fold read stretch by stretch, at the extended reals.

  The buffer contents after the first k stretches are a function of the contents the launch gave; for each buffer a
  later stretch still reads, that function is the composition of the network's stages over the thirteen argument
  arrays: the edge rows, the reciprocal clamped in-degree, the embedding, and per layer the linear step of the scaled
  neighbour sum, the two-pass normalisation with its rectification and (from the second layer on) the residual sum,
  then the head.  The argument arrays themselves are never written.  At the end the result buffer holds the whole
  network applied to the argument arrays.
-/
import proofs.«103646_j72808285602083_2_alg».proof.Proof.RefRunMain
import proofs.«103646_j72808285602083_2_alg».proof.Proof.RefRunV0
import proofs.«103646_j72808285602083_2_alg».proof.Proof.RefRunV1
import proofs.«103646_j72808285602083_2_alg».proof.Proof.RefRunV2
import proofs.«103646_j72808285602083_2_alg».proof.Proof.RefRunV3
import proofs.«103646_j72808285602083_2_alg».proof.Proof.RefRunStages
import proofs.«103646_j72808285602083_2_alg».proof.Proof.LibPadSplit

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.RefStages Cert.PadSplit

/-- The thirteen argument buffers. -/
abbrev argRefs : List (Ref sig .tc) := [main_arg0, main_arg1, main_arg2, main_arg3, main_arg4, main_arg5, main_arg6, main_arg7, main_arg8, main_arg9, main_arg10, main_arg11, main_arg12]

/-- The reciprocal clamped in-degree of the argument edge array. -/
def dgV (V : Valuation τ sig (Elt Ideal)) : FVec Ideal S100000 .f32 := hostInvDeg (hostDstCol (V (Proc.devRef .tc main_arg1)))

/-- The embedded features. -/
def h0V (V : Valuation τ sig (Elt Ideal)) : FVec Ideal S100000x128 .f32 := hostEmbed (V (Proc.devRef .tc main_arg0)) (V (Proc.devRef .tc main_arg2)) (V (Proc.devRef .tc main_arg3))

/-- Layer 0: the linear step of its input rows and their scaled neighbour sums. -/
def y0V (V : Valuation τ sig (Elt Ideal)) : FVec Ideal S100000x128 .f32 :=
  hostConv (h0V V) (hostAgg (h0V V) (hostSrcCol (V (Proc.devRef .tc main_arg1))) (hostDstCol (V (Proc.devRef .tc main_arg1)))) (dgV V) (hostSlab (V (Proc.devRef .tc main_arg4)) ![0, 0, 0] slices_S3x128x128_S1x128x128_0_0_0) (hostSlab (V (Proc.devRef .tc main_arg5)) ![0, 0, 0] slices_S3x128x128_S1x128x128_0_0_0) (hostRowAt (V (Proc.devRef .tc main_arg6)) ![0, 0] slices_S3x128_S1x128_0_0)

/-- Layer 0: its output rows. -/
def h1V (V : Valuation τ sig (Elt Ideal)) : FVec Ideal S100000x128 .f32 :=
  hostNorm (y0V V) (hostMean (y0V V)) (hostVar (y0V V)) (hostRowAt (V (Proc.devRef .tc main_arg7)) ![0, 0] slices_S3x128_S1x128_0_0) (hostRowAt (V (Proc.devRef .tc main_arg8)) ![0, 0] slices_S3x128_S1x128_0_0)

/-- Layer 1: the linear step of its input rows and their scaled neighbour sums. -/
def y1V (V : Valuation τ sig (Elt Ideal)) : FVec Ideal S100000x128 .f32 :=
  hostConv (h1V V) (hostAgg (h1V V) (hostSrcCol (V (Proc.devRef .tc main_arg1))) (hostDstCol (V (Proc.devRef .tc main_arg1)))) (dgV V) (hostSlab (V (Proc.devRef .tc main_arg4)) ![1, 0, 0] slices_S3x128x128_S1x128x128_1_0_0) (hostSlab (V (Proc.devRef .tc main_arg5)) ![1, 0, 0] slices_S3x128x128_S1x128x128_1_0_0) (hostRowAt (V (Proc.devRef .tc main_arg6)) ![1, 0] slices_S3x128_S1x128_1_0)

/-- Layer 1: its output rows, the residual sum included. -/
def h2V (V : Valuation τ sig (Elt Ideal)) : FVec Ideal S100000x128 .f32 :=
  hostAddRes (hostNorm (y1V V) (hostMean (y1V V)) (hostVar (y1V V)) (hostRowAt (V (Proc.devRef .tc main_arg7)) ![1, 0] slices_S3x128_S1x128_1_0) (hostRowAt (V (Proc.devRef .tc main_arg8)) ![1, 0] slices_S3x128_S1x128_1_0)) (h1V V)

/-- Layer 2: the linear step of its input rows and their scaled neighbour sums. -/
def y2V (V : Valuation τ sig (Elt Ideal)) : FVec Ideal S100000x128 .f32 :=
  hostConv (h2V V) (hostAgg (h2V V) (hostSrcCol (V (Proc.devRef .tc main_arg1))) (hostDstCol (V (Proc.devRef .tc main_arg1)))) (dgV V) (hostSlab (V (Proc.devRef .tc main_arg4)) ![2, 0, 0] slices_S3x128x128_S1x128x128_2_0_0) (hostSlab (V (Proc.devRef .tc main_arg5)) ![2, 0, 0] slices_S3x128x128_S1x128x128_2_0_0) (hostRowAt (V (Proc.devRef .tc main_arg6)) ![2, 0] slices_S3x128_S1x128_2_0)

/-- Layer 2: its output rows, the residual sum included. -/
def h3V (V : Valuation τ sig (Elt Ideal)) : FVec Ideal S100000x128 .f32 :=
  hostAddRes (hostNorm (y2V V) (hostMean (y2V V)) (hostVar (y2V V)) (hostRowAt (V (Proc.devRef .tc main_arg7)) ![2, 0] slices_S3x128_S1x128_2_0) (hostRowAt (V (Proc.devRef .tc main_arg8)) ![2, 0] slices_S3x128_S1x128_2_0)) (h2V V)

/-- The head applied to the last layer's rows. -/
def outV (V : Valuation τ sig (Elt Ideal)) : FVec Ideal S100000x2 .f32 := hostHead (h3V V) (V (Proc.devRef .tc main_arg9)) (V (Proc.devRef .tc main_arg10)) (V (Proc.devRef .tc main_arg11)) (V (Proc.devRef .tc main_arg12))

/-- That composition is the network of the stage functions. -/
theorem outV_eq (V : Valuation τ sig (Elt Ideal)) :
    outV V = hostNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := rfl

/-- The buffer contents before the first stretch. -/
def val0 (V : Valuation τ sig (Elt Ideal)) : Valuation τ sig (Elt Ideal) := V
theorem val0_arg (V : Valuation τ sig (Elt Ideal)) (r : Ref sig .tc) (_ : r ∈ argRefs) : val0 V (Proc.devRef .tc r) = V (Proc.devRef .tc r) := rfl

/-- The buffer contents after the first 1 stretch. -/
def val1 (V : Valuation τ sig (Elt Ideal)) : Valuation τ sig (Elt Ideal) := after stS0 (val0 V)
theorem args_notin1 : ∀ r ∈ argRefs, r ∉ stS0_W := by decide
theorem val1_arg (V : Valuation τ sig (Elt Ideal)) (r : Ref sig .tc) (hr : r ∈ argRefs) : val1 V (Proc.devRef .tc r) = V (Proc.devRef .tc r) :=
  (stS0_keep _ r (args_notin1 r hr)).trans (val0_arg V r hr)
theorem val1_v1 (V : Valuation τ sig (Elt Ideal)) : val1 V (no_index (Proc.devRef .tc main_v1)) = (hostRow0 (V (Proc.devRef .tc main_arg1))) := by
  unfold val1
  rw [stS0_v1, val0_arg V main_arg1 (by decide)]
  exact tS0_v1_eq _
theorem val1_v3 (V : Valuation τ sig (Elt Ideal)) : val1 V (no_index (Proc.devRef .tc main_v3)) = (hostRow1 (V (Proc.devRef .tc main_arg1))) := by
  unfold val1
  rw [stS0_v3, val0_arg V main_arg1 (by decide)]
  exact tS0_v3_eq _
theorem val1_v11 (V : Valuation τ sig (Elt Ideal)) : val1 V (no_index (Proc.devRef .tc main_v11)) = dgV V := by
  unfold val1
  rw [stS0_v11, val0_arg V main_arg1 (by decide)]
  exact tS0_v11_eq _
theorem val1_v15 (V : Valuation τ sig (Elt Ideal)) : val1 V (no_index (Proc.devRef .tc main_v15)) = h0V V := by
  unfold val1
  rw [stS0_v15, val0_arg V main_arg0 (by decide), val0_arg V main_arg2 (by decide), val0_arg V main_arg3 (by decide)]
  exact tS0_v15_eq _ _ _

/-- The buffer contents after the first 2 stretches. -/
def val2 (V : Valuation τ sig (Elt Ideal)) : Valuation τ sig (Elt Ideal) := after stA0 (val1 V)
theorem args_notin2 : ∀ r ∈ argRefs, r ∉ stA0_W := by decide
theorem val2_arg (V : Valuation τ sig (Elt Ideal)) (r : Ref sig .tc) (hr : r ∈ argRefs) : val2 V (Proc.devRef .tc r) = V (Proc.devRef .tc r) :=
  (stA0_keep _ r (args_notin2 r hr)).trans (val1_arg V r hr)
theorem val2_v1 (V : Valuation τ sig (Elt Ideal)) : val2 V (no_index (Proc.devRef .tc main_v1)) = (hostRow0 (V (Proc.devRef .tc main_arg1))) :=
  (stA0_keep _ main_v1 (by decide)).trans (val1_v1 V)
theorem val2_v3 (V : Valuation τ sig (Elt Ideal)) : val2 V (no_index (Proc.devRef .tc main_v3)) = (hostRow1 (V (Proc.devRef .tc main_arg1))) :=
  (stA0_keep _ main_v3 (by decide)).trans (val1_v3 V)
theorem val2_v11 (V : Valuation τ sig (Elt Ideal)) : val2 V (no_index (Proc.devRef .tc main_v11)) = dgV V :=
  (stA0_keep _ main_v11 (by decide)).trans (val1_v11 V)
theorem val2_v15 (V : Valuation τ sig (Elt Ideal)) : val2 V (no_index (Proc.devRef .tc main_v15)) = h0V V :=
  (stA0_keep _ main_v15 (by decide)).trans (val1_v15 V)
theorem val2_v28 (V : Valuation τ sig (Elt Ideal)) : val2 V (no_index (Proc.devRef .tc main_v28)) = tA0_v28 (F := Ideal) (hostRow1 (V (Proc.devRef .tc main_arg1))) (h0V V) (hostRow0 (V (Proc.devRef .tc main_arg1))) (dgV V) := by
  unfold val2
  rw [stA0_v28, val1_v3 V, val1_v15 V, val1_v1 V, val1_v11 V]

/-- The buffer contents after the first 3 stretches. -/
def val3 (V : Valuation τ sig (Elt Ideal)) : Valuation τ sig (Elt Ideal) := after stC0 (val2 V)
theorem args_notin3 : ∀ r ∈ argRefs, r ∉ stC0_W := by decide
theorem val3_arg (V : Valuation τ sig (Elt Ideal)) (r : Ref sig .tc) (hr : r ∈ argRefs) : val3 V (Proc.devRef .tc r) = V (Proc.devRef .tc r) :=
  (stC0_keep _ r (args_notin3 r hr)).trans (val2_arg V r hr)
theorem val3_v1 (V : Valuation τ sig (Elt Ideal)) : val3 V (no_index (Proc.devRef .tc main_v1)) = (hostRow0 (V (Proc.devRef .tc main_arg1))) :=
  (stC0_keep _ main_v1 (by decide)).trans (val2_v1 V)
theorem val3_v3 (V : Valuation τ sig (Elt Ideal)) : val3 V (no_index (Proc.devRef .tc main_v3)) = (hostRow1 (V (Proc.devRef .tc main_arg1))) :=
  (stC0_keep _ main_v3 (by decide)).trans (val2_v3 V)
theorem val3_v11 (V : Valuation τ sig (Elt Ideal)) : val3 V (no_index (Proc.devRef .tc main_v11)) = dgV V :=
  (stC0_keep _ main_v11 (by decide)).trans (val2_v11 V)
theorem val3_v40 (V : Valuation τ sig (Elt Ideal)) : val3 V (no_index (Proc.devRef .tc main_v40)) = y0V V := by
  unfold val3
  rw [stC0_v40, val2_v15 V, val2_arg V main_arg4 (by decide), val2_v28 V, val2_arg V main_arg5 (by decide), val2_arg V main_arg6 (by decide)]
  exact conv0_eq ..

/-- The buffer contents after the first 4 stretches. -/
def val4 (V : Valuation τ sig (Elt Ideal)) : Valuation τ sig (Elt Ideal) := after stN0a (val3 V)
theorem args_notin4 : ∀ r ∈ argRefs, r ∉ stN0a_W := by decide
theorem val4_arg (V : Valuation τ sig (Elt Ideal)) (r : Ref sig .tc) (hr : r ∈ argRefs) : val4 V (Proc.devRef .tc r) = V (Proc.devRef .tc r) :=
  (stN0a_keep _ r (args_notin4 r hr)).trans (val3_arg V r hr)
theorem val4_v1 (V : Valuation τ sig (Elt Ideal)) : val4 V (no_index (Proc.devRef .tc main_v1)) = (hostRow0 (V (Proc.devRef .tc main_arg1))) :=
  (stN0a_keep _ main_v1 (by decide)).trans (val3_v1 V)
theorem val4_v3 (V : Valuation τ sig (Elt Ideal)) : val4 V (no_index (Proc.devRef .tc main_v3)) = (hostRow1 (V (Proc.devRef .tc main_arg1))) :=
  (stN0a_keep _ main_v3 (by decide)).trans (val3_v3 V)
theorem val4_v11 (V : Valuation τ sig (Elt Ideal)) : val4 V (no_index (Proc.devRef .tc main_v11)) = dgV V :=
  (stN0a_keep _ main_v11 (by decide)).trans (val3_v11 V)
theorem val4_v44 (V : Valuation τ sig (Elt Ideal)) : val4 V (no_index (Proc.devRef .tc main_v44)) = tN0a_v44 (F := Ideal) (y0V V) := by
  unfold val4
  rw [stN0a_v44, val3_v40 V]
theorem val4_v47 (V : Valuation τ sig (Elt Ideal)) : val4 V (no_index (Proc.devRef .tc main_v47)) = tN0a_v47 (F := Ideal) (y0V V) := by
  unfold val4
  rw [stN0a_v47, val3_v40 V]
theorem val4_v48 (V : Valuation τ sig (Elt Ideal)) : val4 V (no_index (Proc.devRef .tc main_v48)) = tN0a_v48 (F := Ideal) := by
  unfold val4
  rw [stN0a_v48]

/-- The buffer contents after the first 5 stretches. -/
def val5 (V : Valuation τ sig (Elt Ideal)) : Valuation τ sig (Elt Ideal) := after stN0b (val4 V)
theorem args_notin5 : ∀ r ∈ argRefs, r ∉ stN0b_W := by decide
theorem val5_arg (V : Valuation τ sig (Elt Ideal)) (r : Ref sig .tc) (hr : r ∈ argRefs) : val5 V (Proc.devRef .tc r) = V (Proc.devRef .tc r) :=
  (stN0b_keep _ r (args_notin5 r hr)).trans (val4_arg V r hr)
theorem val5_v1 (V : Valuation τ sig (Elt Ideal)) : val5 V (no_index (Proc.devRef .tc main_v1)) = (hostRow0 (V (Proc.devRef .tc main_arg1))) :=
  (stN0b_keep _ main_v1 (by decide)).trans (val4_v1 V)
theorem val5_v3 (V : Valuation τ sig (Elt Ideal)) : val5 V (no_index (Proc.devRef .tc main_v3)) = (hostRow1 (V (Proc.devRef .tc main_arg1))) :=
  (stN0b_keep _ main_v3 (by decide)).trans (val4_v3 V)
theorem val5_v11 (V : Valuation τ sig (Elt Ideal)) : val5 V (no_index (Proc.devRef .tc main_v11)) = dgV V :=
  (stN0b_keep _ main_v11 (by decide)).trans (val4_v11 V)
theorem val5_v64 (V : Valuation τ sig (Elt Ideal)) : val5 V (no_index (Proc.devRef .tc main_v64)) = h1V V := by
  unfold val5
  rw [stN0b_v64, val4_v47 V, val4_v44 V, val4_v48 V, val4_arg V main_arg7 (by decide), val4_arg V main_arg8 (by decide)]
  exact norm0_eq ..

/-- The buffer contents after the first 6 stretches. -/
def val6 (V : Valuation τ sig (Elt Ideal)) : Valuation τ sig (Elt Ideal) := after stA1 (val5 V)
theorem args_notin6 : ∀ r ∈ argRefs, r ∉ stA1_W := by decide
theorem val6_arg (V : Valuation τ sig (Elt Ideal)) (r : Ref sig .tc) (hr : r ∈ argRefs) : val6 V (Proc.devRef .tc r) = V (Proc.devRef .tc r) :=
  (stA1_keep _ r (args_notin6 r hr)).trans (val5_arg V r hr)
theorem val6_v1 (V : Valuation τ sig (Elt Ideal)) : val6 V (no_index (Proc.devRef .tc main_v1)) = (hostRow0 (V (Proc.devRef .tc main_arg1))) :=
  (stA1_keep _ main_v1 (by decide)).trans (val5_v1 V)
theorem val6_v3 (V : Valuation τ sig (Elt Ideal)) : val6 V (no_index (Proc.devRef .tc main_v3)) = (hostRow1 (V (Proc.devRef .tc main_arg1))) :=
  (stA1_keep _ main_v3 (by decide)).trans (val5_v3 V)
theorem val6_v11 (V : Valuation τ sig (Elt Ideal)) : val6 V (no_index (Proc.devRef .tc main_v11)) = dgV V :=
  (stA1_keep _ main_v11 (by decide)).trans (val5_v11 V)
theorem val6_v64 (V : Valuation τ sig (Elt Ideal)) : val6 V (no_index (Proc.devRef .tc main_v64)) = h1V V :=
  (stA1_keep _ main_v64 (by decide)).trans (val5_v64 V)
theorem val6_v77 (V : Valuation τ sig (Elt Ideal)) : val6 V (no_index (Proc.devRef .tc main_v77)) = tA1_v77 (F := Ideal) (hostRow1 (V (Proc.devRef .tc main_arg1))) (h1V V) (hostRow0 (V (Proc.devRef .tc main_arg1))) (dgV V) := by
  unfold val6
  rw [stA1_v77, val5_v3 V, val5_v64 V, val5_v1 V, val5_v11 V]

/-- The buffer contents after the first 7 stretches. -/
def val7 (V : Valuation τ sig (Elt Ideal)) : Valuation τ sig (Elt Ideal) := after stC1 (val6 V)
theorem args_notin7 : ∀ r ∈ argRefs, r ∉ stC1_W := by decide
theorem val7_arg (V : Valuation τ sig (Elt Ideal)) (r : Ref sig .tc) (hr : r ∈ argRefs) : val7 V (Proc.devRef .tc r) = V (Proc.devRef .tc r) :=
  (stC1_keep _ r (args_notin7 r hr)).trans (val6_arg V r hr)
theorem val7_v1 (V : Valuation τ sig (Elt Ideal)) : val7 V (no_index (Proc.devRef .tc main_v1)) = (hostRow0 (V (Proc.devRef .tc main_arg1))) :=
  (stC1_keep _ main_v1 (by decide)).trans (val6_v1 V)
theorem val7_v3 (V : Valuation τ sig (Elt Ideal)) : val7 V (no_index (Proc.devRef .tc main_v3)) = (hostRow1 (V (Proc.devRef .tc main_arg1))) :=
  (stC1_keep _ main_v3 (by decide)).trans (val6_v3 V)
theorem val7_v11 (V : Valuation τ sig (Elt Ideal)) : val7 V (no_index (Proc.devRef .tc main_v11)) = dgV V :=
  (stC1_keep _ main_v11 (by decide)).trans (val6_v11 V)
theorem val7_v64 (V : Valuation τ sig (Elt Ideal)) : val7 V (no_index (Proc.devRef .tc main_v64)) = h1V V :=
  (stC1_keep _ main_v64 (by decide)).trans (val6_v64 V)
theorem val7_v89 (V : Valuation τ sig (Elt Ideal)) : val7 V (no_index (Proc.devRef .tc main_v89)) = y1V V := by
  unfold val7
  rw [stC1_v89, val6_v64 V, val6_arg V main_arg4 (by decide), val6_v77 V, val6_arg V main_arg5 (by decide), val6_arg V main_arg6 (by decide)]
  exact conv1_eq ..

/-- The buffer contents after the first 8 stretches. -/
def val8 (V : Valuation τ sig (Elt Ideal)) : Valuation τ sig (Elt Ideal) := after stN1a (val7 V)
theorem args_notin8 : ∀ r ∈ argRefs, r ∉ stN1a_W := by decide
theorem val8_arg (V : Valuation τ sig (Elt Ideal)) (r : Ref sig .tc) (hr : r ∈ argRefs) : val8 V (Proc.devRef .tc r) = V (Proc.devRef .tc r) :=
  (stN1a_keep _ r (args_notin8 r hr)).trans (val7_arg V r hr)
theorem val8_v1 (V : Valuation τ sig (Elt Ideal)) : val8 V (no_index (Proc.devRef .tc main_v1)) = (hostRow0 (V (Proc.devRef .tc main_arg1))) :=
  (stN1a_keep _ main_v1 (by decide)).trans (val7_v1 V)
theorem val8_v3 (V : Valuation τ sig (Elt Ideal)) : val8 V (no_index (Proc.devRef .tc main_v3)) = (hostRow1 (V (Proc.devRef .tc main_arg1))) :=
  (stN1a_keep _ main_v3 (by decide)).trans (val7_v3 V)
theorem val8_v11 (V : Valuation τ sig (Elt Ideal)) : val8 V (no_index (Proc.devRef .tc main_v11)) = dgV V :=
  (stN1a_keep _ main_v11 (by decide)).trans (val7_v11 V)
theorem val8_v64 (V : Valuation τ sig (Elt Ideal)) : val8 V (no_index (Proc.devRef .tc main_v64)) = h1V V :=
  (stN1a_keep _ main_v64 (by decide)).trans (val7_v64 V)
theorem val8_v93 (V : Valuation τ sig (Elt Ideal)) : val8 V (no_index (Proc.devRef .tc main_v93)) = tN1a_v93 (F := Ideal) (y1V V) := by
  unfold val8
  rw [stN1a_v93, val7_v89 V]
theorem val8_v96 (V : Valuation τ sig (Elt Ideal)) : val8 V (no_index (Proc.devRef .tc main_v96)) = tN1a_v96 (F := Ideal) (y1V V) := by
  unfold val8
  rw [stN1a_v96, val7_v89 V]
theorem val8_v97 (V : Valuation τ sig (Elt Ideal)) : val8 V (no_index (Proc.devRef .tc main_v97)) = tN1a_v97 (F := Ideal) := by
  unfold val8
  rw [stN1a_v97]

/-- The buffer contents after the first 9 stretches. -/
def val9 (V : Valuation τ sig (Elt Ideal)) : Valuation τ sig (Elt Ideal) := after stN1b1 (val8 V)
theorem args_notin9 : ∀ r ∈ argRefs, r ∉ stN1b1_W := by decide
theorem val9_arg (V : Valuation τ sig (Elt Ideal)) (r : Ref sig .tc) (hr : r ∈ argRefs) : val9 V (Proc.devRef .tc r) = V (Proc.devRef .tc r) :=
  (stN1b1_keep _ r (args_notin9 r hr)).trans (val8_arg V r hr)
theorem val9_v1 (V : Valuation τ sig (Elt Ideal)) : val9 V (no_index (Proc.devRef .tc main_v1)) = (hostRow0 (V (Proc.devRef .tc main_arg1))) :=
  (stN1b1_keep _ main_v1 (by decide)).trans (val8_v1 V)
theorem val9_v3 (V : Valuation τ sig (Elt Ideal)) : val9 V (no_index (Proc.devRef .tc main_v3)) = (hostRow1 (V (Proc.devRef .tc main_arg1))) :=
  (stN1b1_keep _ main_v3 (by decide)).trans (val8_v3 V)
theorem val9_v11 (V : Valuation τ sig (Elt Ideal)) : val9 V (no_index (Proc.devRef .tc main_v11)) = dgV V :=
  (stN1b1_keep _ main_v11 (by decide)).trans (val8_v11 V)
theorem val9_v64 (V : Valuation τ sig (Elt Ideal)) : val9 V (no_index (Proc.devRef .tc main_v64)) = h1V V :=
  (stN1b1_keep _ main_v64 (by decide)).trans (val8_v64 V)
theorem val9_v96 (V : Valuation τ sig (Elt Ideal)) : val9 V (no_index (Proc.devRef .tc main_v96)) = tN1a_v96 (F := Ideal) (y1V V) :=
  (stN1b1_keep _ main_v96 (by decide)).trans (val8_v96 V)
theorem val9_v101 (V : Valuation τ sig (Elt Ideal)) : val9 V (no_index (Proc.devRef .tc main_v101)) = tN1b1_v101 (F := Ideal) (tN1a_v93 (F := Ideal) (y1V V)) (tN1a_v97 (F := Ideal)) := by
  unfold val9
  rw [stN1b1_v101, val8_v93 V, val8_v97 V]

/-- The buffer contents after the first 10 stretches. -/
def val10 (V : Valuation τ sig (Elt Ideal)) : Valuation τ sig (Elt Ideal) := after stN1b2 (val9 V)
theorem args_notin10 : ∀ r ∈ argRefs, r ∉ stN1b2_W := by decide
theorem val10_arg (V : Valuation τ sig (Elt Ideal)) (r : Ref sig .tc) (hr : r ∈ argRefs) : val10 V (Proc.devRef .tc r) = V (Proc.devRef .tc r) :=
  (stN1b2_keep _ r (args_notin10 r hr)).trans (val9_arg V r hr)
theorem val10_v1 (V : Valuation τ sig (Elt Ideal)) : val10 V (no_index (Proc.devRef .tc main_v1)) = (hostRow0 (V (Proc.devRef .tc main_arg1))) :=
  (stN1b2_keep _ main_v1 (by decide)).trans (val9_v1 V)
theorem val10_v3 (V : Valuation τ sig (Elt Ideal)) : val10 V (no_index (Proc.devRef .tc main_v3)) = (hostRow1 (V (Proc.devRef .tc main_arg1))) :=
  (stN1b2_keep _ main_v3 (by decide)).trans (val9_v3 V)
theorem val10_v11 (V : Valuation τ sig (Elt Ideal)) : val10 V (no_index (Proc.devRef .tc main_v11)) = dgV V :=
  (stN1b2_keep _ main_v11 (by decide)).trans (val9_v11 V)
theorem val10_v114 (V : Valuation τ sig (Elt Ideal)) : val10 V (no_index (Proc.devRef .tc main_v114)) = h2V V := by
  unfold val10
  rw [stN1b2_v114, val9_v96 V, val9_v101 V, val9_arg V main_arg7 (by decide), val9_arg V main_arg8 (by decide), val9_v64 V]
  exact norm1_eq ..

/-- The buffer contents after the first 11 stretches. -/
def val11 (V : Valuation τ sig (Elt Ideal)) : Valuation τ sig (Elt Ideal) := after stA2 (val10 V)
theorem args_notin11 : ∀ r ∈ argRefs, r ∉ stA2_W := by decide
theorem val11_arg (V : Valuation τ sig (Elt Ideal)) (r : Ref sig .tc) (hr : r ∈ argRefs) : val11 V (Proc.devRef .tc r) = V (Proc.devRef .tc r) :=
  (stA2_keep _ r (args_notin11 r hr)).trans (val10_arg V r hr)
theorem val11_v114 (V : Valuation τ sig (Elt Ideal)) : val11 V (no_index (Proc.devRef .tc main_v114)) = h2V V :=
  (stA2_keep _ main_v114 (by decide)).trans (val10_v114 V)
theorem val11_v127 (V : Valuation τ sig (Elt Ideal)) : val11 V (no_index (Proc.devRef .tc main_v127)) = tA2_v127 (F := Ideal) (hostRow1 (V (Proc.devRef .tc main_arg1))) (h2V V) (hostRow0 (V (Proc.devRef .tc main_arg1))) (dgV V) := by
  unfold val11
  rw [stA2_v127, val10_v3 V, val10_v114 V, val10_v1 V, val10_v11 V]

/-- The buffer contents after the first 12 stretches. -/
def val12 (V : Valuation τ sig (Elt Ideal)) : Valuation τ sig (Elt Ideal) := after stC2 (val11 V)
theorem args_notin12 : ∀ r ∈ argRefs, r ∉ stC2_W := by decide
theorem val12_arg (V : Valuation τ sig (Elt Ideal)) (r : Ref sig .tc) (hr : r ∈ argRefs) : val12 V (Proc.devRef .tc r) = V (Proc.devRef .tc r) :=
  (stC2_keep _ r (args_notin12 r hr)).trans (val11_arg V r hr)
theorem val12_v114 (V : Valuation τ sig (Elt Ideal)) : val12 V (no_index (Proc.devRef .tc main_v114)) = h2V V :=
  (stC2_keep _ main_v114 (by decide)).trans (val11_v114 V)
theorem val12_v139 (V : Valuation τ sig (Elt Ideal)) : val12 V (no_index (Proc.devRef .tc main_v139)) = y2V V := by
  unfold val12
  rw [stC2_v139, val11_v114 V, val11_arg V main_arg4 (by decide), val11_v127 V, val11_arg V main_arg5 (by decide), val11_arg V main_arg6 (by decide)]
  exact conv2_eq ..

/-- The buffer contents after the first 13 stretches. -/
def val13 (V : Valuation τ sig (Elt Ideal)) : Valuation τ sig (Elt Ideal) := after stN2a (val12 V)
theorem args_notin13 : ∀ r ∈ argRefs, r ∉ stN2a_W := by decide
theorem val13_arg (V : Valuation τ sig (Elt Ideal)) (r : Ref sig .tc) (hr : r ∈ argRefs) : val13 V (Proc.devRef .tc r) = V (Proc.devRef .tc r) :=
  (stN2a_keep _ r (args_notin13 r hr)).trans (val12_arg V r hr)
theorem val13_v114 (V : Valuation τ sig (Elt Ideal)) : val13 V (no_index (Proc.devRef .tc main_v114)) = h2V V :=
  (stN2a_keep _ main_v114 (by decide)).trans (val12_v114 V)
theorem val13_v143 (V : Valuation τ sig (Elt Ideal)) : val13 V (no_index (Proc.devRef .tc main_v143)) = tN2a_v143 (F := Ideal) (y2V V) := by
  unfold val13
  rw [stN2a_v143, val12_v139 V]
theorem val13_v146 (V : Valuation τ sig (Elt Ideal)) : val13 V (no_index (Proc.devRef .tc main_v146)) = tN2a_v146 (F := Ideal) (y2V V) := by
  unfold val13
  rw [stN2a_v146, val12_v139 V]
theorem val13_v147 (V : Valuation τ sig (Elt Ideal)) : val13 V (no_index (Proc.devRef .tc main_v147)) = tN2a_v147 (F := Ideal) := by
  unfold val13
  rw [stN2a_v147]

/-- The buffer contents after the first 14 stretches. -/
def val14 (V : Valuation τ sig (Elt Ideal)) : Valuation τ sig (Elt Ideal) := after stN2b1 (val13 V)
theorem args_notin14 : ∀ r ∈ argRefs, r ∉ stN2b1_W := by decide
theorem val14_arg (V : Valuation τ sig (Elt Ideal)) (r : Ref sig .tc) (hr : r ∈ argRefs) : val14 V (Proc.devRef .tc r) = V (Proc.devRef .tc r) :=
  (stN2b1_keep _ r (args_notin14 r hr)).trans (val13_arg V r hr)
theorem val14_v114 (V : Valuation τ sig (Elt Ideal)) : val14 V (no_index (Proc.devRef .tc main_v114)) = h2V V :=
  (stN2b1_keep _ main_v114 (by decide)).trans (val13_v114 V)
theorem val14_v152 (V : Valuation τ sig (Elt Ideal)) : val14 V (no_index (Proc.devRef .tc main_v152)) = tN2b1_v152 (F := Ideal) (tN2a_v146 (F := Ideal) (y2V V)) (tN2a_v143 (F := Ideal) (y2V V)) (tN2a_v147 (F := Ideal)) := by
  unfold val14
  rw [stN2b1_v152, val13_v146 V, val13_v143 V, val13_v147 V]
theorem val14_v154 (V : Valuation τ sig (Elt Ideal)) : val14 V (no_index (Proc.devRef .tc main_v154)) = tN2b1_v154 (F := Ideal) (V (Proc.devRef .tc main_arg7)) := by
  unfold val14
  rw [stN2b1_v154, val13_arg V main_arg7 (by decide)]

/-- The buffer contents after the first 15 stretches. -/
def val15 (V : Valuation τ sig (Elt Ideal)) : Valuation τ sig (Elt Ideal) := after stN2b2 (val14 V)
theorem args_notin15 : ∀ r ∈ argRefs, r ∉ stN2b2_W := by decide
theorem val15_arg (V : Valuation τ sig (Elt Ideal)) (r : Ref sig .tc) (hr : r ∈ argRefs) : val15 V (Proc.devRef .tc r) = V (Proc.devRef .tc r) :=
  (stN2b2_keep _ r (args_notin15 r hr)).trans (val14_arg V r hr)
theorem val15_v164 (V : Valuation τ sig (Elt Ideal)) : val15 V (no_index (Proc.devRef .tc main_v164)) = h3V V := by
  unfold val15
  rw [stN2b2_v164, val14_v152 V, val14_v154 V, val14_arg V main_arg8 (by decide), val14_v114 V]
  exact norm2_eq ..

/-- The buffer contents after the first 16 stretches. -/
def val16 (V : Valuation τ sig (Elt Ideal)) : Valuation τ sig (Elt Ideal) := after stH (val15 V)
theorem args_notin16 : ∀ r ∈ argRefs, r ∉ stH_W := by decide
theorem val16_arg (V : Valuation τ sig (Elt Ideal)) (r : Ref sig .tc) (hr : r ∈ argRefs) : val16 V (Proc.devRef .tc r) = V (Proc.devRef .tc r) :=
  (stH_keep _ r (args_notin16 r hr)).trans (val15_arg V r hr)
theorem val16_v173 (V : Valuation τ sig (Elt Ideal)) : val16 V (no_index (Proc.devRef .tc main_v173)) = outV V := by
  unfold val16
  rw [stH_v173, val15_v164 V, val15_arg V main_arg9 (by decide), val15_arg V main_arg10 (by decide), val15_arg V main_arg11 (by decide), val15_arg V main_arg12 (by decide)]
  exact head_eq ..

/-- The fold over the whole line is the contents after the last stretch. -/
theorem after_ops (V : Valuation τ sig (Elt Ideal)) : after (ops (F := Ideal)) V = val16 V := by
  simp only [ops, part0Ops, part1Ops, part2Ops, part3Ops, after_append]
  rfl

/-- After the whole line the result buffer holds the network applied to the argument arrays. -/
theorem after_ops_out (V : Valuation τ sig (Elt Ideal)) :
    after (ops (F := Ideal)) V (Proc.devRef .tc main_v173) = hostNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  exact (val16_v173 V).trans (outV_eq V)

/-- After the whole line every argument buffer holds what it held. -/
theorem after_ops_arg (V : Valuation τ sig (Elt Ideal)) (r : Ref sig .tc) (hr : r ∈ argRefs) :
    after (ops (F := Ideal)) V (Proc.devRef .tc r) = V (Proc.devRef .tc r) := by
  rw [after_ops]
  exact val16_arg V r hr

end Cert.ReferenceIdeal.RefRun

end
-- ==== Proof.RefRun.lean ====
/-
  The run of the reference program, read back.

  On every device, from any memory with zero counters, every weakly fair execution of the reference program's entry
  function terminates; the result buffer ends holding the network of the stage functions applied to the contents the
  thirteen argument buffers had at the launch, and each argument buffer ends holding what it held.
-/
import proofs.«103646_j72808285602083_2_alg».proof.Proof.RefRunChain

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.RefStages

/-- Every weakly fair execution terminates with the result at the network of the argument arrays and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v173) = hostNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c => ⟨(h c main_v173).trans (after_ops_out (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide)),
      (h c main_arg5).trans (after_ops_arg (launchContents m c) main_arg5 (by decide)),
      (h c main_arg6).trans (after_ops_arg (launchContents m c) main_arg6 (by decide)),
      (h c main_arg7).trans (after_ops_arg (launchContents m c) main_arg7 (by decide)),
      (h c main_arg8).trans (after_ops_arg (launchContents m c) main_arg8 (by decide)),
      (h c main_arg9).trans (after_ops_arg (launchContents m c) main_arg9 (by decide)),
      (h c main_arg10).trans (after_ops_arg (launchContents m c) main_arg10 (by decide)),
      (h c main_arg11).trans (after_ops_arg (launchContents m c) main_arg11 (by decide)),
      (h c main_arg12).trans (after_ops_arg (launchContents m c) main_arg12 (by decide))⟩)
    (run_after m ρ)

/-- Every weakly fair execution terminates with the argument arrays unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c => (h c).2) (run m ρ)

end Cert.ReferenceIdeal.RefRun

end
-- ==== Proof.lean ====
/-
  The certificate: a residual mean-aggregating graph network with batch normalisation, computed by eight pipelined
  regions over blocks of 4000 nodes, against its plain array-program reference.

  Both programs run to completion from any memory and leave their arguments unchanged (the kernel programs by the
  launch of their regions, the reference as a straight line of host operations).  On the extended reals the kernel
  program's result is the network with the neighbour sums taken over the edges sorted by destination and the
  variance `max (E[y²] − μ², 0)` from per-block totals; the reference's is the network over the edges as given with
  the two-pass variance `E[(y − μ)²]`.  A sum over arriving edges does not depend on the order of the edges, and the two
  variances agree on real entries; every entry is real because the inputs are finite, which is where the precondition
  enters.
-/
import proofs.«103646_j72808285602083_2_alg».proof.Defs
import proofs.«103646_j72808285602083_2_alg».proof.Proof.Gen.Kernel
import proofs.«103646_j72808285602083_2_alg».proof.Proof.Gen.Kernel.Frame
import proofs.«103646_j72808285602083_2_alg».proof.Proof.Gen.KernelIdeal
import proofs.«103646_j72808285602083_2_alg».proof.Proof.Gen.KernelIdeal.Frame
import proofs.«103646_j72808285602083_2_alg».proof.Proof.Gen.ReferenceIdeal
import proofs.«103646_j72808285602083_2_alg».proof.Proof.Gen.Pre_finite_inputs
import proofs.«103646_j72808285602083_2_alg».proof.Proof.KFinal
import proofs.«103646_j72808285602083_2_alg».proof.Proof.FinalBridge
import proofs.«103646_j72808285602083_2_alg».proof.Proof.RefRun
import Idealize.ShloMosaic.Adequacy
import Idealize.ShloMosaic.Init

noncomputable section

namespace Cert.Proof

open Idealize.ShloMosaic Idealize.SL.Sem

/-- The word-level kernel program terminates without a fault and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ => Cert.ReferenceIdeal.RefRun.frame m ρ

/-- The idealization rewrote no operation. -/
theorem preserves : Cert.preserves_Kernel_KernelIdeal := trivial

/-- From memories agreeing on the arguments both programs end at the same network of the arguments. -/
theorem algebraic : Cert.algebraic_KernelIdeal_ReferenceIdeal := by
  intro m ρ m' ρ' hpre hagree
  refine ⟨fun c => Cert.KernelIdeal.KDefs.out m ρ c, Cert.KernelIdeal.KFinal.run m ρ, ?_⟩
  refine (θ_run (Cert.ReferenceIdeal.defs (F := Ideal)) _ _).mono (fun r h c => ⟨(h c).1.trans ?_, (h c).2⟩)
    (Cert.ReferenceIdeal.RefRun.run m' ρ')
  obtain ⟨a0, a1, a2, a3, a4, a5, a6, a7, a8, a9, a10, a11, a12⟩ := hagree c
  rw [a0, a1, a2, a3, a4, a5, a6, a7, a8, a9, a10, a11, a12]
  exact (Cert.FinalBridge.out_eq_hostNet m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
